-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S32000x128 : Shape := ⟨2, ![32000, 128]⟩
abbrev S384x128 : Shape := ⟨2, ![384, 128]⟩
abbrev S384 : Shape := ⟨1, ![384]⟩
abbrev S384x256 : Shape := ⟨2, ![384, 256]⟩
abbrev S256x256 : Shape := ⟨2, ![256, 256]⟩
abbrev S256 : Shape := ⟨1, ![256]⟩
abbrev S5x128 : Shape := ⟨2, ![5, 128]⟩
abbrev S5 : Shape := ⟨1, ![5]⟩
abbrev S_ : Shape := ⟨0, ![]⟩

class Facts : Prop where
  bcast_S_S32000x128 : S_.BroadcastsInDim S32000x128 (![] : Fin 0 → Fin S32000x128.rank)
  reducesTo_S32000x128_S_d0_1 : S32000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S384x256 : S_.BroadcastsInDim S384x256 (![] : Fin 0 → Fin S384x256.rank)
  reducesTo_S384x256_S_d0_1 : S384x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S5x128 : S_.BroadcastsInDim S5x128 (![] : Fin 0 → Fin S5x128.rank)
  reducesTo_S5x128_S_d0_1 : S5x128.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S5x128 .f32) (main_arg9 : FVec F S5 .f32) (main_v33 : IVec S_ 1) : IVec S_ 1 :=
  let main_v34 : FVec F S5x128 .f32 := Host.absf main_arg8
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5 .f32 := Host.absf main_arg9
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg5 : FVec F S384 .f32) (main_arg6 : FVec F S256x256 .f32) (main_arg7 : FVec F S256 .f32) (main_arg8 : FVec F S5x128 .f32) (main_arg9 : FVec F S5 .f32) (main_v13 : IVec S_ 1) (main_v16 : IVec S384x256 1) : IVec S_ 1 :=
  let main_c_5 : IVec S_ 1 := constantI S_ 1 1#1
  let main_v17 : IVec S_ 1 := (fun x v => Host.reduce IntOp.andi x v reducesTo_S384x256_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : IVec S262144 32) (main_arg1 : FVec F S32000x128 .f32) (main_arg2 : FVec F S384x128 .f32) (main_arg3 : FVec F S384 .f32) (main_arg4 : FVec F S384x256 .f32) (main_arg5 : FVec F S384 .f32) (main_arg6 : FVec F S256x256 .f32) (main_arg7 : FVec F S256 .f32) (main_arg8 : FVec F S5x128 .f32) (main_arg9 : FVec F S5 .f32) : IVec S_ 1 :=
  let main_v0 : FVec F S32000x128 .f32 := Host.absf main_arg1
  let main_cst : FVec F S_ .f32 := constant S_ .f32 0x7F800000#32
  let main_v1 : FVec F S32000x128 .f32 := broadcastInDim S32000x128 ![] bcast_S_S32000x128 main_cst
  let main_v2 : IVec S32000x128 1 := cmpf .olt main_v0 main_v1
  let main_c : IVec S_ 1 := constantI S_ 1 1#1
  let main_v3 : IVec S_ 1 := (fun x v => Host.reduce IntOp.andi x v reducesTo_S32000x128_S_d0_1 h_S_) main_v2 main_c
  let main_v4 : FVec F S384x128 .f32 := Host.absf main_arg2
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x256 .f32 := Host.absf main_arg4
  let main_cst_4 : FVec F S_ .f32 := constant S_ .f32 0x7F800000#32
  let main_v15 : FVec F S384x256 .f32 := broadcastInDim S384x256 ![] bcast_S_S384x256 main_cst_4
  let main_v16 : IVec S384x256 1 := cmpf .olt main_v14 main_v15
  fn_part1 (F := F) main_arg5 main_arg6 main_arg7 main_arg8 main_arg9 main_v13 main_v16
-- ==== Kernel.lean ====
abbrev S262144 : Shape := ⟨1, ![262144]⟩
abbrev S32000x128 : Shape := ⟨2, ![32000, 128]⟩
abbrev S384x128 : Shape := ⟨2, ![384, 128]⟩
abbrev S384 : Shape := ⟨1, ![384]⟩
abbrev S384x256 : Shape := ⟨2, ![384, 256]⟩
abbrev S256x256 : Shape := ⟨2, ![256, 256]⟩
abbrev S256 : Shape := ⟨1, ![256]⟩
abbrev S5x128 : Shape := ⟨2, ![5, 128]⟩
abbrev S5 : Shape := ⟨1, ![5]⟩
abbrev S_ : Shape := ⟨0, ![]⟩
abbrev S262144x1 : Shape := ⟨2, ![262144, 1]⟩
abbrev S262144x128 : Shape := ⟨2, ![262144, 128]⟩
abbrev S128x384 : Shape := ⟨2, ![128, 384]⟩
abbrev S1x384 : Shape := ⟨2, ![1, 384]⟩
abbrev S256x384 : Shape := ⟨2, ![256, 384]⟩
abbrev S1x256 : Shape := ⟨2, ![1, 256]⟩
abbrev S128x5 : Shape := ⟨2, ![128, 5]⟩
abbrev S1x5 : Shape := ⟨2, ![1, 5]⟩
abbrev S262144x5 : Shape := ⟨2, ![262144, 5]⟩
abbrev S2048x128 : Shape := ⟨2, ![2048, 128]⟩
abbrev S2048x5 : Shape := ⟨2, ![2048, 5]⟩
abbrev S2048x384 : Shape := ⟨2, ![2048, 384]⟩
abbrev S131072x256 : Shape := ⟨2, ![131072, 256]⟩
abbrev S131072x128 : Shape := ⟨2, ![131072, 128]⟩
abbrev S131072x5 : Shape := ⟨2, ![131072, 5]⟩
abbrev S2048x256 : Shape := ⟨2, ![2048, 256]⟩
abbrev S65536x256 : Shape := ⟨2, ![65536, 256]⟩
abbrev S65536x128 : Shape := ⟨2, ![65536, 128]⟩
abbrev S65536x5 : Shape := ⟨2, ![65536, 5]⟩
abbrev S32768x256 : Shape := ⟨2, ![32768, 256]⟩
abbrev S32768x128 : Shape := ⟨2, ![32768, 128]⟩
abbrev S32768x5 : Shape := ⟨2, ![32768, 5]⟩
abbrev S16384x256 : Shape := ⟨2, ![16384, 256]⟩
abbrev S16384x128 : Shape := ⟨2, ![16384, 128]⟩
abbrev S16384x5 : Shape := ⟨2, ![16384, 5]⟩
abbrev S8192x256 : Shape := ⟨2, ![8192, 256]⟩
abbrev S8192x128 : Shape := ⟨2, ![8192, 128]⟩
abbrev S8192x5 : Shape := ⟨2, ![8192, 5]⟩
abbrev S4096x256 : Shape := ⟨2, ![4096, 256]⟩
abbrev S4096x128 : Shape := ⟨2, ![4096, 128]⟩
abbrev S4096x5 : Shape := ⟨2, ![4096, 5]⟩
abbrev S522240x5 : Shape := ⟨2, ![522240, 5]⟩

abbrev nBuf : Space → Nat
  | .hbm => 71
  | .vmem => 119
  | .smem => 0
  | _ => 0

abbrev bufTy : (tb : Table) → Fin (tcTables nBuf tb) → BufTy
  | .hbm, ⟨0, _⟩ => ⟨S262144, .i32⟩
  | .hbm, ⟨1, _⟩ => ⟨S32000x128, .f32⟩
  | .hbm, ⟨2, _⟩ => ⟨S384x128, .f32⟩
  | .hbm, ⟨3, _⟩ => ⟨S384, .f32⟩
  | .hbm, ⟨4, _⟩ => ⟨S384x256, .f32⟩
  | .hbm, ⟨5, _⟩ => ⟨S384, .f32⟩
  | .hbm, ⟨6, _⟩ => ⟨S256x256, .f32⟩
  | .hbm, ⟨7, _⟩ => ⟨S256, .f32⟩
  | .hbm, ⟨8, _⟩ => ⟨S5x128, .f32⟩
  | .hbm, ⟨9, _⟩ => ⟨S5, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x128, .f32⟩
  | .hbm, ⟨19, _⟩ => ⟨S262144x128, .bf16⟩
  | .hbm, ⟨20, _⟩ => ⟨S128x384, .f32⟩
  | .hbm, ⟨21, _⟩ => ⟨S128x384, .bf16⟩
  | .hbm, ⟨22, _⟩ => ⟨S1x384, .f32⟩
  | .hbm, ⟨23, _⟩ => ⟨S256x384, .f32⟩
  | .hbm, ⟨24, _⟩ => ⟨S256x384, .bf16⟩
  | .hbm, ⟨25, _⟩ => ⟨S1x384, .f32⟩
  | .hbm, ⟨26, _⟩ => ⟨S256x256, .f32⟩
  | .hbm, ⟨27, _⟩ => ⟨S256x256, .bf16⟩
  | .hbm, ⟨28, _⟩ => ⟨S1x256, .f32⟩
  | .hbm, ⟨29, _⟩ => ⟨S128x5, .f32⟩
  | .hbm, ⟨30, _⟩ => ⟨S128x5, .bf16⟩
  | .hbm, ⟨31, _⟩ => ⟨S1x5, .f32⟩
  | .hbm, ⟨32, _⟩ => ⟨S262144x128, .bf16⟩
  | .hbm, ⟨33, _⟩ => ⟨S262144x128, .f32⟩
  | .hbm, ⟨34, _⟩ => ⟨S262144x5, .f32⟩
  | .hbm, ⟨35, _⟩ => ⟨S131072x256, .bf16⟩
  | .hbm, ⟨36, _⟩ => ⟨S131072x256, .f32⟩
  | .hbm, ⟨37, _⟩ => ⟨S131072x128, .bf16⟩
  | .hbm, ⟨38, _⟩ => ⟨S131072x128, .f32⟩
  | .hbm, ⟨39, _⟩ => ⟨S131072x5, .f32⟩
  | .hbm, ⟨40, _⟩ => ⟨S65536x256, .bf16⟩
  | .hbm, ⟨41, _⟩ => ⟨S65536x256, .f32⟩
  | .hbm, ⟨42, _⟩ => ⟨S65536x128, .bf16⟩
  | .hbm, ⟨43, _⟩ => ⟨S65536x128, .f32⟩
  | .hbm, ⟨44, _⟩ => ⟨S65536x5, .f32⟩
  | .hbm, ⟨45, _⟩ => ⟨S32768x256, .bf16⟩
  | .hbm, ⟨46, _⟩ => ⟨S32768x256, .f32⟩
  | .hbm, ⟨47, _⟩ => ⟨S32768x128, .bf16⟩
  | .hbm, ⟨48, _⟩ => ⟨S32768x128, .f32⟩
  | .hbm, ⟨49, _⟩ => ⟨S32768x5, .f32⟩
  | .hbm, ⟨50, _⟩ => ⟨S16384x256, .bf16⟩
  | .hbm, ⟨51, _⟩ => ⟨S16384x256, .f32⟩
  | .hbm, ⟨52, _⟩ => ⟨S16384x128, .bf16⟩
  | .hbm, ⟨53, _⟩ => ⟨S16384x128, .f32⟩
  | .hbm, ⟨54, _⟩ => ⟨S16384x5, .f32⟩
  | .hbm, ⟨55, _⟩ => ⟨S8192x256, .bf16⟩
  | .hbm, ⟨56, _⟩ => ⟨S8192x256, .f32⟩
  | .hbm, ⟨57, _⟩ => ⟨S8192x128, .bf16⟩
  | .hbm, ⟨58, _⟩ => ⟨S8192x128, .f32⟩
  | .hbm, ⟨59, _⟩ => ⟨S8192x5, .f32⟩
  | .hbm, ⟨60, _⟩ => ⟨S4096x256, .bf16⟩
  | .hbm, ⟨61, _⟩ => ⟨S4096x256, .f32⟩
  | .hbm, ⟨62, _⟩ => ⟨S4096x128, .bf16⟩
  | .hbm, ⟨63, _⟩ => ⟨S4096x128, .f32⟩
  | .hbm, ⟨64, _⟩ => ⟨S4096x5, .f32⟩
  | .hbm, ⟨65, _⟩ => ⟨S2048x256, .bf16⟩
  | .hbm, ⟨66, _⟩ => ⟨S2048x256, .f32⟩
  | .hbm, ⟨67, _⟩ => ⟨S2048x128, .bf16⟩
  | .hbm, ⟨68, _⟩ => ⟨S2048x128, .f32⟩
  | .hbm, ⟨69, _⟩ => ⟨S2048x5, .f32⟩
  | .hbm, ⟨70, _⟩ => ⟨S522240x5, .f32⟩
  | .local _ .vmem, ⟨0, _⟩ => ⟨S2048x128, .bf16⟩
  | .local _ .vmem, ⟨1, _⟩ => ⟨S2048x128, .bf16⟩
  | .local _ .vmem, ⟨2, _⟩ => ⟨S128x384, .bf16⟩
  | .local _ .vmem, ⟨3, _⟩ => ⟨S1x384, .f32⟩
  | .local _ .vmem, ⟨4, _⟩ => ⟨S128x5, .bf16⟩
  | .local _ .vmem, ⟨5, _⟩ => ⟨S1x5, .f32⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x5, .f32⟩
  | .local _ .vmem, ⟨11, _⟩ => ⟨S2048x5, .f32⟩
  | .local _ .vmem, ⟨12, _⟩ => ⟨S2048x256, .bf16⟩
  | .local _ .vmem, ⟨13, _⟩ => ⟨S2048x256, .bf16⟩
  | .local _ .vmem, ⟨14, _⟩ => ⟨S2048x256, .f32⟩
  | .local _ .vmem, ⟨15, _⟩ => ⟨S2048x256, .f32⟩
  | .local _ .vmem, ⟨16, _⟩ => ⟨S256x256, .bf16⟩
  | .local _ .vmem, ⟨17, _⟩ => ⟨S1x256, .f32⟩
  | .local _ .vmem, ⟨18, _⟩ => ⟨S256x384, .bf16⟩
  | .local _ .vmem, ⟨19, _⟩ => ⟨S1x384, .f32⟩
  | .local _ .vmem, ⟨20, _⟩ => ⟨S128x5, .bf16⟩
  | .local _ .vmem, ⟨21, _⟩ => ⟨S1x5, .f32⟩
  | .local _ .vmem, ⟨22, _⟩ => ⟨S2048x128, .bf16⟩
  | .local _ .vmem, ⟨23, _⟩ => ⟨S2048x128, .bf16⟩
  | .local _ .vmem, ⟨24, _⟩ => ⟨S2048x128, .f32⟩
  | .local _ .vmem, ⟨25, _⟩ => ⟨S2048x128, .f32⟩
  | .local _ .vmem, ⟨26, _⟩ => ⟨S2048x5, .f32⟩
  | .local _ .vmem, ⟨27, _⟩ => ⟨S2048x5, .f32⟩
  | .local _ .vmem, ⟨28, _⟩ => ⟨S2048x256, .bf16⟩
  | .local _ .vmem, ⟨29, _⟩ => ⟨S2048x256, .bf16⟩
  | .local _ .vmem, ⟨30, _⟩ => ⟨S2048x256, .f32⟩
  | .local _ .vmem, ⟨31, _⟩ => ⟨S2048x256, .f32⟩
  | .local _ .vmem, ⟨32, _⟩ => ⟨S256x256, .bf16⟩
  | .local _ .vmem, ⟨33, _⟩ => ⟨S1x256, .f32⟩
  | .local _ .vmem, ⟨34, _⟩ => ⟨S256x384, .bf16⟩
  | .local _ .vmem, ⟨35, _⟩ => ⟨S1x384, .f32⟩
  | .local _ .vmem, ⟨36, _⟩ => ⟨S128x5, .bf16⟩
  | .local _ .vmem, ⟨37, _⟩ => ⟨S1x5, .f32⟩
  | .local _ .vmem, ⟨38, _⟩ => ⟨S2048x128, .bf16⟩
  | .local _ .vmem, ⟨39, _⟩ => ⟨S2048x128, .bf16⟩
  | .local _ .vmem, ⟨40, _⟩ => ⟨S2048x128, .f32⟩
  | .local _ .vmem, ⟨41, _⟩ => ⟨S2048x128, .f32⟩
  | .local _ .vmem, ⟨42, _⟩ => ⟨S2048x5, .f32⟩
  | .local _ .vmem, ⟨43, _⟩ => ⟨S2048x5, .f32⟩
  | .local _ .vmem, ⟨44, _⟩ => ⟨S2048x256, .bf16⟩
  | .local _ .vmem, ⟨45, _⟩ => ⟨S2048x256, .bf16⟩
  | .local _ .vmem, ⟨46, _⟩ => ⟨S2048x256, .f32⟩
  | .local _ .vmem, ⟨47, _⟩ => ⟨S2048x256, .f32⟩
  | .local _ .vmem, ⟨48, _⟩ => ⟨S256x256, .bf16⟩
  | .local _ .vmem, ⟨49, _⟩ => ⟨S1x256, .f32⟩
  | .local _ .vmem, ⟨50, _⟩ => ⟨S256x384, .bf16⟩
  | .local _ .vmem, ⟨51, _⟩ => ⟨S1x384, .f32⟩
  | .local _ .vmem, ⟨52, _⟩ => ⟨S128x5, .bf16⟩
  | .local _ .vmem, ⟨53, _⟩ => ⟨S1x5, .f32⟩
  | .local _ .vmem, ⟨54, _⟩ => ⟨S2048x128, .bf16⟩
  | .local _ .vmem, ⟨55, _⟩ => ⟨S2048x128, .bf16⟩
  | .local _ .vmem, ⟨56, _⟩ => ⟨S2048x128, .f32⟩
  | .local _ .vmem, ⟨57, _⟩ => ⟨S2048x128, .f32⟩
  | .local _ .vmem, ⟨58, _⟩ => ⟨S2048x5, .f32⟩
  | .local _ .vmem, ⟨59, _⟩ => ⟨S2048x5, .f32⟩
  | .local _ .vmem, ⟨60, _⟩ => ⟨S2048x256, .bf16⟩
  | .local _ .vmem, ⟨61, _⟩ => ⟨S2048x256, .bf16⟩
  | .local _ .vmem, ⟨62, _⟩ => ⟨S2048x256, .f32⟩
  | .local _ .vmem, ⟨63, _⟩ => ⟨S2048x256, .f32⟩
  | .local _ .vmem, ⟨64, _⟩ => ⟨S256x256, .bf16⟩
  | .local _ .vmem, ⟨65, _⟩ => ⟨S1x256, .f32⟩
  | .local _ .vmem, ⟨66, _⟩ => ⟨S256x384, .bf16⟩
  | .local _ .vmem, ⟨67, _⟩ => ⟨S1x384, .f32⟩
  | .local _ .vmem, ⟨68, _⟩ => ⟨S128x5, .bf16⟩
  | .local _ .vmem, ⟨69, _⟩ => ⟨S1x5, .f32⟩
  | .local _ .vmem, ⟨70, _⟩ => ⟨S2048x128, .bf16⟩
  | .local _ .vmem, ⟨71, _⟩ => ⟨S2048x128, .bf16⟩
  | .local _ .vmem, ⟨72, _⟩ => ⟨S2048x128, .f32⟩
  | .local _ .vmem, ⟨73, _⟩ => ⟨S2048x128, .f32⟩
  | .local _ .vmem, ⟨74, _⟩ => ⟨S2048x5, .f32⟩
  | .local _ .vmem, ⟨75, _⟩ => ⟨S2048x5, .f32⟩
  | .local _ .vmem, ⟨76, _⟩ => ⟨S2048x256, .bf16⟩
  | .local _ .vmem, ⟨77, _⟩ => ⟨S2048x256, .bf16⟩
  | .local _ .vmem, ⟨78, _⟩ => ⟨S2048x256, .f32⟩
  | .local _ .vmem, ⟨79, _⟩ => ⟨S2048x256, .f32⟩
  | .local _ .vmem, ⟨80, _⟩ => ⟨S256x256, .bf16⟩
  | .local _ .vmem, ⟨81, _⟩ => ⟨S1x256, .f32⟩
  | .local _ .vmem, ⟨82, _⟩ => ⟨S256x384, .bf16⟩
  | .local _ .vmem, ⟨83, _⟩ => ⟨S1x384, .f32⟩
  | .local _ .vmem, ⟨84, _⟩ => ⟨S128x5, .bf16⟩
  | .local _ .vmem, ⟨85, _⟩ => ⟨S1x5, .f32⟩
  | .local _ .vmem, ⟨86, _⟩ => ⟨S2048x128, .bf16⟩
  | .local _ .vmem, ⟨87, _⟩ => ⟨S2048x128, .bf16⟩
  | .local _ .vmem, ⟨88, _⟩ => ⟨S2048x128, .f32⟩
  | .local _ .vmem, ⟨89, _⟩ => ⟨S2048x128, .f32⟩
  | .local _ .vmem, ⟨90, _⟩ => ⟨S2048x5, .f32⟩
  | .local _ .vmem, ⟨91, _⟩ => ⟨S2048x5, .f32⟩
  | .local _ .vmem, ⟨92, _⟩ => ⟨S2048x256, .bf16⟩
  | .local _ .vmem, ⟨93, _⟩ => ⟨S2048x256, .bf16⟩
  | .local _ .vmem, ⟨94, _⟩ => ⟨S2048x256, .f32⟩
  | .local _ .vmem, ⟨95, _⟩ => ⟨S2048x256, .f32⟩
  | .local _ .vmem, ⟨96, _⟩ => ⟨S256x256, .bf16⟩
  | .local _ .vmem, ⟨97, _⟩ => ⟨S1x256, .f32⟩
  | .local _ .vmem, ⟨98, _⟩ => ⟨S256x384, .bf16⟩
  | .local _ .vmem, ⟨99, _⟩ => ⟨S1x384, .f32⟩
  | .local _ .vmem, ⟨100, _⟩ => ⟨S128x5, .bf16⟩
  | .local _ .vmem, ⟨101, _⟩ => ⟨S1x5, .f32⟩
  | .local _ .vmem, ⟨102, _⟩ => ⟨S2048x128, .bf16⟩
  | .local _ .vmem, ⟨103, _⟩ => ⟨S2048x128, .bf16⟩
  | .local _ .vmem, ⟨104, _⟩ => ⟨S2048x128, .f32⟩
  | .local _ .vmem, ⟨105, _⟩ => ⟨S2048x128, .f32⟩
  | .local _ .vmem, ⟨106, _⟩ => ⟨S2048x5, .f32⟩
  | .local _ .vmem, ⟨107, _⟩ => ⟨S2048x5, .f32⟩
  | .local _ .vmem, ⟨108, _⟩ => ⟨S2048x256, .bf16⟩
  | .local _ .vmem, ⟨109, _⟩ => ⟨S2048x256, .f32⟩
  | .local _ .vmem, ⟨110, _⟩ => ⟨S256x256, .bf16⟩
  | .local _ .vmem, ⟨111, _⟩ => ⟨S1x256, .f32⟩
  | .local _ .vmem, ⟨112, _⟩ => ⟨S256x384, .bf16⟩
  | .local _ .vmem, ⟨113, _⟩ => ⟨S1x384, .f32⟩
  | .local _ .vmem, ⟨114, _⟩ => ⟨S128x5, .bf16⟩
  | .local _ .vmem, ⟨115, _⟩ => ⟨S1x5, .f32⟩
  | .local _ .vmem, ⟨116, _⟩ => ⟨S2048x128, .bf16⟩
  | .local _ .vmem, ⟨117, _⟩ => ⟨S2048x128, .f32⟩
  | .local _ .vmem, ⟨118, _⟩ => ⟨S2048x5, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | _, _ => false

abbrev semScoped : Fin 0 → Bool
  | ⟨_, h⟩ => absurd h (Nat.not_lt_zero _)

abbrev dmaSemScoped : Fin 119 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | _ => false

abbrev sig : RefSig :=
  ofTc nBuf bufTy 0 119 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_v32_2 : Ref sig .tc := ⟨.hbm, 54, rfl⟩
abbrev main_v33 : Ref sig .tc := ⟨.hbm, 55, rfl⟩
abbrev main_v34 : Ref sig .tc := ⟨.hbm, 56, rfl⟩
abbrev main_v35_0 : Ref sig .tc := ⟨.hbm, 57, rfl⟩
abbrev main_v35_1 : Ref sig .tc := ⟨.hbm, 58, rfl⟩
abbrev main_v35_2 : Ref sig .tc := ⟨.hbm, 59, rfl⟩
abbrev main_v36 : Ref sig .tc := ⟨.hbm, 60, rfl⟩
abbrev main_v37 : Ref sig .tc := ⟨.hbm, 61, rfl⟩
abbrev main_v38_0 : Ref sig .tc := ⟨.hbm, 62, rfl⟩
abbrev main_v38_1 : Ref sig .tc := ⟨.hbm, 63, rfl⟩
abbrev main_v38_2 : Ref sig .tc := ⟨.hbm, 64, rfl⟩
abbrev main_v39 : Ref sig .tc := ⟨.hbm, 65, rfl⟩
abbrev main_v40 : Ref sig .tc := ⟨.hbm, 66, rfl⟩
abbrev main_v41_0 : Ref sig .tc := ⟨.hbm, 67, rfl⟩
abbrev main_v41_1 : Ref sig .tc := ⟨.hbm, 68, rfl⟩
abbrev main_v41_2 : Ref sig .tc := ⟨.hbm, 69, rfl⟩
abbrev main_v42 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc2_stg10_0 : Ref sig .tc := ⟨.vmem, 42, rfl⟩
abbrev cc2_stg10_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg8_0 : Ref sig .tc := ⟨.vmem, 54, rfl⟩
abbrev cc3_stg8_1 : Ref sig .tc := ⟨.vmem, 55, rfl⟩
abbrev cc3_stg9_0 : Ref sig .tc := ⟨.vmem, 56, rfl⟩
abbrev cc3_stg9_1 : Ref sig .tc := ⟨.vmem, 57, rfl⟩
abbrev cc3_stg10_0 : Ref sig .tc := ⟨.vmem, 58, rfl⟩
abbrev cc3_stg10_1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg3_0 : Ref sig .tc := ⟨.vmem, 65, rfl⟩
abbrev cc4_stg4_0 : Ref sig .tc := ⟨.vmem, 66, rfl⟩
abbrev cc4_stg5_0 : Ref sig .tc := ⟨.vmem, 67, rfl⟩
abbrev cc4_stg6_0 : Ref sig .tc := ⟨.vmem, 68, rfl⟩
abbrev cc4_stg7_0 : Ref sig .tc := ⟨.vmem, 69, rfl⟩
abbrev cc4_stg8_0 : Ref sig .tc := ⟨.vmem, 70, rfl⟩
abbrev cc4_stg8_1 : Ref sig .tc := ⟨.vmem, 71, rfl⟩
abbrev cc4_stg9_0 : Ref sig .tc := ⟨.vmem, 72, rfl⟩
abbrev cc4_stg9_1 : Ref sig .tc := ⟨.vmem, 73, rfl⟩
abbrev cc4_stg10_0 : Ref sig .tc := ⟨.vmem, 74, rfl⟩
abbrev cc4_stg10_1 : Ref sig .tc := ⟨.vmem, 75, rfl⟩
abbrev cc5_stg0_0 : Ref sig .tc := ⟨.vmem, 76, rfl⟩
abbrev cc5_stg0_1 : Ref sig .tc := ⟨.vmem, 77, rfl⟩
abbrev cc5_stg1_0 : Ref sig .tc := ⟨.vmem, 78, rfl⟩
abbrev cc5_stg1_1 : Ref sig .tc := ⟨.vmem, 79, rfl⟩
abbrev cc5_stg2_0 : Ref sig .tc := ⟨.vmem, 80, rfl⟩
abbrev cc5_stg3_0 : Ref sig .tc := ⟨.vmem, 81, rfl⟩
abbrev cc5_stg4_0 : Ref sig .tc := ⟨.vmem, 82, rfl⟩
abbrev cc5_stg5_0 : Ref sig .tc := ⟨.vmem, 83, rfl⟩
abbrev cc5_stg6_0 : Ref sig .tc := ⟨.vmem, 84, rfl⟩
abbrev cc5_stg7_0 : Ref sig .tc := ⟨.vmem, 85, rfl⟩
abbrev cc5_stg8_0 : Ref sig .tc := ⟨.vmem, 86, rfl⟩
abbrev cc5_stg8_1 : Ref sig .tc := ⟨.vmem, 87, rfl⟩
abbrev cc5_stg9_0 : Ref sig .tc := ⟨.vmem, 88, rfl⟩
abbrev cc5_stg9_1 : Ref sig .tc := ⟨.vmem, 89, rfl⟩
abbrev cc5_stg10_0 : Ref sig .tc := ⟨.vmem, 90, rfl⟩
abbrev cc5_stg10_1 : Ref sig .tc := ⟨.vmem, 91, rfl⟩
abbrev cc6_stg0_0 : Ref sig .tc := ⟨.vmem, 92, rfl⟩
abbrev cc6_stg0_1 : Ref sig .tc := ⟨.vmem, 93, rfl⟩
abbrev cc6_stg1_0 : Ref sig .tc := ⟨.vmem, 94, rfl⟩
abbrev cc6_stg1_1 : Ref sig .tc := ⟨.vmem, 95, rfl⟩
abbrev cc6_stg2_0 : Ref sig .tc := ⟨.vmem, 96, rfl⟩
abbrev cc6_stg3_0 : Ref sig .tc := ⟨.vmem, 97, rfl⟩
abbrev cc6_stg4_0 : Ref sig .tc := ⟨.vmem, 98, rfl⟩
abbrev cc6_stg5_0 : Ref sig .tc := ⟨.vmem, 99, rfl⟩
abbrev cc6_stg6_0 : Ref sig .tc := ⟨.vmem, 100, rfl⟩
abbrev cc6_stg7_0 : Ref sig .tc := ⟨.vmem, 101, rfl⟩
abbrev cc6_stg8_0 : Ref sig .tc := ⟨.vmem, 102, rfl⟩
abbrev cc6_stg8_1 : Ref sig .tc := ⟨.vmem, 103, rfl⟩
abbrev cc6_stg9_0 : Ref sig .tc := ⟨.vmem, 104, rfl⟩
abbrev cc6_stg9_1 : Ref sig .tc := ⟨.vmem, 105, rfl⟩
abbrev cc6_stg10_0 : Ref sig .tc := ⟨.vmem, 106, rfl⟩
abbrev cc6_stg10_1 : Ref sig .tc := ⟨.vmem, 107, rfl⟩
abbrev cc7_stg0_0 : Ref sig .tc := ⟨.vmem, 108, rfl⟩
abbrev cc7_stg1_0 : Ref sig .tc := ⟨.vmem, 109, rfl⟩
abbrev cc7_stg2_0 : Ref sig .tc := ⟨.vmem, 110, rfl⟩
abbrev cc7_stg3_0 : Ref sig .tc := ⟨.vmem, 111, rfl⟩
abbrev cc7_stg4_0 : Ref sig .tc := ⟨.vmem, 112, rfl⟩
abbrev cc7_stg5_0 : Ref sig .tc := ⟨.vmem, 113, rfl⟩
abbrev cc7_stg6_0 : Ref sig .tc := ⟨.vmem, 114, rfl⟩
abbrev cc7_stg7_0 : Ref sig .tc := ⟨.vmem, 115, rfl⟩
abbrev cc7_stg8_0 : Ref sig .tc := ⟨.vmem, 116, rfl⟩
abbrev cc7_stg9_0 : Ref sig .tc := ⟨.vmem, 117, rfl⟩
abbrev cc7_stg10_0 : Ref sig .tc := ⟨.vmem, 118, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem8_1 : DmaSem sig := 39
abbrev cc2_sem9_0 : DmaSem sig := 40
abbrev cc2_sem9_1 : DmaSem sig := 41
abbrev cc2_sem10_0 : DmaSem sig := 42
abbrev cc2_sem10_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem6_0 : DmaSem sig := 52
abbrev cc3_sem7_0 : DmaSem sig := 53
abbrev cc3_sem8_0 : DmaSem sig := 54
abbrev cc3_sem8_1 : DmaSem sig := 55
abbrev cc3_sem9_0 : DmaSem sig := 56
abbrev cc3_sem9_1 : DmaSem sig := 57
abbrev cc3_sem10_0 : DmaSem sig := 58
abbrev cc3_sem10_1 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem3_0 : DmaSem sig := 65
abbrev cc4_sem4_0 : DmaSem sig := 66
abbrev cc4_sem5_0 : DmaSem sig := 67
abbrev cc4_sem6_0 : DmaSem sig := 68
abbrev cc4_sem7_0 : DmaSem sig := 69
abbrev cc4_sem8_0 : DmaSem sig := 70
abbrev cc4_sem8_1 : DmaSem sig := 71
abbrev cc4_sem9_0 : DmaSem sig := 72
abbrev cc4_sem9_1 : DmaSem sig := 73
abbrev cc4_sem10_0 : DmaSem sig := 74
abbrev cc4_sem10_1 : DmaSem sig := 75
abbrev cc5_sem0_0 : DmaSem sig := 76
abbrev cc5_sem0_1 : DmaSem sig := 77
abbrev cc5_sem1_0 : DmaSem sig := 78
abbrev cc5_sem1_1 : DmaSem sig := 79
abbrev cc5_sem2_0 : DmaSem sig := 80
abbrev cc5_sem3_0 : DmaSem sig := 81
abbrev cc5_sem4_0 : DmaSem sig := 82
abbrev cc5_sem5_0 : DmaSem sig := 83
abbrev cc5_sem6_0 : DmaSem sig := 84
abbrev cc5_sem7_0 : DmaSem sig := 85
abbrev cc5_sem8_0 : DmaSem sig := 86
abbrev cc5_sem8_1 : DmaSem sig := 87
abbrev cc5_sem9_0 : DmaSem sig := 88
abbrev cc5_sem9_1 : DmaSem sig := 89
abbrev cc5_sem10_0 : DmaSem sig := 90
abbrev cc5_sem10_1 : DmaSem sig := 91
abbrev cc6_sem0_0 : DmaSem sig := 92
abbrev cc6_sem0_1 : DmaSem sig := 93
abbrev cc6_sem1_0 : DmaSem sig := 94
abbrev cc6_sem1_1 : DmaSem sig := 95
abbrev cc6_sem2_0 : DmaSem sig := 96
abbrev cc6_sem3_0 : DmaSem sig := 97
abbrev cc6_sem4_0 : DmaSem sig := 98
abbrev cc6_sem5_0 : DmaSem sig := 99
abbrev cc6_sem6_0 : DmaSem sig := 100
abbrev cc6_sem7_0 : DmaSem sig := 101
abbrev cc6_sem8_0 : DmaSem sig := 102
abbrev cc6_sem8_1 : DmaSem sig := 103
abbrev cc6_sem9_0 : DmaSem sig := 104
abbrev cc6_sem9_1 : DmaSem sig := 105
abbrev cc6_sem10_0 : DmaSem sig := 106
abbrev cc6_sem10_1 : DmaSem sig := 107
abbrev cc7_sem0_0 : DmaSem sig := 108
abbrev cc7_sem1_0 : DmaSem sig := 109
abbrev cc7_sem2_0 : DmaSem sig := 110
abbrev cc7_sem3_0 : DmaSem sig := 111
abbrev cc7_sem4_0 : DmaSem sig := 112
abbrev cc7_sem5_0 : DmaSem sig := 113
abbrev cc7_sem6_0 : DmaSem sig := 114
abbrev cc7_sem7_0 : DmaSem sig := 115
abbrev cc7_sem8_0 : DmaSem sig := 116
abbrev cc7_sem9_0 : DmaSem sig := 117
abbrev cc7_sem10_0 : DmaSem sig := 118

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x5 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x5 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x5 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x5 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x384 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x5 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x5 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2048x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2048x5 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x384 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x5 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x5 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2048x128 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2048x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2048x5 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x384 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x5 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x5 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2048x128 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S2048x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S2048x5 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x384 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x5 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x5 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2048x128 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S2048x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S2048x5 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x384 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x5 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x5 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S2048x128 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S2048x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S2048x5 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S2048x256 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S2048x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S256x256 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x384 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x384 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x5 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x5 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S2048x128 .bf16 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![true]

abbrev stage7_9 : Fin 1 → Memref sig .tc .vmem S2048x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![true]

abbrev stage7_10 : Fin 1 → Memref sig .tc .vmem S2048x5 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bitsLt_bf16_f32 : FTy.bits .bf16 < FTy.bits .f32
  transposes_S384x128_S128x384_1_0 : S384x128.Transposes [1, 0] S128x384
  shapeCasts_S384_S1x384 : S384.ShapeCasts S1x384
  transposes_S384x256_S256x384_1_0 : S384x256.Transposes [1, 0] S256x384
  transposes_S256x256_S256x256_1_0 : S256x256.Transposes [1, 0] S256x256
  shapeCasts_S256_S1x256 : S256.ShapeCasts S1x256
  transposes_S5x128_S128x5_1_0 : S5x128.Transposes [1, 0] S128x5
  shapeCasts_S5_S1x5 : S5.ShapeCasts S1x5
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  packedbf16_S2048x128_S2048x128_0_0 : (Rect.unit (s := S2048x128) ![0, 0] S2048x128.size inb_S2048x128_S2048x128_0_0).PackedRows (EltTy.packing .bf16)
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2048x5 : S1x5.Broadcasts S2048x5
  inb_S2048x5_S2048x5_0_0 : ∀ a, (![0, 0] : Fin 2 → Nat) a + S2048x5.size a ≤ S2048x5.size a
  h_S2048x5 : 0 < S2048x5.numel
  shapeCasts_S262144x128_S131072x256 : S262144x128.ShapeCasts S131072x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x256_o0_0_S2048x128 : S2048x256.Slices ![0, 0] S2048x128
  slices_S2048x256_o0_128_S2048x128 : S2048x256.Slices ![0, 128] S2048x128
  inb_S256x384_S256x384_0_0 : ∀ a, (![0, 0] : Fin 2 → Nat) a + S256x384.size a ≤ S256x384.size a
  h_S256x384 : 0 < S256x384.numel
  shapeCasts_S256x384_S256x384 : S256x384.ShapeCasts S256x384
  shapeCasts_S131072x128_S65536x256 : S131072x128.ShapeCasts S65536x256
  shapeCasts_S65536x128_S32768x256 : S65536x128.ShapeCasts S32768x256
  shapeCasts_S32768x128_S16384x256 : S32768x128.ShapeCasts S16384x256
  shapeCasts_S16384x128_S8192x256 : S16384x128.ShapeCasts S8192x256
  shapeCasts_S8192x128_S4096x256 : S8192x128.ShapeCasts S4096x256
  shapeCasts_S4096x128_S2048x256 : S4096x128.ShapeCasts S2048x256
  concatenates_S262144x5_S131072x5_S65536x5_S32768x5_S16384x5_S8192x5_S4096x5_S2048x5_S522240x5_d0 : Shape.Concatenates [S262144x5, S131072x5, S65536x5, S32768x5, S16384x5, S8192x5, S4096x5, S2048x5] S522240x5 0
  gather_S32000x128_S262144x1_S262144x128_1_0_n_n_0_1_1128_wf : GatherDims.WF S32000x128 S262144x1 S262144x128 [1] [0] [] [0] [] 1 ![1, 128]
  dot_S2048x128_S128x384_S2048x384_1_0_0_1_n_n_wf : DotDims.WF S2048x128 S128x384 S2048x384 [1] [0] [0] [1] [] []
  dot_S2048x128_S128x5_S2048x5_1_0_0_1_n_n_wf : DotDims.WF S2048x128 S128x5 S2048x5 [1] [0] [0] [1] [] []
  dot_S2048x256_S256x256_S2048x256_1_0_0_1_n_n_wf : DotDims.WF S2048x256 S256x256 S2048x256 [1] [0] [0] [1] [] []
  dot_S2048x256_S256x384_S2048x384_1_0_0_1_n_n_wf : DotDims.WF S2048x256 S256x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .bf16 = 32 ∨ (Rect.block (s := S262144x128) S2048x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x5.size a ≤ S128x5.size a
  hwx0_3 : ∀ i : grid0.Coords, EltTy.bits .bf16 = 32 ∨ (Rect.block (s := S128x5) S128x5.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S262144x128.size a
  hwx0_5 : ∀ i : grid0.Coords, EltTy.bits .bf16 = 32 ∨ (Rect.block (s := S262144x128) S2048x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S262144x128.size a
  hwx0_6 : ∀ i : grid0.Coords, EltTy.bits .f32 = 32 ∨ (Rect.block (s := S262144x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x5.size a ≤ S262144x5.size a
  hwx0_7 : ∀ i : grid0.Coords, EltTy.bits .f32 = 32 ∨ (Rect.block (s := S262144x5) S2048x5.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S131072x256.size a
  hwx1_0 : ∀ i : grid1.Coords, EltTy.bits .bf16 = 32 ∨ (Rect.block (s := S131072x256) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S131072x256.size a
  hwx1_1 : ∀ i : grid1.Coords, EltTy.bits .f32 = 32 ∨ (Rect.block (s := S131072x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x384.size a ≤ S256x384.size a
  hwx1_4 : ∀ i : grid1.Coords, EltTy.bits .bf16 = 32 ∨ (Rect.block (s := S256x384) S256x384.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x5.size a ≤ S128x5.size a
  hwx1_6 : ∀ i : grid1.Coords, EltTy.bits .bf16 = 32 ∨ (Rect.block (s := S128x5) S128x5.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x5.size a ≤ S1x5.size a
  hwx1_7 : ∀ i : grid1.Coords, EltTy.bits .f32 = 32 ∨ (Rect.block (s := S1x5) S1x5.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x128.size a ≤ S131072x128.size a
  hwx1_8 : ∀ i : grid1.Coords, EltTy.bits .bf16 = 32 ∨ (Rect.block (s := S131072x128) S2048x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x128.size a ≤ S131072x128.size a
  hwx1_9 : ∀ i : grid1.Coords, EltTy.bits .f32 = 32 ∨ (Rect.block (s := S131072x128) S2048x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2048x5.size a ≤ S131072x5.size a
  hwx1_10 : ∀ i : grid1.Coords, EltTy.bits .f32 = 32 ∨ (Rect.block (s := S131072x5) S2048x5.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .bf16 = 32 ∨ (Rect.block (s := S65536x256) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S65536x256.size a
  hwx2_1 : ∀ i : grid2.Coords, EltTy.bits .f32 = 32 ∨ (Rect.block (s := S65536x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x384.size a ≤ S256x384.size a
  hwx2_4 : ∀ i : grid2.Coords, EltTy.bits .bf16 = 32 ∨ (Rect.block (s := S256x384) S256x384.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x5.size a ≤ S128x5.size a
  hwx2_6 : ∀ i : grid2.Coords, EltTy.bits .bf16 = 32 ∨ (Rect.block (s := S128x5) S128x5.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x5.size a ≤ S1x5.size a
  hwx2_7 : ∀ i : grid2.Coords, EltTy.bits .f32 = 32 ∨ (Rect.block (s := S1x5) S1x5.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x128.size a ≤ S65536x128.size a
  hwx2_8 : ∀ i : grid2.Coords, EltTy.bits .bf16 = 32 ∨ (Rect.block (s := S65536x128) S2048x128.size (cc2_transform_8 i) (hinb2_8 i)).WholeWords (EltTy.packing .bf16)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x128.size a ≤ S65536x128.size a
  hwx2_9 : ∀ i : grid2.Coords, EltTy.bits .f32 = 32 ∨ (Rect.block (s := S65536x128) S2048x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x5.size a ≤ S65536x5.size a
  hwx2_10 : ∀ i : grid2.Coords, EltTy.bits .f32 = 32 ∨ (Rect.block (s := S65536x5) S2048x5.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S32768x256.size a
  hwx3_0 : ∀ i : grid3.Coords, EltTy.bits .bf16 = 32 ∨ (Rect.block (s := S32768x256) S2048x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S32768x256.size a
  hwx3_1 : ∀ i : grid3.Coords, EltTy.bits .f32 = 32 ∨ (Rect.block (s := S32768x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x384.size a ≤ S256x384.size a
  hwx3_4 : ∀ i : grid3.Coords, EltTy.bits .bf16 = 32 ∨ (Rect.block (s := S256x384) S256x384.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x5.size a ≤ S128x5.size a
  hwx3_6 : ∀ i : grid3.Coords, EltTy.bits .bf16 = 32 ∨ (Rect.block (s := S128x5) S128x5.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x5.size a ≤ S1x5.size a
  hwx3_7 : ∀ i : grid3.Coords, EltTy.bits .f32 = 32 ∨ (Rect.block (s := S1x5) S1x5.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2048x128.size a ≤ S32768x128.size a
  hwx3_8 : ∀ i : grid3.Coords, EltTy.bits .bf16 = 32 ∨ (Rect.block (s := S32768x128) S2048x128.size (cc3_transform_8 i) (hinb3_8 i)).WholeWords (EltTy.packing .bf16)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2048x128.size a ≤ S32768x128.size a
  hwx3_9 : ∀ i : grid3.Coords, EltTy.bits .f32 = 32 ∨ (Rect.block (s := S32768x128) S2048x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2048x5.size a ≤ S32768x5.size a
  hwx3_10 : ∀ i : grid3.Coords, EltTy.bits .f32 = 32 ∨ (Rect.block (s := S32768x5) S2048x5.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S16384x256.size a
  hwx4_0 : ∀ i : grid4.Coords, EltTy.bits .bf16 = 32 ∨ (Rect.block (s := S16384x256) S2048x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S16384x256.size a
  hwx4_1 : ∀ i : grid4.Coords, EltTy.bits .f32 = 32 ∨ (Rect.block (s := S16384x256) S2048x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .bf16 = 32 ∨ (Rect.block (s := S256x256) S256x256.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x384.size a ≤ S256x384.size a
  hwx4_4 : ∀ i : grid4.Coords, EltTy.bits .bf16 = 32 ∨ (Rect.block (s := S256x384) S256x384.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x5.size a ≤ S128x5.size a
  hwx4_6 : ∀ i : grid4.Coords, EltTy.bits .bf16 = 32 ∨ (Rect.block (s := S128x5) S128x5.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x5.size a ≤ S1x5.size a
  hwx4_7 : ∀ i : grid4.Coords, EltTy.bits .f32 = 32 ∨ (Rect.block (s := S1x5) S1x5.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2048x128.size a ≤ S16384x128.size a
  hwx4_8 : ∀ i : grid4.Coords, EltTy.bits .bf16 = 32 ∨ (Rect.block (s := S16384x128) S2048x128.size (cc4_transform_8 i) (hinb4_8 i)).WholeWords (EltTy.packing .bf16)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2048x128.size a ≤ S16384x128.size a
  hwx4_9 : ∀ i : grid4.Coords, EltTy.bits .f32 = 32 ∨ (Rect.block (s := S16384x128) S2048x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2048x5.size a ≤ S16384x5.size a
  hwx4_10 : ∀ i : grid4.Coords, EltTy.bits .f32 = 32 ∨ (Rect.block (s := S16384x5) S2048x5.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S8192x256.size a
  hwx5_0 : ∀ i : grid5.Coords, EltTy.bits .bf16 = 32 ∨ (Rect.block (s := S8192x256) S2048x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S8192x256.size a
  hwx5_1 : ∀ i : grid5.Coords, EltTy.bits .f32 = 32 ∨ (Rect.block (s := S8192x256) S2048x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .bf16 = 32 ∨ (Rect.block (s := S256x256) S256x256.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x384.size a ≤ S256x384.size a
  hwx5_4 : ∀ i : grid5.Coords, EltTy.bits .bf16 = 32 ∨ (Rect.block (s := S256x384) S256x384.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x384.size a ≤ S1x384.size a
  hwx5_5 : ∀ i : grid5.Coords, EltTy.bits .f32 = 32 ∨ (Rect.block (s := S1x384) S1x384.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x5.size a ≤ S128x5.size a
  hwx5_6 : ∀ i : grid5.Coords, EltTy.bits .bf16 = 32 ∨ (Rect.block (s := S128x5) S128x5.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x5.size a ≤ S1x5.size a
  hwx5_7 : ∀ i : grid5.Coords, EltTy.bits .f32 = 32 ∨ (Rect.block (s := S1x5) S1x5.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2048x128.size a ≤ S8192x128.size a
  hwx5_8 : ∀ i : grid5.Coords, EltTy.bits .bf16 = 32 ∨ (Rect.block (s := S8192x128) S2048x128.size (cc5_transform_8 i) (hinb5_8 i)).WholeWords (EltTy.packing .bf16)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2048x128.size a ≤ S8192x128.size a
  hwx5_9 : ∀ i : grid5.Coords, EltTy.bits .f32 = 32 ∨ (Rect.block (s := S8192x128) S2048x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2048x5.size a ≤ S8192x5.size a
  hwx5_10 : ∀ i : grid5.Coords, EltTy.bits .f32 = 32 ∨ (Rect.block (s := S8192x5) S2048x5.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S4096x256.size a
  hwx6_0 : ∀ i : grid6.Coords, EltTy.bits .bf16 = 32 ∨ (Rect.block (s := S4096x256) S2048x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x256.size a ≤ S4096x256.size a
  hwx6_1 : ∀ i : grid6.Coords, EltTy.bits .f32 = 32 ∨ (Rect.block (s := S4096x256) S2048x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .bf16 = 32 ∨ (Rect.block (s := S256x256) S256x256.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x384.size a ≤ S256x384.size a
  hwx6_4 : ∀ i : grid6.Coords, EltTy.bits .bf16 = 32 ∨ (Rect.block (s := S256x384) S256x384.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x384.size a ≤ S1x384.size a
  hwx6_5 : ∀ i : grid6.Coords, EltTy.bits .f32 = 32 ∨ (Rect.block (s := S1x384) S1x384.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x5.size a ≤ S128x5.size a
  hwx6_6 : ∀ i : grid6.Coords, EltTy.bits .bf16 = 32 ∨ (Rect.block (s := S128x5) S128x5.size (cc6_transform_6 i) (hinb6_6 i)).WholeWords (EltTy.packing .bf16)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x5.size a ≤ S1x5.size a
  hwx6_7 : ∀ i : grid6.Coords, EltTy.bits .f32 = 32 ∨ (Rect.block (s := S1x5) S1x5.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2048x128.size a ≤ S4096x128.size a
  hwx6_8 : ∀ i : grid6.Coords, EltTy.bits .bf16 = 32 ∨ (Rect.block (s := S4096x128) S2048x128.size (cc6_transform_8 i) (hinb6_8 i)).WholeWords (EltTy.packing .bf16)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2048x128.size a ≤ S4096x128.size a
  hwx6_9 : ∀ i : grid6.Coords, EltTy.bits .f32 = 32 ∨ (Rect.block (s := S4096x128) S2048x128.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S2048x5.size a ≤ S4096x5.size a
  hwx6_10 : ∀ i : grid6.Coords, EltTy.bits .f32 = 32 ∨ (Rect.block (s := S4096x5) S2048x5.size (cc6_transform_10 i) (hinb6_10 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S2048x256.size a ≤ S2048x256.size a
  hwx7_0 : ∀ i : grid7.Coords, EltTy.bits .bf16 = 32 ∨ (Rect.block (s := S2048x256) S2048x256.size (cc7_transform_0 i) (hinb7_0 i)).WholeWords (EltTy.packing .bf16)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S2048x256.size a ≤ S2048x256.size a
  hwx7_1 : ∀ i : grid7.Coords, EltTy.bits .f32 = 32 ∨ (Rect.block (s := S2048x256) S2048x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .bf16 = 32 ∨ (Rect.block (s := S256x256) S256x256.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x384.size a ≤ S256x384.size a
  hwx7_4 : ∀ i : grid7.Coords, EltTy.bits .bf16 = 32 ∨ (Rect.block (s := S256x384) S256x384.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x384.size a ≤ S1x384.size a
  hwx7_5 : ∀ i : grid7.Coords, EltTy.bits .f32 = 32 ∨ (Rect.block (s := S1x384) S1x384.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x5.size a ≤ S128x5.size a
  hwx7_6 : ∀ i : grid7.Coords, EltTy.bits .bf16 = 32 ∨ (Rect.block (s := S128x5) S128x5.size (cc7_transform_6 i) (hinb7_6 i)).WholeWords (EltTy.packing .bf16)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x5.size a ≤ S1x5.size a
  hwx7_7 : ∀ i : grid7.Coords, EltTy.bits .f32 = 32 ∨ (Rect.block (s := S1x5) S1x5.size (cc7_transform_7 i) (hinb7_7 i)).WholeWords (EltTy.packing .f32)
  hstage7_8 : ∀ j, (stage7_8 j).IsWhole
  nbuf7_8 : grid7.bufCount reads7_8 false = 1
  hreads7_8 : ∀ i i' : grid7.Coords, (∀ a, reads7_8 a = true → i a = i' a) → cc7_transform_8 i = cc7_transform_8 i'
  hinb7_8 : ∀ (i : grid7.Coords) a, (cc7_transform_8 i a + 1) * S2048x128.size a ≤ S2048x128.size a
  hwx7_8 : ∀ i : grid7.Coords, EltTy.bits .bf16 = 32 ∨ (Rect.block (s := S2048x128) S2048x128.size (cc7_transform_8 i) (hinb7_8 i)).WholeWords (EltTy.packing .bf16)
  hstage7_9 : ∀ j, (stage7_9 j).IsWhole
  nbuf7_9 : grid7.bufCount reads7_9 false = 1
  hreads7_9 : ∀ i i' : grid7.Coords, (∀ a, reads7_9 a = true → i a = i' a) → cc7_transform_9 i = cc7_transform_9 i'
  hinb7_9 : ∀ (i : grid7.Coords) a, (cc7_transform_9 i a + 1) * S2048x128.size a ≤ S2048x128.size a
  hwx7_9 : ∀ i : grid7.Coords, EltTy.bits .f32 = 32 ∨ (Rect.block (s := S2048x128) S2048x128.size (cc7_transform_9 i) (hinb7_9 i)).WholeWords (EltTy.packing .f32)
  hstage7_10 : ∀ j, (stage7_10 j).IsWhole
  nbuf7_10 : grid7.bufCount reads7_10 false = 1
  hreads7_10 : ∀ i i' : grid7.Coords, (∀ a, reads7_10 a = true → i a = i' a) → cc7_transform_10 i = cc7_transform_10 i'
  hinb7_10 : ∀ (i : grid7.Coords) a, (cc7_transform_10 i a + 1) * S2048x5.size a ≤ S2048x5.size a
  hwx7_10 : ∀ i : grid7.Coords, EltTy.bits .f32 = 32 ∨ (Rect.block (s := S2048x5) S2048x5.size (cc7_transform_10 i) (hinb7_10 i)).WholeWords (EltTy.packing .f32)

variable [Facts₀]

def gather_S32000x128_S262144x1_S262144x128_1_0_n_n_0_1_1128 : GatherDims S32000x128 S262144x1 S262144x128 where
  offsetDims := [1]
  collapsedSliceDims := [0]
  operandBatchingDims := []
  startIndicesBatchingDims := []
  startIndexMap := [0]
  indexVectorDim := 1
  sliceSizes := ![1, 128]
  wf := gather_S32000x128_S262144x1_S262144x128_1_0_n_n_0_1_1128_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf
def dot_S2048x128_S128x5_S2048x5_1_0_0_1_n_n : DotDims S2048x128 S128x5 S2048x5 where
  lhsContracting := [1]
  rhsContracting := [0]
  lhsNonContracting := [0]
  rhsNonContracting := [1]
  lhsBatch := []
  rhsBatch := []
  wf := dot_S2048x128_S128x5_S2048x5_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf

abbrev win0_0 : Pipeline.Window sig grid0 :=
  Pipeline.Window.ofSpec (Memref.whole main_v7) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S2048x5.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S256x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S128x5.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x5.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23_0) S2048x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v23_1) S2048x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v23_2) S2048x5.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v24) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S256x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S128x5.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S1x5.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v26_0) S2048x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v26_1) S2048x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v26_2) S2048x5.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v27) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S256x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v18) S128x5.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v19) S1x5.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v29_0) S2048x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v29_1) S2048x128.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v29_2) S2048x5.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v30) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v12) S256x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v13) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v18) S128x5.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v19) S1x5.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v32_0) S2048x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v32_1) S2048x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v32_2) S2048x5.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v33) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v15) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v16) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v12) S256x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v13) S1x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v18) S128x5.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v19) S1x5.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v35_0) S2048x128.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v35_1) S2048x128.size cc5_transform_9 reads5_9 true false 2 stage5_9 sem5_9
    hrank5 hreads5_9 hinb5_9 nbuf5_9 (Memref.isWhole_whole _) hwx5_9 hstage5_9

abbrev win5_10 : Pipeline.Window sig grid5 :=
  Pipeline.Window.ofSpec (Memref.whole main_v35_2) S2048x5.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v36) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v37) S2048x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v15) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v16) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v12) S256x384.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v13) S1x384.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v18) S128x5.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v19) S1x5.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v38_0) S2048x128.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v38_1) S2048x128.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v38_2) S2048x5.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v39) S2048x256.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v40) S2048x256.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v15) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v16) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v12) S256x384.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v13) S1x384.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v18) S128x5.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v19) S1x5.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v41_0) S2048x128.size cc7_transform_8 reads7_8 true false 1 stage7_8 sem7_8
    hrank7 hreads7_8 hinb7_8 nbuf7_8 (Memref.isWhole_whole _) hwx7_8 hstage7_8

abbrev win7_9 : Pipeline.Window sig grid7 :=
  Pipeline.Window.ofSpec (Memref.whole main_v41_1) S2048x128.size cc7_transform_9 reads7_9 true false 1 stage7_9 sem7_9
    hrank7 hreads7_9 hinb7_9 nbuf7_9 (Memref.isWhole_whole _) hwx7_9 hstage7_9

abbrev win7_10 : Pipeline.Window sig grid7 :=
  Pipeline.Window.ofSpec (Memref.whole main_v41_2) S2048x5.size cc7_transform_10 reads7_10 true false 1 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

class Facts : Prop extends Facts₀ where

variable [Facts]
-- ==== ReferenceIdeal.lean ====
abbrev S262144 : Shape := ⟨1, ![262144]⟩
abbrev S32000x128 : Shape := ⟨2, ![32000, 128]⟩
abbrev S384x128 : Shape := ⟨2, ![384, 128]⟩
abbrev S384 : Shape := ⟨1, ![384]⟩
abbrev S384x256 : Shape := ⟨2, ![384, 256]⟩
abbrev S256x256 : Shape := ⟨2, ![256, 256]⟩
abbrev S256 : Shape := ⟨1, ![256]⟩
abbrev S5x128 : Shape := ⟨2, ![5, 128]⟩
abbrev S5 : Shape := ⟨1, ![5]⟩
abbrev S_ : Shape := ⟨0, ![]⟩
abbrev S262144x1 : Shape := ⟨2, ![262144, 1]⟩
abbrev S262144x128 : Shape := ⟨2, ![262144, 128]⟩
abbrev S128x384 : Shape := ⟨2, ![128, 384]⟩
abbrev S262144x384 : Shape := ⟨2, ![262144, 384]⟩
abbrev S1x384 : Shape := ⟨2, ![1, 384]⟩
abbrev S131072x256 : Shape := ⟨2, ![131072, 256]⟩
abbrev S131072x2x128 : Shape := ⟨3, ![131072, 2, 128]⟩
abbrev S1x256 : Shape := ⟨2, ![1, 256]⟩
abbrev S131072x128 : Shape := ⟨2, ![131072, 128]⟩
abbrev S256x384 : Shape := ⟨2, ![256, 384]⟩
abbrev S131072x384 : Shape := ⟨2, ![131072, 384]⟩
abbrev S65536x256 : Shape := ⟨2, ![65536, 256]⟩
abbrev S65536x2x128 : Shape := ⟨3, ![65536, 2, 128]⟩
abbrev S65536x128 : Shape := ⟨2, ![65536, 128]⟩
abbrev S65536x384 : Shape := ⟨2, ![65536, 384]⟩
abbrev S32768x256 : Shape := ⟨2, ![32768, 256]⟩
abbrev S32768x2x128 : Shape := ⟨3, ![32768, 2, 128]⟩
abbrev S32768x128 : Shape := ⟨2, ![32768, 128]⟩
abbrev S32768x384 : Shape := ⟨2, ![32768, 384]⟩
abbrev S16384x256 : Shape := ⟨2, ![16384, 256]⟩
abbrev S16384x2x128 : Shape := ⟨3, ![16384, 2, 128]⟩
abbrev S16384x128 : Shape := ⟨2, ![16384, 128]⟩
abbrev S16384x384 : Shape := ⟨2, ![16384, 384]⟩
abbrev S8192x256 : Shape := ⟨2, ![8192, 256]⟩
abbrev S8192x2x128 : Shape := ⟨3, ![8192, 2, 128]⟩
abbrev S8192x128 : Shape := ⟨2, ![8192, 128]⟩
abbrev S8192x384 : Shape := ⟨2, ![8192, 384]⟩
abbrev S4096x256 : Shape := ⟨2, ![4096, 256]⟩
abbrev S4096x2x128 : Shape := ⟨3, ![4096, 2, 128]⟩
abbrev S4096x128 : Shape := ⟨2, ![4096, 128]⟩
abbrev S4096x384 : Shape := ⟨2, ![4096, 384]⟩
abbrev S2048x256 : Shape := ⟨2, ![2048, 256]⟩
abbrev S2048x2x128 : Shape := ⟨3, ![2048, 2, 128]⟩
abbrev S2048x128 : Shape := ⟨2, ![2048, 128]⟩
abbrev S2048x384 : Shape := ⟨2, ![2048, 384]⟩
abbrev S522240x128 : Shape := ⟨2, ![522240, 128]⟩
abbrev S128x5 : Shape := ⟨2, ![128, 5]⟩
abbrev S522240x5 : Shape := ⟨2, ![522240, 5]⟩
abbrev S1x5 : Shape := ⟨2, ![1, 5]⟩

abbrev nBuf : Space → Nat
  | .hbm => 389
  | .vmem => 0
  | .smem => 0
  | _ => 0

abbrev hbmTy0_0 (i : Nat) : BufTy := match i % 128 with
  | 0 => ⟨S262144, .i32⟩
  | 1 => ⟨S32000x128, .f32⟩
  | 2 => ⟨S384x128, .f32⟩
  | 3 => ⟨S384, .f32⟩
  | 4 => ⟨S384x256, .f32⟩
  | 5 => ⟨S384, .f32⟩
  | 6 => ⟨S256x256, .f32⟩
  | 7 => ⟨S256, .f32⟩
  | 8 => ⟨S5x128, .f32⟩
  | 9 => ⟨S5, .f32⟩
  | 10 => ⟨S_, .i32⟩
  | 11 => ⟨S262144, .i32⟩
  | 12 => ⟨S262144, .i1⟩
  | 13 => ⟨S_, .i32⟩
  | 14 => ⟨S262144, .i32⟩
  | 15 => ⟨S262144, .i32⟩
  | 16 => ⟨S262144, .i32⟩
  | 17 => ⟨S262144x1, .i32⟩
  | 18 => ⟨S262144x128, .f32⟩
  | 19 => ⟨S128x384, .f32⟩
  | 20 => ⟨S262144x384, .f32⟩
  | 21 => ⟨S1x384, .f32⟩
  | 22 => ⟨S262144x384, .f32⟩
  | 23 => ⟨S262144x384, .f32⟩
  | 24 => ⟨S262144x128, .f32⟩
  | 25 => ⟨S262144x128, .f32⟩
  | 26 => ⟨S262144x128, .f32⟩
  | 27 => ⟨S262144x128, .f32⟩
  | 28 => ⟨S262144x128, .f32⟩
  | 29 => ⟨S_, .f32⟩
  | 30 => ⟨S262144x128, .f32⟩
  | 31 => ⟨S262144x128, .f32⟩
  | 32 => ⟨S_, .f32⟩
  | 33 => ⟨S262144x128, .f32⟩
  | 34 => ⟨S262144x128, .f32⟩
  | 35 => ⟨S262144x128, .f32⟩
  | 36 => ⟨S262144x128, .f32⟩
  | 37 => ⟨S262144x128, .f32⟩
  | 38 => ⟨S262144x128, .f32⟩
  | 39 => ⟨S_, .f32⟩
  | 40 => ⟨S262144x128, .f32⟩
  | 41 => ⟨S262144x128, .f32⟩
  | 42 => ⟨S_, .f32⟩
  | 43 => ⟨S262144x128, .f32⟩
  | 44 => ⟨S262144x128, .f32⟩
  | 45 => ⟨S262144x128, .f32⟩
  | 46 => ⟨S262144x128, .f32⟩
  | 47 => ⟨S131072x256, .f32⟩
  | 48 => ⟨S131072x2x128, .f32⟩
  | 49 => ⟨S256x256, .f32⟩
  | 50 => ⟨S131072x256, .f32⟩
  | 51 => ⟨S1x256, .f32⟩
  | 52 => ⟨S131072x256, .f32⟩
  | 53 => ⟨S131072x256, .f32⟩
  | 54 => ⟨S131072x256, .f32⟩
  | 55 => ⟨S131072x256, .f32⟩
  | 56 => ⟨S_, .f32⟩
  | 57 => ⟨S131072x256, .f32⟩
  | 58 => ⟨S131072x256, .f32⟩
  | 59 => ⟨S_, .f32⟩
  | 60 => ⟨S131072x256, .f32⟩
  | 61 => ⟨S131072x256, .f32⟩
  | 62 => ⟨S131072x2x128, .f32⟩
  | 63 => ⟨S131072x2x128, .f32⟩
  | 64 => ⟨S_, .f32⟩
  | 65 => ⟨S131072x128, .f32⟩
  | 66 => ⟨S256x384, .f32⟩
  | 67 => ⟨S131072x384, .f32⟩
  | 68 => ⟨S1x384, .f32⟩
  | 69 => ⟨S131072x384, .f32⟩
  | 70 => ⟨S131072x384, .f32⟩
  | 71 => ⟨S131072x128, .f32⟩
  | 72 => ⟨S131072x128, .f32⟩
  | 73 => ⟨S131072x128, .f32⟩
  | 74 => ⟨S131072x128, .f32⟩
  | 75 => ⟨S131072x128, .f32⟩
  | 76 => ⟨S_, .f32⟩
  | 77 => ⟨S131072x128, .f32⟩
  | 78 => ⟨S131072x128, .f32⟩
  | 79 => ⟨S_, .f32⟩
  | 80 => ⟨S131072x128, .f32⟩
  | 81 => ⟨S131072x128, .f32⟩
  | 82 => ⟨S131072x128, .f32⟩
  | 83 => ⟨S131072x128, .f32⟩
  | 84 => ⟨S131072x128, .f32⟩
  | 85 => ⟨S131072x128, .f32⟩
  | 86 => ⟨S131072x128, .f32⟩
  | 87 => ⟨S_, .f32⟩
  | 88 => ⟨S131072x128, .f32⟩
  | 89 => ⟨S131072x128, .f32⟩
  | 90 => ⟨S_, .f32⟩
  | 91 => ⟨S131072x128, .f32⟩
  | 92 => ⟨S131072x128, .f32⟩
  | 93 => ⟨S131072x128, .f32⟩
  | 94 => ⟨S131072x128, .f32⟩
  | 95 => ⟨S65536x256, .f32⟩
  | 96 => ⟨S65536x2x128, .f32⟩
  | 97 => ⟨S256x256, .f32⟩
  | 98 => ⟨S65536x256, .f32⟩
  | 99 => ⟨S1x256, .f32⟩
  | 100 => ⟨S65536x256, .f32⟩
  | 101 => ⟨S65536x256, .f32⟩
  | 102 => ⟨S65536x256, .f32⟩
  | 103 => ⟨S65536x256, .f32⟩
  | 104 => ⟨S_, .f32⟩
  | 105 => ⟨S65536x256, .f32⟩
  | 106 => ⟨S65536x256, .f32⟩
  | 107 => ⟨S_, .f32⟩
  | 108 => ⟨S65536x256, .f32⟩
  | 109 => ⟨S65536x256, .f32⟩
  | 110 => ⟨S65536x2x128, .f32⟩
  | 111 => ⟨S65536x2x128, .f32⟩
  | 112 => ⟨S_, .f32⟩
  | 113 => ⟨S65536x128, .f32⟩
  | 114 => ⟨S256x384, .f32⟩
  | 115 => ⟨S65536x384, .f32⟩
  | 116 => ⟨S1x384, .f32⟩
  | 117 => ⟨S65536x384, .f32⟩
  | 118 => ⟨S65536x384, .f32⟩
  | 119 => ⟨S65536x128, .f32⟩
  | 120 => ⟨S65536x128, .f32⟩
  | 121 => ⟨S65536x128, .f32⟩
  | 122 => ⟨S65536x128, .f32⟩
  | 123 => ⟨S65536x128, .f32⟩
  | 124 => ⟨S_, .f32⟩
  | 125 => ⟨S65536x128, .f32⟩
  | 126 => ⟨S65536x128, .f32⟩
  | 127 => ⟨S_, .f32⟩
  | _ => ⟨S262144, .i32⟩

abbrev hbmTy0_1 (i : Nat) : BufTy := match i % 128 with
  | 0 => ⟨S65536x128, .f32⟩
  | 1 => ⟨S65536x128, .f32⟩
  | 2 => ⟨S65536x128, .f32⟩
  | 3 => ⟨S65536x128, .f32⟩
  | 4 => ⟨S65536x128, .f32⟩
  | 5 => ⟨S65536x128, .f32⟩
  | 6 => ⟨S65536x128, .f32⟩
  | 7 => ⟨S_, .f32⟩
  | 8 => ⟨S65536x128, .f32⟩
  | 9 => ⟨S65536x128, .f32⟩
  | 10 => ⟨S_, .f32⟩
  | 11 => ⟨S65536x128, .f32⟩
  | 12 => ⟨S65536x128, .f32⟩
  | 13 => ⟨S65536x128, .f32⟩
  | 14 => ⟨S65536x128, .f32⟩
  | 15 => ⟨S32768x256, .f32⟩
  | 16 => ⟨S32768x2x128, .f32⟩
  | 17 => ⟨S256x256, .f32⟩
  | 18 => ⟨S32768x256, .f32⟩
  | 19 => ⟨S1x256, .f32⟩
  | 20 => ⟨S32768x256, .f32⟩
  | 21 => ⟨S32768x256, .f32⟩
  | 22 => ⟨S32768x256, .f32⟩
  | 23 => ⟨S32768x256, .f32⟩
  | 24 => ⟨S_, .f32⟩
  | 25 => ⟨S32768x256, .f32⟩
  | 26 => ⟨S32768x256, .f32⟩
  | 27 => ⟨S_, .f32⟩
  | 28 => ⟨S32768x256, .f32⟩
  | 29 => ⟨S32768x256, .f32⟩
  | 30 => ⟨S32768x2x128, .f32⟩
  | 31 => ⟨S32768x2x128, .f32⟩
  | 32 => ⟨S_, .f32⟩
  | 33 => ⟨S32768x128, .f32⟩
  | 34 => ⟨S256x384, .f32⟩
  | 35 => ⟨S32768x384, .f32⟩
  | 36 => ⟨S1x384, .f32⟩
  | 37 => ⟨S32768x384, .f32⟩
  | 38 => ⟨S32768x384, .f32⟩
  | 39 => ⟨S32768x128, .f32⟩
  | 40 => ⟨S32768x128, .f32⟩
  | 41 => ⟨S32768x128, .f32⟩
  | 42 => ⟨S32768x128, .f32⟩
  | 43 => ⟨S32768x128, .f32⟩
  | 44 => ⟨S_, .f32⟩
  | 45 => ⟨S32768x128, .f32⟩
  | 46 => ⟨S32768x128, .f32⟩
  | 47 => ⟨S_, .f32⟩
  | 48 => ⟨S32768x128, .f32⟩
  | 49 => ⟨S32768x128, .f32⟩
  | 50 => ⟨S32768x128, .f32⟩
  | 51 => ⟨S32768x128, .f32⟩
  | 52 => ⟨S32768x128, .f32⟩
  | 53 => ⟨S32768x128, .f32⟩
  | 54 => ⟨S32768x128, .f32⟩
  | 55 => ⟨S_, .f32⟩
  | 56 => ⟨S32768x128, .f32⟩
  | 57 => ⟨S32768x128, .f32⟩
  | 58 => ⟨S_, .f32⟩
  | 59 => ⟨S32768x128, .f32⟩
  | 60 => ⟨S32768x128, .f32⟩
  | 61 => ⟨S32768x128, .f32⟩
  | 62 => ⟨S32768x128, .f32⟩
  | 63 => ⟨S16384x256, .f32⟩
  | 64 => ⟨S16384x2x128, .f32⟩
  | 65 => ⟨S256x256, .f32⟩
  | 66 => ⟨S16384x256, .f32⟩
  | 67 => ⟨S1x256, .f32⟩
  | 68 => ⟨S16384x256, .f32⟩
  | 69 => ⟨S16384x256, .f32⟩
  | 70 => ⟨S16384x256, .f32⟩
  | 71 => ⟨S16384x256, .f32⟩
  | 72 => ⟨S_, .f32⟩
  | 73 => ⟨S16384x256, .f32⟩
  | 74 => ⟨S16384x256, .f32⟩
  | 75 => ⟨S_, .f32⟩
  | 76 => ⟨S16384x256, .f32⟩
  | 77 => ⟨S16384x256, .f32⟩
  | 78 => ⟨S16384x2x128, .f32⟩
  | 79 => ⟨S16384x2x128, .f32⟩
  | 80 => ⟨S_, .f32⟩
  | 81 => ⟨S16384x128, .f32⟩
  | 82 => ⟨S256x384, .f32⟩
  | 83 => ⟨S16384x384, .f32⟩
  | 84 => ⟨S1x384, .f32⟩
  | 85 => ⟨S16384x384, .f32⟩
  | 86 => ⟨S16384x384, .f32⟩
  | 87 => ⟨S16384x128, .f32⟩
  | 88 => ⟨S16384x128, .f32⟩
  | 89 => ⟨S16384x128, .f32⟩
  | 90 => ⟨S16384x128, .f32⟩
  | 91 => ⟨S16384x128, .f32⟩
  | 92 => ⟨S_, .f32⟩
  | 93 => ⟨S16384x128, .f32⟩
  | 94 => ⟨S16384x128, .f32⟩
  | 95 => ⟨S_, .f32⟩
  | 96 => ⟨S16384x128, .f32⟩
  | 97 => ⟨S16384x128, .f32⟩
  | 98 => ⟨S16384x128, .f32⟩
  | 99 => ⟨S16384x128, .f32⟩
  | 100 => ⟨S16384x128, .f32⟩
  | 101 => ⟨S16384x128, .f32⟩
  | 102 => ⟨S16384x128, .f32⟩
  | 103 => ⟨S_, .f32⟩
  | 104 => ⟨S16384x128, .f32⟩
  | 105 => ⟨S16384x128, .f32⟩
  | 106 => ⟨S_, .f32⟩
  | 107 => ⟨S16384x128, .f32⟩
  | 108 => ⟨S16384x128, .f32⟩
  | 109 => ⟨S16384x128, .f32⟩
  | 110 => ⟨S16384x128, .f32⟩
  | 111 => ⟨S8192x256, .f32⟩
  | 112 => ⟨S8192x2x128, .f32⟩
  | 113 => ⟨S256x256, .f32⟩
  | 114 => ⟨S8192x256, .f32⟩
  | 115 => ⟨S1x256, .f32⟩
  | 116 => ⟨S8192x256, .f32⟩
  | 117 => ⟨S8192x256, .f32⟩
  | 118 => ⟨S8192x256, .f32⟩
  | 119 => ⟨S8192x256, .f32⟩
  | 120 => ⟨S_, .f32⟩
  | 121 => ⟨S8192x256, .f32⟩
  | 122 => ⟨S8192x256, .f32⟩
  | 123 => ⟨S_, .f32⟩
  | 124 => ⟨S8192x256, .f32⟩
  | 125 => ⟨S8192x256, .f32⟩
  | 126 => ⟨S8192x2x128, .f32⟩
  | 127 => ⟨S8192x2x128, .f32⟩
  | _ => ⟨S262144, .i32⟩

abbrev hbmTy0_2 (i : Nat) : BufTy := match i % 128 with
  | 0 => ⟨S_, .f32⟩
  | 1 => ⟨S8192x128, .f32⟩
  | 2 => ⟨S256x384, .f32⟩
  | 3 => ⟨S8192x384, .f32⟩
  | 4 => ⟨S1x384, .f32⟩
  | 5 => ⟨S8192x384, .f32⟩
  | 6 => ⟨S8192x384, .f32⟩
  | 7 => ⟨S8192x128, .f32⟩
  | 8 => ⟨S8192x128, .f32⟩
  | 9 => ⟨S8192x128, .f32⟩
  | 10 => ⟨S8192x128, .f32⟩
  | 11 => ⟨S8192x128, .f32⟩
  | 12 => ⟨S_, .f32⟩
  | 13 => ⟨S8192x128, .f32⟩
  | 14 => ⟨S8192x128, .f32⟩
  | 15 => ⟨S_, .f32⟩
  | 16 => ⟨S8192x128, .f32⟩
  | 17 => ⟨S8192x128, .f32⟩
  | 18 => ⟨S8192x128, .f32⟩
  | 19 => ⟨S8192x128, .f32⟩
  | 20 => ⟨S8192x128, .f32⟩
  | 21 => ⟨S8192x128, .f32⟩
  | 22 => ⟨S8192x128, .f32⟩
  | 23 => ⟨S_, .f32⟩
  | 24 => ⟨S8192x128, .f32⟩
  | 25 => ⟨S8192x128, .f32⟩
  | 26 => ⟨S_, .f32⟩
  | 27 => ⟨S8192x128, .f32⟩
  | 28 => ⟨S8192x128, .f32⟩
  | 29 => ⟨S8192x128, .f32⟩
  | 30 => ⟨S8192x128, .f32⟩
  | 31 => ⟨S4096x256, .f32⟩
  | 32 => ⟨S4096x2x128, .f32⟩
  | 33 => ⟨S256x256, .f32⟩
  | 34 => ⟨S4096x256, .f32⟩
  | 35 => ⟨S1x256, .f32⟩
  | 36 => ⟨S4096x256, .f32⟩
  | 37 => ⟨S4096x256, .f32⟩
  | 38 => ⟨S4096x256, .f32⟩
  | 39 => ⟨S4096x256, .f32⟩
  | 40 => ⟨S_, .f32⟩
  | 41 => ⟨S4096x256, .f32⟩
  | 42 => ⟨S4096x256, .f32⟩
  | 43 => ⟨S_, .f32⟩
  | 44 => ⟨S4096x256, .f32⟩
  | 45 => ⟨S4096x256, .f32⟩
  | 46 => ⟨S4096x2x128, .f32⟩
  | 47 => ⟨S4096x2x128, .f32⟩
  | 48 => ⟨S_, .f32⟩
  | 49 => ⟨S4096x128, .f32⟩
  | 50 => ⟨S256x384, .f32⟩
  | 51 => ⟨S4096x384, .f32⟩
  | 52 => ⟨S1x384, .f32⟩
  | 53 => ⟨S4096x384, .f32⟩
  | 54 => ⟨S4096x384, .f32⟩
  | 55 => ⟨S4096x128, .f32⟩
  | 56 => ⟨S4096x128, .f32⟩
  | 57 => ⟨S4096x128, .f32⟩
  | 58 => ⟨S4096x128, .f32⟩
  | 59 => ⟨S4096x128, .f32⟩
  | 60 => ⟨S_, .f32⟩
  | 61 => ⟨S4096x128, .f32⟩
  | 62 => ⟨S4096x128, .f32⟩
  | 63 => ⟨S_, .f32⟩
  | 64 => ⟨S4096x128, .f32⟩
  | 65 => ⟨S4096x128, .f32⟩
  | 66 => ⟨S4096x128, .f32⟩
  | 67 => ⟨S4096x128, .f32⟩
  | 68 => ⟨S4096x128, .f32⟩
  | 69 => ⟨S4096x128, .f32⟩
  | 70 => ⟨S4096x128, .f32⟩
  | 71 => ⟨S_, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S4096x128, .f32⟩
  | 78 => ⟨S4096x128, .f32⟩
  | 79 => ⟨S2048x256, .f32⟩
  | 80 => ⟨S2048x2x128, .f32⟩
  | 81 => ⟨S256x256, .f32⟩
  | 82 => ⟨S2048x256, .f32⟩
  | 83 => ⟨S1x256, .f32⟩
  | 84 => ⟨S2048x256, .f32⟩
  | 85 => ⟨S2048x256, .f32⟩
  | 86 => ⟨S2048x256, .f32⟩
  | 87 => ⟨S2048x256, .f32⟩
  | 88 => ⟨S_, .f32⟩
  | 89 => ⟨S2048x256, .f32⟩
  | 90 => ⟨S2048x256, .f32⟩
  | 91 => ⟨S_, .f32⟩
  | 92 => ⟨S2048x256, .f32⟩
  | 93 => ⟨S2048x256, .f32⟩
  | 94 => ⟨S2048x2x128, .f32⟩
  | 95 => ⟨S2048x2x128, .f32⟩
  | 96 => ⟨S_, .f32⟩
  | 97 => ⟨S2048x128, .f32⟩
  | 98 => ⟨S256x384, .f32⟩
  | 99 => ⟨S2048x384, .f32⟩
  | 100 => ⟨S1x384, .f32⟩
  | 101 => ⟨S2048x384, .f32⟩
  | 102 => ⟨S2048x384, .f32⟩
  | 103 => ⟨S2048x128, .f32⟩
  | 104 => ⟨S2048x128, .f32⟩
  | 105 => ⟨S2048x128, .f32⟩
  | 106 => ⟨S2048x128, .f32⟩
  | 107 => ⟨S2048x128, .f32⟩
  | 108 => ⟨S_, .f32⟩
  | 109 => ⟨S2048x128, .f32⟩
  | 110 => ⟨S2048x128, .f32⟩
  | 111 => ⟨S_, .f32⟩
  | 112 => ⟨S2048x128, .f32⟩
  | 113 => ⟨S2048x128, .f32⟩
  | 114 => ⟨S2048x128, .f32⟩
  | 115 => ⟨S2048x128, .f32⟩
  | 116 => ⟨S2048x128, .f32⟩
  | 117 => ⟨S2048x128, .f32⟩
  | 118 => ⟨S2048x128, .f32⟩
  | 119 => ⟨S_, .f32⟩
  | 120 => ⟨S2048x128, .f32⟩
  | 121 => ⟨S2048x128, .f32⟩
  | 122 => ⟨S_, .f32⟩
  | 123 => ⟨S2048x128, .f32⟩
  | 124 => ⟨S2048x128, .f32⟩
  | 125 => ⟨S2048x128, .f32⟩
  | 126 => ⟨S2048x128, .f32⟩
  | 127 => ⟨S522240x128, .f32⟩
  | _ => ⟨S262144, .i32⟩

abbrev hbmTy0_3 (i : Nat) : BufTy := match i % 128 with
  | 0 => ⟨S128x5, .f32⟩
  | 1 => ⟨S522240x5, .f32⟩
  | 2 => ⟨S1x5, .f32⟩
  | 3 => ⟨S522240x5, .f32⟩
  | 4 => ⟨S522240x5, .f32⟩
  | _ => ⟨S262144, .i32⟩

abbrev hbmTy (i : Nat) : BufTy := match i / 128 with
  | 0 => hbmTy0_0 i
  | 1 => hbmTy0_1 i
  | 2 => hbmTy0_2 i
  | 3 => hbmTy0_3 i
  | _ => ⟨S262144, .i32⟩

abbrev bufTy : (tb : Table) → Fin (tcTables nBuf tb) → BufTy
  | .hbm, ⟨i, _⟩ => hbmTy i
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_11 : Ref sig .tc := ⟨.hbm, 104, rfl⟩
abbrev main_v81 : Ref sig .tc := ⟨.hbm, 105, rfl⟩
abbrev main_v82 : Ref sig .tc := ⟨.hbm, 106, rfl⟩
abbrev main_cst_12 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_v99 : Ref sig .tc := ⟨.hbm, 126, rfl⟩
abbrev main_cst_15 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_16 : Ref sig .tc := ⟨.hbm, 135, rfl⟩
abbrev main_v107 : Ref sig .tc := ⟨.hbm, 136, rfl⟩
abbrev main_v108 : Ref sig .tc := ⟨.hbm, 137, rfl⟩
abbrev main_cst_17 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_18 : Ref sig .tc := ⟨.hbm, 152, rfl⟩
abbrev main_v122 : Ref sig .tc := ⟨.hbm, 153, rfl⟩
abbrev main_v123 : Ref sig .tc := ⟨.hbm, 154, rfl⟩
abbrev main_cst_19 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_20 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_21 : Ref sig .tc := ⟨.hbm, 172, rfl⟩
abbrev main_v139 : Ref sig .tc := ⟨.hbm, 173, rfl⟩
abbrev main_v140 : Ref sig .tc := ⟨.hbm, 174, rfl⟩
abbrev main_cst_22 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_23 : Ref sig .tc := ⟨.hbm, 183, rfl⟩
abbrev main_v148 : Ref sig .tc := ⟨.hbm, 184, rfl⟩
abbrev main_v149 : Ref sig .tc := ⟨.hbm, 185, rfl⟩
abbrev main_cst_24 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_25 : Ref sig .tc := ⟨.hbm, 200, rfl⟩
abbrev main_v163 : Ref sig .tc := ⟨.hbm, 201, rfl⟩
abbrev main_v164 : Ref sig .tc := ⟨.hbm, 202, rfl⟩
abbrev main_cst_26 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_cst_27 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_cst_28 : Ref sig .tc := ⟨.hbm, 220, rfl⟩
abbrev main_v180 : Ref sig .tc := ⟨.hbm, 221, rfl⟩
abbrev main_v181 : Ref sig .tc := ⟨.hbm, 222, rfl⟩
abbrev main_cst_29 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_cst_30 : Ref sig .tc := ⟨.hbm, 231, rfl⟩
abbrev main_v189 : Ref sig .tc := ⟨.hbm, 232, rfl⟩
abbrev main_v190 : Ref sig .tc := ⟨.hbm, 233, rfl⟩
abbrev main_cst_31 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_cst_32 : Ref sig .tc := ⟨.hbm, 248, rfl⟩
abbrev main_v204 : Ref sig .tc := ⟨.hbm, 249, rfl⟩
abbrev main_v205 : Ref sig .tc := ⟨.hbm, 250, rfl⟩
abbrev main_cst_33 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_cst_34 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_cst_35 : Ref sig .tc := ⟨.hbm, 268, rfl⟩
abbrev main_v221 : Ref sig .tc := ⟨.hbm, 269, rfl⟩
abbrev main_v222 : Ref sig .tc := ⟨.hbm, 270, rfl⟩
abbrev main_cst_36 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_cst_37 : Ref sig .tc := ⟨.hbm, 279, rfl⟩
abbrev main_v230 : Ref sig .tc := ⟨.hbm, 280, rfl⟩
abbrev main_v231 : Ref sig .tc := ⟨.hbm, 281, rfl⟩
abbrev main_cst_38 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_cst_39 : Ref sig .tc := ⟨.hbm, 296, rfl⟩
abbrev main_v245 : Ref sig .tc := ⟨.hbm, 297, rfl⟩
abbrev main_v246 : Ref sig .tc := ⟨.hbm, 298, rfl⟩
abbrev main_cst_40 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_cst_41 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_cst_42 : Ref sig .tc := ⟨.hbm, 316, rfl⟩
abbrev main_v262 : Ref sig .tc := ⟨.hbm, 317, rfl⟩
abbrev main_v263 : Ref sig .tc := ⟨.hbm, 318, rfl⟩
abbrev main_cst_43 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_cst_44 : Ref sig .tc := ⟨.hbm, 327, rfl⟩
abbrev main_v271 : Ref sig .tc := ⟨.hbm, 328, rfl⟩
abbrev main_v272 : Ref sig .tc := ⟨.hbm, 329, rfl⟩
abbrev main_cst_45 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_cst_46 : Ref sig .tc := ⟨.hbm, 344, rfl⟩
abbrev main_v286 : Ref sig .tc := ⟨.hbm, 345, rfl⟩
abbrev main_v287 : Ref sig .tc := ⟨.hbm, 346, rfl⟩
abbrev main_cst_47 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_cst_48 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_cst_49 : Ref sig .tc := ⟨.hbm, 364, rfl⟩
abbrev main_v303 : Ref sig .tc := ⟨.hbm, 365, rfl⟩
abbrev main_v304 : Ref sig .tc := ⟨.hbm, 366, rfl⟩
abbrev main_cst_50 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_cst_51 : Ref sig .tc := ⟨.hbm, 375, rfl⟩
abbrev main_v312 : Ref sig .tc := ⟨.hbm, 376, rfl⟩
abbrev main_v313 : Ref sig .tc := ⟨.hbm, 377, rfl⟩
abbrev main_cst_52 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  transposes_S384x128_S128x384_1_0 : S384x128.Transposes [1, 0] S128x384
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  slices_S262144x384_S262144x128_0_0 : S262144x384.Slices ![0, 0] S262144x128
  slices_S262144x384_S262144x128_0_128 : S262144x384.Slices ![0, 128] S262144x128
  slices_S262144x384_S262144x128_0_256 : S262144x384.Slices ![0, 256] S262144x128
  bcast_S_S262144x128 : S_.BroadcastsInDim S262144x128 (![] : Fin 0 → Fin S262144x128.rank)
  shapeCasts_S262144x128_S131072x256 : S262144x128.ShapeCasts S131072x256
  shapeCasts_S262144x128_S131072x2x128 : S262144x128.ShapeCasts S131072x2x128
  transposes_S256x256_S256x256_1_0 : S256x256.Transposes [1, 0] S256x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  shapeCasts_S131072x256_S131072x2x128 : S131072x256.ShapeCasts S131072x2x128
  reducesTo_S131072x2x128_S131072x128_d1 : S131072x2x128.ReducesTo [1] S131072x128
  h_S_ : 0 < S_.numel
  transposes_S384x256_S256x384_1_0 : S384x256.Transposes [1, 0] S256x384
  bcast_S1x384_S131072x384_0_1 : S1x384.BroadcastsInDim S131072x384 (![0, 1] : Fin 2 → Fin S131072x384.rank)
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  bcast_S_S131072x128 : S_.BroadcastsInDim S131072x128 (![] : Fin 0 → Fin S131072x128.rank)
  shapeCasts_S131072x128_S65536x256 : S131072x128.ShapeCasts S65536x256
  shapeCasts_S131072x128_S65536x2x128 : S131072x128.ShapeCasts S65536x2x128
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  shapeCasts_S65536x256_S65536x2x128 : S65536x256.ShapeCasts S65536x2x128
  reducesTo_S65536x2x128_S65536x128_d1 : S65536x2x128.ReducesTo [1] S65536x128
  bcast_S1x384_S65536x384_0_1 : S1x384.BroadcastsInDim S65536x384 (![0, 1] : Fin 2 → Fin S65536x384.rank)
  slices_S65536x384_S65536x128_0_0 : S65536x384.Slices ![0, 0] S65536x128
  slices_S65536x384_S65536x128_0_128 : S65536x384.Slices ![0, 128] S65536x128
  slices_S65536x384_S65536x128_0_256 : S65536x384.Slices ![0, 256] S65536x128
  bcast_S_S65536x128 : S_.BroadcastsInDim S65536x128 (![] : Fin 0 → Fin S65536x128.rank)
  shapeCasts_S65536x128_S32768x256 : S65536x128.ShapeCasts S32768x256
  shapeCasts_S65536x128_S32768x2x128 : S65536x128.ShapeCasts S32768x2x128
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  shapeCasts_S32768x256_S32768x2x128 : S32768x256.ShapeCasts S32768x2x128
  reducesTo_S32768x2x128_S32768x128_d1 : S32768x2x128.ReducesTo [1] S32768x128
  bcast_S1x384_S32768x384_0_1 : S1x384.BroadcastsInDim S32768x384 (![0, 1] : Fin 2 → Fin S32768x384.rank)
  slices_S32768x384_S32768x128_0_0 : S32768x384.Slices ![0, 0] S32768x128
  slices_S32768x384_S32768x128_0_128 : S32768x384.Slices ![0, 128] S32768x128
  slices_S32768x384_S32768x128_0_256 : S32768x384.Slices ![0, 256] S32768x128
  bcast_S_S32768x128 : S_.BroadcastsInDim S32768x128 (![] : Fin 0 → Fin S32768x128.rank)
  shapeCasts_S32768x128_S16384x256 : S32768x128.ShapeCasts S16384x256
  shapeCasts_S32768x128_S16384x2x128 : S32768x128.ShapeCasts S16384x2x128
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  shapeCasts_S16384x256_S16384x2x128 : S16384x256.ShapeCasts S16384x2x128
  reducesTo_S16384x2x128_S16384x128_d1 : S16384x2x128.ReducesTo [1] S16384x128
  bcast_S1x384_S16384x384_0_1 : S1x384.BroadcastsInDim S16384x384 (![0, 1] : Fin 2 → Fin S16384x384.rank)
  slices_S16384x384_S16384x128_0_0 : S16384x384.Slices ![0, 0] S16384x128
  slices_S16384x384_S16384x128_0_128 : S16384x384.Slices ![0, 128] S16384x128
  slices_S16384x384_S16384x128_0_256 : S16384x384.Slices ![0, 256] S16384x128
  bcast_S_S16384x128 : S_.BroadcastsInDim S16384x128 (![] : Fin 0 → Fin S16384x128.rank)
  shapeCasts_S16384x128_S8192x256 : S16384x128.ShapeCasts S8192x256
  shapeCasts_S16384x128_S8192x2x128 : S16384x128.ShapeCasts S8192x2x128
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  shapeCasts_S8192x256_S8192x2x128 : S8192x256.ShapeCasts S8192x2x128
  reducesTo_S8192x2x128_S8192x128_d1 : S8192x2x128.ReducesTo [1] S8192x128
  bcast_S1x384_S8192x384_0_1 : S1x384.BroadcastsInDim S8192x384 (![0, 1] : Fin 2 → Fin S8192x384.rank)
  slices_S8192x384_S8192x128_0_0 : S8192x384.Slices ![0, 0] S8192x128
  slices_S8192x384_S8192x128_0_128 : S8192x384.Slices ![0, 128] S8192x128
  slices_S8192x384_S8192x128_0_256 : S8192x384.Slices ![0, 256] S8192x128
  bcast_S_S8192x128 : S_.BroadcastsInDim S8192x128 (![] : Fin 0 → Fin S8192x128.rank)
  shapeCasts_S8192x128_S4096x256 : S8192x128.ShapeCasts S4096x256
  shapeCasts_S8192x128_S4096x2x128 : S8192x128.ShapeCasts S4096x2x128
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  shapeCasts_S4096x256_S4096x2x128 : S4096x256.ShapeCasts S4096x2x128
  reducesTo_S4096x2x128_S4096x128_d1 : S4096x2x128.ReducesTo [1] S4096x128
  bcast_S1x384_S4096x384_0_1 : S1x384.BroadcastsInDim S4096x384 (![0, 1] : Fin 2 → Fin S4096x384.rank)
  slices_S4096x384_S4096x128_0_0 : S4096x384.Slices ![0, 0] S4096x128
  slices_S4096x384_S4096x128_0_128 : S4096x384.Slices ![0, 128] S4096x128
  slices_S4096x384_S4096x128_0_256 : S4096x384.Slices ![0, 256] S4096x128
  bcast_S_S4096x128 : S_.BroadcastsInDim S4096x128 (![] : Fin 0 → Fin S4096x128.rank)
  shapeCasts_S4096x128_S2048x256 : S4096x128.ShapeCasts S2048x256
  shapeCasts_S4096x128_S2048x2x128 : S4096x128.ShapeCasts S2048x2x128
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  shapeCasts_S2048x256_S2048x2x128 : S2048x256.ShapeCasts S2048x2x128
  reducesTo_S2048x2x128_S2048x128_d1 : S2048x2x128.ReducesTo [1] S2048x128
  bcast_S1x384_S2048x384_0_1 : S1x384.BroadcastsInDim S2048x384 (![0, 1] : Fin 2 → Fin S2048x384.rank)
  slices_S2048x384_S2048x128_0_0 : S2048x384.Slices ![0, 0] S2048x128
  slices_S2048x384_S2048x128_0_128 : S2048x384.Slices ![0, 128] S2048x128
  slices_S2048x384_S2048x128_0_256 : S2048x384.Slices ![0, 256] S2048x128
  bcast_S_S2048x128 : S_.BroadcastsInDim S2048x128 (![] : Fin 0 → Fin S2048x128.rank)
  concatenates_S262144x128_S131072x128_S65536x128_S32768x128_S16384x128_S8192x128_S4096x128_S2048x128_S522240x128_d0 : Shape.Concatenates [S262144x128, S131072x128, S65536x128, S32768x128, S16384x128, S8192x128, S4096x128, S2048x128] S522240x128 0
  transposes_S5x128_S128x5_1_0 : S5x128.Transposes [1, 0] S128x5
  bcast_S5_S1x5_1 : S5.BroadcastsInDim S1x5 (![1] : Fin 1 → Fin S1x5.rank)
  bcast_S1x5_S522240x5_0_1 : S1x5.BroadcastsInDim S522240x5 (![0, 1] : Fin 2 → Fin S522240x5.rank)
  gather_S32000x128_S262144x1_S262144x128_1_0_n_n_0_1_1128_wf : GatherDims.WF S32000x128 S262144x1 S262144x128 [1] [0] [] [0] [] 1 ![1, 128]
  dot_S262144x128_S128x384_S262144x384_1_0_0_1_n_n_wf : DotDims.WF S262144x128 S128x384 S262144x384 [1] [0] [0] [1] [] []
  dot_S131072x256_S256x256_S131072x256_1_0_0_1_n_n_wf : DotDims.WF S131072x256 S256x256 S131072x256 [1] [0] [0] [1] [] []
  dot_S131072x256_S256x384_S131072x384_1_0_0_1_n_n_wf : DotDims.WF S131072x256 S256x384 S131072x384 [1] [0] [0] [1] [] []
  dot_S65536x256_S256x256_S65536x256_1_0_0_1_n_n_wf : DotDims.WF S65536x256 S256x256 S65536x256 [1] [0] [0] [1] [] []
  dot_S65536x256_S256x384_S65536x384_1_0_0_1_n_n_wf : DotDims.WF S65536x256 S256x384 S65536x384 [1] [0] [0] [1] [] []
  dot_S32768x256_S256x256_S32768x256_1_0_0_1_n_n_wf : DotDims.WF S32768x256 S256x256 S32768x256 [1] [0] [0] [1] [] []
  dot_S32768x256_S256x384_S32768x384_1_0_0_1_n_n_wf : DotDims.WF S32768x256 S256x384 S32768x384 [1] [0] [0] [1] [] []
  dot_S16384x256_S256x256_S16384x256_1_0_0_1_n_n_wf : DotDims.WF S16384x256 S256x256 S16384x256 [1] [0] [0] [1] [] []
  dot_S16384x256_S256x384_S16384x384_1_0_0_1_n_n_wf : DotDims.WF S16384x256 S256x384 S16384x384 [1] [0] [0] [1] [] []
  dot_S8192x256_S256x256_S8192x256_1_0_0_1_n_n_wf : DotDims.WF S8192x256 S256x256 S8192x256 [1] [0] [0] [1] [] []
  dot_S8192x256_S256x384_S8192x384_1_0_0_1_n_n_wf : DotDims.WF S8192x256 S256x384 S8192x384 [1] [0] [0] [1] [] []
  dot_S4096x256_S256x256_S4096x256_1_0_0_1_n_n_wf : DotDims.WF S4096x256 S256x256 S4096x256 [1] [0] [0] [1] [] []
  dot_S4096x256_S256x384_S4096x384_1_0_0_1_n_n_wf : DotDims.WF S4096x256 S256x384 S4096x384 [1] [0] [0] [1] [] []
  dot_S2048x256_S256x256_S2048x256_1_0_0_1_n_n_wf : DotDims.WF S2048x256 S256x256 S2048x256 [1] [0] [0] [1] [] []
  dot_S2048x256_S256x384_S2048x384_1_0_0_1_n_n_wf : DotDims.WF S2048x256 S256x384 S2048x384 [1] [0] [0] [1] [] []
  dot_S522240x128_S128x5_S522240x5_1_0_0_1_n_n_wf : DotDims.WF S522240x128 S128x5 S522240x5 [1] [0] [0] [1] [] []

variable [Facts₀]

def gather_S32000x128_S262144x1_S262144x128_1_0_n_n_0_1_1128 : GatherDims S32000x128 S262144x1 S262144x128 where
  offsetDims := [1]
  collapsedSliceDims := [0]
  operandBatchingDims := []
  startIndicesBatchingDims := []
  startIndexMap := [0]
  indexVectorDim := 1
  sliceSizes := ![1, 128]
  wf := gather_S32000x128_S262144x1_S262144x128_1_0_n_n_0_1_1128_wf
def dot_S262144x128_S128x384_S262144x384_1_0_0_1_n_n : DotDims S262144x128 S128x384 S262144x384 where
  lhsContracting := [1]
  rhsContracting := [0]
  lhsNonContracting := [0]
  rhsNonContracting := [1]
  lhsBatch := []
  rhsBatch := []
  wf := dot_S262144x128_S128x384_S262144x384_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x384_S131072x384_1_0_0_1_n_n : DotDims S131072x256 S256x384 S131072x384 where
  lhsContracting := [1]
  rhsContracting := [0]
  lhsNonContracting := [0]
  rhsNonContracting := [1]
  lhsBatch := []
  rhsBatch := []
  wf := dot_S131072x256_S256x384_S131072x384_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x384_S65536x384_1_0_0_1_n_n : DotDims S65536x256 S256x384 S65536x384 where
  lhsContracting := [1]
  rhsContracting := [0]
  lhsNonContracting := [0]
  rhsNonContracting := [1]
  lhsBatch := []
  rhsBatch := []
  wf := dot_S65536x256_S256x384_S65536x384_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x384_S32768x384_1_0_0_1_n_n : DotDims S32768x256 S256x384 S32768x384 where
  lhsContracting := [1]
  rhsContracting := [0]
  lhsNonContracting := [0]
  rhsNonContracting := [1]
  lhsBatch := []
  rhsBatch := []
  wf := dot_S32768x256_S256x384_S32768x384_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x384_S16384x384_1_0_0_1_n_n : DotDims S16384x256 S256x384 S16384x384 where
  lhsContracting := [1]
  rhsContracting := [0]
  lhsNonContracting := [0]
  rhsNonContracting := [1]
  lhsBatch := []
  rhsBatch := []
  wf := dot_S16384x256_S256x384_S16384x384_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x384_S8192x384_1_0_0_1_n_n : DotDims S8192x256 S256x384 S8192x384 where
  lhsContracting := [1]
  rhsContracting := [0]
  lhsNonContracting := [0]
  rhsNonContracting := [1]
  lhsBatch := []
  rhsBatch := []
  wf := dot_S8192x256_S256x384_S8192x384_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf
def dot_S522240x128_S128x5_S522240x5_1_0_0_1_n_n : DotDims S522240x128 S128x5 S522240x5 where
  lhsContracting := [1]
  rhsContracting := [0]
  lhsNonContracting := [0]
  rhsNonContracting := [1]
  lhsBatch := []
  rhsBatch := []
  wf := dot_S522240x128_S128x5_S522240x5_1_0_0_1_n_n_wf

class Facts : Prop extends Facts₀ where

variable [Facts]
-- ==== Proof.KData.lean ====
import proofs.«136691_j33638183863177_2_alg».proof.Proof.Gen.Kernel.Launch
import proofs.«136691_j33638183863177_2_alg».proof.Proof.Gen.Kernel.Skeleton
import proofs.«136691_j33638183863177_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is through the whole staging buffer -/

abbrev rc_S2048x128 : Rect S2048x128 := Rect.unit (s := S2048x128) ![0, 0] S2048x128.size inb_S2048x128_S2048x128_0_0
abbrev rc_S128x384 : Rect S128x384 := Rect.unit (s := S128x384) ![0, 0] S128x384.size inb_S128x384_S128x384_0_0
abbrev rc_S1x384 : Rect S1x384 := Rect.unit (s := S1x384) ![0, 0] S1x384.size inb_S1x384_S1x384_0_0
abbrev rc_S128x5 : Rect S128x5 := Rect.unit (s := S128x5) ![0, 0] S128x5.size inb_S128x5_S128x5_0_0
abbrev rc_S1x5 : Rect S1x5 := Rect.unit (s := S1x5) ![0, 0] S1x5.size inb_S1x5_S1x5_0_0
abbrev rc_S2048x5 : Rect S2048x5 := Rect.unit (s := S2048x5) ![0, 0] S2048x5.size inb_S2048x5_S2048x5_0_0
abbrev rc_S2048x256 : Rect S2048x256 := Rect.unit (s := S2048x256) ![0, 0] S2048x256.size inb_S2048x256_S2048x256_0_0
abbrev rc_S256x256 : Rect S256x256 := Rect.unit (s := S256x256) ![0, 0] S256x256.size inb_S256x256_S256x256_0_0
abbrev rc_S1x256 : Rect S1x256 := Rect.unit (s := S1x256) ![0, 0] S1x256.size inb_S1x256_S1x256_0_0
abbrev rc_S256x384 : Rect S256x384 := Rect.unit (s := S256x384) ![0, 0] S256x384.size inb_S256x384_S256x384_0_0

section Regions
-- the TensorCore's buffer contents when a region is entered: the parameter every region's half is stated at
variable (V : (c : Dev nD) → (b : Ref sig .tc) → Buf (Elt F) ((c : Thread nD τ).loc b))

/-! # REGION 0: the leaf kernel (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 5's staging buffer after the body, from the input windows' blocks: its one store as a piece. -/
def out0_5 (x0 : Vec F S2048x128 .bf16) (x1 : Vec F S128x384 .bf16) (x2 : Vec F S1x384 .f32) : Vec F S2048x128 .bf16 :=
  View.canon [⟨rc_S2048x128, k0_pay3 (View.ld x0 rc_S2048x128) (View.ld x1 rc_S128x384) (View.ld x2 rc_S1x384)⟩]
/-- Window 6's staging buffer after the body. -/
def out0_6 (x0 : Vec F S2048x128 .bf16) (x1 : Vec F S128x384 .bf16) (x2 : Vec F S1x384 .f32) : Vec F S2048x128 .f32 :=
  View.canon [⟨rc_S2048x128, k0_pay2 (View.ld x0 rc_S2048x128) (View.ld x1 rc_S128x384) (View.ld x2 rc_S1x384)⟩]
/-- Window 7's staging buffer after the body. -/
def out0_7 (x0 : Vec F S2048x128 .bf16) (x1 : Vec F S128x384 .bf16) (x2 : Vec F S1x384 .f32) (x3 : Vec F S128x5 .bf16) (x4 : Vec F S1x5 .f32) : Vec F S2048x5 .f32 :=
  View.canon [⟨rc_S2048x5, k0_pay4 (View.ld x0 rc_S2048x128) (View.ld x1 rc_S128x384) (View.ld x2 rc_S1x384) (View.ld x3 rc_S128x5) (View.ld x4 rc_S1x5)⟩]

/-- The proof data of pipeline 0 on core `c`: the arrays as the region finds them; after the body at point `t` each
    input's buffer at its block and each output's at `out0_w` of the input blocks; the class-A invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-! # REGION 1: the internal kernel of level 1 (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 8's staging buffer after the body, from the input windows' blocks: its one store as a piece. -/
def out1_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k1_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out1_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k1_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out1_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k1_pay1 (k1_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 1 on core `c`: the arrays as the region finds them; after the body at point `t` each
    input's buffer at its block and each output's at `out1_w` of the input blocks; the class-A invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t)
    | ⟨9, _⟩ => out1_9 (iblk1 V c 0 t) (iblk1 V c 1 t) (iblk1 V c 2 t) (iblk1 V c 3 t) (iblk1 V c 4 t) (iblk1 V c 5 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) := by dsimp only [dat1]

/-! # REGION 2: the internal kernel of level 2 (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 8's staging buffer after the body, from the input windows' blocks: its one store as a piece. -/
def out2_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k2_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out2_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k2_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out2_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k2_pay1 (k2_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 2 on core `c`: the arrays as the region finds them; after the body at point `t` each
    input's buffer at its block and each output's at `out2_w` of the input blocks; the class-A invariant; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t)
    | ⟨9, _⟩ => out2_9 (iblk2 V c 0 t) (iblk2 V c 1 t) (iblk2 V c 2 t) (iblk2 V c 3 t) (iblk2 V c 4 t) (iblk2 V c 5 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) := by dsimp only [dat2]

/-! # REGION 3: the internal kernel of level 3 (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 8's staging buffer after the body, from the input windows' blocks: its one store as a piece. -/
def out3_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k3_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out3_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k3_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out3_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k3_pay1 (k3_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 3 on core `c`: the arrays as the region finds them; after the body at point `t` each
    input's buffer at its block and each output's at `out3_w` of the input blocks; the class-A invariant; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t)
    | ⟨9, _⟩ => out3_9 (iblk3 V c 0 t) (iblk3 V c 1 t) (iblk3 V c 2 t) (iblk3 V c 3 t) (iblk3 V c 4 t) (iblk3 V c 5 t)
    | ⟨10, _⟩ => out3_10 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) := by dsimp only [dat3]

/-! # REGION 4: the internal kernel of level 4 (pipeline 4), at the entry contents `V` -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 8's staging buffer after the body, from the input windows' blocks: its one store as a piece. -/
def out4_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k4_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out4_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k4_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out4_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k4_pay1 (k4_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 4 on core `c`: the arrays as the region finds them; after the body at point `t` each
    input's buffer at its block and each output's at `out4_w` of the input blocks; the class-A invariant; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t)
    | ⟨9, _⟩ => out4_9 (iblk4 V c 0 t) (iblk4 V c 1 t) (iblk4 V c 2 t) (iblk4 V c 3 t) (iblk4 V c 4 t) (iblk4 V c 5 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) := by dsimp only [dat4]

/-! # REGION 5: the internal kernel of level 5 (pipeline 5), at the entry contents `V` -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Window 8's staging buffer after the body, from the input windows' blocks: its one store as a piece. -/
def out5_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k5_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out5_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k5_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out5_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k5_pay1 (k5_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 5 on core `c`: the arrays as the region finds them; after the body at point `t` each
    input's buffer at its block and each output's at `out5_w` of the input blocks; the class-A invariant; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t)
    | ⟨9, _⟩ => out5_9 (iblk5 V c 0 t) (iblk5 V c 1 t) (iblk5 V c 2 t) (iblk5 V c 3 t) (iblk5 V c 4 t) (iblk5 V c 5 t)
    | ⟨10, _⟩ => out5_10 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) := by dsimp only [dat5]
theorem after5_10 (c : Dev nD) (t : Fin cfg5.N) : (dat5 V c).after 10 t = out5_10 (iblk5 V c 0 t) (iblk5 V c 1 t) (iblk5 V c 2 t) (iblk5 V c 3 t) (iblk5 V c 4 t) (iblk5 V c 5 t) (iblk5 V c 6 t) (iblk5 V c 7 t) := by dsimp only [dat5]

/-! # REGION 6: the internal kernel of level 6 (pipeline 6), at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Window 8's staging buffer after the body, from the input windows' blocks: its one store as a piece. -/
def out6_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k6_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out6_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k6_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out6_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k6_pay1 (k6_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 6 on core `c`: the arrays as the region finds them; after the body at point `t` each
    input's buffer at its block and each output's at `out6_w` of the input blocks; the class-A invariant; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t)
    | ⟨9, _⟩ => out6_9 (iblk6 V c 0 t) (iblk6 V c 1 t) (iblk6 V c 2 t) (iblk6 V c 3 t) (iblk6 V c 4 t) (iblk6 V c 5 t)
    | ⟨10, _⟩ => out6_10 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) (iblk6 V c 6 t) (iblk6 V c 7 t) := by dsimp only [dat6]

/-! # REGION 7: the internal kernel of level 7 (pipeline 7), at the entry contents `V` -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Window 8's staging buffer after the body, from the input windows' blocks: its one store as a piece. -/
def out7_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k7_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out7_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k7_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out7_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k7_pay1 (k7_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 7 on core `c`: the arrays as the region finds them; after the body at point `t` each
    input's buffer at its block and each output's at `out7_w` of the input blocks; the class-A invariant; nothing
    owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 3 t) (iblk7 V c 4 t) (iblk7 V c 5 t)
    | ⟨9, _⟩ => out7_9 (iblk7 V c 0 t) (iblk7 V c 1 t) (iblk7 V c 2 t) (iblk7 V c 3 t) (iblk7 V c 4 t) (iblk7 V c 5 t)
    | ⟨10, _⟩ => out7_10 (iblk7 V c 0 t) (iblk7 V c 1 t) (iblk7 V c 2 t) (iblk7 V c 3 t) (iblk7 V c 4 t) (iblk7 V c 5 t) (iblk7 V c 6 t) (iblk7 V c 7 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) := by dsimp only [dat7]
theorem after7_10 (c : Dev nD) (t : Fin cfg7.N) : (dat7 V c).after 10 t = out7_10 (iblk7 V c 0 t) (iblk7 V c 1 t) (iblk7 V c 2 t) (iblk7 V c 3 t) (iblk7 V c 4 t) (iblk7 V c 5 t) (iblk7 V c 6 t) (iblk7 V c 7 t) := by dsimp only [dat7]

end Regions

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1` (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2` (region 2's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After `hostOps3` (region 3's entry). -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After `hostOps4` (region 4's entry). -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After `hostOps5` (region 5's entry). -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After `hostOps6` (region 6's entry). -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- After `hostOps7` (region 7's entry). -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- After `hostOps8`: the contents @main returns with. -/
abbrev W17 : Dev nD → Valuation τ sig (Elt F) := fun c => StableHlo.after hostOps8 (W16 m ρ c)

end Cert.Kernel.Hand

end
-- ==== Proof.KHost.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- The references `hostOps0`'s operations write. -/
abbrev hw0 : List (Ref sig .tc) := [main_c, main_v0, main_v1, main_c_0, main_v2, main_v3, main_v4, main_v5, main_v6, main_v7, main_v8, main_v9, main_v10, main_v11, main_v12, main_v13, main_v14, main_v15, main_v16, main_v17, main_v18, main_v19]
theorem hostOps0_writes : (hostOps0 : List (HloOp τ sig (Elt F))).Forall fun op => op.writes ⊆ (hw0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps0` allocates a buffer. -/
theorem hostOps0_fresh : (hostOps0 : List (HloOp τ sig (Elt F))).Forall fun op => op.fresh = ∅ := by
  simp only [List.Forall]; repeat' constructor
/-- A reference `hostOps0` does not write holds after the stretch what it held before. -/
theorem W1_of (c : Dev nD) (r : Ref sig .tc) (h : r ∉ hw0) : W1 m ρ c (Proc.devRef .tc r) = W0 m ρ c (Proc.devRef .tc r) :=
  StableHlo.after_of_writes_sub hostOps0 _ hostOps0_writes h

/-- The references `hostOps1`'s operations write. -/
abbrev hw1 : List (Ref sig .tc) := [main_v21, main_v22]
theorem hostOps1_writes : (hostOps1 : List (HloOp τ sig (Elt F))).Forall fun op => op.writes ⊆ (hw1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps1` allocates a buffer. -/
theorem hostOps1_fresh : (hostOps1 : List (HloOp τ sig (Elt F))).Forall fun op => op.fresh = ∅ := by
  simp only [List.Forall]; repeat' constructor
/-- A reference `hostOps1` does not write holds after the stretch what it held before. -/
theorem W3_of (c : Dev nD) (r : Ref sig .tc) (h : r ∉ hw1) : W3 m ρ c (Proc.devRef .tc r) = W2 m ρ c (Proc.devRef .tc r) :=
  StableHlo.after_of_writes_sub hostOps1 _ hostOps1_writes h

/-- The references `hostOps2`'s operations write. -/
abbrev hw2 : List (Ref sig .tc) := [main_v24, main_v25]
theorem hostOps2_writes : (hostOps2 : List (HloOp τ sig (Elt F))).Forall fun op => op.writes ⊆ (hw2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps2` allocates a buffer. -/
theorem hostOps2_fresh : (hostOps2 : List (HloOp τ sig (Elt F))).Forall fun op => op.fresh = ∅ := by
  simp only [List.Forall]; repeat' constructor
/-- A reference `hostOps2` does not write holds after the stretch what it held before. -/
theorem W5_of (c : Dev nD) (r : Ref sig .tc) (h : r ∉ hw2) : W5 m ρ c (Proc.devRef .tc r) = W4 m ρ c (Proc.devRef .tc r) :=
  StableHlo.after_of_writes_sub hostOps2 _ hostOps2_writes h

/-- The references `hostOps3`'s operations write. -/
abbrev hw3 : List (Ref sig .tc) := [main_v27, main_v28]
theorem hostOps3_writes : (hostOps3 : List (HloOp τ sig (Elt F))).Forall fun op => op.writes ⊆ (hw3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps3` allocates a buffer. -/
theorem hostOps3_fresh : (hostOps3 : List (HloOp τ sig (Elt F))).Forall fun op => op.fresh = ∅ := by
  simp only [List.Forall]; repeat' constructor
/-- A reference `hostOps3` does not write holds after the stretch what it held before. -/
theorem W7_of (c : Dev nD) (r : Ref sig .tc) (h : r ∉ hw3) : W7 m ρ c (Proc.devRef .tc r) = W6 m ρ c (Proc.devRef .tc r) :=
  StableHlo.after_of_writes_sub hostOps3 _ hostOps3_writes h

/-- The references `hostOps4`'s operations write. -/
abbrev hw4 : List (Ref sig .tc) := [main_v30, main_v31]
theorem hostOps4_writes : (hostOps4 : List (HloOp τ sig (Elt F))).Forall fun op => op.writes ⊆ (hw4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps4` allocates a buffer. -/
theorem hostOps4_fresh : (hostOps4 : List (HloOp τ sig (Elt F))).Forall fun op => op.fresh = ∅ := by
  simp only [List.Forall]; repeat' constructor
/-- A reference `hostOps4` does not write holds after the stretch what it held before. -/
theorem W9_of (c : Dev nD) (r : Ref sig .tc) (h : r ∉ hw4) : W9 m ρ c (Proc.devRef .tc r) = W8 m ρ c (Proc.devRef .tc r) :=
  StableHlo.after_of_writes_sub hostOps4 _ hostOps4_writes h

/-- The references `hostOps5`'s operations write. -/
abbrev hw5 : List (Ref sig .tc) := [main_v33, main_v34]
theorem hostOps5_writes : (hostOps5 : List (HloOp τ sig (Elt F))).Forall fun op => op.writes ⊆ (hw5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps5` allocates a buffer. -/
theorem hostOps5_fresh : (hostOps5 : List (HloOp τ sig (Elt F))).Forall fun op => op.fresh = ∅ := by
  simp only [List.Forall]; repeat' constructor
/-- A reference `hostOps5` does not write holds after the stretch what it held before. -/
theorem W11_of (c : Dev nD) (r : Ref sig .tc) (h : r ∉ hw5) : W11 m ρ c (Proc.devRef .tc r) = W10 m ρ c (Proc.devRef .tc r) :=
  StableHlo.after_of_writes_sub hostOps5 _ hostOps5_writes h

/-- The references `hostOps6`'s operations write. -/
abbrev hw6 : List (Ref sig .tc) := [main_v36, main_v37]
theorem hostOps6_writes : (hostOps6 : List (HloOp τ sig (Elt F))).Forall fun op => op.writes ⊆ (hw6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps6` allocates a buffer. -/
theorem hostOps6_fresh : (hostOps6 : List (HloOp τ sig (Elt F))).Forall fun op => op.fresh = ∅ := by
  simp only [List.Forall]; repeat' constructor
/-- A reference `hostOps6` does not write holds after the stretch what it held before. -/
theorem W13_of (c : Dev nD) (r : Ref sig .tc) (h : r ∉ hw6) : W13 m ρ c (Proc.devRef .tc r) = W12 m ρ c (Proc.devRef .tc r) :=
  StableHlo.after_of_writes_sub hostOps6 _ hostOps6_writes h

/-- The references `hostOps7`'s operations write. -/
abbrev hw7 : List (Ref sig .tc) := [main_v39, main_v40]
theorem hostOps7_writes : (hostOps7 : List (HloOp τ sig (Elt F))).Forall fun op => op.writes ⊆ (hw7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps7` allocates a buffer. -/
theorem hostOps7_fresh : (hostOps7 : List (HloOp τ sig (Elt F))).Forall fun op => op.fresh = ∅ := by
  simp only [List.Forall]; repeat' constructor
/-- A reference `hostOps7` does not write holds after the stretch what it held before. -/
theorem W15_of (c : Dev nD) (r : Ref sig .tc) (h : r ∉ hw7) : W15 m ρ c (Proc.devRef .tc r) = W14 m ρ c (Proc.devRef .tc r) :=
  StableHlo.after_of_writes_sub hostOps7 _ hostOps7_writes h

/-- The references `hostOps8`'s operations write. -/
abbrev hw8 : List (Ref sig .tc) := [main_v42]
theorem hostOps8_writes : (hostOps8 : List (HloOp τ sig (Elt F))).Forall fun op => op.writes ⊆ (hw8.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps8` allocates a buffer. -/
theorem hostOps8_fresh : (hostOps8 : List (HloOp τ sig (Elt F))).Forall fun op => op.fresh = ∅ := by
  simp only [List.Forall]; repeat' constructor
/-- A reference `hostOps8` does not write holds after the stretch what it held before. -/
theorem W17_of (c : Dev nD) (r : Ref sig .tc) (h : r ∉ hw8) : W17 m ρ c (Proc.devRef .tc r) = W16 m ρ c (Proc.devRef .tc r) :=
  StableHlo.after_of_writes_sub hostOps8 _ hostOps8_writes h

/-! ## The arguments end as launched: no host operation writes one and no region stages one -/

theorem W17_main_arg0 (c : Dev nD) : W17 m ρ c (Proc.devRef .tc main_arg0) = m ((c : Thread nD τ).loc main_arg0) :=
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <|
  rfl

theorem W17_main_arg1 (c : Dev nD) : W17 m ρ c (Proc.devRef .tc main_arg1) = m ((c : Thread nD τ).loc main_arg1) :=
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <|
  rfl

theorem W17_main_arg2 (c : Dev nD) : W17 m ρ c (Proc.devRef .tc main_arg2) = m ((c : Thread nD τ).loc main_arg2) :=
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <|
  rfl

theorem W17_main_arg3 (c : Dev nD) : W17 m ρ c (Proc.devRef .tc main_arg3) = m ((c : Thread nD τ).loc main_arg3) :=
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <|
  rfl

theorem W17_main_arg4 (c : Dev nD) : W17 m ρ c (Proc.devRef .tc main_arg4) = m ((c : Thread nD τ).loc main_arg4) :=
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <|
  rfl

theorem W17_main_arg5 (c : Dev nD) : W17 m ρ c (Proc.devRef .tc main_arg5) = m ((c : Thread nD τ).loc main_arg5) :=
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <|
  rfl

theorem W17_main_arg6 (c : Dev nD) : W17 m ρ c (Proc.devRef .tc main_arg6) = m ((c : Thread nD τ).loc main_arg6) :=
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <|
  rfl

theorem W17_main_arg7 (c : Dev nD) : W17 m ρ c (Proc.devRef .tc main_arg7) = m ((c : Thread nD τ).loc main_arg7) :=
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <|
  rfl

theorem W17_main_arg8 (c : Dev nD) : W17 m ρ c (Proc.devRef .tc main_arg8) = m ((c : Thread nD τ).loc main_arg8) :=
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <|
  rfl

theorem W17_main_arg9 (c : Dev nD) : W17 m ρ c (Proc.devRef .tc main_arg9) = m ((c : Thread nD τ).loc main_arg9) :=
  (W17_of m ρ c main_arg9 (by decide)).trans <|
  (W16_of_ne m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans <|
  rfl

end Cert.Kernel.Hand

end
-- ==== Proof.KSeg.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 8) → (pcfgs (F := F) p).Adm := fun p => (cfgs p).toPCfg_adm
/-- Every pipeline's proof data, each at its region's entry contents: a literal match, so that the pinned
    configuration at a numeral reduces to the printed one. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    obligations, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its post is
    those references at the contents after the stretch, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the obligations: every unscoped buffer at the last boundary's contents `W17`, the
    generator register at some state. -/
abbrev Tₙ (c : Dev nD) : sProp 𝕄 := iprop(StableHlo.held (c : Thread nD τ) (Pipeline.ucRefs τ sig) (W17 m ρ c) ∗ ∃ r, prngReg c r)

end Cert.Kernel.Hand

end
-- ==== Proof.KRegion0.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s and whose body leaves the block in place: where the window is not fetched its block index
    has not moved, so the buffer still holds the block of the point before, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s and whose body leaves the block in place: where the window is not fetched its block index
    has not moved, so the buffer still holds the block of the point before, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s and whose body leaves the block in place: where the window is not fetched its block index
    has not moved, so the buffer still holds the block of the point before, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s and whose body leaves the block in place: where the window is not fetched its block index
    has not moved, so the buffer still holds the block of the point before, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The output windows' stores cover their buffers -/

/-- Window 5's one store is through the whole buffer, so it covers it. -/
theorem cover0_5 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 6's one store is through the whole buffer, so it covers it. -/
theorem cover0_6 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 7's one store is through the whole buffer, so it covers it. -/
theorem cover0_7 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out0_w` of the inputs'. -/
theorem sound_kernel0 (c : Dev nD) (E : Set ℕ) (i : grid0.Coords) (arg1 : Memref sig .tc .vmem S2048x128 .bf16) (harg1 : arg1.IsWhole) (arg2 : Memref sig .tc .vmem S128x384 .bf16) (harg2 : arg2.IsWhole) (arg3 : Memref sig .tc .vmem S1x384 .f32) (harg3 : arg3.IsWhole) (arg4 : Memref sig .tc .vmem S128x5 .bf16) (harg4 : arg4.IsWhole) (arg5 : Memref sig .tc .vmem S1x5 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x5 .f32) (harg8 : arg8.IsWhole)
    (x0 : Vec F S2048x128 .bf16) (x1 : Vec F S128x384 .bf16) (x2 : Vec F S1x384 .f32) (x3 : Vec F S128x5 .bf16) (x4 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2) ∗ owns (c : Thread nD τ) arg7 fullShare (out0_6 x0 x1 x2) ∗ owns (c : Thread nD τ) arg8 fullShare (out0_7 x0 x1 x2 x3 x4)) -∗ K ⟨⟩))
      ⊢ wp frame (wpE (defs₀ (F := F)) Variants.none c none) E (cc0__leaf_kernel i arg1 harg1 arg2 harg2 arg3 harg3 arg4 harg4 arg5 harg5 arg6 harg6 arg7 harg7 arg8 harg8) K := by
  simp only [cc0__leaf_kernel_eq_skeleton]; unfold cc0__leaf_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-! ## The input windows at the proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KSeg0.lean ====
import proofs.«136691_j33638183863177_2_alg».proof.Proof.KSeg
import proofs.«136691_j33638183863177_2_alg».proof.Proof.KRegion0

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion1.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s and whose body leaves the block in place: where the window is not fetched its block index
    has not moved, so the buffer still holds the block of the point before, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s and whose body leaves the block in place: where the window is not fetched its block index
    has not moved, so the buffer still holds the block of the point before, which is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s and whose body leaves the block in place: where the window is not fetched its block index
    has not moved, so the buffer still holds the block of the point before, which is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s and whose body leaves the block in place: where the window is not fetched its block index
    has not moved, so the buffer still holds the block of the point before, which is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is `V`'s and whose body leaves the block in place: where the window is not fetched its block index
    has not moved, so the buffer still holds the block of the point before, which is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof data
    whose array is `V`'s and whose body leaves the block in place: where the window is not fetched its block index
    has not moved, so the buffer still holds the block of the point before, which is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof data
    whose array is `V`'s and whose body leaves the block in place: where the window is not fetched its block index
    has not moved, so the buffer still holds the block of the point before, which is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The output windows' stores cover their buffers -/

/-- Window 8's one store is through the whole buffer, so it covers it. -/
theorem cover1_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover1_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover1_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out1_w` of the inputs'. -/
theorem sound_kernel1 (c : Dev nD) (E : Set ℕ) (i : grid1.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5) ∗ owns (c : Thread nD τ) arg10 fullShare (out1_9 x0 x1 x2 x3 x4 x5) ∗ owns (c : Thread nD τ) arg11 fullShare (out1_10 x0 x1 x2 x3 x4 x5 x6 x7)) -∗ K ⟨⟩))
      ⊢ wp frame (wpE (defs₀ (F := F)) Variants.none c none) E (cc1__internal_kernel i arg1 harg1 arg2 harg2 arg3 harg3 arg4 harg4 arg5 harg5 arg6 harg6 arg7 harg7 arg8 harg8 arg9 harg9 arg10 harg10 arg11 harg11) K := by
  simp only [cc1__internal_kernel_eq_skeleton]; unfold cc1__internal_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover1_8 _)
  isplitl [H9]
  · iexists _; isplitr
    swap; · iexact H9
    ipureintro
    try dsimp only
    exact View.read_writes_eq_canon _ _ _ (cover1_9 _)
  iexists _; isplitr
  swap; · iexact H10
  ipureintro
  try dsimp only
  exact View.read_writes_eq_canon _ _ _ (cover1_10 _)

/-! ## The input windows at the proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KSeg1.lean ====
import proofs.«136691_j33638183863177_2_alg».proof.Proof.KSeg
import proofs.«136691_j33638183863177_2_alg».proof.Proof.KRegion1

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion2.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is `V`'s and whose body leaves the block in place: where the window is not fetched its block index
    has not moved, so the buffer still holds the block of the point before, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is `V`'s and whose body leaves the block in place: where the window is not fetched its block index
    has not moved, so the buffer still holds the block of the point before, which is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is `V`'s and whose body leaves the block in place: where the window is not fetched its block index
    has not moved, so the buffer still holds the block of the point before, which is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is `V`'s and whose body leaves the block in place: where the window is not fetched its block index
    has not moved, so the buffer still holds the block of the point before, which is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof data
    whose array is `V`'s and whose body leaves the block in place: where the window is not fetched its block index
    has not moved, so the buffer still holds the block of the point before, which is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof data
    whose array is `V`'s and whose body leaves the block in place: where the window is not fetched its block index
    has not moved, so the buffer still holds the block of the point before, which is this point's. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any proof data
    whose array is `V`'s and whose body leaves the block in place: where the window is not fetched its block index
    has not moved, so the buffer still holds the block of the point before, which is this point's. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The output windows' stores cover their buffers -/

/-- Window 8's one store is through the whole buffer, so it covers it. -/
theorem cover2_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover2_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover2_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out2_w` of the inputs'. -/
theorem sound_kernel2 (c : Dev nD) (E : Set ℕ) (i : grid2.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5) ∗ owns (c : Thread nD τ) arg10 fullShare (out2_9 x0 x1 x2 x3 x4 x5) ∗ owns (c : Thread nD τ) arg11 fullShare (out2_10 x0 x1 x2 x3 x4 x5 x6 x7)) -∗ K ⟨⟩))
      ⊢ wp frame (wpE (defs₀ (F := F)) Variants.none c none) E (cc2__internal_kernel i arg1 harg1 arg2 harg2 arg3 harg3 arg4 harg4 arg5 harg5 arg6 harg6 arg7 harg7 arg8 harg8 arg9 harg9 arg10 harg10 arg11 harg11) K := by
  simp only [cc2__internal_kernel_eq_skeleton]; unfold cc2__internal_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover2_8 _)
  isplitl [H9]
  · iexists _; isplitr
    swap; · iexact H9
    ipureintro
    try dsimp only
    exact View.read_writes_eq_canon _ _ _ (cover2_9 _)
  iexists _; isplitr
  swap; · iexact H10
  ipureintro
  try dsimp only
  exact View.read_writes_eq_canon _ _ _ (cover2_10 _)

/-! ## The input windows at the proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' memrefs hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KSeg2.lean ====
import proofs.«136691_j33638183863177_2_alg».proof.Proof.KSeg
import proofs.«136691_j33638183863177_2_alg».proof.Proof.KRegion2

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion3.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof data
    whose array is `V`'s and whose body leaves the block in place: where the window is not fetched its block index
    has not moved, so the buffer still holds the block of the point before, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof data
    whose array is `V`'s and whose body leaves the block in place: where the window is not fetched its block index
    has not moved, so the buffer still holds the block of the point before, which is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof data
    whose array is `V`'s and whose body leaves the block in place: where the window is not fetched its block index
    has not moved, so the buffer still holds the block of the point before, which is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof data
    whose array is `V`'s and whose body leaves the block in place: where the window is not fetched its block index
    has not moved, so the buffer still holds the block of the point before, which is this point's. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof data
    whose array is `V`'s and whose body leaves the block in place: where the window is not fetched its block index
    has not moved, so the buffer still holds the block of the point before, which is this point's. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof data
    whose array is `V`'s and whose body leaves the block in place: where the window is not fetched its block index
    has not moved, so the buffer still holds the block of the point before, which is this point's. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof data
    whose array is `V`'s and whose body leaves the block in place: where the window is not fetched its block index
    has not moved, so the buffer still holds the block of the point before, which is this point's. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The output windows' stores cover their buffers -/

/-- Window 8's one store is through the whole buffer, so it covers it. -/
theorem cover3_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover3_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover3_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out3_w` of the inputs'. -/
theorem sound_kernel3 (c : Dev nD) (E : Set ℕ) (i : grid3.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5) ∗ owns (c : Thread nD τ) arg10 fullShare (out3_9 x0 x1 x2 x3 x4 x5) ∗ owns (c : Thread nD τ) arg11 fullShare (out3_10 x0 x1 x2 x3 x4 x5 x6 x7)) -∗ K ⟨⟩))
      ⊢ wp frame (wpE (defs₀ (F := F)) Variants.none c none) E (cc3__internal_kernel i arg1 harg1 arg2 harg2 arg3 harg3 arg4 harg4 arg5 harg5 arg6 harg6 arg7 harg7 arg8 harg8 arg9 harg9 arg10 harg10 arg11 harg11) K := by
  simp only [cc3__internal_kernel_eq_skeleton]; unfold cc3__internal_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover3_8 _)
  isplitl [H9]
  · iexists _; isplitr
    swap; · iexact H9
    ipureintro
    try dsimp only
    exact View.read_writes_eq_canon _ _ _ (cover3_9 _)
  iexists _; isplitr
  swap; · iexact H10
  ipureintro
  try dsimp only
  exact View.read_writes_eq_canon _ _ _ (cover3_10 _)

/-! ## The input windows at the proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 1000000 in
/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.KSeg3.lean ====
import proofs.«136691_j33638183863177_2_alg».proof.Proof.KSeg
import proofs.«136691_j33638183863177_2_alg».proof.Proof.KRegion3

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion4.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof data
    whose array is `V`'s and whose body leaves the block in place: where the window is not fetched its block index
    has not moved, so the buffer still holds the block of the point before, which is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof data
    whose array is `V`'s and whose body leaves the block in place: where the window is not fetched its block index
    has not moved, so the buffer still holds the block of the point before, which is this point's. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof data
    whose array is `V`'s and whose body leaves the block in place: where the window is not fetched its block index
    has not moved, so the buffer still holds the block of the point before, which is this point's. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any proof data
    whose array is `V`'s and whose body leaves the block in place: where the window is not fetched its block index
    has not moved, so the buffer still holds the block of the point before, which is this point's. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for any proof data
    whose array is `V`'s and whose body leaves the block in place: where the window is not fetched its block index
    has not moved, so the buffer still holds the block of the point before, which is this point's. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for any proof data
    whose array is `V`'s and whose body leaves the block in place: where the window is not fetched its block index
    has not moved, so the buffer still holds the block of the point before, which is this point's. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for any proof data
    whose array is `V`'s and whose body leaves the block in place: where the window is not fetched its block index
    has not moved, so the buffer still holds the block of the point before, which is this point's. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The output windows' stores cover their buffers -/

/-- Window 8's one store is through the whole buffer, so it covers it. -/
theorem cover4_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover4_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover4_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out4_w` of the inputs'. -/
theorem sound_kernel4 (c : Dev nD) (E : Set ℕ) (i : grid4.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out4_8 x0 x1 x2 x3 x4 x5) ∗ owns (c : Thread nD τ) arg10 fullShare (out4_9 x0 x1 x2 x3 x4 x5) ∗ owns (c : Thread nD τ) arg11 fullShare (out4_10 x0 x1 x2 x3 x4 x5 x6 x7)) -∗ K ⟨⟩))
      ⊢ wp frame (wpE (defs₀ (F := F)) Variants.none c none) E (cc4__internal_kernel i arg1 harg1 arg2 harg2 arg3 harg3 arg4 harg4 arg5 harg5 arg6 harg6 arg7 harg7 arg8 harg8 arg9 harg9 arg10 harg10 arg11 harg11) K := by
  simp only [cc4__internal_kernel_eq_skeleton]; unfold cc4__internal_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover4_8 _)
  isplitl [H9]
  · iexists _; isplitr
    swap; · iexact H9
    ipureintro
    try dsimp only
    exact View.read_writes_eq_canon _ _ _ (cover4_9 _)
  iexists _; isplitr
  swap; · iexact H10
  ipureintro
  try dsimp only
  exact View.read_writes_eq_canon _ _ _ (cover4_10 _)

/-! ## The input windows at the proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

set_option maxHeartbeats 1000000 in
/-- The body at any point: the inputs' memrefs hold their blocks, so the body's triple applies; the invariant and the
    core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Hand

end
-- ==== Proof.KSeg4.lean ====
import proofs.«136691_j33638183863177_2_alg».proof.Proof.KSeg
import proofs.«136691_j33638183863177_2_alg».proof.Proof.KRegion4

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion5.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof data
    whose array is `V`'s and whose body leaves the block in place: where the window is not fetched its block index
    has not moved, so the buffer still holds the block of the point before, which is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof data
    whose array is `V`'s and whose body leaves the block in place: where the window is not fetched its block index
    has not moved, so the buffer still holds the block of the point before, which is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof data
    whose array is `V`'s and whose body leaves the block in place: where the window is not fetched its block index
    has not moved, so the buffer still holds the block of the point before, which is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof data
    whose array is `V`'s and whose body leaves the block in place: where the window is not fetched its block index
    has not moved, so the buffer still holds the block of the point before, which is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof data
    whose array is `V`'s and whose body leaves the block in place: where the window is not fetched its block index
    has not moved, so the buffer still holds the block of the point before, which is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not, for any proof data
    whose array is `V`'s and whose body leaves the block in place: where the window is not fetched its block index
    has not moved, so the buffer still holds the block of the point before, which is this point's. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, fetched there or not, for any proof data
    whose array is `V`'s and whose body leaves the block in place: where the window is not fetched its block index
    has not moved, so the buffer still holds the block of the point before, which is this point's. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The output windows' stores cover their buffers -/

/-- Window 8's one store is through the whole buffer, so it covers it. -/
theorem cover5_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover5_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover5_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out5_w` of the inputs'. -/
theorem sound_kernel5 (c : Dev nD) (E : Set ℕ) (i : grid5.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out5_8 x0 x1 x2 x3 x4 x5) ∗ owns (c : Thread nD τ) arg10 fullShare (out5_9 x0 x1 x2 x3 x4 x5) ∗ owns (c : Thread nD τ) arg11 fullShare (out5_10 x0 x1 x2 x3 x4 x5 x6 x7)) -∗ K ⟨⟩))
      ⊢ wp frame (wpE (defs₀ (F := F)) Variants.none c none) E (cc5__internal_kernel i arg1 harg1 arg2 harg2 arg3 harg3 arg4 harg4 arg5 harg5 arg6 harg6 arg7 harg7 arg8 harg8 arg9 harg9 arg10 harg10 arg11 harg11) K := by
  simp only [cc5__internal_kernel_eq_skeleton]; unfold cc5__internal_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover5_8 _)
  isplitl [H9]
  · iexists _; isplitr
    swap; · iexact H9
    ipureintro
    try dsimp only
    exact View.read_writes_eq_canon _ _ _ (cover5_9 _)
  iexists _; isplitr
  swap; · iexact H10
  ipureintro
  try dsimp only
  exact View.read_writes_eq_canon _ _ _ (cover5_10 _)

/-! ## The input windows at the proof data -/

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

set_option maxHeartbeats 1000000 in
/-- The body at any point: the inputs' memrefs hold their blocks, so the body's triple applies; the invariant and the
    core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.Kernel.Hand

end
-- ==== Proof.KSeg5.lean ====
import proofs.«136691_j33638183863177_2_alg».proof.Proof.KSeg
import proofs.«136691_j33638183863177_2_alg».proof.Proof.KRegion5

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion6.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for any proof data
    whose array is `V`'s and whose body leaves the block in place: where the window is not fetched its block index
    has not moved, so the buffer still holds the block of the point before, which is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for any proof data
    whose array is `V`'s and whose body leaves the block in place: where the window is not fetched its block index
    has not moved, so the buffer still holds the block of the point before, which is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not, for any proof data
    whose array is `V`'s and whose body leaves the block in place: where the window is not fetched its block index
    has not moved, so the buffer still holds the block of the point before, which is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not, for any proof data
    whose array is `V`'s and whose body leaves the block in place: where the window is not fetched its block index
    has not moved, so the buffer still holds the block of the point before, which is this point's. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not, for any proof data
    whose array is `V`'s and whose body leaves the block in place: where the window is not fetched its block index
    has not moved, so the buffer still holds the block of the point before, which is this point's. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not, for any proof data
    whose array is `V`'s and whose body leaves the block in place: where the window is not fetched its block index
    has not moved, so the buffer still holds the block of the point before, which is this point's. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
/-- Input window 7's current staging buffer holds its block at every point, fetched there or not, for any proof data
    whose array is `V`'s and whose body leaves the block in place: where the window is not fetched its block index
    has not moved, so the buffer still holds the block of the point before, which is this point's. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The output windows' stores cover their buffers -/

/-- Window 8's one store is through the whole buffer, so it covers it. -/
theorem cover6_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover6_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover6_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out6_w` of the inputs'. -/
theorem sound_kernel6 (c : Dev nD) (E : Set ℕ) (i : grid6.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out6_8 x0 x1 x2 x3 x4 x5) ∗ owns (c : Thread nD τ) arg10 fullShare (out6_9 x0 x1 x2 x3 x4 x5) ∗ owns (c : Thread nD τ) arg11 fullShare (out6_10 x0 x1 x2 x3 x4 x5 x6 x7)) -∗ K ⟨⟩))
      ⊢ wp frame (wpE (defs₀ (F := F)) Variants.none c none) E (cc6__internal_kernel i arg1 harg1 arg2 harg2 arg3 harg3 arg4 harg4 arg5 harg5 arg6 harg6 arg7 harg7 arg8 harg8 arg9 harg9 arg10 harg10 arg11 harg11) K := by
  simp only [cc6__internal_kernel_eq_skeleton]; unfold cc6__internal_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover6_8 _)
  isplitl [H9]
  · iexists _; isplitr
    swap; · iexact H9
    ipureintro
    try dsimp only
    exact View.read_writes_eq_canon _ _ _ (cover6_9 _)
  iexists _; isplitr
  swap; · iexact H10
  ipureintro
  try dsimp only
  exact View.read_writes_eq_canon _ _ _ (cover6_10 _)

/-! ## The input windows at the proof data -/

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t))

set_option maxHeartbeats 1000000 in
/-- The body at any point: the inputs' memrefs hold their blocks, so the body's triple applies; the invariant and the
    core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.Kernel.Hand

end
-- ==== Proof.KSeg6.lean ====
import proofs.«136691_j33638183863177_2_alg».proof.Proof.KSeg
import proofs.«136691_j33638183863177_2_alg».proof.Proof.KRegion6

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion7.lean ====
import proofs.«136691_j33638183863177_2_alg».proof.Proof.KData

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for any proof data
    whose array is `V`'s and whose body leaves the block in place: where the window is not fetched its block index
    has not moved, so the buffer still holds the block of the point before, which is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not, for any proof data
    whose array is `V`'s and whose body leaves the block in place: where the window is not fetched its block index
    has not moved, so the buffer still holds the block of the point before, which is this point's. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not, for any proof data
    whose array is `V`'s and whose body leaves the block in place: where the window is not fetched its block index
    has not moved, so the buffer still holds the block of the point before, which is this point's. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not, for any proof data
    whose array is `V`'s and whose body leaves the block in place: where the window is not fetched its block index
    has not moved, so the buffer still holds the block of the point before, which is this point's. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, fetched there or not, for any proof data
    whose array is `V`'s and whose body leaves the block in place: where the window is not fetched its block index
    has not moved, so the buffer still holds the block of the point before, which is this point's. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, fetched there or not, for any proof data
    whose array is `V`'s and whose body leaves the block in place: where the window is not fetched its block index
    has not moved, so the buffer still holds the block of the point before, which is this point's. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, fetched there or not, for any proof data
    whose array is `V`'s and whose body leaves the block in place: where the window is not fetched its block index
    has not moved, so the buffer still holds the block of the point before, which is this point's. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-! ## The output windows' stores cover their buffers -/

/-- Window 8's one store is through the whole buffer, so it covers it. -/
theorem cover7_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover7_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover7_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out7_w` of the inputs'. -/
theorem sound_kernel7 (c : Dev nD) (E : Set ℕ) (i : grid7.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out7_8 x0 x1 x2 x3 x4 x5) ∗ owns (c : Thread nD τ) arg10 fullShare (out7_9 x0 x1 x2 x3 x4 x5) ∗ owns (c : Thread nD τ) arg11 fullShare (out7_10 x0 x1 x2 x3 x4 x5 x6 x7)) -∗ K ⟨⟩))
      ⊢ wp frame (wpE (defs₀ (F := F)) Variants.none c none) E (cc7__internal_kernel i arg1 harg1 arg2 harg2 arg3 harg3 arg4 harg4 arg5 harg5 arg6 harg6 arg7 harg7 arg8 harg8 arg9 harg9 arg10 harg10 arg11 harg11) K := by
  simp only [cc7__internal_kernel_eq_skeleton]; unfold cc7__internal_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover7_8 _)
  isplitl [H9]
  · iexists _; isplitr
    swap; · iexact H9
    ipureintro
    try dsimp only
    exact View.read_writes_eq_canon _ _ _ (cover7_9 _)
  iexists _; isplitr
  swap; · iexact H10
  ipureintro
  try dsimp only
  exact View.read_writes_eq_canon _ _ _ (cover7_10 _)

/-! ## The input windows at the proof data -/

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t))

set_option maxHeartbeats 1000000 in
/-- The body at any point: the inputs' memrefs hold their blocks, so the body's triple applies; the invariant and the
    core's obligations pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel7 c Set.univ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.Kernel.Hand

end
-- ==== Proof.KSeg7.lean ====
import proofs.«136691_j33638183863177_2_alg».proof.Proof.KSeg
import proofs.«136691_j33638183863177_2_alg».proof.Proof.KRegion7

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRun.lean ====
import proofs.«136691_j33638183863177_2_alg».proof.Proof.KHost
import proofs.«136691_j33638183863177_2_alg».proof.Proof.KSeg0
import proofs.«136691_j33638183863177_2_alg».proof.Proof.KSeg1
import proofs.«136691_j33638183863177_2_alg».proof.Proof.KSeg2
import proofs.«136691_j33638183863177_2_alg».proof.Proof.KSeg3
import proofs.«136691_j33638183863177_2_alg».proof.Proof.KSeg4
import proofs.«136691_j33638183863177_2_alg».proof.Proof.KSeg5
import proofs.«136691_j33638183863177_2_alg».proof.Proof.KSeg6
import proofs.«136691_j33638183863177_2_alg».proof.Proof.KSeg7

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 17 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)) ]

/-- @main is the run of the segments. -/
theorem main_run (c : Dev nD) : main (F := F) c = Pipeline.Seg.run (segs m ρ) :=
  main_segs adm (pdats m ρ) () 𝒱₀ L lv _ _ _ _ _ _ _ _ _ _ _ _ _ _ _ _ _ rfl rfl rfl rfl rfl rfl rfl rfl rfl c

-- the launch theorem's implicit arguments are found by unifying its conclusion with this one, which takes unfolding
-- plain definitions in a metavariable's type
set_option backward.isDefEq.respectTransparency.types false in
set_option maxHeartbeats 2000000 in
/-- At the compiled mesh, from any memory with zero counters, every weakly fair execution of @main on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c =>
      (show iprop(StableHlo.held (c : Thread nD τ) (Pipeline.ucRefs τ sig) (W17 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- THE FRAME: every weakly fair execution of @main terminates, nothing faulting, and every final state has the
    argument arrays as launched: each argument is an unscoped buffer, read at the last boundary's contents, which
    no segment changed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W17_main_arg0 m ρ c),
    (h c _ (mem_uc main_arg1 (by decide))).trans (W17_main_arg1 m ρ c),
    (h c _ (mem_uc main_arg2 (by decide))).trans (W17_main_arg2 m ρ c),
    (h c _ (mem_uc main_arg3 (by decide))).trans (W17_main_arg3 m ρ c),
    (h c _ (mem_uc main_arg4 (by decide))).trans (W17_main_arg4 m ρ c),
    (h c _ (mem_uc main_arg5 (by decide))).trans (W17_main_arg5 m ρ c),
    (h c _ (mem_uc main_arg6 (by decide))).trans (W17_main_arg6 m ρ c),
    (h c _ (mem_uc main_arg7 (by decide))).trans (W17_main_arg7 m ρ c),
    (h c _ (mem_uc main_arg8 (by decide))).trans (W17_main_arg8 m ρ c),
    (h c _ (mem_uc main_arg9 (by decide))).trans (W17_main_arg9 m ρ c)⟩) (run_all m ρ)

end Cert.Kernel.Hand

end
-- ==== Proof.KIData.lean ====
import proofs.«136691_j33638183863177_2_alg».proof.Proof.Gen.KernelIdeal.Launch
import proofs.«136691_j33638183863177_2_alg».proof.Proof.Gen.KernelIdeal.Skeleton
import proofs.«136691_j33638183863177_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is through the whole staging buffer -/

abbrev rc_S2048x128 : Rect S2048x128 := Rect.unit (s := S2048x128) ![0, 0] S2048x128.size inb_S2048x128_S2048x128_0_0
abbrev rc_S128x384 : Rect S128x384 := Rect.unit (s := S128x384) ![0, 0] S128x384.size inb_S128x384_S128x384_0_0
abbrev rc_S1x384 : Rect S1x384 := Rect.unit (s := S1x384) ![0, 0] S1x384.size inb_S1x384_S1x384_0_0
abbrev rc_S128x5 : Rect S128x5 := Rect.unit (s := S128x5) ![0, 0] S128x5.size inb_S128x5_S128x5_0_0
abbrev rc_S1x5 : Rect S1x5 := Rect.unit (s := S1x5) ![0, 0] S1x5.size inb_S1x5_S1x5_0_0
abbrev rc_S2048x5 : Rect S2048x5 := Rect.unit (s := S2048x5) ![0, 0] S2048x5.size inb_S2048x5_S2048x5_0_0
abbrev rc_S2048x256 : Rect S2048x256 := Rect.unit (s := S2048x256) ![0, 0] S2048x256.size inb_S2048x256_S2048x256_0_0
abbrev rc_S256x256 : Rect S256x256 := Rect.unit (s := S256x256) ![0, 0] S256x256.size inb_S256x256_S256x256_0_0
abbrev rc_S1x256 : Rect S1x256 := Rect.unit (s := S1x256) ![0, 0] S1x256.size inb_S1x256_S1x256_0_0
abbrev rc_S256x384 : Rect S256x384 := Rect.unit (s := S256x384) ![0, 0] S256x384.size inb_S256x384_S256x384_0_0

section Regions
-- the TensorCore's buffer contents when a region is entered: the parameter every region's half is stated at
variable (V : (c : Dev nD) → (b : Ref sig .tc) → Buf (Elt F) ((c : Thread nD τ).loc b))

/-! # REGION 0: the leaf kernel (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 5's staging buffer after the body, from the input windows' blocks: its one store as a piece. -/
def out0_5 (x0 : Vec F S2048x128 .bf16) (x1 : Vec F S128x384 .bf16) (x2 : Vec F S1x384 .f32) : Vec F S2048x128 .bf16 :=
  View.canon [⟨rc_S2048x128, k0_pay3 (View.ld x0 rc_S2048x128) (View.ld x1 rc_S128x384) (View.ld x2 rc_S1x384)⟩]
/-- Window 6's staging buffer after the body. -/
def out0_6 (x0 : Vec F S2048x128 .bf16) (x1 : Vec F S128x384 .bf16) (x2 : Vec F S1x384 .f32) : Vec F S2048x128 .f32 :=
  View.canon [⟨rc_S2048x128, k0_pay2 (View.ld x0 rc_S2048x128) (View.ld x1 rc_S128x384) (View.ld x2 rc_S1x384)⟩]
/-- Window 7's staging buffer after the body. -/
def out0_7 (x0 : Vec F S2048x128 .bf16) (x1 : Vec F S128x384 .bf16) (x2 : Vec F S1x384 .f32) (x3 : Vec F S128x5 .bf16) (x4 : Vec F S1x5 .f32) : Vec F S2048x5 .f32 :=
  View.canon [⟨rc_S2048x5, k0_pay4 (View.ld x0 rc_S2048x128) (View.ld x1 rc_S128x384) (View.ld x2 rc_S1x384) (View.ld x3 rc_S128x5) (View.ld x4 rc_S1x5)⟩]

/-- The proof data of pipeline 0 on core `c`: the arrays as the region finds them; after the body at point `t` each
    input's buffer at its block and each output's at `out0_w` of the input blocks; the class-A invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-! # REGION 1: the internal kernel of level 1 (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 8's staging buffer after the body, from the input windows' blocks: its one store as a piece. -/
def out1_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k1_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out1_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k1_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out1_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k1_pay1 (k1_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 1 on core `c`: the arrays as the region finds them; after the body at point `t` each
    input's buffer at its block and each output's at `out1_w` of the input blocks; the class-A invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t)
    | ⟨9, _⟩ => out1_9 (iblk1 V c 0 t) (iblk1 V c 1 t) (iblk1 V c 2 t) (iblk1 V c 3 t) (iblk1 V c 4 t) (iblk1 V c 5 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) := by dsimp only [dat1]

/-! # REGION 2: the internal kernel of level 2 (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 8's staging buffer after the body, from the input windows' blocks: its one store as a piece. -/
def out2_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k2_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out2_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k2_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out2_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k2_pay1 (k2_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 2 on core `c`: the arrays as the region finds them; after the body at point `t` each
    input's buffer at its block and each output's at `out2_w` of the input blocks; the class-A invariant; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t)
    | ⟨9, _⟩ => out2_9 (iblk2 V c 0 t) (iblk2 V c 1 t) (iblk2 V c 2 t) (iblk2 V c 3 t) (iblk2 V c 4 t) (iblk2 V c 5 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) := by dsimp only [dat2]

/-! # REGION 3: the internal kernel of level 3 (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 8's staging buffer after the body, from the input windows' blocks: its one store as a piece. -/
def out3_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k3_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out3_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k3_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out3_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k3_pay1 (k3_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 3 on core `c`: the arrays as the region finds them; after the body at point `t` each
    input's buffer at its block and each output's at `out3_w` of the input blocks; the class-A invariant; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t)
    | ⟨9, _⟩ => out3_9 (iblk3 V c 0 t) (iblk3 V c 1 t) (iblk3 V c 2 t) (iblk3 V c 3 t) (iblk3 V c 4 t) (iblk3 V c 5 t)
    | ⟨10, _⟩ => out3_10 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) := by dsimp only [dat3]

/-! # REGION 4: the internal kernel of level 4 (pipeline 4), at the entry contents `V` -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 8's staging buffer after the body, from the input windows' blocks: its one store as a piece. -/
def out4_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k4_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out4_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k4_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out4_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k4_pay1 (k4_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 4 on core `c`: the arrays as the region finds them; after the body at point `t` each
    input's buffer at its block and each output's at `out4_w` of the input blocks; the class-A invariant; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t)
    | ⟨9, _⟩ => out4_9 (iblk4 V c 0 t) (iblk4 V c 1 t) (iblk4 V c 2 t) (iblk4 V c 3 t) (iblk4 V c 4 t) (iblk4 V c 5 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) := by dsimp only [dat4]

/-! # REGION 5: the internal kernel of level 5 (pipeline 5), at the entry contents `V` -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Window 8's staging buffer after the body, from the input windows' blocks: its one store as a piece. -/
def out5_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k5_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out5_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k5_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out5_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k5_pay1 (k5_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 5 on core `c`: the arrays as the region finds them; after the body at point `t` each
    input's buffer at its block and each output's at `out5_w` of the input blocks; the class-A invariant; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t)
    | ⟨9, _⟩ => out5_9 (iblk5 V c 0 t) (iblk5 V c 1 t) (iblk5 V c 2 t) (iblk5 V c 3 t) (iblk5 V c 4 t) (iblk5 V c 5 t)
    | ⟨10, _⟩ => out5_10 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) := by dsimp only [dat5]
theorem after5_10 (c : Dev nD) (t : Fin cfg5.N) : (dat5 V c).after 10 t = out5_10 (iblk5 V c 0 t) (iblk5 V c 1 t) (iblk5 V c 2 t) (iblk5 V c 3 t) (iblk5 V c 4 t) (iblk5 V c 5 t) (iblk5 V c 6 t) (iblk5 V c 7 t) := by dsimp only [dat5]

/-! # REGION 6: the internal kernel of level 6 (pipeline 6), at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Window 8's staging buffer after the body, from the input windows' blocks: its one store as a piece. -/
def out6_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k6_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out6_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k6_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out6_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k6_pay1 (k6_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 6 on core `c`: the arrays as the region finds them; after the body at point `t` each
    input's buffer at its block and each output's at `out6_w` of the input blocks; the class-A invariant; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t)
    | ⟨9, _⟩ => out6_9 (iblk6 V c 0 t) (iblk6 V c 1 t) (iblk6 V c 2 t) (iblk6 V c 3 t) (iblk6 V c 4 t) (iblk6 V c 5 t)
    | ⟨10, _⟩ => out6_10 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) (iblk6 V c 6 t) (iblk6 V c 7 t) := by dsimp only [dat6]

/-! # REGION 7: the internal kernel of level 7 (pipeline 7), at the entry contents `V` -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Window 8's staging buffer after the body, from the input windows' blocks: its one store as a piece. -/
def out7_8 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .bf16 :=
  View.canon [⟨rc_S2048x128, k7_pay5 (View.ld x0 rc_S2048x256) (View.ld x1 rc_S2048x256) (View.ld x2 rc_S256x256) (View.ld x3 rc_S1x256) (View.ld x4 rc_S256x384) (View.ld x5 rc_S1x384)⟩]
/-- Window 9's staging buffer after the body. -/
def out7_9 (x0 : Vec F S2048x256 .bf16) (x1 : Vec F S2048x256 .f32) (x2 : Vec F S256x256 .bf16) (x3 : Vec F S1x256 .f32) (x4 : Vec F S256x384 .bf16) (x5 : Vec F S1x384 .f32) : Vec F S2048x128 .f32 :=
  View.canon [⟨rc_S2048x128, k7_pay4 (View.ld x0 rc_S2048x256) (View.ld x1 rc_S2048x256) (View.ld x2 rc_S256x256) (View.ld x3 rc_S1x256) (View.ld x4 rc_S256x384) (View.ld x5 rc_S1x384)⟩]
/-- Window 10's staging buffer after the body: its payload reads the value stored to window 8. -/
def out7_10 (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) : Vec F S2048x5 .f32 :=
  View.canon [⟨rc_S2048x5, k7_pay1 (k7_pay5 (View.ld x0 rc_S2048x256) (View.ld x1 rc_S2048x256) (View.ld x2 rc_S256x256) (View.ld x3 rc_S1x256) (View.ld x4 rc_S256x384) (View.ld x5 rc_S1x384)) (View.ld x6 rc_S128x5) (View.ld x7 rc_S1x5)⟩]

/-- The proof data of pipeline 7 on core `c`: the arrays as the region finds them; after the body at point `t` each
    input's buffer at its block and each output's at `out7_w` of the input blocks; the class-A invariant; nothing
    owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 3 t) (iblk7 V c 4 t) (iblk7 V c 5 t)
    | ⟨9, _⟩ => out7_9 (iblk7 V c 0 t) (iblk7 V c 1 t) (iblk7 V c 2 t) (iblk7 V c 3 t) (iblk7 V c 4 t) (iblk7 V c 5 t)
    | ⟨10, _⟩ => out7_10 (iblk7 V c 0 t) (iblk7 V c 1 t) (iblk7 V c 2 t) (iblk7 V c 3 t) (iblk7 V c 4 t) (iblk7 V c 5 t) (iblk7 V c 6 t) (iblk7 V c 7 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) := by dsimp only [dat7]
theorem after7_10 (c : Dev nD) (t : Fin cfg7.N) : (dat7 V c).after 10 t = out7_10 (iblk7 V c 0 t) (iblk7 V c 1 t) (iblk7 V c 2 t) (iblk7 V c 3 t) (iblk7 V c 4 t) (iblk7 V c 5 t) (iblk7 V c 6 t) (iblk7 V c 7 t) := by dsimp only [dat7]

end Regions

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1` (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2` (region 2's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After `hostOps3` (region 3's entry). -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After `hostOps4` (region 4's entry). -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After `hostOps5` (region 5's entry). -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After `hostOps6` (region 6's entry). -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- After `hostOps7` (region 7's entry). -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- After `hostOps8`: the contents @main returns with. -/
abbrev W17 : Dev nD → Valuation τ sig (Elt F) := fun c => StableHlo.after hostOps8 (W16 m ρ c)

end Cert.KernelIdeal.Hand

end
-- ==== Proof.KIHost.lean ====
/- The host stretches of @main in the frame run: the references each stretch writes, that none allocates, that a reference no stretch writes and no region stages keeps its contents through every segment boundary, and with it each argument array read back through the fold to its launch contents. -/
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- The references `hostOps0`'s operations write. -/
abbrev hw0 : List (Ref sig .tc) := [main_c, main_v0, main_v1, main_c_0, main_v2, main_v3, main_v4, main_v5, main_v6, main_v7, main_v8, main_v9, main_v10, main_v11, main_v12, main_v13, main_v14, main_v15, main_v16, main_v17, main_v18, main_v19]
theorem hostOps0_writes : (hostOps0 : List (HloOp τ sig (Elt F))).Forall fun op => op.writes ⊆ (hw0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps0` allocates a buffer. -/
theorem hostOps0_fresh : (hostOps0 : List (HloOp τ sig (Elt F))).Forall fun op => op.fresh = ∅ := by
  simp only [List.Forall]; repeat' constructor
/-- A reference `hostOps0` does not write holds after the stretch what it held before. -/
theorem W1_of (c : Dev nD) (r : Ref sig .tc) (h : r ∉ hw0) : W1 m ρ c (Proc.devRef .tc r) = W0 m ρ c (Proc.devRef .tc r) :=
  StableHlo.after_of_writes_sub hostOps0 _ hostOps0_writes h

/-- The references `hostOps1`'s operations write. -/
abbrev hw1 : List (Ref sig .tc) := [main_v21, main_v22]
theorem hostOps1_writes : (hostOps1 : List (HloOp τ sig (Elt F))).Forall fun op => op.writes ⊆ (hw1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps1` allocates a buffer. -/
theorem hostOps1_fresh : (hostOps1 : List (HloOp τ sig (Elt F))).Forall fun op => op.fresh = ∅ := by
  simp only [List.Forall]; repeat' constructor
/-- A reference `hostOps1` does not write holds after the stretch what it held before. -/
theorem W3_of (c : Dev nD) (r : Ref sig .tc) (h : r ∉ hw1) : W3 m ρ c (Proc.devRef .tc r) = W2 m ρ c (Proc.devRef .tc r) :=
  StableHlo.after_of_writes_sub hostOps1 _ hostOps1_writes h

/-- The references `hostOps2`'s operations write. -/
abbrev hw2 : List (Ref sig .tc) := [main_v24, main_v25]
theorem hostOps2_writes : (hostOps2 : List (HloOp τ sig (Elt F))).Forall fun op => op.writes ⊆ (hw2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps2` allocates a buffer. -/
theorem hostOps2_fresh : (hostOps2 : List (HloOp τ sig (Elt F))).Forall fun op => op.fresh = ∅ := by
  simp only [List.Forall]; repeat' constructor
/-- A reference `hostOps2` does not write holds after the stretch what it held before. -/
theorem W5_of (c : Dev nD) (r : Ref sig .tc) (h : r ∉ hw2) : W5 m ρ c (Proc.devRef .tc r) = W4 m ρ c (Proc.devRef .tc r) :=
  StableHlo.after_of_writes_sub hostOps2 _ hostOps2_writes h

/-- The references `hostOps3`'s operations write. -/
abbrev hw3 : List (Ref sig .tc) := [main_v27, main_v28]
theorem hostOps3_writes : (hostOps3 : List (HloOp τ sig (Elt F))).Forall fun op => op.writes ⊆ (hw3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps3` allocates a buffer. -/
theorem hostOps3_fresh : (hostOps3 : List (HloOp τ sig (Elt F))).Forall fun op => op.fresh = ∅ := by
  simp only [List.Forall]; repeat' constructor
/-- A reference `hostOps3` does not write holds after the stretch what it held before. -/
theorem W7_of (c : Dev nD) (r : Ref sig .tc) (h : r ∉ hw3) : W7 m ρ c (Proc.devRef .tc r) = W6 m ρ c (Proc.devRef .tc r) :=
  StableHlo.after_of_writes_sub hostOps3 _ hostOps3_writes h

/-- The references `hostOps4`'s operations write. -/
abbrev hw4 : List (Ref sig .tc) := [main_v30, main_v31]
theorem hostOps4_writes : (hostOps4 : List (HloOp τ sig (Elt F))).Forall fun op => op.writes ⊆ (hw4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps4` allocates a buffer. -/
theorem hostOps4_fresh : (hostOps4 : List (HloOp τ sig (Elt F))).Forall fun op => op.fresh = ∅ := by
  simp only [List.Forall]; repeat' constructor
/-- A reference `hostOps4` does not write holds after the stretch what it held before. -/
theorem W9_of (c : Dev nD) (r : Ref sig .tc) (h : r ∉ hw4) : W9 m ρ c (Proc.devRef .tc r) = W8 m ρ c (Proc.devRef .tc r) :=
  StableHlo.after_of_writes_sub hostOps4 _ hostOps4_writes h

/-- The references `hostOps5`'s operations write. -/
abbrev hw5 : List (Ref sig .tc) := [main_v33, main_v34]
theorem hostOps5_writes : (hostOps5 : List (HloOp τ sig (Elt F))).Forall fun op => op.writes ⊆ (hw5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps5` allocates a buffer. -/
theorem hostOps5_fresh : (hostOps5 : List (HloOp τ sig (Elt F))).Forall fun op => op.fresh = ∅ := by
  simp only [List.Forall]; repeat' constructor
/-- A reference `hostOps5` does not write holds after the stretch what it held before. -/
theorem W11_of (c : Dev nD) (r : Ref sig .tc) (h : r ∉ hw5) : W11 m ρ c (Proc.devRef .tc r) = W10 m ρ c (Proc.devRef .tc r) :=
  StableHlo.after_of_writes_sub hostOps5 _ hostOps5_writes h

/-- The references `hostOps6`'s operations write. -/
abbrev hw6 : List (Ref sig .tc) := [main_v36, main_v37]
theorem hostOps6_writes : (hostOps6 : List (HloOp τ sig (Elt F))).Forall fun op => op.writes ⊆ (hw6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps6` allocates a buffer. -/
theorem hostOps6_fresh : (hostOps6 : List (HloOp τ sig (Elt F))).Forall fun op => op.fresh = ∅ := by
  simp only [List.Forall]; repeat' constructor
/-- A reference `hostOps6` does not write holds after the stretch what it held before. -/
theorem W13_of (c : Dev nD) (r : Ref sig .tc) (h : r ∉ hw6) : W13 m ρ c (Proc.devRef .tc r) = W12 m ρ c (Proc.devRef .tc r) :=
  StableHlo.after_of_writes_sub hostOps6 _ hostOps6_writes h

/-- The references `hostOps7`'s operations write. -/
abbrev hw7 : List (Ref sig .tc) := [main_v39, main_v40]
theorem hostOps7_writes : (hostOps7 : List (HloOp τ sig (Elt F))).Forall fun op => op.writes ⊆ (hw7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps7` allocates a buffer. -/
theorem hostOps7_fresh : (hostOps7 : List (HloOp τ sig (Elt F))).Forall fun op => op.fresh = ∅ := by
  simp only [List.Forall]; repeat' constructor
/-- A reference `hostOps7` does not write holds after the stretch what it held before. -/
theorem W15_of (c : Dev nD) (r : Ref sig .tc) (h : r ∉ hw7) : W15 m ρ c (Proc.devRef .tc r) = W14 m ρ c (Proc.devRef .tc r) :=
  StableHlo.after_of_writes_sub hostOps7 _ hostOps7_writes h

/-- The references `hostOps8`'s operations write. -/
abbrev hw8 : List (Ref sig .tc) := [main_v42]
theorem hostOps8_writes : (hostOps8 : List (HloOp τ sig (Elt F))).Forall fun op => op.writes ⊆ (hw8.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps8` allocates a buffer. -/
theorem hostOps8_fresh : (hostOps8 : List (HloOp τ sig (Elt F))).Forall fun op => op.fresh = ∅ := by
  simp only [List.Forall]; repeat' constructor
/-- A reference `hostOps8` does not write holds after the stretch what it held before. -/
theorem W17_of (c : Dev nD) (r : Ref sig .tc) (h : r ∉ hw8) : W17 m ρ c (Proc.devRef .tc r) = W16 m ρ c (Proc.devRef .tc r) :=
  StableHlo.after_of_writes_sub hostOps8 _ hostOps8_writes h

/-! ## The arguments end as launched: no host operation writes one and no region stages one -/

theorem W17_main_arg0 (c : Dev nD) : W17 m ρ c (Proc.devRef .tc main_arg0) = m ((c : Thread nD τ).loc main_arg0) :=
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <|
  rfl

theorem W17_main_arg1 (c : Dev nD) : W17 m ρ c (Proc.devRef .tc main_arg1) = m ((c : Thread nD τ).loc main_arg1) :=
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <|
  rfl

theorem W17_main_arg2 (c : Dev nD) : W17 m ρ c (Proc.devRef .tc main_arg2) = m ((c : Thread nD τ).loc main_arg2) :=
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <|
  rfl

theorem W17_main_arg3 (c : Dev nD) : W17 m ρ c (Proc.devRef .tc main_arg3) = m ((c : Thread nD τ).loc main_arg3) :=
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <|
  rfl

theorem W17_main_arg4 (c : Dev nD) : W17 m ρ c (Proc.devRef .tc main_arg4) = m ((c : Thread nD τ).loc main_arg4) :=
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <|
  rfl

theorem W17_main_arg5 (c : Dev nD) : W17 m ρ c (Proc.devRef .tc main_arg5) = m ((c : Thread nD τ).loc main_arg5) :=
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <|
  rfl

theorem W17_main_arg6 (c : Dev nD) : W17 m ρ c (Proc.devRef .tc main_arg6) = m ((c : Thread nD τ).loc main_arg6) :=
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <|
  rfl

theorem W17_main_arg7 (c : Dev nD) : W17 m ρ c (Proc.devRef .tc main_arg7) = m ((c : Thread nD τ).loc main_arg7) :=
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <|
  rfl

theorem W17_main_arg8 (c : Dev nD) : W17 m ρ c (Proc.devRef .tc main_arg8) = m ((c : Thread nD τ).loc main_arg8) :=
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <|
  rfl

theorem W17_main_arg9 (c : Dev nD) : W17 m ρ c (Proc.devRef .tc main_arg9) = m ((c : Thread nD τ).loc main_arg9) :=
  (W17_of m ρ c main_arg9 (by decide)).trans <|
  (W16_of_ne m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans <|
  rfl

end Cert.KernelIdeal.Hand

end
-- ==== Proof.KISeg.lean ====
/- The thread state of the frame run: every pipeline's proof data at its region's entry contents, what rides beside the buffers through every segment (the generator register at some state, nothing owed), and a host stretch as a segment over the unscoped buffers. -/
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 8) → (pcfgs (F := F) p).Adm := fun p => (cfgs p).toPCfg_adm
/-- Every pipeline's proof data, each at its region's entry contents: a literal match, so that the pinned
    configuration at a numeral reduces to the printed one. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    obligations, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its post is
    those references at the contents after the stretch, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the obligations: every unscoped buffer at the last boundary's contents `W17`, the
    generator register at some state. -/
abbrev Tₙ (c : Dev nD) : sProp 𝕄 := iprop(StableHlo.held (c : Thread nD τ) (Pipeline.ucRefs τ sig) (W17 m ρ c) ∗ ∃ r, prngReg c r)

end Cert.KernelIdeal.Hand

end
-- ==== Proof.KIRegion0.lean ====
/- Region 0 of the frame run (the leaf kernel): each input window's staging buffer holds its block at every point, the body's triple, and the body obligation of the pipeline's proof data. -/
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s and whose body leaves the block in place: where the window is not fetched its block index
    has not moved, so the buffer still holds the block of the point before, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s and whose body leaves the block in place: where the window is not fetched its block index
    has not moved, so the buffer still holds the block of the point before, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s and whose body leaves the block in place: where the window is not fetched its block index
    has not moved, so the buffer still holds the block of the point before, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s and whose body leaves the block in place: where the window is not fetched its block index
    has not moved, so the buffer still holds the block of the point before, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The output windows' stores cover their buffers -/

/-- Window 5's one store is through the whole buffer, so it covers it. -/
theorem cover0_5 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 6's one store is through the whole buffer, so it covers it. -/
theorem cover0_6 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 7's one store is through the whole buffer, so it covers it. -/
theorem cover0_7 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out0_w` of the inputs'. -/
theorem sound_kernel0 (c : Dev nD) (E : Set ℕ) (i : grid0.Coords) (arg1 : Memref sig .tc .vmem S2048x128 .bf16) (harg1 : arg1.IsWhole) (arg2 : Memref sig .tc .vmem S128x384 .bf16) (harg2 : arg2.IsWhole) (arg3 : Memref sig .tc .vmem S1x384 .f32) (harg3 : arg3.IsWhole) (arg4 : Memref sig .tc .vmem S128x5 .bf16) (harg4 : arg4.IsWhole) (arg5 : Memref sig .tc .vmem S1x5 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x5 .f32) (harg8 : arg8.IsWhole)
    (x0 : Vec F S2048x128 .bf16) (x1 : Vec F S128x384 .bf16) (x2 : Vec F S1x384 .f32) (x3 : Vec F S128x5 .bf16) (x4 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2) ∗ owns (c : Thread nD τ) arg7 fullShare (out0_6 x0 x1 x2) ∗ owns (c : Thread nD τ) arg8 fullShare (out0_7 x0 x1 x2 x3 x4)) -∗ K ⟨⟩))
      ⊢ wp frame (wpE (defs₀ (F := F)) Variants.none c none) E (cc0__leaf_kernel i arg1 harg1 arg2 harg2 arg3 harg3 arg4 harg4 arg5 harg5 arg6 harg6 arg7 harg7 arg8 harg8) K := by
  simp only [cc0__leaf_kernel_eq_skeleton]; unfold cc0__leaf_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-! ## The input windows at the proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KISeg0.lean ====
/- Region 0 of @main as a segment of the frame run over the thread state: entered from every unscoped buffer at the contents `W1`, left at `W2`; its arrays split out of the unscoped buffers and put back at the exit contents, the generator register into the class invariant and out, nothing owed, no semaphore of the kernel's own. -/
import proofs.«136691_j33638183863177_2_alg».proof.Proof.KISeg
import proofs.«136691_j33638183863177_2_alg».proof.Proof.KIRegion0

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion1.lean ====
/- Region 1 of the frame run (the internal kernel of level 1): each input window's staging buffer holds its block at every point, the body's triple, and the body obligation of the pipeline's proof data. -/
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s and whose body leaves the block in place: where the window is not fetched its block index
    has not moved, so the buffer still holds the block of the point before, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s and whose body leaves the block in place: where the window is not fetched its block index
    has not moved, so the buffer still holds the block of the point before, which is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s and whose body leaves the block in place: where the window is not fetched its block index
    has not moved, so the buffer still holds the block of the point before, which is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s and whose body leaves the block in place: where the window is not fetched its block index
    has not moved, so the buffer still holds the block of the point before, which is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is `V`'s and whose body leaves the block in place: where the window is not fetched its block index
    has not moved, so the buffer still holds the block of the point before, which is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof data
    whose array is `V`'s and whose body leaves the block in place: where the window is not fetched its block index
    has not moved, so the buffer still holds the block of the point before, which is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof data
    whose array is `V`'s and whose body leaves the block in place: where the window is not fetched its block index
    has not moved, so the buffer still holds the block of the point before, which is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The output windows' stores cover their buffers -/

/-- Window 8's one store is through the whole buffer, so it covers it. -/
theorem cover1_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover1_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover1_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out1_w` of the inputs'. -/
theorem sound_kernel1 (c : Dev nD) (E : Set ℕ) (i : grid1.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5) ∗ owns (c : Thread nD τ) arg10 fullShare (out1_9 x0 x1 x2 x3 x4 x5) ∗ owns (c : Thread nD τ) arg11 fullShare (out1_10 x0 x1 x2 x3 x4 x5 x6 x7)) -∗ K ⟨⟩))
      ⊢ wp frame (wpE (defs₀ (F := F)) Variants.none c none) E (cc1__internal_kernel i arg1 harg1 arg2 harg2 arg3 harg3 arg4 harg4 arg5 harg5 arg6 harg6 arg7 harg7 arg8 harg8 arg9 harg9 arg10 harg10 arg11 harg11) K := by
  simp only [cc1__internal_kernel_eq_skeleton]; unfold cc1__internal_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover1_8 _)
  isplitl [H9]
  · iexists _; isplitr
    swap; · iexact H9
    ipureintro
    try dsimp only
    exact View.read_writes_eq_canon _ _ _ (cover1_9 _)
  iexists _; isplitr
  swap; · iexact H10
  ipureintro
  try dsimp only
  exact View.read_writes_eq_canon _ _ _ (cover1_10 _)

/-! ## The input windows at the proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KISeg1.lean ====
/- Region 1 of @main as a segment of the frame run over the thread state: entered from every unscoped buffer at the contents `W3`, left at `W4`; its arrays split out of the unscoped buffers and put back at the exit contents, the generator register into the class invariant and out, nothing owed, no semaphore of the kernel's own. -/
import proofs.«136691_j33638183863177_2_alg».proof.Proof.KISeg
import proofs.«136691_j33638183863177_2_alg».proof.Proof.KIRegion1

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion2.lean ====
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is `V`'s and whose body leaves the block in place: where the window is not fetched its block index
    has not moved, so the buffer still holds the block of the point before, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is `V`'s and whose body leaves the block in place: where the window is not fetched its block index
    has not moved, so the buffer still holds the block of the point before, which is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is `V`'s and whose body leaves the block in place: where the window is not fetched its block index
    has not moved, so the buffer still holds the block of the point before, which is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is `V`'s and whose body leaves the block in place: where the window is not fetched its block index
    has not moved, so the buffer still holds the block of the point before, which is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof data
    whose array is `V`'s and whose body leaves the block in place: where the window is not fetched its block index
    has not moved, so the buffer still holds the block of the point before, which is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof data
    whose array is `V`'s and whose body leaves the block in place: where the window is not fetched its block index
    has not moved, so the buffer still holds the block of the point before, which is this point's. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any proof data
    whose array is `V`'s and whose body leaves the block in place: where the window is not fetched its block index
    has not moved, so the buffer still holds the block of the point before, which is this point's. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The output windows' stores cover their buffers -/

/-- Window 8's one store is through the whole buffer, so it covers it. -/
theorem cover2_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover2_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover2_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out2_w` of the inputs'. -/
theorem sound_kernel2 (c : Dev nD) (E : Set ℕ) (i : grid2.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5) ∗ owns (c : Thread nD τ) arg10 fullShare (out2_9 x0 x1 x2 x3 x4 x5) ∗ owns (c : Thread nD τ) arg11 fullShare (out2_10 x0 x1 x2 x3 x4 x5 x6 x7)) -∗ K ⟨⟩))
      ⊢ wp frame (wpE (defs₀ (F := F)) Variants.none c none) E (cc2__internal_kernel i arg1 harg1 arg2 harg2 arg3 harg3 arg4 harg4 arg5 harg5 arg6 harg6 arg7 harg7 arg8 harg8 arg9 harg9 arg10 harg10 arg11 harg11) K := by
  simp only [cc2__internal_kernel_eq_skeleton]; unfold cc2__internal_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover2_8 _)
  isplitl [H9]
  · iexists _; isplitr
    swap; · iexact H9
    ipureintro
    try dsimp only
    exact View.read_writes_eq_canon _ _ _ (cover2_9 _)
  iexists _; isplitr
  swap; · iexact H10
  ipureintro
  try dsimp only
  exact View.read_writes_eq_canon _ _ _ (cover2_10 _)

/-! ## The input windows at the proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' memrefs hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KISeg2.lean ====
import proofs.«136691_j33638183863177_2_alg».proof.Proof.KISeg
import proofs.«136691_j33638183863177_2_alg».proof.Proof.KIRegion2

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion3.lean ====
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof data
    whose array is `V`'s and whose body leaves the block in place: where the window is not fetched its block index
    has not moved, so the buffer still holds the block of the point before, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof data
    whose array is `V`'s and whose body leaves the block in place: where the window is not fetched its block index
    has not moved, so the buffer still holds the block of the point before, which is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof data
    whose array is `V`'s and whose body leaves the block in place: where the window is not fetched its block index
    has not moved, so the buffer still holds the block of the point before, which is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof data
    whose array is `V`'s and whose body leaves the block in place: where the window is not fetched its block index
    has not moved, so the buffer still holds the block of the point before, which is this point's. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof data
    whose array is `V`'s and whose body leaves the block in place: where the window is not fetched its block index
    has not moved, so the buffer still holds the block of the point before, which is this point's. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof data
    whose array is `V`'s and whose body leaves the block in place: where the window is not fetched its block index
    has not moved, so the buffer still holds the block of the point before, which is this point's. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof data
    whose array is `V`'s and whose body leaves the block in place: where the window is not fetched its block index
    has not moved, so the buffer still holds the block of the point before, which is this point's. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The output windows' stores cover their buffers -/

/-- Window 8's one store is through the whole buffer, so it covers it. -/
theorem cover3_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover3_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover3_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out3_w` of the inputs'. -/
theorem sound_kernel3 (c : Dev nD) (E : Set ℕ) (i : grid3.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5) ∗ owns (c : Thread nD τ) arg10 fullShare (out3_9 x0 x1 x2 x3 x4 x5) ∗ owns (c : Thread nD τ) arg11 fullShare (out3_10 x0 x1 x2 x3 x4 x5 x6 x7)) -∗ K ⟨⟩))
      ⊢ wp frame (wpE (defs₀ (F := F)) Variants.none c none) E (cc3__internal_kernel i arg1 harg1 arg2 harg2 arg3 harg3 arg4 harg4 arg5 harg5 arg6 harg6 arg7 harg7 arg8 harg8 arg9 harg9 arg10 harg10 arg11 harg11) K := by
  simp only [cc3__internal_kernel_eq_skeleton]; unfold cc3__internal_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover3_8 _)
  isplitl [H9]
  · iexists _; isplitr
    swap; · iexact H9
    ipureintro
    try dsimp only
    exact View.read_writes_eq_canon _ _ _ (cover3_9 _)
  iexists _; isplitr
  swap; · iexact H10
  ipureintro
  try dsimp only
  exact View.read_writes_eq_canon _ _ _ (cover3_10 _)

/-! ## The input windows at the proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 1000000 in
/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KISeg3.lean ====
import proofs.«136691_j33638183863177_2_alg».proof.Proof.KISeg
import proofs.«136691_j33638183863177_2_alg».proof.Proof.KIRegion3

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion4.lean ====
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof data
    whose array is `V`'s and whose body leaves the block in place: where the window is not fetched its block index
    has not moved, so the buffer still holds the block of the point before, which is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof data
    whose array is `V`'s and whose body leaves the block in place: where the window is not fetched its block index
    has not moved, so the buffer still holds the block of the point before, which is this point's. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof data
    whose array is `V`'s and whose body leaves the block in place: where the window is not fetched its block index
    has not moved, so the buffer still holds the block of the point before, which is this point's. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any proof data
    whose array is `V`'s and whose body leaves the block in place: where the window is not fetched its block index
    has not moved, so the buffer still holds the block of the point before, which is this point's. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for any proof data
    whose array is `V`'s and whose body leaves the block in place: where the window is not fetched its block index
    has not moved, so the buffer still holds the block of the point before, which is this point's. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for any proof data
    whose array is `V`'s and whose body leaves the block in place: where the window is not fetched its block index
    has not moved, so the buffer still holds the block of the point before, which is this point's. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for any proof data
    whose array is `V`'s and whose body leaves the block in place: where the window is not fetched its block index
    has not moved, so the buffer still holds the block of the point before, which is this point's. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The output windows' stores cover their buffers -/

/-- Window 8's one store is through the whole buffer, so it covers it. -/
theorem cover4_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover4_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover4_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out4_w` of the inputs'. -/
theorem sound_kernel4 (c : Dev nD) (E : Set ℕ) (i : grid4.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out4_8 x0 x1 x2 x3 x4 x5) ∗ owns (c : Thread nD τ) arg10 fullShare (out4_9 x0 x1 x2 x3 x4 x5) ∗ owns (c : Thread nD τ) arg11 fullShare (out4_10 x0 x1 x2 x3 x4 x5 x6 x7)) -∗ K ⟨⟩))
      ⊢ wp frame (wpE (defs₀ (F := F)) Variants.none c none) E (cc4__internal_kernel i arg1 harg1 arg2 harg2 arg3 harg3 arg4 harg4 arg5 harg5 arg6 harg6 arg7 harg7 arg8 harg8 arg9 harg9 arg10 harg10 arg11 harg11) K := by
  simp only [cc4__internal_kernel_eq_skeleton]; unfold cc4__internal_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover4_8 _)
  isplitl [H9]
  · iexists _; isplitr
    swap; · iexact H9
    ipureintro
    try dsimp only
    exact View.read_writes_eq_canon _ _ _ (cover4_9 _)
  iexists _; isplitr
  swap; · iexact H10
  ipureintro
  try dsimp only
  exact View.read_writes_eq_canon _ _ _ (cover4_10 _)

/-! ## The input windows at the proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

set_option maxHeartbeats 1000000 in
/-- The body at any point: the inputs' memrefs hold their blocks, so the body's triple applies; the invariant and the
    core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Hand

end
-- ==== Proof.KISeg4.lean ====
import proofs.«136691_j33638183863177_2_alg».proof.Proof.KISeg
import proofs.«136691_j33638183863177_2_alg».proof.Proof.KIRegion4

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion5.lean ====
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof data
    whose array is `V`'s and whose body leaves the block in place: where the window is not fetched its block index
    has not moved, so the buffer still holds the block of the point before, which is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof data
    whose array is `V`'s and whose body leaves the block in place: where the window is not fetched its block index
    has not moved, so the buffer still holds the block of the point before, which is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof data
    whose array is `V`'s and whose body leaves the block in place: where the window is not fetched its block index
    has not moved, so the buffer still holds the block of the point before, which is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof data
    whose array is `V`'s and whose body leaves the block in place: where the window is not fetched its block index
    has not moved, so the buffer still holds the block of the point before, which is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof data
    whose array is `V`'s and whose body leaves the block in place: where the window is not fetched its block index
    has not moved, so the buffer still holds the block of the point before, which is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not, for any proof data
    whose array is `V`'s and whose body leaves the block in place: where the window is not fetched its block index
    has not moved, so the buffer still holds the block of the point before, which is this point's. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, fetched there or not, for any proof data
    whose array is `V`'s and whose body leaves the block in place: where the window is not fetched its block index
    has not moved, so the buffer still holds the block of the point before, which is this point's. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The output windows' stores cover their buffers -/

/-- Window 8's one store is through the whole buffer, so it covers it. -/
theorem cover5_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover5_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover5_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out5_w` of the inputs'. -/
theorem sound_kernel5 (c : Dev nD) (E : Set ℕ) (i : grid5.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out5_8 x0 x1 x2 x3 x4 x5) ∗ owns (c : Thread nD τ) arg10 fullShare (out5_9 x0 x1 x2 x3 x4 x5) ∗ owns (c : Thread nD τ) arg11 fullShare (out5_10 x0 x1 x2 x3 x4 x5 x6 x7)) -∗ K ⟨⟩))
      ⊢ wp frame (wpE (defs₀ (F := F)) Variants.none c none) E (cc5__internal_kernel i arg1 harg1 arg2 harg2 arg3 harg3 arg4 harg4 arg5 harg5 arg6 harg6 arg7 harg7 arg8 harg8 arg9 harg9 arg10 harg10 arg11 harg11) K := by
  simp only [cc5__internal_kernel_eq_skeleton]; unfold cc5__internal_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover5_8 _)
  isplitl [H9]
  · iexists _; isplitr
    swap; · iexact H9
    ipureintro
    try dsimp only
    exact View.read_writes_eq_canon _ _ _ (cover5_9 _)
  iexists _; isplitr
  swap; · iexact H10
  ipureintro
  try dsimp only
  exact View.read_writes_eq_canon _ _ _ (cover5_10 _)

/-! ## The input windows at the proof data -/

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

set_option maxHeartbeats 1000000 in
/-- The body at any point: the inputs' memrefs hold their blocks, so the body's triple applies; the invariant and the
    core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.KernelIdeal.Hand

end
-- ==== Proof.KISeg5.lean ====
import proofs.«136691_j33638183863177_2_alg».proof.Proof.KISeg
import proofs.«136691_j33638183863177_2_alg».proof.Proof.KIRegion5

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion6.lean ====
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for any proof data
    whose array is `V`'s and whose body leaves the block in place: where the window is not fetched its block index
    has not moved, so the buffer still holds the block of the point before, which is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for any proof data
    whose array is `V`'s and whose body leaves the block in place: where the window is not fetched its block index
    has not moved, so the buffer still holds the block of the point before, which is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not, for any proof data
    whose array is `V`'s and whose body leaves the block in place: where the window is not fetched its block index
    has not moved, so the buffer still holds the block of the point before, which is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not, for any proof data
    whose array is `V`'s and whose body leaves the block in place: where the window is not fetched its block index
    has not moved, so the buffer still holds the block of the point before, which is this point's. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not, for any proof data
    whose array is `V`'s and whose body leaves the block in place: where the window is not fetched its block index
    has not moved, so the buffer still holds the block of the point before, which is this point's. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not, for any proof data
    whose array is `V`'s and whose body leaves the block in place: where the window is not fetched its block index
    has not moved, so the buffer still holds the block of the point before, which is this point's. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
/-- Input window 7's current staging buffer holds its block at every point, fetched there or not, for any proof data
    whose array is `V`'s and whose body leaves the block in place: where the window is not fetched its block index
    has not moved, so the buffer still holds the block of the point before, which is this point's. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The output windows' stores cover their buffers -/

/-- Window 8's one store is through the whole buffer, so it covers it. -/
theorem cover6_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover6_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover6_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out6_w` of the inputs'. -/
theorem sound_kernel6 (c : Dev nD) (E : Set ℕ) (i : grid6.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out6_8 x0 x1 x2 x3 x4 x5) ∗ owns (c : Thread nD τ) arg10 fullShare (out6_9 x0 x1 x2 x3 x4 x5) ∗ owns (c : Thread nD τ) arg11 fullShare (out6_10 x0 x1 x2 x3 x4 x5 x6 x7)) -∗ K ⟨⟩))
      ⊢ wp frame (wpE (defs₀ (F := F)) Variants.none c none) E (cc6__internal_kernel i arg1 harg1 arg2 harg2 arg3 harg3 arg4 harg4 arg5 harg5 arg6 harg6 arg7 harg7 arg8 harg8 arg9 harg9 arg10 harg10 arg11 harg11) K := by
  simp only [cc6__internal_kernel_eq_skeleton]; unfold cc6__internal_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover6_8 _)
  isplitl [H9]
  · iexists _; isplitr
    swap; · iexact H9
    ipureintro
    try dsimp only
    exact View.read_writes_eq_canon _ _ _ (cover6_9 _)
  iexists _; isplitr
  swap; · iexact H10
  ipureintro
  try dsimp only
  exact View.read_writes_eq_canon _ _ _ (cover6_10 _)

/-! ## The input windows at the proof data -/

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t))

set_option maxHeartbeats 1000000 in
/-- The body at any point: the inputs' memrefs hold their blocks, so the body's triple applies; the invariant and the
    core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.KernelIdeal.Hand

end
-- ==== Proof.KISeg6.lean ====
import proofs.«136691_j33638183863177_2_alg».proof.Proof.KISeg
import proofs.«136691_j33638183863177_2_alg».proof.Proof.KIRegion6

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion7.lean ====
import proofs.«136691_j33638183863177_2_alg».proof.Proof.KIData

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: where the window is not fetched its block index
    has not moved, so the buffer still holds the block of the point before, which is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for any proof data
    whose array is `V`'s and whose body leaves the block in place: where the window is not fetched its block index
    has not moved, so the buffer still holds the block of the point before, which is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not, for any proof data
    whose array is `V`'s and whose body leaves the block in place: where the window is not fetched its block index
    has not moved, so the buffer still holds the block of the point before, which is this point's. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not, for any proof data
    whose array is `V`'s and whose body leaves the block in place: where the window is not fetched its block index
    has not moved, so the buffer still holds the block of the point before, which is this point's. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not, for any proof data
    whose array is `V`'s and whose body leaves the block in place: where the window is not fetched its block index
    has not moved, so the buffer still holds the block of the point before, which is this point's. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, fetched there or not, for any proof data
    whose array is `V`'s and whose body leaves the block in place: where the window is not fetched its block index
    has not moved, so the buffer still holds the block of the point before, which is this point's. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, fetched there or not, for any proof data
    whose array is `V`'s and whose body leaves the block in place: where the window is not fetched its block index
    has not moved, so the buffer still holds the block of the point before, which is this point's. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, fetched there or not, for any proof data
    whose array is `V`'s and whose body leaves the block in place: where the window is not fetched its block index
    has not moved, so the buffer still holds the block of the point before, which is this point's. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-! ## The output windows' stores cover their buffers -/

/-- Window 8's one store is through the whole buffer, so it covers it. -/
theorem cover7_8 (p0 : Vec F S2048x128 .bf16) (y : S2048x128.Idx) :
    ∃ pc ∈ ([⟨rc_S2048x128, p0⟩] : List (View.Piece (Elt F) S2048x128 .bf16)), y ∈ pc.1.set :=
  View.cover_of_tiled [⟨rc_S2048x128, p0⟩] S2048x128.size (by rfl) y
/-- Window 9's one store is through the whole buffer, so it covers it. -/
theorem cover7_9 (p0 : Vec F S2048x128 .f32) (y : S2048x128.Idx) :
    ∃ pc ∈ ([⟨rc_S2048x128, p0⟩] : List (View.Piece (Elt F) S2048x128 .f32)), y ∈ pc.1.set :=
  View.cover_of_tiled [⟨rc_S2048x128, p0⟩] S2048x128.size (by rfl) y
/-- Window 10's one store is through the whole buffer, so it covers it. -/
theorem cover7_10 (p0 : Vec F S2048x5 .f32) (y : S2048x5.Idx) :
    ∃ pc ∈ ([⟨rc_S2048x5, p0⟩] : List (View.Piece (Elt F) S2048x5 .f32)), y ∈ pc.1.set :=
  View.cover_of_tiled [⟨rc_S2048x5, p0⟩] S2048x5.size (by rfl) y

/-! ## The body's triple -/

set_option maxHeartbeats 4000000 in
/-- The kernel body on whole staging memrefs, the inputs' at read contents `x_w` and the outputs' at anything, runs to
    the continuation holding the inputs' as they were and each output's at `out7_w` of the inputs'. -/
theorem sound_kernel7 (c : Dev nD) (E : Set ℕ) (i : grid7.Coords) (arg1 : Memref sig .tc .vmem S2048x256 .bf16) (harg1 : arg1.IsWhole) (arg2 : Memref sig .tc .vmem S2048x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x384 .bf16) (harg5 : arg5.IsWhole) (arg6 : Memref sig .tc .vmem S1x384 .f32) (harg6 : arg6.IsWhole) (arg7 : Memref sig .tc .vmem S128x5 .bf16) (harg7 : arg7.IsWhole) (arg8 : Memref sig .tc .vmem S1x5 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x5 .f32) (harg11 : arg11.IsWhole)
    (x0 : Vec F S2048x256 .bf16) (x1 : Vec F S2048x256 .f32) (x2 : Vec F S256x256 .bf16) (x3 : Vec F S1x256 .f32) (x4 : Vec F S256x384 .bf16) (x5 : Vec F S1x384 .f32) (x6 : Vec F S128x5 .bf16) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out7_8 x0 x1 x2 x3 x4 x5) ∗ owns (c : Thread nD τ) arg10 fullShare (out7_9 x0 x1 x2 x3 x4 x5) ∗ owns (c : Thread nD τ) arg11 fullShare (out7_10 x0 x1 x2 x3 x4 x5 x6 x7)) -∗ K ⟨⟩))
      ⊢ wp frame (wpE (defs₀ (F := F)) Variants.none c none) E (cc7__internal_kernel i arg1 harg1 arg2 harg2 arg3 harg3 arg4 harg4 arg5 harg5 arg6 harg6 arg7 harg7 arg8 harg8 arg9 harg9 arg10 harg10 arg11 harg11) K := by
  simp only [cc7__internal_kernel_eq_skeleton]; unfold cc7__internal_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover7_8 _)
  isplitl [H9]
  · iexists _; isplitr
    swap; · iexact H9
    ipureintro
    try dsimp only
    exact View.read_writes_eq_canon _ _ _ (cover7_9 _)
  iexists _; isplitr
  swap; · iexact H10
  ipureintro
  try dsimp only
  exact View.read_writes_eq_canon _ _ _ (cover7_10 _)

/-! ## The input windows at the proof data -/

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t))

set_option maxHeartbeats 1000000 in
/-- The body at any point: the inputs' memrefs hold their blocks, so the body's triple applies; the invariant and the
    core's obligations pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel7 c Set.univ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.KernelIdeal.Hand

end
-- ==== Proof.KISeg7.lean ====
import proofs.«136691_j33638183863177_2_alg».proof.Proof.KISeg
import proofs.«136691_j33638183863177_2_alg».proof.Proof.KIRegion7

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRun.lean ====
/- The frame run of @main: its seventeen segments in order (a host segment per stretch from its boundary's contents, a region per kernel call), the launch over them, and the final state read against the last thread state: every unscoped buffer ends at the last boundary's contents, and every argument array as launched. -/
import proofs.«136691_j33638183863177_2_alg».proof.Proof.KIHost
import proofs.«136691_j33638183863177_2_alg».proof.Proof.KISeg0
import proofs.«136691_j33638183863177_2_alg».proof.Proof.KISeg1
import proofs.«136691_j33638183863177_2_alg».proof.Proof.KISeg2
import proofs.«136691_j33638183863177_2_alg».proof.Proof.KISeg3
import proofs.«136691_j33638183863177_2_alg».proof.Proof.KISeg4
import proofs.«136691_j33638183863177_2_alg».proof.Proof.KISeg5
import proofs.«136691_j33638183863177_2_alg».proof.Proof.KISeg6
import proofs.«136691_j33638183863177_2_alg».proof.Proof.KISeg7

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 17 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)) ]

/-- @main is the run of the segments. -/
theorem main_run (c : Dev nD) : main (F := F) c = Pipeline.Seg.run (segs m ρ) :=
  main_segs adm (pdats m ρ) () 𝒱₀ L lv _ _ _ _ _ _ _ _ _ _ _ _ _ _ _ _ _ rfl rfl rfl rfl rfl rfl rfl rfl rfl c

-- the launch theorem's implicit arguments are found by unifying its conclusion with this one, which takes unfolding
-- plain definitions in a metavariable's type
set_option backward.isDefEq.respectTransparency.types false in
set_option maxHeartbeats 2000000 in
/-- At the compiled mesh, from any memory with zero counters, every weakly fair execution of @main on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c =>
      (show iprop(StableHlo.held (c : Thread nD τ) (Pipeline.ucRefs τ sig) (W17 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- THE FRAME: every weakly fair execution of @main terminates, nothing faulting, and every final state has the
    argument arrays as launched: each argument is an unscoped buffer, read at the last boundary's contents, which
    no segment changed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W17_main_arg0 m ρ c),
    (h c _ (mem_uc main_arg1 (by decide))).trans (W17_main_arg1 m ρ c),
    (h c _ (mem_uc main_arg2 (by decide))).trans (W17_main_arg2 m ρ c),
    (h c _ (mem_uc main_arg3 (by decide))).trans (W17_main_arg3 m ρ c),
    (h c _ (mem_uc main_arg4 (by decide))).trans (W17_main_arg4 m ρ c),
    (h c _ (mem_uc main_arg5 (by decide))).trans (W17_main_arg5 m ρ c),
    (h c _ (mem_uc main_arg6 (by decide))).trans (W17_main_arg6 m ρ c),
    (h c _ (mem_uc main_arg7 (by decide))).trans (W17_main_arg7 m ρ c),
    (h c _ (mem_uc main_arg8 (by decide))).trans (W17_main_arg8 m ρ c),
    (h c _ (mem_uc main_arg9 (by decide))).trans (W17_main_arg9 m ρ c)⟩) (run_all m ρ)

end Cert.KernelIdeal.Hand

end
-- ==== Proof.Spec.lean ====
/-
  The tree-structured gated recurrence as ONE function of the argument arrays, by natural row and column.

  A level of the tree holds, per node `r`, a hidden row `h r` and a cell row `c r` of 128 numbers. At the leaves
  `iou = x · Wiᵀ + bi`, `c = σ(i) · tanh(u)`, `h = σ(o) · tanh(c)` where `i, o, u` are the three 128-column thirds of
  `iou`. At an inner level node `r` has the children `2r` and `2r+1` of the level below: with `cat h r` the two
  children's hidden rows side by side (256 numbers), `f = σ(cat h · Ufᵀ + uf)` (256 columns, one half per child),
  `iou = cat h · Uiᵀ + ui`, `c' = σ(i) · tanh(u) + (f_left · c_left + f_right · c_right)`, `h' = σ(o) · tanh(c')`.
  The result stacks, level after level, `h · Lᵀ + lb` (5 columns). Everything is over the extended reals: the sums and
  products below are the exact ones, `σ x = 1 / (1 + e⁻ˣ)` and `tanh` the extended functions.
-/
import Idealize.ShloMosaic.PureOps.Ideal
import Idealize.ShloMosaic.Lib.ValueIdx

noncomputable section

open scoped BigOperators

namespace Cert.Spec

open Idealize.ShloMosaic Idealize.ShloMosaic.ValueIdx

/-- A matrix read by natural row and column. -/
abbrev M := ℕ → ℕ → EReal

/-- A rank-2 array read by natural row and column (zero outside its extents). -/
def rd {n0 n1 : ℕ} (a : (⟨2, ![n0, n1]⟩ : Shape).Idx → EReal) : M :=
  fun r k => if h : r < n0 ∧ k < n1 then a (ix2 ⟨r, h.1⟩ ⟨k, h.2⟩) else 0

theorem rd_ix2 {n0 n1 : ℕ} (a : (⟨2, ![n0, n1]⟩ : Shape).Idx → EReal) (r : Fin n0) (k : Fin n1) :
    rd a r.val k.val = a (ix2 r k) := by
  unfold rd; rw [dif_pos ⟨r.isLt, k.isLt⟩]

/-- A rank-1 array read by natural position (zero outside its extent). -/
def rd1 {n : ℕ} (a : (⟨1, ![n]⟩ : Shape).Idx → EReal) : ℕ → EReal :=
  fun k => if h : k < n then a (ix1 ⟨k, h⟩) else 0

theorem rd1_ix1 {n : ℕ} (a : (⟨1, ![n]⟩ : Shape).Idx → EReal) (k : Fin n) : rd1 a k.val = a (ix1 k) := by
  unfold rd1; rw [dif_pos k.isLt]

/-- The inner product of the first `n` entries of two rows. -/
def dot (n : ℕ) (a b : ℕ → EReal) : EReal := ∑ k : Fin n, a k.val * b k.val

/-- The logistic function on the extended reals. -/
def sg (x : EReal) : EReal := Ideal.logistic x
/-- The hyperbolic tangent on the extended reals. -/
def th (x : EReal) : EReal := Ideal.tanh x

/-- The weights: `Wi` 384×128 and `bi` (leaf gates), `Ui` 384×256 and `ui` (inner gates), `Uf` 256×256 and `uf` (the two
    forget gates), `L` 5×128 and `lb` (the classifier). -/
structure Params where
  Wi : M
  bi : ℕ → EReal
  Ui : M
  ui : ℕ → EReal
  Uf : M
  uf : ℕ → EReal
  L : M
  lb : ℕ → EReal

variable (P : Params)

/-- The leaves' three gates before the nonlinearities. -/
def iou0 (x : M) : M := fun r j => dot 128 (x r) (P.Wi j) + P.bi j
/-- `σ(i) · tanh(u)`: the input gate times the candidate (columns `j` and `256 + j` of the gates). -/
def gate (iou : M) : M := fun r j => sg (iou r j) * th (iou r (256 + j))
/-- `σ(o) · tanh(c)`: the output gate (columns `128 + j`) times the squashed cell. -/
def hid (iou c : M) : M := fun r j => sg (iou r (128 + j)) * th (c r j)
/-- Two consecutive rows side by side: row `r`, column `j < 256` of the paired matrix is row `2r + j / 128`, column `j % 128`. -/
def cat (h : M) : M := fun r j => h (2 * r + j / 128) (j % 128)
/-- An inner level's three gates before the nonlinearities. -/
def iouN (h : M) : M := fun r j => dot 256 (cat h r) (P.Ui j) + P.ui j
/-- The two forget gates of a node, one per child (columns `j` and `128 + j`). -/
def fg (h : M) : M := fun r j => sg (dot 256 (cat h r) (P.Uf j) + P.uf j)
/-- The forget-gated sum of the two children's cells. -/
def cf (h c : M) : M := fun r j => fg P h r j * cat c r j + fg P h r (128 + j) * cat c r (128 + j)
/-- The leaves' cells and hidden rows. -/
def c0 (x : M) : M := gate (iou0 P x)
def h0 (x : M) : M := hid (iou0 P x) (c0 P x)
/-- An inner level's cells and hidden rows from the level below. -/
def cN (h c : M) : M := fun r j => gate (iouN P h) r j + cf P h c r j
def hN (h c : M) : M := hid (iouN P h) (cN P h c)

/-- Level `k` of the tree: its hidden rows and its cells (level 0 the leaves). -/
def lvl (x : M) : ℕ → M × M
  | 0 => (h0 P x, c0 P x)
  | k + 1 => (hN P (lvl x k).1 (lvl x k).2, cN P (lvl x k).1 (lvl x k).2)

/-- The classifier on a level's hidden rows. -/
def logit (h : M) : M := fun r j => dot 128 (h r) (P.L j) + P.lb j

/-- All levels' hidden rows stacked: 262144 leaves, then 131072, 65536, 32768, 16384, 8192, 4096, 2048 inner nodes. -/
def hall (x : M) : M := fun R k =>
  if R < 262144 then (lvl P x 0).1 R k
  else if R < 393216 then (lvl P x 1).1 (R - 262144) k
  else if R < 458752 then (lvl P x 2).1 (R - 393216) k
  else if R < 491520 then (lvl P x 3).1 (R - 458752) k
  else if R < 507904 then (lvl P x 4).1 (R - 491520) k
  else if R < 516096 then (lvl P x 5).1 (R - 507904) k
  else if R < 520192 then (lvl P x 6).1 (R - 516096) k
  else (lvl P x 7).1 (R - 520192) k

/-- The result: row `R`, column `j < 5`. -/
def out (x : M) : M := logit P (hall P x)

theorem cat_lo (h : M) (r j : ℕ) (hj : j < 128) : cat h r j = h (2 * r) j := by
  unfold cat; rw [Nat.div_eq_of_lt hj, Nat.mod_eq_of_lt hj, Nat.add_zero]

theorem cat_hi (h : M) (r j : ℕ) (hj : j < 128) : cat h r (128 + j) = h (2 * r + 1) j := by
  unfold cat
  have h1 : (128 + j) / 128 = 1 := by omega
  have h2 : (128 + j) % 128 = j := by omega
  rw [h1, h2]

end Cert.Spec

end
-- ==== Proof.SpecStack.lean ====
/- The stack of all levels' hidden rows, segment by segment: row R of the stack is row R minus the segment's first row
  of the level whose segment holds R.
-/
import proofs.«136691_j33638183863177_2_alg».proof.Proof.Spec

noncomputable section

open scoped BigOperators

namespace Cert.Spec

/-- Rows 0 … 262143 of the stack are level 0's hidden rows. -/
theorem hall_seg0 (P : Params) (X : M) (R : ℕ) (h0 : 0 ≤ R) (h1 : R < 262144) : hall P X R = (lvl P X 0).1 (R - 0) := by
  funext k
  unfold hall

  rw [if_pos (by omega : R < 262144)]
  rfl

/-- Rows 262144 … 393215 of the stack are level 1's hidden rows. -/
theorem hall_seg1 (P : Params) (X : M) (R : ℕ) (h0 : 262144 ≤ R) (h1 : R < 393216) : hall P X R = (lvl P X 1).1 (R - 262144) := by
  funext k
  unfold hall
  rw [if_neg (by omega : ¬R < 262144)]
  rw [if_pos (by omega : R < 393216)]

/-- Rows 393216 … 458751 of the stack are level 2's hidden rows. -/
theorem hall_seg2 (P : Params) (X : M) (R : ℕ) (h0 : 393216 ≤ R) (h1 : R < 458752) : hall P X R = (lvl P X 2).1 (R - 393216) := by
  funext k
  unfold hall
  rw [if_neg (by omega : ¬R < 262144)]
  rw [if_neg (by omega : ¬R < 393216)]
  rw [if_pos (by omega : R < 458752)]

/-- Rows 458752 … 491519 of the stack are level 3's hidden rows. -/
theorem hall_seg3 (P : Params) (X : M) (R : ℕ) (h0 : 458752 ≤ R) (h1 : R < 491520) : hall P X R = (lvl P X 3).1 (R - 458752) := by
  funext k
  unfold hall
  rw [if_neg (by omega : ¬R < 262144)]
  rw [if_neg (by omega : ¬R < 393216)]
  rw [if_neg (by omega : ¬R < 458752)]
  rw [if_pos (by omega : R < 491520)]

/-- Rows 491520 … 507903 of the stack are level 4's hidden rows. -/
theorem hall_seg4 (P : Params) (X : M) (R : ℕ) (h0 : 491520 ≤ R) (h1 : R < 507904) : hall P X R = (lvl P X 4).1 (R - 491520) := by
  funext k
  unfold hall
  rw [if_neg (by omega : ¬R < 262144)]
  rw [if_neg (by omega : ¬R < 393216)]
  rw [if_neg (by omega : ¬R < 458752)]
  rw [if_neg (by omega : ¬R < 491520)]
  rw [if_pos (by omega : R < 507904)]

/-- Rows 507904 … 516095 of the stack are level 5's hidden rows. -/
theorem hall_seg5 (P : Params) (X : M) (R : ℕ) (h0 : 507904 ≤ R) (h1 : R < 516096) : hall P X R = (lvl P X 5).1 (R - 507904) := by
  funext k
  unfold hall
  rw [if_neg (by omega : ¬R < 262144)]
  rw [if_neg (by omega : ¬R < 393216)]
  rw [if_neg (by omega : ¬R < 458752)]
  rw [if_neg (by omega : ¬R < 491520)]
  rw [if_neg (by omega : ¬R < 507904)]
  rw [if_pos (by omega : R < 516096)]

/-- Rows 516096 … 520191 of the stack are level 6's hidden rows. -/
theorem hall_seg6 (P : Params) (X : M) (R : ℕ) (h0 : 516096 ≤ R) (h1 : R < 520192) : hall P X R = (lvl P X 6).1 (R - 516096) := by
  funext k
  unfold hall
  rw [if_neg (by omega : ¬R < 262144)]
  rw [if_neg (by omega : ¬R < 393216)]
  rw [if_neg (by omega : ¬R < 458752)]
  rw [if_neg (by omega : ¬R < 491520)]
  rw [if_neg (by omega : ¬R < 507904)]
  rw [if_neg (by omega : ¬R < 516096)]
  rw [if_pos (by omega : R < 520192)]

/-- Rows 520192 … 522239 of the stack are level 7's hidden rows. -/
theorem hall_seg7 (P : Params) (X : M) (R : ℕ) (h0 : 520192 ≤ R) (h1 : R < 522240) : hall P X R = (lvl P X 7).1 (R - 520192) := by
  funext k
  unfold hall
  rw [if_neg (by omega : ¬R < 262144)]
  rw [if_neg (by omega : ¬R < 393216)]
  rw [if_neg (by omega : ¬R < 458752)]
  rw [if_neg (by omega : ¬R < 491520)]
  rw [if_neg (by omega : ¬R < 507904)]
  rw [if_neg (by omega : ¬R < 516096)]
  rw [if_neg (by omega : ¬R < 520192)]

end Cert.Spec

end
-- ==== Proof.LibSweep.lean ====
/-
  Two layout facts of the level-by-level sweep, read at an index.
  Pairing consecutive rows: a matrix of `m = 2n` rows of 128 numbers re-read as `n` rows of 256 numbers has, at (r, j),
  the entry (2r + j / 128, j % 128) of the original: the two children of node `r` side by side.
  Stacking: eight matrices with the same number of columns stacked by rows have, at row `R`, the row `R - pre` of the piece
  whose span holds `R`, `pre` being the rows of the pieces before it.
-/
import Idealize.ShloMosaic.Lib.Pipeline.Value
import Idealize.ShloMosaic.Lib.ValueIdx

noncomputable section

open scoped BigOperators

namespace Cert.Lib.Sweep

open Idealize.ShloMosaic Idealize.ShloMosaic.ValueIdx

variable {α : Type}

/-- Consecutive rows paired: (r, j) of the paired matrix is (2r + j / 128, j % 128) of the original. -/
theorem pairRows_apply (m n : ℕ) (hm : m = 2 * n) (x : (⟨2, ![m, 128]⟩ : Shape).Idx → α)
    (h : (⟨2, ![m, 128]⟩ : Shape).ShapeCasts ⟨2, ![n, 256]⟩) (r : Fin n) (j : Fin 256) :
    shapeCast ⟨2, ![n, 256]⟩ x h (ix2 r j)
      = x (ix2 ⟨2 * r.val + j.val / 128, by have := r.isLt; have := j.isLt; omega⟩ ⟨j.val % 128, Nat.mod_lt _ (by decide)⟩) := by
  refine shapeCast_apply x h (ix2 r j) _ ?_
  rw [Shape.rowMajor_val_two, Shape.rowMajor_val_two]
  show (2 * r.val + j.val / 128) * 128 + j.val % 128 = r.val * 256 + j.val
  have := j.isLt
  omega

/-- Matrices of `w` columns stacked by rows, read at row `R` inside piece `k`'s span `[pre, pre + n)`: the piece at row
    `R - pre` (`ss` the pieces' shapes, `pre` the rows of the pieces before piece `k`). -/
theorem stackRows_apply {N w : ℕ} (xs : List ((s : Shape) × (s.Idx → α)))
    (h : Shape.Concatenates (xs.map (·.1)) ⟨2, ![N, w]⟩ (0 : Fin 2))
    (ss : List Shape) (hss : xs.map (·.1) = ss)
    (k : ℕ) (hk : k < xs.length) (n : ℕ) (x₁ : (⟨2, ![n, w]⟩ : Shape).Idx → α) (hxk : xs[k] = ⟨⟨2, ![n, w]⟩, x₁⟩)
    (pre : ℕ)
    (hpre : ((ss.take k).map fun s : Shape =>
      if h : s.rank = (⟨2, ![N, w]⟩ : Shape).rank then s.size ((0 : Fin 2).cast h.symm) else 0).sum = pre)
    (R : Fin N) (c : Fin w) (h0 : pre ≤ R.val) (h1 : R.val < pre + n) :
    concatenate ⟨2, ![N, w]⟩ (0 : Fin 2) xs h (ix2 R c) = x₁ (ix2 ⟨R.val - pre, by omega⟩ c) :=
  concatenate_apply_piece (0 : Fin 2) xs h (ix2 R c) k hk _ x₁ hxk rfl pre
    (by rw [List.map_take, hss]; exact hpre) (ix2 ⟨R.val - pre, by omega⟩ c)
    (fun b hb => by
      match b with
      | ⟨0, _⟩ => exact absurd rfl hb
      | ⟨1, _⟩ => rfl)
    (by show pre + (R.val - pre) = R.val; omega)

end Cert.Lib.Sweep

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LeafBlock.lean ====
/-
  The leaf kernel's block arithmetic read at an index. A block is 2048 consecutive leaves. For its rows `r0 + p`
  (`p < 2048`): the three gates are the row of embeddings times the transposed gate weights plus the bias row, the cell is
  `σ(i) · tanh(u)`, the hidden row `σ(o) · tanh(c)`, the scores the hidden row times the transposed classifier plus its bias.
  Each statement takes the block's loads as variables with what they hold as hypotheses, so that it applies at any grid point.
-/
import proofs.«136691_j33638183863177_2_alg».proof.Proof.Gen.KernelIdeal.Skeleton
import proofs.«136691_j33638183863177_2_alg».proof.Proof.Spec
import proofs.«136691_j33638183863177_2_alg».proof.Proof.LibPlainDot
import Idealize.ShloMosaic.Lib.Pipeline.Value
import Idealize.ShloMosaic.Lib.ValueIdx

noncomputable section

open scoped BigOperators

namespace Cert.KernelIdeal.LeafBlock

open Cert.KernelIdeal Cert.KernelIdeal.Gen Cert.Spec Idealize.ShloMosaic Idealize.ShloMosaic.ValueIdx

/-- A row vector repeated down the rows reads, at (p, j), its entry j. -/
theorem bcastRow_apply {n m : ℕ} {α : Type} (v : (⟨2, ![1, n]⟩ : Shape).Idx → α) (h : (⟨2, ![1, n]⟩ : Shape).Broadcasts ⟨2, ![m, n]⟩)
    (p : Fin m) (j : Fin n) : broadcastTo ⟨2, ![m, n]⟩ v h (ix2 p j) = v (ix2 0 j) := by
  refine broadcastTo_apply v h (ix2 p j) (ix2 0 j) fun a => ?_
  match a with
  | ⟨0, _⟩ => rfl
  | ⟨1, _⟩ =>
    show j.val = if n = 1 then 0 else j.val
    split
    · have := j.isLt; omega
    · rfl

/-- A band of columns `[o, o + w)` of a matrix reads, at (p, q), the matrix at (p, o + q). -/
theorem colBand_apply {m n w : ℕ} {α : Type} (o : ℕ) (v : (⟨2, ![m, n]⟩ : Shape).Idx → α)
    (h : (⟨2, ![m, n]⟩ : Shape).Slices ![0, o] ⟨2, ![m, w]⟩) (p : Fin m) (q : Fin w) (hq : o + q.val < n) :
    extractStridedSlice ⟨2, ![m, w]⟩ ![0, o] v h (ix2 p q) = v (ix2 p ⟨o + q.val, hq⟩) := by
  refine extractStridedSlice_apply ![0, o] v h (ix2 p q) (ix2 p ⟨o + q.val, hq⟩) fun a => ?_
  match a with
  | ⟨0, _⟩ => exact (Nat.zero_add _).symm
  | ⟨1, _⟩ => rfl

variable (P : Params) (X : M) (r0 : ℕ)
variable (x0 : Vec Ideal S2048x128 .bf16) (x1 : Vec Ideal S128x384 .bf16) (x2 : Vec Ideal S1x384 .f32)
variable (x3 : Vec Ideal S128x5 .bf16) (x4 : Vec Ideal S1x5 .f32)

/-- The block's three gates: row `r0 + p` of the embeddings against gate column `j`. -/
theorem gates_apply (hx : ∀ (p : Fin 2048) (k : Fin 128), x0 (ix2 p k) = X (r0 + p.val) k.val)
    (hw : ∀ (k : Fin 128) (j : Fin 384), x1 (ix2 k j) = P.Wi j.val k.val) (hb : ∀ j : Fin 384, x2 (ix2 0 j) = P.bi j.val)
    (p : Fin 2048) (j : Fin 384) : k0_pay1 (F := Ideal) x0 x1 x2 (ix2 p j) = iou0 P X (r0 + p.val) j.val := by
  unfold k0_pay1
  simp only [shapeCast_self]
  rw [addf_apply]
  have e1 := PlainDot.matmul_zero_apply (φ₁ := .bf16) (φ₂ := .bf16) (M := 2048) (K := 128) (N := 384) none x0 x1 p j
  have e2 := bcastRow_apply (m := 2048) x2 broadcasts_S1x384_S2048x384 p j
  refine (congrArg₂ (· + ·) e1 e2).trans ?_
  unfold iou0 dot
  rw [hb]
  exact congrArg (· + _) (Finset.sum_congr rfl fun k _ => by rw [hx, hw])

/-- The block's cells: `σ(i) · tanh(u)`. -/
theorem cell_apply (hx : ∀ (p : Fin 2048) (k : Fin 128), x0 (ix2 p k) = X (r0 + p.val) k.val)
    (hw : ∀ (k : Fin 128) (j : Fin 384), x1 (ix2 k j) = P.Wi j.val k.val) (hb : ∀ j : Fin 384, x2 (ix2 0 j) = P.bi j.val)
    (p : Fin 2048) (q : Fin 128) : k0_pay2 (F := Ideal) x0 x1 x2 (ix2 p q) = c0 P X (r0 + p.val) q.val := by
  unfold k0_pay2
  show FloatOps.logistic (extractStridedSlice S2048x128 ![0, 0] (k0_pay1 x0 x1 x2) slices_S2048x384_o0_0_S2048x128 (ix2 p q))
      * FloatOps.tanh (extractStridedSlice S2048x128 ![0, 256] (k0_pay1 x0 x1 x2) slices_S2048x384_o0_256_S2048x128 (ix2 p q)) = _
  rw [colBand_apply 0 _ _ p q (by have := q.isLt; omega), colBand_apply 256 _ _ p q (by have := q.isLt; omega),
    gates_apply P X r0 x0 x1 x2 hx hw hb, gates_apply P X r0 x0 x1 x2 hx hw hb]
  show sg (iou0 P X (r0 + p.val) (0 + q.val)) * th (iou0 P X (r0 + p.val) (256 + q.val)) = _
  rw [Nat.zero_add]; rfl

/-- The block's hidden rows: `σ(o) · tanh(c)` (rounding to the narrow format is the identity on exact values). -/
theorem hidden_apply (hx : ∀ (p : Fin 2048) (k : Fin 128), x0 (ix2 p k) = X (r0 + p.val) k.val)
    (hw : ∀ (k : Fin 128) (j : Fin 384), x1 (ix2 k j) = P.Wi j.val k.val) (hb : ∀ j : Fin 384, x2 (ix2 0 j) = P.bi j.val)
    (p : Fin 2048) (q : Fin 128) : k0_pay3 (F := Ideal) x0 x1 x2 (ix2 p q) = h0 P X (r0 + p.val) q.val := by
  unfold k0_pay3
  show FloatOps.logistic (extractStridedSlice S2048x128 ![0, 128] (k0_pay1 x0 x1 x2) slices_S2048x384_o0_128_S2048x128 (ix2 p q))
      * FloatOps.tanh (k0_pay2 x0 x1 x2 (ix2 p q)) = _
  rw [colBand_apply 128 _ _ p q (by have := q.isLt; omega), gates_apply P X r0 x0 x1 x2 hx hw hb,
    cell_apply P X r0 x0 x1 x2 hx hw hb]
  rfl

/-- The block's scores: the hidden row against classifier row `j`, plus its bias. -/
theorem scores_apply (hx : ∀ (p : Fin 2048) (k : Fin 128), x0 (ix2 p k) = X (r0 + p.val) k.val)
    (hw : ∀ (k : Fin 128) (j : Fin 384), x1 (ix2 k j) = P.Wi j.val k.val) (hb : ∀ j : Fin 384, x2 (ix2 0 j) = P.bi j.val)
    (hl : ∀ (k : Fin 128) (j : Fin 5), x3 (ix2 k j) = P.L j.val k.val) (hlb : ∀ j : Fin 5, x4 (ix2 0 j) = P.lb j.val)
    (p : Fin 2048) (j : Fin 5) : k0_pay4 (F := Ideal) x0 x1 x2 x3 x4 (ix2 p j) = logit P (h0 P X) (r0 + p.val) j.val := by
  unfold k0_pay4
  simp only [shapeCast_self]
  rw [addf_apply]
  have e1 := PlainDot.matmul_zero_apply (φ₁ := .bf16) (φ₂ := .bf16) (M := 2048) (K := 128) (N := 5) none (k0_pay3 (F := Ideal) x0 x1 x2) x3 p j
  have e2 := bcastRow_apply (m := 2048) x4 broadcasts_S1x5_S2048x5 p j
  refine (congrArg₂ (· + ·) e1 e2).trans ?_
  unfold logit dot
  rw [hlb]
  exact congrArg (· + _) (Finset.sum_congr rfl fun k _ => by rw [hidden_apply P X r0 x0 x1 x2 hx hw hb, hl])

end Cert.KernelIdeal.LeafBlock

end
-- ==== Proof.KIValue0.lean ====
/-
  The leaf region's three output arrays as whole-array functions. Grid point `t` handles leaves `2048 t … 2048 t + 2047`:
  its input block is those rows of the embedded words, its weight blocks are the whole weight matrices, and what it writes
  back to each output is those rows of the level-0 hidden rows, cells and scores. The 128 blocks tile the 262144 rows.
-/
import proofs.«136691_j33638183863177_2_alg».proof.Proof.KIData
import proofs.«136691_j33638183863177_2_alg».proof.Proof.LeafBlock
import Idealize.ShloMosaic.Lib.Pipeline.Value

noncomputable section

open scoped BigOperators

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

theorem hz2 : (![0, 0] : Fin 2 → Nat) = fun _ => 0 := funext fun a => by fin_cases a <;> rfl

/-- The printed index maps of the leaf region, decided over its 128 points: the row-blocked windows sit at block row `t`,
    the weight windows at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

section Leaf

variable (V : (c : Dev nD) → (b : Ref sig .tc) → Buf (Elt Ideal) ((c : Thread nD τ).loc b)) (c : Dev nD)
variable (P : Params) (X : M)
variable (hX : ∀ (r : Fin 262144) (k : Fin 128), V c main_v7 (ix2 r k) = X r.val k.val)
variable (hW : ∀ (k : Fin 128) (j : Fin 384), V c main_v9 (ix2 k j) = P.Wi j.val k.val)
variable (hB : ∀ j : Fin 384, V c main_v10 (ix2 0 j) = P.bi j.val)
variable (hL : ∀ (k : Fin 128) (j : Fin 5), V c main_v18 (ix2 k j) = P.L j.val k.val)
variable (hLb : ∀ j : Fin 5, V c main_v19 (ix2 0 j) = P.lb j.val)

include hX in
theorem blk0_0 (t : Fin cfg0.N) (p : Fin 2048) (k : Fin 128) : iblk0 V c 0 t (ix2 p k) = X (2048 * t.val + p.val) k.val := by
  have ht : t.val < 128 := lt_of_lt_of_eq t.isLt N_0
  obtain ⟨e0, e1, -⟩ := idx_facts0 t
  show V c main_v7 (((cfg0.win 0).blk t).view.emb (ix2 p k)) = _
  have e : ((cfg0.win 0).blk t).view.emb (ix2 p k) = ix2 ⟨2048 * t.val + p.val, by have := p.isLt; omega⟩ k := by
    funext a; apply Fin.ext
    match a with
    | ⟨0, _⟩ => show win0_0.index t (0 : Fin 2) * 2048 + 1 * p.val = 2048 * t.val + p.val; omega
    | ⟨1, _⟩ => show win0_0.index t (1 : Fin 2) * 128 + 1 * k.val = k.val; omega
  rw [e, hX]

include hW in
theorem blk0_1 (t : Fin cfg0.N) (k : Fin 128) (j : Fin 384) : iblk0 V c 1 t (ix2 k j) = P.Wi j.val k.val := by
  obtain ⟨-, -, e0, e1, -⟩ := idx_facts0 t
  show V c main_v9 (((cfg0.win 1).blk t).view.emb (ix2 k j)) = _
  have e : ((cfg0.win 1).blk t).view.emb (ix2 k j) = ix2 k j := by
    funext a; apply Fin.ext
    match a with
    | ⟨0, _⟩ => show win0_1.index t (0 : Fin 2) * 128 + 1 * k.val = k.val; omega
    | ⟨1, _⟩ => show win0_1.index t (1 : Fin 2) * 384 + 1 * j.val = j.val; omega
  rw [e, hW]

include hB in
theorem blk0_2 (t : Fin cfg0.N) (j : Fin 384) : iblk0 V c 2 t (ix2 0 j) = P.bi j.val := by
  obtain ⟨-, -, -, -, e0, e1, -⟩ := idx_facts0 t
  show V c main_v10 (((cfg0.win 2).blk t).view.emb (ix2 0 j)) = _
  have e : ((cfg0.win 2).blk t).view.emb (ix2 (0 : Fin 1) j) = ix2 0 j := by
    funext a; apply Fin.ext
    match a with
    | ⟨0, _⟩ => show win0_2.index t (0 : Fin 2) * 1 + 1 * 0 = 0; omega
    | ⟨1, _⟩ => show win0_2.index t (1 : Fin 2) * 384 + 1 * j.val = j.val; omega
  rw [e, hB]

include hL in
theorem blk0_3 (t : Fin cfg0.N) (k : Fin 128) (j : Fin 5) : iblk0 V c 3 t (ix2 k j) = P.L j.val k.val := by
  obtain ⟨-, -, -, -, -, -, e0, e1, -⟩ := idx_facts0 t
  show V c main_v18 (((cfg0.win 3).blk t).view.emb (ix2 k j)) = _
  have e : ((cfg0.win 3).blk t).view.emb (ix2 k j) = ix2 k j := by
    funext a; apply Fin.ext
    match a with
    | ⟨0, _⟩ => show win0_3.index t (0 : Fin 2) * 128 + 1 * k.val = k.val; omega
    | ⟨1, _⟩ => show win0_3.index t (1 : Fin 2) * 5 + 1 * j.val = j.val; omega
  rw [e, hL]

include hLb in
theorem blk0_4 (t : Fin cfg0.N) (j : Fin 5) : iblk0 V c 4 t (ix2 0 j) = P.lb j.val := by
  obtain ⟨-, -, -, -, -, -, -, -, e0, e1, -⟩ := idx_facts0 t
  show V c main_v19 (((cfg0.win 4).blk t).view.emb (ix2 0 j)) = _
  have e : ((cfg0.win 4).blk t).view.emb (ix2 (0 : Fin 1) j) = ix2 0 j := by
    funext a; apply Fin.ext
    match a with
    | ⟨0, _⟩ => show win0_4.index t (0 : Fin 2) * 1 + 1 * 0 = 0; omega
    | ⟨1, _⟩ => show win0_4.index t (1 : Fin 2) * 5 + 1 * j.val = j.val; omega
  rw [e, hLb]

/-- The level-0 hidden rows as an array. -/
abbrev GH0 : S262144x128.Idx → EReal := fun i => h0 P X (i 0).val (i 1).val
/-- The level-0 cells as an array. -/
abbrev GC0 : S262144x128.Idx → EReal := fun i => c0 P X (i 0).val (i 1).val
/-- The level-0 scores as an array. -/
abbrev GL0 : S262144x5.Idx → EReal := fun i => logit P (h0 P X) (i 0).val (i 1).val

include hX hW hB in
/-- What point `t` writes back to the hidden rows is block `t` of them. -/
theorem flushed0_5_eq (t : Fin cfg0.N) :
    (dat0 V c).flushed 5 t = ((cfg0.win 5).blk t).view.read (Elt Ideal) (GH0 P X) := by
  show (cfg0.win 5).cut (grid0.coords t) ((dat0 V c).after 5 t) = _
  rw [after0_5]
  unfold out0_5
  rw [View.canon_unit_zero hz2]
  simp only [View.ld_unit_zero (S := S2048x128) hz2, View.ld_unit_zero (S := S128x384) hz2, View.ld_unit_zero (S := S1x384) hz2]
  obtain ⟨-, -, -, -, -, -, -, -, -, -, e0, e1, -⟩ := idx_facts0 t
  funext j
  obtain ⟨p, q, rfl⟩ : ∃ (p : Fin 2048) (q : Fin 128), j = ix2 p q := ⟨j 0, j 1, eq_ix2 j⟩
  refine (LeafBlock.hidden_apply P X (2048 * t.val) (iblk0 V c 0 t) (iblk0 V c 1 t) (iblk0 V c 2 t)
    (blk0_0 V c X hX t) (blk0_1 V c P hW t) (blk0_2 V c P hB t) p q).trans ?_
  show h0 P X (2048 * t.val + p.val) q.val = h0 P X (win0_5.index t (0 : Fin 2) * 2048 + 1 * p.val) (win0_5.index t (1 : Fin 2) * 128 + 1 * q.val)
  rw [e0, e1]
  congr 1 <;> omega

include hX hW hB in
/-- What point `t` writes back to the cells is block `t` of them. -/
theorem flushed0_6_eq (t : Fin cfg0.N) :
    (dat0 V c).flushed 6 t = ((cfg0.win 6).blk t).view.read (Elt Ideal) (GC0 P X) := by
  show (cfg0.win 6).cut (grid0.coords t) ((dat0 V c).after 6 t) = _
  rw [after0_6]
  unfold out0_6
  rw [View.canon_unit_zero hz2]
  simp only [View.ld_unit_zero (S := S2048x128) hz2, View.ld_unit_zero (S := S128x384) hz2, View.ld_unit_zero (S := S1x384) hz2]
  obtain ⟨-, -, -, -, -, -, -, -, -, -, -, -, e0, e1, -⟩ := idx_facts0 t
  funext j
  obtain ⟨p, q, rfl⟩ : ∃ (p : Fin 2048) (q : Fin 128), j = ix2 p q := ⟨j 0, j 1, eq_ix2 j⟩
  refine (LeafBlock.cell_apply P X (2048 * t.val) (iblk0 V c 0 t) (iblk0 V c 1 t) (iblk0 V c 2 t)
    (blk0_0 V c X hX t) (blk0_1 V c P hW t) (blk0_2 V c P hB t) p q).trans ?_
  show c0 P X (2048 * t.val + p.val) q.val = c0 P X (win0_6.index t (0 : Fin 2) * 2048 + 1 * p.val) (win0_6.index t (1 : Fin 2) * 128 + 1 * q.val)
  rw [e0, e1]
  congr 1 <;> omega

include hX hW hB hL hLb in
/-- What point `t` writes back to the scores is block `t` of them. -/
theorem flushed0_7_eq (t : Fin cfg0.N) :
    (dat0 V c).flushed 7 t = ((cfg0.win 7).blk t).view.read (Elt Ideal) (GL0 P X) := by
  show (cfg0.win 7).cut (grid0.coords t) ((dat0 V c).after 7 t) = _
  rw [after0_7]
  unfold out0_7
  rw [View.canon_unit_zero hz2]
  simp only [View.ld_unit_zero (S := S2048x128) hz2, View.ld_unit_zero (S := S128x384) hz2, View.ld_unit_zero (S := S1x384) hz2,
    View.ld_unit_zero (S := S128x5) hz2, View.ld_unit_zero (S := S1x5) hz2]
  obtain ⟨-, -, -, -, -, -, -, -, -, -, -, -, -, -, e0, e1⟩ := idx_facts0 t
  funext j
  obtain ⟨p, q, rfl⟩ : ∃ (p : Fin 2048) (q : Fin 5), j = ix2 p q := ⟨j 0, j 1, eq_ix2 j⟩
  refine (LeafBlock.scores_apply P X (2048 * t.val) (iblk0 V c 0 t) (iblk0 V c 1 t) (iblk0 V c 2 t) (iblk0 V c 3 t) (iblk0 V c 4 t)
    (blk0_0 V c X hX t) (blk0_1 V c P hW t) (blk0_2 V c P hB t) (blk0_3 V c P hL t) (blk0_4 V c P hLb t) p q).trans ?_
  show logit P (h0 P X) (2048 * t.val + p.val) q.val = logit P (h0 P X) (win0_7.index t (0 : Fin 2) * 2048 + 1 * p.val) (win0_7.index t (1 : Fin 2) * 5 + 1 * q.val)
  rw [e0, e1]
  congr 1 <;> omega

/-- An index of the hidden-row array is in point `t`'s block iff each coordinate is in the block's range on its axis. -/
theorem mem_blk0_5 (t : Fin cfg0.N) (i : S262144x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v20_0).slice (win0_5.rect t)).set ↔ _
  rw [View.set_slice_whole, Rect.mem_set_unit]
  exact Iff.rfl
theorem mem_blk0_6 (t : Fin cfg0.N) (i : S262144x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v20_1).slice (win0_6.rect t)).set ↔ _
  rw [View.set_slice_whole, Rect.mem_set_unit]
  exact Iff.rfl
theorem mem_blk0_7 (t : Fin cfg0.N) (i : S262144x5.Idx) :
    i ∈ ((cfg0.win 7).blk t).view.set ↔ ∀ a : Fin 2, win0_7.index t a * S2048x5.size a ≤ (i a).val ∧ (i a).val < win0_7.index t a * S2048x5.size a + S2048x5.size a := by
  show i ∈ ((View.whole main_v20_2).slice (win0_7.rect t)).set ↔ _
  rw [View.set_slice_whole, Rect.mem_set_unit]
  exact Iff.rfl

/-- Every row is in the block of the point `row / 2048`. -/
theorem cover0_5 (i : S262144x128.Idx) : ∃ t : Fin cfg0.N, (cfg0.win 5).flush t = true ∧ i ∈ ((cfg0.win 5).blk t).view.set := by
  have hi0 : (i 0).val < 262144 := (i 0).isLt
  have hi1 : (i 1).val < 128 := (i 1).isLt
  let t : Fin cfg0.N := ⟨(i 0).val / 2048, by rw [show cfg0.N = 128 from N_0]; omega⟩
  obtain ⟨-, -, -, -, -, -, -, -, -, -, e0, e1, -⟩ := idx_facts0 t
  refine ⟨t, flush0_5 t, ?_⟩
  rw [mem_blk0_5]
  intro a
  match a with
  | ⟨0, _⟩ => show win0_5.index t (0 : Fin 2) * 2048 ≤ (i 0).val ∧ (i 0).val < win0_5.index t (0 : Fin 2) * 2048 + 2048; rw [e0]; show (i 0).val / 2048 * 2048 ≤ _ ∧ _ < (i 0).val / 2048 * 2048 + 2048; omega
  | ⟨1, _⟩ => show win0_5.index t (1 : Fin 2) * 128 ≤ (i 1).val ∧ (i 1).val < win0_5.index t (1 : Fin 2) * 128 + 128; rw [e1]; omega
theorem cover0_6 (i : S262144x128.Idx) : ∃ t : Fin cfg0.N, (cfg0.win 6).flush t = true ∧ i ∈ ((cfg0.win 6).blk t).view.set := by
  have hi0 : (i 0).val < 262144 := (i 0).isLt
  have hi1 : (i 1).val < 128 := (i 1).isLt
  let t : Fin cfg0.N := ⟨(i 0).val / 2048, by rw [show cfg0.N = 128 from N_0]; omega⟩
  obtain ⟨-, -, -, -, -, -, -, -, -, -, -, -, e0, e1, -⟩ := idx_facts0 t
  refine ⟨t, flush0_6 t, ?_⟩
  rw [mem_blk0_6]
  intro a
  match a with
  | ⟨0, _⟩ => show win0_6.index t (0 : Fin 2) * 2048 ≤ (i 0).val ∧ (i 0).val < win0_6.index t (0 : Fin 2) * 2048 + 2048; rw [e0]; show (i 0).val / 2048 * 2048 ≤ _ ∧ _ < (i 0).val / 2048 * 2048 + 2048; omega
  | ⟨1, _⟩ => show win0_6.index t (1 : Fin 2) * 128 ≤ (i 1).val ∧ (i 1).val < win0_6.index t (1 : Fin 2) * 128 + 128; rw [e1]; omega
theorem cover0_7 (i : S262144x5.Idx) : ∃ t : Fin cfg0.N, (cfg0.win 7).flush t = true ∧ i ∈ ((cfg0.win 7).blk t).view.set := by
  have hi0 : (i 0).val < 262144 := (i 0).isLt
  have hi1 : (i 1).val < 5 := (i 1).isLt
  let t : Fin cfg0.N := ⟨(i 0).val / 2048, by rw [show cfg0.N = 128 from N_0]; omega⟩
  obtain ⟨-, -, -, -, -, -, -, -, -, -, -, -, -, -, e0, e1⟩ := idx_facts0 t
  refine ⟨t, flush0_7 t, ?_⟩
  rw [mem_blk0_7]
  intro a
  match a with
  | ⟨0, _⟩ => show win0_7.index t (0 : Fin 2) * 2048 ≤ (i 0).val ∧ (i 0).val < win0_7.index t (0 : Fin 2) * 2048 + 2048; rw [e0]; show (i 0).val / 2048 * 2048 ≤ _ ∧ _ < (i 0).val / 2048 * 2048 + 2048; omega
  | ⟨1, _⟩ => show win0_7.index t (1 : Fin 2) * 5 ≤ (i 1).val ∧ (i 1).val < win0_7.index t (1 : Fin 2) * 5 + 5; rw [e1]; omega

include hX hW hB in
/-- After the leaf region its first output array holds the level-0 hidden rows. -/
theorem final0_5 : (dat0 V c).arrAt 5 cfg0.N = GH0 P X :=
  (dat0 V c).arrAt_eq_of_cover 5 (GH0 P X) (fun t _ => flushed0_5_eq V c P X hX hW hB t) cover0_5
include hX hW hB in
/-- … its second the level-0 cells … -/
theorem final0_6 : (dat0 V c).arrAt 6 cfg0.N = GC0 P X :=
  (dat0 V c).arrAt_eq_of_cover 6 (GC0 P X) (fun t _ => flushed0_6_eq V c P X hX hW hB t) cover0_6
include hX hW hB hL hLb in
/-- … and its third the level-0 scores. -/
theorem final0_7 : (dat0 V c).arrAt 7 cfg0.N = GL0 P X :=
  (dat0 V c).arrAt_eq_of_cover 7 (GL0 P X) (fun t _ => flushed0_7_eq V c P X hX hW hB hL hLb t) cover0_7

end Leaf

end Cert.KernelIdeal.HandValue

end
-- ==== Proof.InnerBlock.lean ====
/-
  An inner level's block arithmetic read at an index. A block is 2048 consecutive nodes; node `r0 + p` sees its two
  children's hidden rows side by side (256 numbers) and their cells side by side. The forget gates are that paired row
  times the transposed forget weights plus the bias, squashed; the three gates the paired row times the transposed gate
  weights plus the bias; the cell is `σ(i) · tanh(u)` plus the forget-gated sum of the children's cells; the hidden row
  `σ(o) · tanh(c)`; the scores the hidden row times the transposed classifier plus its bias. The loads are variables with
  what they hold as hypotheses, so that each statement applies at any grid point of any inner level.
-/
import proofs.«136691_j33638183863177_2_alg».proof.Proof.Gen.KernelIdeal.Skeleton
import proofs.«136691_j33638183863177_2_alg».proof.Proof.Spec
import proofs.«136691_j33638183863177_2_alg».proof.Proof.LibPlainDot
import proofs.«136691_j33638183863177_2_alg».proof.Proof.LeafBlock
import Idealize.ShloMosaic.Lib.Pipeline.Value
import Idealize.ShloMosaic.Lib.ValueIdx

noncomputable section

open scoped BigOperators

namespace Cert.KernelIdeal.InnerBlock

open Cert.KernelIdeal Cert.KernelIdeal.Gen Cert.Spec Cert.KernelIdeal.LeafBlock Idealize.ShloMosaic Idealize.ShloMosaic.ValueIdx

variable (P : Params) (H C : M) (r0 : ℕ)
variable (x0 : Vec Ideal S2048x256 .bf16) (x1 : Vec Ideal S2048x256 .f32) (x2 : Vec Ideal S256x256 .bf16) (x3 : Vec Ideal S1x256 .f32)
variable (x4 : Vec Ideal S256x384 .bf16) (x5 : Vec Ideal S1x384 .f32) (x6 : Vec Ideal S128x5 .bf16) (x7 : Vec Ideal S1x5 .f32)

/-- The block's three gates: the paired hidden row of node `r0 + p` against gate column `j`. -/
theorem gates_apply (hh : ∀ (p : Fin 2048) (k : Fin 256), x0 (ix2 p k) = cat H (r0 + p.val) k.val)
    (hw : ∀ (k : Fin 256) (j : Fin 384), x4 (ix2 k j) = P.Ui j.val k.val) (hb : ∀ j : Fin 384, x5 (ix2 0 j) = P.ui j.val)
    (p : Fin 2048) (j : Fin 384) : k1_pay3 (F := Ideal) x0 x4 x5 (ix2 p j) = iouN P H (r0 + p.val) j.val := by
  unfold k1_pay3 k1_pay2
  simp only [shapeCast_self]
  rw [addf_apply]
  have e1 := PlainDot.matmul_zero_apply (φ₁ := .bf16) (φ₂ := .bf16) (M := 2048) (K := 256) (N := 384) none x0 x4 p j
  have e2 := bcastRow_apply (m := 2048) x5 broadcasts_S1x384_S2048x384 p j
  refine (congrArg₂ (· + ·) e1 e2).trans ?_
  unfold iouN dot
  rw [hb]
  exact congrArg (· + _) (Finset.sum_congr rfl fun k _ => by rw [hh, hw])

/-- The forget gates before they meet the cells: the paired hidden row against forget column `j`, squashed. -/
theorem forget_apply (hh : ∀ (p : Fin 2048) (k : Fin 256), x0 (ix2 p k) = cat H (r0 + p.val) k.val)
    (hf : ∀ (k : Fin 256) (j : Fin 256), x2 (ix2 k j) = P.Uf j.val k.val) (hfb : ∀ j : Fin 256, x3 (ix2 0 j) = P.uf j.val)
    (p : Fin 2048) (j : Fin 256) :
    FloatOps.logistic ((addf (matmul (φ₁ := .bf16) (φ₂ := .bf16) dot_S2048x256_S256x256_S2048x256_1_0_0_1_n_n none x0 x2 (constant S2048x256 .f32 0x00000000#32))
      (broadcastTo S2048x256 x3 broadcasts_S1x256_S2048x256) : FVec Ideal S2048x256 .f32) (ix2 p j)) = fg P H (r0 + p.val) j.val := by
  have e1 := PlainDot.matmul_zero_apply (φ₁ := .bf16) (φ₂ := .bf16) (M := 2048) (K := 256) (N := 256) none x0 x2 p j
  have e2 := bcastRow_apply (m := 2048) x3 broadcasts_S1x256_S2048x256 p j
  refine (congrArg FloatOps.logistic (congrArg₂ (· + ·) e1 e2)).trans ?_
  unfold fg dot
  rw [hfb]
  exact congrArg (fun s => sg (s + _)) (Finset.sum_congr rfl fun k _ => by rw [hh, hf])

/-- The block's cells: `σ(i) · tanh(u)` plus the two children's cells, each under its forget gate. -/
theorem cell_apply (hh : ∀ (p : Fin 2048) (k : Fin 256), x0 (ix2 p k) = cat H (r0 + p.val) k.val)
    (hc : ∀ (p : Fin 2048) (k : Fin 256), x1 (ix2 p k) = cat C (r0 + p.val) k.val)
    (hf : ∀ (k : Fin 256) (j : Fin 256), x2 (ix2 k j) = P.Uf j.val k.val) (hfb : ∀ j : Fin 256, x3 (ix2 0 j) = P.uf j.val)
    (hw : ∀ (k : Fin 256) (j : Fin 384), x4 (ix2 k j) = P.Ui j.val k.val) (hb : ∀ j : Fin 384, x5 (ix2 0 j) = P.ui j.val)
    (p : Fin 2048) (q : Fin 128) : k1_pay4 (F := Ideal) x0 x1 x2 x3 x4 x5 (ix2 p q) = cN P H C (r0 + p.val) q.val := by
  have hq := q.isLt
  unfold k1_pay4 k1_pay2
  simp only [shapeCast_self]
  show FloatOps.logistic (extractStridedSlice S2048x128 ![0, 0] (k1_pay3 x0 x4 x5) slices_S2048x384_o0_0_S2048x128 (ix2 p q))
        * FloatOps.tanh (extractStridedSlice S2048x128 ![0, 256] (k1_pay3 x0 x4 x5) slices_S2048x384_o0_256_S2048x128 (ix2 p q))
      + (extractStridedSlice S2048x128 ![0, 0] (logistic (addf (matmul dot_S2048x256_S256x256_S2048x256_1_0_0_1_n_n none x0 x2 (constant S2048x256 .f32 0x00000000#32)) (broadcastTo S2048x256 x3 broadcasts_S1x256_S2048x256))) slices_S2048x256_o0_0_S2048x128 (ix2 p q)
          * extractStridedSlice S2048x128 ![0, 0] x1 slices_S2048x256_o0_0_S2048x128 (ix2 p q)
        + extractStridedSlice S2048x128 ![0, 128] (logistic (addf (matmul dot_S2048x256_S256x256_S2048x256_1_0_0_1_n_n none x0 x2 (constant S2048x256 .f32 0x00000000#32)) (broadcastTo S2048x256 x3 broadcasts_S1x256_S2048x256))) slices_S2048x256_o0_128_S2048x128 (ix2 p q)
          * extractStridedSlice S2048x128 ![0, 128] x1 slices_S2048x256_o0_128_S2048x128 (ix2 p q)) = _
  rw [colBand_apply 0 (k1_pay3 x0 x4 x5) _ p q (by omega), colBand_apply 256 (k1_pay3 x0 x4 x5) _ p q (by omega),
    colBand_apply 0 (logistic _) _ p q (by omega), colBand_apply 128 (logistic _) _ p q (by omega),
    colBand_apply 0 x1 _ p q (by omega), colBand_apply 128 x1 _ p q (by omega),
    gates_apply P H r0 x0 x4 x5 hh hw hb, gates_apply P H r0 x0 x4 x5 hh hw hb, hc, hc]
  show sg (iouN P H (r0 + p.val) (0 + q.val)) * th (iouN P H (r0 + p.val) (256 + q.val))
      + (FloatOps.logistic ((addf (matmul dot_S2048x256_S256x256_S2048x256_1_0_0_1_n_n none x0 x2 (constant S2048x256 .f32 0x00000000#32))
            (broadcastTo S2048x256 x3 broadcasts_S1x256_S2048x256) : FVec Ideal S2048x256 .f32) (ix2 p ⟨0 + q.val, by omega⟩)) * cat C (r0 + p.val) (0 + q.val)
        + FloatOps.logistic ((addf (matmul dot_S2048x256_S256x256_S2048x256_1_0_0_1_n_n none x0 x2 (constant S2048x256 .f32 0x00000000#32))
            (broadcastTo S2048x256 x3 broadcasts_S1x256_S2048x256) : FVec Ideal S2048x256 .f32) (ix2 p ⟨128 + q.val, by omega⟩)) * cat C (r0 + p.val) (128 + q.val)) = _
  rw [forget_apply P H r0 x0 x2 x3 hh hf hfb, forget_apply P H r0 x0 x2 x3 hh hf hfb]
  show _ = gate (iouN P H) (r0 + p.val) q.val + cf P H C (r0 + p.val) q.val
  unfold gate cf
  simp only [Nat.zero_add]

/-- The block's hidden rows: `σ(o) · tanh(c)`. -/
theorem hidden_apply (hh : ∀ (p : Fin 2048) (k : Fin 256), x0 (ix2 p k) = cat H (r0 + p.val) k.val)
    (hc : ∀ (p : Fin 2048) (k : Fin 256), x1 (ix2 p k) = cat C (r0 + p.val) k.val)
    (hf : ∀ (k : Fin 256) (j : Fin 256), x2 (ix2 k j) = P.Uf j.val k.val) (hfb : ∀ j : Fin 256, x3 (ix2 0 j) = P.uf j.val)
    (hw : ∀ (k : Fin 256) (j : Fin 384), x4 (ix2 k j) = P.Ui j.val k.val) (hb : ∀ j : Fin 384, x5 (ix2 0 j) = P.ui j.val)
    (p : Fin 2048) (q : Fin 128) : k1_pay5 (F := Ideal) x0 x1 x2 x3 x4 x5 (ix2 p q) = hN P H C (r0 + p.val) q.val := by
  have hq := q.isLt
  unfold k1_pay5
  show FloatOps.logistic (extractStridedSlice S2048x128 ![0, 128] (k1_pay3 x0 x4 x5) slices_S2048x384_o0_128_S2048x128 (ix2 p q))
      * FloatOps.tanh (k1_pay4 x0 x1 x2 x3 x4 x5 (ix2 p q)) = _
  rw [colBand_apply 128 _ _ p q (by omega), gates_apply P H r0 x0 x4 x5 hh hw hb,
    cell_apply P H C r0 x0 x1 x2 x3 x4 x5 hh hc hf hfb hw hb]
  rfl

/-- The block's scores from its hidden rows `hb`: the hidden row against classifier row `j`, plus its bias. -/
theorem scores_apply (hb' : Vec Ideal S2048x128 .bf16) (Hn : M) (hhb : ∀ (p : Fin 2048) (k : Fin 128), hb' (ix2 p k) = Hn (r0 + p.val) k.val)
    (hl : ∀ (k : Fin 128) (j : Fin 5), x6 (ix2 k j) = P.L j.val k.val) (hlb : ∀ j : Fin 5, x7 (ix2 0 j) = P.lb j.val)
    (p : Fin 2048) (j : Fin 5) : k1_pay1 (F := Ideal) hb' x6 x7 (ix2 p j) = logit P Hn (r0 + p.val) j.val := by
  unfold k1_pay1
  simp only [shapeCast_self]
  rw [addf_apply]
  have e1 := PlainDot.matmul_zero_apply (φ₁ := .bf16) (φ₂ := .bf16) (M := 2048) (K := 128) (N := 5) none hb' x6 p j
  have e2 := bcastRow_apply (m := 2048) x7 broadcasts_S1x5_S2048x5 p j
  refine (congrArg₂ (· + ·) e1 e2).trans ?_
  unfold logit dot
  rw [hlb]
  exact congrArg (· + _) (Finset.sum_congr rfl fun k _ => by rw [hhb, hl])

end Cert.KernelIdeal.InnerBlock

end
-- ==== Proof.KIValue1.lean ====
/- Inner level 1 of the tree: its region's three output arrays as whole-array functions. Grid point t handles nodes
  2048 t … 2048 t + 2047: its two row-blocked inputs are those rows of the children's hidden rows and cells, paired side
  by side; its weight blocks are the whole weight matrices; what it writes back to each output is those rows of the
  level's hidden rows, cells and scores. The 64 blocks tile the 131072 rows.
-/
import proofs.«136691_j33638183863177_2_alg».proof.Proof.KIData
import proofs.«136691_j33638183863177_2_alg».proof.Proof.InnerBlock
import proofs.«136691_j33638183863177_2_alg».proof.Proof.KIValue0
import Idealize.ShloMosaic.Lib.Pipeline.Value

noncomputable section

open scoped BigOperators

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

/-- The printed index maps of this region, decided over its 64 points: the row-blocked windows sit at block row t,
    the weight windows at the origin. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

section Inner1

variable (V : (c : Dev nD) → (b : Ref sig .tc) → Buf (Elt Ideal) ((c : Thread nD τ).loc b)) (c : Dev nD)
variable (P : Params) (H C : M)
variable (hH : ∀ (r : Fin 131072) (k : Fin 256), V c main_v21 (ix2 r k) = cat H r.val k.val)
variable (hC : ∀ (r : Fin 131072) (k : Fin 256), V c main_v22 (ix2 r k) = cat C r.val k.val)
variable (hF : ∀ (k : Fin 256) (j : Fin 256), V c main_v15 (ix2 k j) = P.Uf j.val k.val)
variable (hFb : ∀ j : Fin 256, V c main_v16 (ix2 0 j) = P.uf j.val)
variable (hW : ∀ (k : Fin 256) (j : Fin 384), V c main_v12 (ix2 k j) = P.Ui j.val k.val)
variable (hB : ∀ j : Fin 384, V c main_v13 (ix2 0 j) = P.ui j.val)
variable (hL : ∀ (k : Fin 128) (j : Fin 5), V c main_v18 (ix2 k j) = P.L j.val k.val)
variable (hLb : ∀ j : Fin 5, V c main_v19 (ix2 0 j) = P.lb j.val)

include hH in
theorem blk1_0 (t : Fin cfg1.N) (p : Fin 2048) (k : Fin 256) : iblk1 V c 0 t (ix2 p k) = cat H (2048 * t.val + p.val) k.val := by
  have ht : t.val < 64 := lt_of_lt_of_eq t.isLt N_1
  obtain ⟨e0, e1, -⟩ := idx_facts1 t
  show V c main_v21 (((cfg1.win 0).blk t).view.emb (ix2 p k)) = _
  have e : ((cfg1.win 0).blk t).view.emb (ix2 p k) = ix2 ⟨2048 * t.val + p.val, by have := p.isLt; omega⟩ k := by
    funext a; apply Fin.ext
    match a with
    | ⟨0, _⟩ => show win1_0.index t (0 : Fin 2) * 2048 + 1 * p.val = 2048 * t.val + p.val; omega
    | ⟨1, _⟩ => show win1_0.index t (1 : Fin 2) * 256 + 1 * k.val = k.val; omega
  rw [e, hH]

include hC in
theorem blk1_1 (t : Fin cfg1.N) (p : Fin 2048) (k : Fin 256) : iblk1 V c 1 t (ix2 p k) = cat C (2048 * t.val + p.val) k.val := by
  have ht : t.val < 64 := lt_of_lt_of_eq t.isLt N_1
  obtain ⟨-, -, e0, e1, -⟩ := idx_facts1 t
  show V c main_v22 (((cfg1.win 1).blk t).view.emb (ix2 p k)) = _
  have e : ((cfg1.win 1).blk t).view.emb (ix2 p k) = ix2 ⟨2048 * t.val + p.val, by have := p.isLt; omega⟩ k := by
    funext a; apply Fin.ext
    match a with
    | ⟨0, _⟩ => show win1_1.index t (0 : Fin 2) * 2048 + 1 * p.val = 2048 * t.val + p.val; omega
    | ⟨1, _⟩ => show win1_1.index t (1 : Fin 2) * 256 + 1 * k.val = k.val; omega
  rw [e, hC]

include hF in
theorem blk1_2 (t : Fin cfg1.N) (k : Fin 256) (j : Fin 256) : iblk1 V c 2 t (ix2 k j) = P.Uf j.val k.val := by
  obtain ⟨-, -, -, -, e0, e1, -⟩ := idx_facts1 t
  show V c main_v15 (((cfg1.win 2).blk t).view.emb (ix2 k j)) = _
  have e : ((cfg1.win 2).blk t).view.emb (ix2 k j) = ix2 k j := by
    funext a; apply Fin.ext
    match a with
    | ⟨0, _⟩ => show win1_2.index t (0 : Fin 2) * 256 + 1 * k.val = k.val; omega
    | ⟨1, _⟩ => show win1_2.index t (1 : Fin 2) * 256 + 1 * j.val = j.val; omega
  rw [e, hF]

include hFb in
theorem blk1_3 (t : Fin cfg1.N) (j : Fin 256) : iblk1 V c 3 t (ix2 0 j) = P.uf j.val := by
  obtain ⟨-, -, -, -, -, -, e0, e1, -⟩ := idx_facts1 t
  show V c main_v16 (((cfg1.win 3).blk t).view.emb (ix2 0 j)) = _
  have e : ((cfg1.win 3).blk t).view.emb (ix2 (0 : Fin 1) j) = ix2 0 j := by
    funext a; apply Fin.ext
    match a with
    | ⟨0, _⟩ => show win1_3.index t (0 : Fin 2) * 1 + 1 * 0 = 0; omega
    | ⟨1, _⟩ => show win1_3.index t (1 : Fin 2) * 256 + 1 * j.val = j.val; omega
  rw [e, hFb]

include hW in
theorem blk1_4 (t : Fin cfg1.N) (k : Fin 256) (j : Fin 384) : iblk1 V c 4 t (ix2 k j) = P.Ui j.val k.val := by
  obtain ⟨-, -, -, -, -, -, -, -, e0, e1, -⟩ := idx_facts1 t
  show V c main_v12 (((cfg1.win 4).blk t).view.emb (ix2 k j)) = _
  have e : ((cfg1.win 4).blk t).view.emb (ix2 k j) = ix2 k j := by
    funext a; apply Fin.ext
    match a with
    | ⟨0, _⟩ => show win1_4.index t (0 : Fin 2) * 256 + 1 * k.val = k.val; omega
    | ⟨1, _⟩ => show win1_4.index t (1 : Fin 2) * 384 + 1 * j.val = j.val; omega
  rw [e, hW]

include hB in
theorem blk1_5 (t : Fin cfg1.N) (j : Fin 384) : iblk1 V c 5 t (ix2 0 j) = P.ui j.val := by
  obtain ⟨-, -, -, -, -, -, -, -, -, -, e0, e1, -⟩ := idx_facts1 t
  show V c main_v13 (((cfg1.win 5).blk t).view.emb (ix2 0 j)) = _
  have e : ((cfg1.win 5).blk t).view.emb (ix2 (0 : Fin 1) j) = ix2 0 j := by
    funext a; apply Fin.ext
    match a with
    | ⟨0, _⟩ => show win1_5.index t (0 : Fin 2) * 1 + 1 * 0 = 0; omega
    | ⟨1, _⟩ => show win1_5.index t (1 : Fin 2) * 384 + 1 * j.val = j.val; omega
  rw [e, hB]

include hL in
theorem blk1_6 (t : Fin cfg1.N) (k : Fin 128) (j : Fin 5) : iblk1 V c 6 t (ix2 k j) = P.L j.val k.val := by
  obtain ⟨-, -, -, -, -, -, -, -, -, -, -, -, e0, e1, -⟩ := idx_facts1 t
  show V c main_v18 (((cfg1.win 6).blk t).view.emb (ix2 k j)) = _
  have e : ((cfg1.win 6).blk t).view.emb (ix2 k j) = ix2 k j := by
    funext a; apply Fin.ext
    match a with
    | ⟨0, _⟩ => show win1_6.index t (0 : Fin 2) * 128 + 1 * k.val = k.val; omega
    | ⟨1, _⟩ => show win1_6.index t (1 : Fin 2) * 5 + 1 * j.val = j.val; omega
  rw [e, hL]

include hLb in
theorem blk1_7 (t : Fin cfg1.N) (j : Fin 5) : iblk1 V c 7 t (ix2 0 j) = P.lb j.val := by
  obtain ⟨-, -, -, -, -, -, -, -, -, -, -, -, -, -, e0, e1, -⟩ := idx_facts1 t
  show V c main_v19 (((cfg1.win 7).blk t).view.emb (ix2 0 j)) = _
  have e : ((cfg1.win 7).blk t).view.emb (ix2 (0 : Fin 1) j) = ix2 0 j := by
    funext a; apply Fin.ext
    match a with
    | ⟨0, _⟩ => show win1_7.index t (0 : Fin 2) * 1 + 1 * 0 = 0; omega
    | ⟨1, _⟩ => show win1_7.index t (1 : Fin 2) * 5 + 1 * j.val = j.val; omega
  rw [e, hLb]

/-- This level's hidden rows, cells and scores as arrays, from the level below (H, C). -/
abbrev GH1 : S131072x128.Idx → EReal := fun i => hN P H C (i 0).val (i 1).val
abbrev GC1 : S131072x128.Idx → EReal := fun i => cN P H C (i 0).val (i 1).val
abbrev GL1 : S131072x5.Idx → EReal := fun i => logit P (hN P H C) (i 0).val (i 1).val

include hH hC hF hFb hW hB in
/-- What point t writes back to the hidden rows is block t of them. -/
theorem flushed1_8_eq (t : Fin cfg1.N) :
    (dat1 V c).flushed 8 t = ((cfg1.win 8).blk t).view.read (Elt Ideal) (GH1 P H C) := by
  show (cfg1.win 8).cut (grid1.coords t) ((dat1 V c).after 8 t) = _
  rw [after1_8]
  unfold out1_8
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, e0, e1, -⟩ := idx_facts1 t
  funext j
  obtain ⟨p, q, rfl⟩ : ∃ (p : Fin 2048) (q : Fin 128), j = ix2 p q := ⟨j 0, j 1, eq_ix2 j⟩
  refine (InnerBlock.hidden_apply P H C (2048 * t.val) (iblk1 V c 0 t) (iblk1 V c 1 t) (iblk1 V c 2 t) (iblk1 V c 3 t) (iblk1 V c 4 t) (iblk1 V c 5 t)
    (blk1_0 V c H hH t) (blk1_1 V c C hC t) (blk1_2 V c P hF t) (blk1_3 V c P hFb t) (blk1_4 V c P hW t) (blk1_5 V c P hB t) p q).trans ?_
  show hN P H C (2048 * t.val + p.val) q.val = hN P H C (win1_8.index t (0 : Fin 2) * 2048 + 1 * p.val) (win1_8.index t (1 : Fin 2) * 128 + 1 * q.val)
  rw [e0, e1]
  congr 1 <;> omega

include hH hC hF hFb hW hB in
/-- What point t writes back to the cells is block t of them. -/
theorem flushed1_9_eq (t : Fin cfg1.N) :
    (dat1 V c).flushed 9 t = ((cfg1.win 9).blk t).view.read (Elt Ideal) (GC1 P H C) := by
  show (cfg1.win 9).cut (grid1.coords t) ((dat1 V c).after 9 t) = _
  rw [after1_9]
  unfold out1_9
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, -, -, e0, e1, -⟩ := idx_facts1 t
  funext j
  obtain ⟨p, q, rfl⟩ : ∃ (p : Fin 2048) (q : Fin 128), j = ix2 p q := ⟨j 0, j 1, eq_ix2 j⟩
  refine (InnerBlock.cell_apply P H C (2048 * t.val) (iblk1 V c 0 t) (iblk1 V c 1 t) (iblk1 V c 2 t) (iblk1 V c 3 t) (iblk1 V c 4 t) (iblk1 V c 5 t)
    (blk1_0 V c H hH t) (blk1_1 V c C hC t) (blk1_2 V c P hF t) (blk1_3 V c P hFb t) (blk1_4 V c P hW t) (blk1_5 V c P hB t) p q).trans ?_
  show cN P H C (2048 * t.val + p.val) q.val = cN P H C (win1_9.index t (0 : Fin 2) * 2048 + 1 * p.val) (win1_9.index t (1 : Fin 2) * 128 + 1 * q.val)
  rw [e0, e1]
  congr 1 <;> omega

include hH hC hF hFb hW hB hL hLb in
/-- What point t writes back to the scores is block t of them. -/
theorem flushed1_10_eq (t : Fin cfg1.N) :
    (dat1 V c).flushed 10 t = ((cfg1.win 10).blk t).view.read (Elt Ideal) (GL1 P H C) := by
  show (cfg1.win 10).cut (grid1.coords t) ((dat1 V c).after 10 t) = _
  rw [after1_10]
  unfold out1_10
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2, View.ld_unit_zero (S := S128x5) hz2, View.ld_unit_zero (S := S1x5) hz2]
  obtain ⟨-, -, -, -, -, -, -, -, -, -, -, -, -, -, -, -, -, -, -, -, e0, e1⟩ := idx_facts1 t
  funext j
  obtain ⟨p, q, rfl⟩ : ∃ (p : Fin 2048) (q : Fin 5), j = ix2 p q := ⟨j 0, j 1, eq_ix2 j⟩
  refine (InnerBlock.scores_apply P (2048 * t.val) (iblk1 V c 6 t) (iblk1 V c 7 t)
    (k1_pay5 (F := Ideal) (iblk1 V c 0 t) (iblk1 V c 1 t) (iblk1 V c 2 t) (iblk1 V c 3 t) (iblk1 V c 4 t) (iblk1 V c 5 t)) (hN P H C)
    (InnerBlock.hidden_apply P H C (2048 * t.val) (iblk1 V c 0 t) (iblk1 V c 1 t) (iblk1 V c 2 t) (iblk1 V c 3 t) (iblk1 V c 4 t) (iblk1 V c 5 t)
      (blk1_0 V c H hH t) (blk1_1 V c C hC t) (blk1_2 V c P hF t) (blk1_3 V c P hFb t) (blk1_4 V c P hW t) (blk1_5 V c P hB t))
    (blk1_6 V c P hL t) (blk1_7 V c P hLb t) p q).trans ?_
  show logit P (hN P H C) (2048 * t.val + p.val) q.val = logit P (hN P H C) (win1_10.index t (0 : Fin 2) * 2048 + 1 * p.val) (win1_10.index t (1 : Fin 2) * 5 + 1 * q.val)
  rw [e0, e1]
  congr 1 <;> omega

/-- An index of an output array is in point t's block iff each coordinate is in the block's range on its axis. -/
theorem mem_blk1_8 (t : Fin cfg1.N) (i : S131072x128.Idx) :
    i ∈ ((cfg1.win 8).blk t).view.set ↔ ∀ a : Fin 2, win1_8.index t a * S2048x128.size a ≤ (i a).val ∧ (i a).val < win1_8.index t a * S2048x128.size a + S2048x128.size a := by
  show i ∈ ((View.whole main_v23_0).slice (win1_8.rect t)).set ↔ _
  rw [View.set_slice_whole, Rect.mem_set_unit]
  exact Iff.rfl
theorem mem_blk1_9 (t : Fin cfg1.N) (i : S131072x128.Idx) :
    i ∈ ((cfg1.win 9).blk t).view.set ↔ ∀ a : Fin 2, win1_9.index t a * S2048x128.size a ≤ (i a).val ∧ (i a).val < win1_9.index t a * S2048x128.size a + S2048x128.size a := by
  show i ∈ ((View.whole main_v23_1).slice (win1_9.rect t)).set ↔ _
  rw [View.set_slice_whole, Rect.mem_set_unit]
  exact Iff.rfl
theorem mem_blk1_10 (t : Fin cfg1.N) (i : S131072x5.Idx) :
    i ∈ ((cfg1.win 10).blk t).view.set ↔ ∀ a : Fin 2, win1_10.index t a * S2048x5.size a ≤ (i a).val ∧ (i a).val < win1_10.index t a * S2048x5.size a + S2048x5.size a := by
  show i ∈ ((View.whole main_v23_2).slice (win1_10.rect t)).set ↔ _
  rw [View.set_slice_whole, Rect.mem_set_unit]
  exact Iff.rfl

/-- Every row is in the block of the point row / 2048. -/
theorem cover1_8 (i : S131072x128.Idx) : ∃ t : Fin cfg1.N, (cfg1.win 8).flush t = true ∧ i ∈ ((cfg1.win 8).blk t).view.set := by
  have hi0 : (i 0).val < 131072 := (i 0).isLt
  have hi1 : (i 1).val < 128 := (i 1).isLt
  let t : Fin cfg1.N := ⟨(i 0).val / 2048, by rw [show cfg1.N = 64 from N_1]; omega⟩
  obtain ⟨-, -, -, -, -, -, -, -, -, -, -, -, -, -, -, -, e0, e1, -⟩ := idx_facts1 t
  refine ⟨t, flush1_8 t, ?_⟩
  rw [mem_blk1_8]
  intro a
  match a with
  | ⟨0, _⟩ => show win1_8.index t (0 : Fin 2) * 2048 ≤ (i 0).val ∧ (i 0).val < win1_8.index t (0 : Fin 2) * 2048 + 2048; rw [e0]; show (i 0).val / 2048 * 2048 ≤ _ ∧ _ < (i 0).val / 2048 * 2048 + 2048; omega
  | ⟨1, _⟩ => show win1_8.index t (1 : Fin 2) * 128 ≤ (i 1).val ∧ (i 1).val < win1_8.index t (1 : Fin 2) * 128 + 128; rw [e1]; omega
theorem cover1_9 (i : S131072x128.Idx) : ∃ t : Fin cfg1.N, (cfg1.win 9).flush t = true ∧ i ∈ ((cfg1.win 9).blk t).view.set := by
  have hi0 : (i 0).val < 131072 := (i 0).isLt
  have hi1 : (i 1).val < 128 := (i 1).isLt
  let t : Fin cfg1.N := ⟨(i 0).val / 2048, by rw [show cfg1.N = 64 from N_1]; omega⟩
  obtain ⟨-, -, -, -, -, -, -, -, -, -, -, -, -, -, -, -, -, -, e0, e1, -⟩ := idx_facts1 t
  refine ⟨t, flush1_9 t, ?_⟩
  rw [mem_blk1_9]
  intro a
  match a with
  | ⟨0, _⟩ => show win1_9.index t (0 : Fin 2) * 2048 ≤ (i 0).val ∧ (i 0).val < win1_9.index t (0 : Fin 2) * 2048 + 2048; rw [e0]; show (i 0).val / 2048 * 2048 ≤ _ ∧ _ < (i 0).val / 2048 * 2048 + 2048; omega
  | ⟨1, _⟩ => show win1_9.index t (1 : Fin 2) * 128 ≤ (i 1).val ∧ (i 1).val < win1_9.index t (1 : Fin 2) * 128 + 128; rw [e1]; omega
theorem cover1_10 (i : S131072x5.Idx) : ∃ t : Fin cfg1.N, (cfg1.win 10).flush t = true ∧ i ∈ ((cfg1.win 10).blk t).view.set := by
  have hi0 : (i 0).val < 131072 := (i 0).isLt
  have hi1 : (i 1).val < 5 := (i 1).isLt
  let t : Fin cfg1.N := ⟨(i 0).val / 2048, by rw [show cfg1.N = 64 from N_1]; omega⟩
  obtain ⟨-, -, -, -, -, -, -, -, -, -, -, -, -, -, -, -, -, -, -, -, e0, e1⟩ := idx_facts1 t
  refine ⟨t, flush1_10 t, ?_⟩
  rw [mem_blk1_10]
  intro a
  match a with
  | ⟨0, _⟩ => show win1_10.index t (0 : Fin 2) * 2048 ≤ (i 0).val ∧ (i 0).val < win1_10.index t (0 : Fin 2) * 2048 + 2048; rw [e0]; show (i 0).val / 2048 * 2048 ≤ _ ∧ _ < (i 0).val / 2048 * 2048 + 2048; omega
  | ⟨1, _⟩ => show win1_10.index t (1 : Fin 2) * 5 ≤ (i 1).val ∧ (i 1).val < win1_10.index t (1 : Fin 2) * 5 + 5; rw [e1]; omega

include hH hC hF hFb hW hB in
/-- After this region its first output array holds the level's hidden rows … -/
theorem final1_8 : (dat1 V c).arrAt 8 cfg1.N = GH1 P H C :=
  (dat1 V c).arrAt_eq_of_cover 8 (GH1 P H C) (fun t _ => flushed1_8_eq V c P H C hH hC hF hFb hW hB t) cover1_8
include hH hC hF hFb hW hB in
/-- … its second the level's cells … -/
theorem final1_9 : (dat1 V c).arrAt 9 cfg1.N = GC1 P H C :=
  (dat1 V c).arrAt_eq_of_cover 9 (GC1 P H C) (fun t _ => flushed1_9_eq V c P H C hH hC hF hFb hW hB t) cover1_9
include hH hC hF hFb hW hB hL hLb in
/-- … and its third the level's scores. -/
theorem final1_10 : (dat1 V c).arrAt 10 cfg1.N = GL1 P H C :=
  (dat1 V c).arrAt_eq_of_cover 10 (GL1 P H C) (fun t _ => flushed1_10_eq V c P H C hH hC hF hFb hW hB hL hLb t) cover1_10

end Inner1

end Cert.KernelIdeal.HandValue

end
-- ==== Proof.KIValue2.lean ====
/- Inner level 2 of the tree: its region's three output arrays as whole-array functions. Grid point t handles nodes
  2048 t … 2048 t + 2047: its two row-blocked inputs are those rows of the children's hidden rows and cells, paired side
  by side; its weight blocks are the whole weight matrices; what it writes back to each output is those rows of the
  level's hidden rows, cells and scores. The 32 blocks tile the 65536 rows.
-/
import proofs.«136691_j33638183863177_2_alg».proof.Proof.KIData
import proofs.«136691_j33638183863177_2_alg».proof.Proof.InnerBlock
import proofs.«136691_j33638183863177_2_alg».proof.Proof.KIValue0
import Idealize.ShloMosaic.Lib.Pipeline.Value

noncomputable section

open scoped BigOperators

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

/-- The printed index maps of this region, decided over its 32 points: the row-blocked windows sit at block row t,
    the weight windows at the origin. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

section Inner2

variable (V : (c : Dev nD) → (b : Ref sig .tc) → Buf (Elt Ideal) ((c : Thread nD τ).loc b)) (c : Dev nD)
variable (P : Params) (H C : M)
variable (hH : ∀ (r : Fin 65536) (k : Fin 256), V c main_v24 (ix2 r k) = cat H r.val k.val)
variable (hC : ∀ (r : Fin 65536) (k : Fin 256), V c main_v25 (ix2 r k) = cat C r.val k.val)
variable (hF : ∀ (k : Fin 256) (j : Fin 256), V c main_v15 (ix2 k j) = P.Uf j.val k.val)
variable (hFb : ∀ j : Fin 256, V c main_v16 (ix2 0 j) = P.uf j.val)
variable (hW : ∀ (k : Fin 256) (j : Fin 384), V c main_v12 (ix2 k j) = P.Ui j.val k.val)
variable (hB : ∀ j : Fin 384, V c main_v13 (ix2 0 j) = P.ui j.val)
variable (hL : ∀ (k : Fin 128) (j : Fin 5), V c main_v18 (ix2 k j) = P.L j.val k.val)
variable (hLb : ∀ j : Fin 5, V c main_v19 (ix2 0 j) = P.lb j.val)

include hH in
theorem blk2_0 (t : Fin cfg2.N) (p : Fin 2048) (k : Fin 256) : iblk2 V c 0 t (ix2 p k) = cat H (2048 * t.val + p.val) k.val := by
  have ht : t.val < 32 := lt_of_lt_of_eq t.isLt N_2
  obtain ⟨e0, e1, -⟩ := idx_facts2 t
  show V c main_v24 (((cfg2.win 0).blk t).view.emb (ix2 p k)) = _
  have e : ((cfg2.win 0).blk t).view.emb (ix2 p k) = ix2 ⟨2048 * t.val + p.val, by have := p.isLt; omega⟩ k := by
    funext a; apply Fin.ext
    match a with
    | ⟨0, _⟩ => show win2_0.index t (0 : Fin 2) * 2048 + 1 * p.val = 2048 * t.val + p.val; omega
    | ⟨1, _⟩ => show win2_0.index t (1 : Fin 2) * 256 + 1 * k.val = k.val; omega
  rw [e, hH]

include hC in
theorem blk2_1 (t : Fin cfg2.N) (p : Fin 2048) (k : Fin 256) : iblk2 V c 1 t (ix2 p k) = cat C (2048 * t.val + p.val) k.val := by
  have ht : t.val < 32 := lt_of_lt_of_eq t.isLt N_2
  obtain ⟨-, -, e0, e1, -⟩ := idx_facts2 t
  show V c main_v25 (((cfg2.win 1).blk t).view.emb (ix2 p k)) = _
  have e : ((cfg2.win 1).blk t).view.emb (ix2 p k) = ix2 ⟨2048 * t.val + p.val, by have := p.isLt; omega⟩ k := by
    funext a; apply Fin.ext
    match a with
    | ⟨0, _⟩ => show win2_1.index t (0 : Fin 2) * 2048 + 1 * p.val = 2048 * t.val + p.val; omega
    | ⟨1, _⟩ => show win2_1.index t (1 : Fin 2) * 256 + 1 * k.val = k.val; omega
  rw [e, hC]

include hF in
theorem blk2_2 (t : Fin cfg2.N) (k : Fin 256) (j : Fin 256) : iblk2 V c 2 t (ix2 k j) = P.Uf j.val k.val := by
  obtain ⟨-, -, -, -, e0, e1, -⟩ := idx_facts2 t
  show V c main_v15 (((cfg2.win 2).blk t).view.emb (ix2 k j)) = _
  have e : ((cfg2.win 2).blk t).view.emb (ix2 k j) = ix2 k j := by
    funext a; apply Fin.ext
    match a with
    | ⟨0, _⟩ => show win2_2.index t (0 : Fin 2) * 256 + 1 * k.val = k.val; omega
    | ⟨1, _⟩ => show win2_2.index t (1 : Fin 2) * 256 + 1 * j.val = j.val; omega
  rw [e, hF]

include hFb in
theorem blk2_3 (t : Fin cfg2.N) (j : Fin 256) : iblk2 V c 3 t (ix2 0 j) = P.uf j.val := by
  obtain ⟨-, -, -, -, -, -, e0, e1, -⟩ := idx_facts2 t
  show V c main_v16 (((cfg2.win 3).blk t).view.emb (ix2 0 j)) = _
  have e : ((cfg2.win 3).blk t).view.emb (ix2 (0 : Fin 1) j) = ix2 0 j := by
    funext a; apply Fin.ext
    match a with
    | ⟨0, _⟩ => show win2_3.index t (0 : Fin 2) * 1 + 1 * 0 = 0; omega
    | ⟨1, _⟩ => show win2_3.index t (1 : Fin 2) * 256 + 1 * j.val = j.val; omega
  rw [e, hFb]

include hW in
theorem blk2_4 (t : Fin cfg2.N) (k : Fin 256) (j : Fin 384) : iblk2 V c 4 t (ix2 k j) = P.Ui j.val k.val := by
  obtain ⟨-, -, -, -, -, -, -, -, e0, e1, -⟩ := idx_facts2 t
  show V c main_v12 (((cfg2.win 4).blk t).view.emb (ix2 k j)) = _
  have e : ((cfg2.win 4).blk t).view.emb (ix2 k j) = ix2 k j := by
    funext a; apply Fin.ext
    match a with
    | ⟨0, _⟩ => show win2_4.index t (0 : Fin 2) * 256 + 1 * k.val = k.val; omega
    | ⟨1, _⟩ => show win2_4.index t (1 : Fin 2) * 384 + 1 * j.val = j.val; omega
  rw [e, hW]

include hB in
theorem blk2_5 (t : Fin cfg2.N) (j : Fin 384) : iblk2 V c 5 t (ix2 0 j) = P.ui j.val := by
  obtain ⟨-, -, -, -, -, -, -, -, -, -, e0, e1, -⟩ := idx_facts2 t
  show V c main_v13 (((cfg2.win 5).blk t).view.emb (ix2 0 j)) = _
  have e : ((cfg2.win 5).blk t).view.emb (ix2 (0 : Fin 1) j) = ix2 0 j := by
    funext a; apply Fin.ext
    match a with
    | ⟨0, _⟩ => show win2_5.index t (0 : Fin 2) * 1 + 1 * 0 = 0; omega
    | ⟨1, _⟩ => show win2_5.index t (1 : Fin 2) * 384 + 1 * j.val = j.val; omega
  rw [e, hB]

include hL in
theorem blk2_6 (t : Fin cfg2.N) (k : Fin 128) (j : Fin 5) : iblk2 V c 6 t (ix2 k j) = P.L j.val k.val := by
  obtain ⟨-, -, -, -, -, -, -, -, -, -, -, -, e0, e1, -⟩ := idx_facts2 t
  show V c main_v18 (((cfg2.win 6).blk t).view.emb (ix2 k j)) = _
  have e : ((cfg2.win 6).blk t).view.emb (ix2 k j) = ix2 k j := by
    funext a; apply Fin.ext
    match a with
    | ⟨0, _⟩ => show win2_6.index t (0 : Fin 2) * 128 + 1 * k.val = k.val; omega
    | ⟨1, _⟩ => show win2_6.index t (1 : Fin 2) * 5 + 1 * j.val = j.val; omega
  rw [e, hL]

include hLb in
theorem blk2_7 (t : Fin cfg2.N) (j : Fin 5) : iblk2 V c 7 t (ix2 0 j) = P.lb j.val := by
  obtain ⟨-, -, -, -, -, -, -, -, -, -, -, -, -, -, e0, e1, -⟩ := idx_facts2 t
  show V c main_v19 (((cfg2.win 7).blk t).view.emb (ix2 0 j)) = _
  have e : ((cfg2.win 7).blk t).view.emb (ix2 (0 : Fin 1) j) = ix2 0 j := by
    funext a; apply Fin.ext
    match a with
    | ⟨0, _⟩ => show win2_7.index t (0 : Fin 2) * 1 + 1 * 0 = 0; omega
    | ⟨1, _⟩ => show win2_7.index t (1 : Fin 2) * 5 + 1 * j.val = j.val; omega
  rw [e, hLb]

/-- This level's hidden rows, cells and scores as arrays, from the level below (H, C). -/
abbrev GH2 : S65536x128.Idx → EReal := fun i => hN P H C (i 0).val (i 1).val
abbrev GC2 : S65536x128.Idx → EReal := fun i => cN P H C (i 0).val (i 1).val
abbrev GL2 : S65536x5.Idx → EReal := fun i => logit P (hN P H C) (i 0).val (i 1).val

include hH hC hF hFb hW hB in
/-- What point t writes back to the hidden rows is block t of them. -/
theorem flushed2_8_eq (t : Fin cfg2.N) :
    (dat2 V c).flushed 8 t = ((cfg2.win 8).blk t).view.read (Elt Ideal) (GH2 P H C) := by
  show (cfg2.win 8).cut (grid2.coords t) ((dat2 V c).after 8 t) = _
  rw [after2_8]
  unfold out2_8
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, e0, e1, -⟩ := idx_facts2 t
  funext j
  obtain ⟨p, q, rfl⟩ : ∃ (p : Fin 2048) (q : Fin 128), j = ix2 p q := ⟨j 0, j 1, eq_ix2 j⟩
  refine (InnerBlock.hidden_apply P H C (2048 * t.val) (iblk2 V c 0 t) (iblk2 V c 1 t) (iblk2 V c 2 t) (iblk2 V c 3 t) (iblk2 V c 4 t) (iblk2 V c 5 t)
    (blk2_0 V c H hH t) (blk2_1 V c C hC t) (blk2_2 V c P hF t) (blk2_3 V c P hFb t) (blk2_4 V c P hW t) (blk2_5 V c P hB t) p q).trans ?_
  show hN P H C (2048 * t.val + p.val) q.val = hN P H C (win2_8.index t (0 : Fin 2) * 2048 + 1 * p.val) (win2_8.index t (1 : Fin 2) * 128 + 1 * q.val)
  rw [e0, e1]
  congr 1 <;> omega

include hH hC hF hFb hW hB in
/-- What point t writes back to the cells is block t of them. -/
theorem flushed2_9_eq (t : Fin cfg2.N) :
    (dat2 V c).flushed 9 t = ((cfg2.win 9).blk t).view.read (Elt Ideal) (GC2 P H C) := by
  show (cfg2.win 9).cut (grid2.coords t) ((dat2 V c).after 9 t) = _
  rw [after2_9]
  unfold out2_9
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, -, -, e0, e1, -⟩ := idx_facts2 t
  funext j
  obtain ⟨p, q, rfl⟩ : ∃ (p : Fin 2048) (q : Fin 128), j = ix2 p q := ⟨j 0, j 1, eq_ix2 j⟩
  refine (InnerBlock.cell_apply P H C (2048 * t.val) (iblk2 V c 0 t) (iblk2 V c 1 t) (iblk2 V c 2 t) (iblk2 V c 3 t) (iblk2 V c 4 t) (iblk2 V c 5 t)
    (blk2_0 V c H hH t) (blk2_1 V c C hC t) (blk2_2 V c P hF t) (blk2_3 V c P hFb t) (blk2_4 V c P hW t) (blk2_5 V c P hB t) p q).trans ?_
  show cN P H C (2048 * t.val + p.val) q.val = cN P H C (win2_9.index t (0 : Fin 2) * 2048 + 1 * p.val) (win2_9.index t (1 : Fin 2) * 128 + 1 * q.val)
  rw [e0, e1]
  congr 1 <;> omega

include hH hC hF hFb hW hB hL hLb in
/-- What point t writes back to the scores is block t of them. -/
theorem flushed2_10_eq (t : Fin cfg2.N) :
    (dat2 V c).flushed 10 t = ((cfg2.win 10).blk t).view.read (Elt Ideal) (GL2 P H C) := by
  show (cfg2.win 10).cut (grid2.coords t) ((dat2 V c).after 10 t) = _
  rw [after2_10]
  unfold out2_10
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2, View.ld_unit_zero (S := S128x5) hz2, View.ld_unit_zero (S := S1x5) hz2]
  obtain ⟨-, -, -, -, -, -, -, -, -, -, -, -, -, -, -, -, -, -, -, -, e0, e1⟩ := idx_facts2 t
  funext j
  obtain ⟨p, q, rfl⟩ : ∃ (p : Fin 2048) (q : Fin 5), j = ix2 p q := ⟨j 0, j 1, eq_ix2 j⟩
  refine (InnerBlock.scores_apply P (2048 * t.val) (iblk2 V c 6 t) (iblk2 V c 7 t)
    (k1_pay5 (F := Ideal) (iblk2 V c 0 t) (iblk2 V c 1 t) (iblk2 V c 2 t) (iblk2 V c 3 t) (iblk2 V c 4 t) (iblk2 V c 5 t)) (hN P H C)
    (InnerBlock.hidden_apply P H C (2048 * t.val) (iblk2 V c 0 t) (iblk2 V c 1 t) (iblk2 V c 2 t) (iblk2 V c 3 t) (iblk2 V c 4 t) (iblk2 V c 5 t)
      (blk2_0 V c H hH t) (blk2_1 V c C hC t) (blk2_2 V c P hF t) (blk2_3 V c P hFb t) (blk2_4 V c P hW t) (blk2_5 V c P hB t))
    (blk2_6 V c P hL t) (blk2_7 V c P hLb t) p q).trans ?_
  show logit P (hN P H C) (2048 * t.val + p.val) q.val = logit P (hN P H C) (win2_10.index t (0 : Fin 2) * 2048 + 1 * p.val) (win2_10.index t (1 : Fin 2) * 5 + 1 * q.val)
  rw [e0, e1]
  congr 1 <;> omega

/-- An index of an output array is in point t's block iff each coordinate is in the block's range on its axis. -/
theorem mem_blk2_8 (t : Fin cfg2.N) (i : S65536x128.Idx) :
    i ∈ ((cfg2.win 8).blk t).view.set ↔ ∀ a : Fin 2, win2_8.index t a * S2048x128.size a ≤ (i a).val ∧ (i a).val < win2_8.index t a * S2048x128.size a + S2048x128.size a := by
  show i ∈ ((View.whole main_v26_0).slice (win2_8.rect t)).set ↔ _
  rw [View.set_slice_whole, Rect.mem_set_unit]
  exact Iff.rfl
theorem mem_blk2_9 (t : Fin cfg2.N) (i : S65536x128.Idx) :
    i ∈ ((cfg2.win 9).blk t).view.set ↔ ∀ a : Fin 2, win2_9.index t a * S2048x128.size a ≤ (i a).val ∧ (i a).val < win2_9.index t a * S2048x128.size a + S2048x128.size a := by
  show i ∈ ((View.whole main_v26_1).slice (win2_9.rect t)).set ↔ _
  rw [View.set_slice_whole, Rect.mem_set_unit]
  exact Iff.rfl
theorem mem_blk2_10 (t : Fin cfg2.N) (i : S65536x5.Idx) :
    i ∈ ((cfg2.win 10).blk t).view.set ↔ ∀ a : Fin 2, win2_10.index t a * S2048x5.size a ≤ (i a).val ∧ (i a).val < win2_10.index t a * S2048x5.size a + S2048x5.size a := by
  show i ∈ ((View.whole main_v26_2).slice (win2_10.rect t)).set ↔ _
  rw [View.set_slice_whole, Rect.mem_set_unit]
  exact Iff.rfl

/-- Every row is in the block of the point row / 2048. -/
theorem cover2_8 (i : S65536x128.Idx) : ∃ t : Fin cfg2.N, (cfg2.win 8).flush t = true ∧ i ∈ ((cfg2.win 8).blk t).view.set := by
  have hi0 : (i 0).val < 65536 := (i 0).isLt
  have hi1 : (i 1).val < 128 := (i 1).isLt
  let t : Fin cfg2.N := ⟨(i 0).val / 2048, by rw [show cfg2.N = 32 from N_2]; omega⟩
  obtain ⟨-, -, -, -, -, -, -, -, -, -, -, -, -, -, -, -, e0, e1, -⟩ := idx_facts2 t
  refine ⟨t, flush2_8 t, ?_⟩
  rw [mem_blk2_8]
  intro a
  match a with
  | ⟨0, _⟩ => show win2_8.index t (0 : Fin 2) * 2048 ≤ (i 0).val ∧ (i 0).val < win2_8.index t (0 : Fin 2) * 2048 + 2048; rw [e0]; show (i 0).val / 2048 * 2048 ≤ _ ∧ _ < (i 0).val / 2048 * 2048 + 2048; omega
  | ⟨1, _⟩ => show win2_8.index t (1 : Fin 2) * 128 ≤ (i 1).val ∧ (i 1).val < win2_8.index t (1 : Fin 2) * 128 + 128; rw [e1]; omega
theorem cover2_9 (i : S65536x128.Idx) : ∃ t : Fin cfg2.N, (cfg2.win 9).flush t = true ∧ i ∈ ((cfg2.win 9).blk t).view.set := by
  have hi0 : (i 0).val < 65536 := (i 0).isLt
  have hi1 : (i 1).val < 128 := (i 1).isLt
  let t : Fin cfg2.N := ⟨(i 0).val / 2048, by rw [show cfg2.N = 32 from N_2]; omega⟩
  obtain ⟨-, -, -, -, -, -, -, -, -, -, -, -, -, -, -, -, -, -, e0, e1, -⟩ := idx_facts2 t
  refine ⟨t, flush2_9 t, ?_⟩
  rw [mem_blk2_9]
  intro a
  match a with
  | ⟨0, _⟩ => show win2_9.index t (0 : Fin 2) * 2048 ≤ (i 0).val ∧ (i 0).val < win2_9.index t (0 : Fin 2) * 2048 + 2048; rw [e0]; show (i 0).val / 2048 * 2048 ≤ _ ∧ _ < (i 0).val / 2048 * 2048 + 2048; omega
  | ⟨1, _⟩ => show win2_9.index t (1 : Fin 2) * 128 ≤ (i 1).val ∧ (i 1).val < win2_9.index t (1 : Fin 2) * 128 + 128; rw [e1]; omega
theorem cover2_10 (i : S65536x5.Idx) : ∃ t : Fin cfg2.N, (cfg2.win 10).flush t = true ∧ i ∈ ((cfg2.win 10).blk t).view.set := by
  have hi0 : (i 0).val < 65536 := (i 0).isLt
  have hi1 : (i 1).val < 5 := (i 1).isLt
  let t : Fin cfg2.N := ⟨(i 0).val / 2048, by rw [show cfg2.N = 32 from N_2]; omega⟩
  obtain ⟨-, -, -, -, -, -, -, -, -, -, -, -, -, -, -, -, -, -, -, -, e0, e1⟩ := idx_facts2 t
  refine ⟨t, flush2_10 t, ?_⟩
  rw [mem_blk2_10]
  intro a
  match a with
  | ⟨0, _⟩ => show win2_10.index t (0 : Fin 2) * 2048 ≤ (i 0).val ∧ (i 0).val < win2_10.index t (0 : Fin 2) * 2048 + 2048; rw [e0]; show (i 0).val / 2048 * 2048 ≤ _ ∧ _ < (i 0).val / 2048 * 2048 + 2048; omega
  | ⟨1, _⟩ => show win2_10.index t (1 : Fin 2) * 5 ≤ (i 1).val ∧ (i 1).val < win2_10.index t (1 : Fin 2) * 5 + 5; rw [e1]; omega

include hH hC hF hFb hW hB in
/-- After this region its first output array holds the level's hidden rows … -/
theorem final2_8 : (dat2 V c).arrAt 8 cfg2.N = GH2 P H C :=
  (dat2 V c).arrAt_eq_of_cover 8 (GH2 P H C) (fun t _ => flushed2_8_eq V c P H C hH hC hF hFb hW hB t) cover2_8
include hH hC hF hFb hW hB in
/-- … its second the level's cells … -/
theorem final2_9 : (dat2 V c).arrAt 9 cfg2.N = GC2 P H C :=
  (dat2 V c).arrAt_eq_of_cover 9 (GC2 P H C) (fun t _ => flushed2_9_eq V c P H C hH hC hF hFb hW hB t) cover2_9
include hH hC hF hFb hW hB hL hLb in
/-- … and its third the level's scores. -/
theorem final2_10 : (dat2 V c).arrAt 10 cfg2.N = GL2 P H C :=
  (dat2 V c).arrAt_eq_of_cover 10 (GL2 P H C) (fun t _ => flushed2_10_eq V c P H C hH hC hF hFb hW hB hL hLb t) cover2_10

end Inner2

end Cert.KernelIdeal.HandValue

end
-- ==== Proof.KIValue3.lean ====
/- Inner level 3 of the tree: its region's three output arrays as whole-array functions. Grid point t handles nodes
  2048 t … 2048 t + 2047: its two row-blocked inputs are those rows of the children's hidden rows and cells, paired side
  by side; its weight blocks are the whole weight matrices; what it writes back to each output is those rows of the
  level's hidden rows, cells and scores. The 16 blocks tile the 32768 rows.
-/
import proofs.«136691_j33638183863177_2_alg».proof.Proof.KIData
import proofs.«136691_j33638183863177_2_alg».proof.Proof.InnerBlock
import proofs.«136691_j33638183863177_2_alg».proof.Proof.KIValue0
import Idealize.ShloMosaic.Lib.Pipeline.Value

noncomputable section

open scoped BigOperators

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

/-- The printed index maps of this region, decided over its 16 points: the row-blocked windows sit at block row t,
    the weight windows at the origin. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0
    ∧ win3_10.index t (0 : Fin 2) = t.val ∧ win3_10.index t (1 : Fin 2) = 0 :=
  (by decide +kernel : ∀ t : Fin grid3.N, _)

section Inner3

variable (V : (c : Dev nD) → (b : Ref sig .tc) → Buf (Elt Ideal) ((c : Thread nD τ).loc b)) (c : Dev nD)
variable (P : Params) (H C : M)
variable (hH : ∀ (r : Fin 32768) (k : Fin 256), V c main_v27 (ix2 r k) = cat H r.val k.val)
variable (hC : ∀ (r : Fin 32768) (k : Fin 256), V c main_v28 (ix2 r k) = cat C r.val k.val)
variable (hF : ∀ (k : Fin 256) (j : Fin 256), V c main_v15 (ix2 k j) = P.Uf j.val k.val)
variable (hFb : ∀ j : Fin 256, V c main_v16 (ix2 0 j) = P.uf j.val)
variable (hW : ∀ (k : Fin 256) (j : Fin 384), V c main_v12 (ix2 k j) = P.Ui j.val k.val)
variable (hB : ∀ j : Fin 384, V c main_v13 (ix2 0 j) = P.ui j.val)
variable (hL : ∀ (k : Fin 128) (j : Fin 5), V c main_v18 (ix2 k j) = P.L j.val k.val)
variable (hLb : ∀ j : Fin 5, V c main_v19 (ix2 0 j) = P.lb j.val)

include hH in
theorem blk3_0 (t : Fin cfg3.N) (p : Fin 2048) (k : Fin 256) : iblk3 V c 0 t (ix2 p k) = cat H (2048 * t.val + p.val) k.val := by
  have ht : t.val < 16 := lt_of_lt_of_eq t.isLt N_3
  obtain ⟨e0, e1, -⟩ := idx_facts3 t
  show V c main_v27 (((cfg3.win 0).blk t).view.emb (ix2 p k)) = _
  have e : ((cfg3.win 0).blk t).view.emb (ix2 p k) = ix2 ⟨2048 * t.val + p.val, by have := p.isLt; omega⟩ k := by
    funext a; apply Fin.ext
    match a with
    | ⟨0, _⟩ => show win3_0.index t (0 : Fin 2) * 2048 + 1 * p.val = 2048 * t.val + p.val; omega
    | ⟨1, _⟩ => show win3_0.index t (1 : Fin 2) * 256 + 1 * k.val = k.val; omega
  rw [e, hH]

include hC in
theorem blk3_1 (t : Fin cfg3.N) (p : Fin 2048) (k : Fin 256) : iblk3 V c 1 t (ix2 p k) = cat C (2048 * t.val + p.val) k.val := by
  have ht : t.val < 16 := lt_of_lt_of_eq t.isLt N_3
  obtain ⟨-, -, e0, e1, -⟩ := idx_facts3 t
  show V c main_v28 (((cfg3.win 1).blk t).view.emb (ix2 p k)) = _
  have e : ((cfg3.win 1).blk t).view.emb (ix2 p k) = ix2 ⟨2048 * t.val + p.val, by have := p.isLt; omega⟩ k := by
    funext a; apply Fin.ext
    match a with
    | ⟨0, _⟩ => show win3_1.index t (0 : Fin 2) * 2048 + 1 * p.val = 2048 * t.val + p.val; omega
    | ⟨1, _⟩ => show win3_1.index t (1 : Fin 2) * 256 + 1 * k.val = k.val; omega
  rw [e, hC]

include hF in
theorem blk3_2 (t : Fin cfg3.N) (k : Fin 256) (j : Fin 256) : iblk3 V c 2 t (ix2 k j) = P.Uf j.val k.val := by
  obtain ⟨-, -, -, -, e0, e1, -⟩ := idx_facts3 t
  show V c main_v15 (((cfg3.win 2).blk t).view.emb (ix2 k j)) = _
  have e : ((cfg3.win 2).blk t).view.emb (ix2 k j) = ix2 k j := by
    funext a; apply Fin.ext
    match a with
    | ⟨0, _⟩ => show win3_2.index t (0 : Fin 2) * 256 + 1 * k.val = k.val; omega
    | ⟨1, _⟩ => show win3_2.index t (1 : Fin 2) * 256 + 1 * j.val = j.val; omega
  rw [e, hF]

include hFb in
theorem blk3_3 (t : Fin cfg3.N) (j : Fin 256) : iblk3 V c 3 t (ix2 0 j) = P.uf j.val := by
  obtain ⟨-, -, -, -, -, -, e0, e1, -⟩ := idx_facts3 t
  show V c main_v16 (((cfg3.win 3).blk t).view.emb (ix2 0 j)) = _
  have e : ((cfg3.win 3).blk t).view.emb (ix2 (0 : Fin 1) j) = ix2 0 j := by
    funext a; apply Fin.ext
    match a with
    | ⟨0, _⟩ => show win3_3.index t (0 : Fin 2) * 1 + 1 * 0 = 0; omega
    | ⟨1, _⟩ => show win3_3.index t (1 : Fin 2) * 256 + 1 * j.val = j.val; omega
  rw [e, hFb]

include hW in
theorem blk3_4 (t : Fin cfg3.N) (k : Fin 256) (j : Fin 384) : iblk3 V c 4 t (ix2 k j) = P.Ui j.val k.val := by
  obtain ⟨-, -, -, -, -, -, -, -, e0, e1, -⟩ := idx_facts3 t
  show V c main_v12 (((cfg3.win 4).blk t).view.emb (ix2 k j)) = _
  have e : ((cfg3.win 4).blk t).view.emb (ix2 k j) = ix2 k j := by
    funext a; apply Fin.ext
    match a with
    | ⟨0, _⟩ => show win3_4.index t (0 : Fin 2) * 256 + 1 * k.val = k.val; omega
    | ⟨1, _⟩ => show win3_4.index t (1 : Fin 2) * 384 + 1 * j.val = j.val; omega
  rw [e, hW]

include hB in
theorem blk3_5 (t : Fin cfg3.N) (j : Fin 384) : iblk3 V c 5 t (ix2 0 j) = P.ui j.val := by
  obtain ⟨-, -, -, -, -, -, -, -, -, -, e0, e1, -⟩ := idx_facts3 t
  show V c main_v13 (((cfg3.win 5).blk t).view.emb (ix2 0 j)) = _
  have e : ((cfg3.win 5).blk t).view.emb (ix2 (0 : Fin 1) j) = ix2 0 j := by
    funext a; apply Fin.ext
    match a with
    | ⟨0, _⟩ => show win3_5.index t (0 : Fin 2) * 1 + 1 * 0 = 0; omega
    | ⟨1, _⟩ => show win3_5.index t (1 : Fin 2) * 384 + 1 * j.val = j.val; omega
  rw [e, hB]

include hL in
theorem blk3_6 (t : Fin cfg3.N) (k : Fin 128) (j : Fin 5) : iblk3 V c 6 t (ix2 k j) = P.L j.val k.val := by
  obtain ⟨-, -, -, -, -, -, -, -, -, -, -, -, e0, e1, -⟩ := idx_facts3 t
  show V c main_v18 (((cfg3.win 6).blk t).view.emb (ix2 k j)) = _
  have e : ((cfg3.win 6).blk t).view.emb (ix2 k j) = ix2 k j := by
    funext a; apply Fin.ext
    match a with
    | ⟨0, _⟩ => show win3_6.index t (0 : Fin 2) * 128 + 1 * k.val = k.val; omega
    | ⟨1, _⟩ => show win3_6.index t (1 : Fin 2) * 5 + 1 * j.val = j.val; omega
  rw [e, hL]

include hLb in
theorem blk3_7 (t : Fin cfg3.N) (j : Fin 5) : iblk3 V c 7 t (ix2 0 j) = P.lb j.val := by
  obtain ⟨-, -, -, -, -, -, -, -, -, -, -, -, -, -, e0, e1, -⟩ := idx_facts3 t
  show V c main_v19 (((cfg3.win 7).blk t).view.emb (ix2 0 j)) = _
  have e : ((cfg3.win 7).blk t).view.emb (ix2 (0 : Fin 1) j) = ix2 0 j := by
    funext a; apply Fin.ext
    match a with
    | ⟨0, _⟩ => show win3_7.index t (0 : Fin 2) * 1 + 1 * 0 = 0; omega
    | ⟨1, _⟩ => show win3_7.index t (1 : Fin 2) * 5 + 1 * j.val = j.val; omega
  rw [e, hLb]

/-- This level's hidden rows, cells and scores as arrays, from the level below (H, C). -/
abbrev GH3 : S32768x128.Idx → EReal := fun i => hN P H C (i 0).val (i 1).val
abbrev GC3 : S32768x128.Idx → EReal := fun i => cN P H C (i 0).val (i 1).val
abbrev GL3 : S32768x5.Idx → EReal := fun i => logit P (hN P H C) (i 0).val (i 1).val

include hH hC hF hFb hW hB in
/-- What point t writes back to the hidden rows is block t of them. -/
theorem flushed3_8_eq (t : Fin cfg3.N) :
    (dat3 V c).flushed 8 t = ((cfg3.win 8).blk t).view.read (Elt Ideal) (GH3 P H C) := by
  show (cfg3.win 8).cut (grid3.coords t) ((dat3 V c).after 8 t) = _
  rw [after3_8]
  unfold out3_8
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, e0, e1, -⟩ := idx_facts3 t
  funext j
  obtain ⟨p, q, rfl⟩ : ∃ (p : Fin 2048) (q : Fin 128), j = ix2 p q := ⟨j 0, j 1, eq_ix2 j⟩
  refine (InnerBlock.hidden_apply P H C (2048 * t.val) (iblk3 V c 0 t) (iblk3 V c 1 t) (iblk3 V c 2 t) (iblk3 V c 3 t) (iblk3 V c 4 t) (iblk3 V c 5 t)
    (blk3_0 V c H hH t) (blk3_1 V c C hC t) (blk3_2 V c P hF t) (blk3_3 V c P hFb t) (blk3_4 V c P hW t) (blk3_5 V c P hB t) p q).trans ?_
  show hN P H C (2048 * t.val + p.val) q.val = hN P H C (win3_8.index t (0 : Fin 2) * 2048 + 1 * p.val) (win3_8.index t (1 : Fin 2) * 128 + 1 * q.val)
  rw [e0, e1]
  congr 1 <;> omega

include hH hC hF hFb hW hB in
/-- What point t writes back to the cells is block t of them. -/
theorem flushed3_9_eq (t : Fin cfg3.N) :
    (dat3 V c).flushed 9 t = ((cfg3.win 9).blk t).view.read (Elt Ideal) (GC3 P H C) := by
  show (cfg3.win 9).cut (grid3.coords t) ((dat3 V c).after 9 t) = _
  rw [after3_9]
  unfold out3_9
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, -, -, e0, e1, -⟩ := idx_facts3 t
  funext j
  obtain ⟨p, q, rfl⟩ : ∃ (p : Fin 2048) (q : Fin 128), j = ix2 p q := ⟨j 0, j 1, eq_ix2 j⟩
  refine (InnerBlock.cell_apply P H C (2048 * t.val) (iblk3 V c 0 t) (iblk3 V c 1 t) (iblk3 V c 2 t) (iblk3 V c 3 t) (iblk3 V c 4 t) (iblk3 V c 5 t)
    (blk3_0 V c H hH t) (blk3_1 V c C hC t) (blk3_2 V c P hF t) (blk3_3 V c P hFb t) (blk3_4 V c P hW t) (blk3_5 V c P hB t) p q).trans ?_
  show cN P H C (2048 * t.val + p.val) q.val = cN P H C (win3_9.index t (0 : Fin 2) * 2048 + 1 * p.val) (win3_9.index t (1 : Fin 2) * 128 + 1 * q.val)
  rw [e0, e1]
  congr 1 <;> omega

include hH hC hF hFb hW hB hL hLb in
/-- What point t writes back to the scores is block t of them. -/
theorem flushed3_10_eq (t : Fin cfg3.N) :
    (dat3 V c).flushed 10 t = ((cfg3.win 10).blk t).view.read (Elt Ideal) (GL3 P H C) := by
  show (cfg3.win 10).cut (grid3.coords t) ((dat3 V c).after 10 t) = _
  rw [after3_10]
  unfold out3_10
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2, View.ld_unit_zero (S := S128x5) hz2, View.ld_unit_zero (S := S1x5) hz2]
  obtain ⟨-, -, -, -, -, -, -, -, -, -, -, -, -, -, -, -, -, -, -, -, e0, e1⟩ := idx_facts3 t
  funext j
  obtain ⟨p, q, rfl⟩ : ∃ (p : Fin 2048) (q : Fin 5), j = ix2 p q := ⟨j 0, j 1, eq_ix2 j⟩
  refine (InnerBlock.scores_apply P (2048 * t.val) (iblk3 V c 6 t) (iblk3 V c 7 t)
    (k1_pay5 (F := Ideal) (iblk3 V c 0 t) (iblk3 V c 1 t) (iblk3 V c 2 t) (iblk3 V c 3 t) (iblk3 V c 4 t) (iblk3 V c 5 t)) (hN P H C)
    (InnerBlock.hidden_apply P H C (2048 * t.val) (iblk3 V c 0 t) (iblk3 V c 1 t) (iblk3 V c 2 t) (iblk3 V c 3 t) (iblk3 V c 4 t) (iblk3 V c 5 t)
      (blk3_0 V c H hH t) (blk3_1 V c C hC t) (blk3_2 V c P hF t) (blk3_3 V c P hFb t) (blk3_4 V c P hW t) (blk3_5 V c P hB t))
    (blk3_6 V c P hL t) (blk3_7 V c P hLb t) p q).trans ?_
  show logit P (hN P H C) (2048 * t.val + p.val) q.val = logit P (hN P H C) (win3_10.index t (0 : Fin 2) * 2048 + 1 * p.val) (win3_10.index t (1 : Fin 2) * 5 + 1 * q.val)
  rw [e0, e1]
  congr 1 <;> omega

/-- An index of an output array is in point t's block iff each coordinate is in the block's range on its axis. -/
theorem mem_blk3_8 (t : Fin cfg3.N) (i : S32768x128.Idx) :
    i ∈ ((cfg3.win 8).blk t).view.set ↔ ∀ a : Fin 2, win3_8.index t a * S2048x128.size a ≤ (i a).val ∧ (i a).val < win3_8.index t a * S2048x128.size a + S2048x128.size a := by
  show i ∈ ((View.whole main_v29_0).slice (win3_8.rect t)).set ↔ _
  rw [View.set_slice_whole, Rect.mem_set_unit]
  exact Iff.rfl
theorem mem_blk3_9 (t : Fin cfg3.N) (i : S32768x128.Idx) :
    i ∈ ((cfg3.win 9).blk t).view.set ↔ ∀ a : Fin 2, win3_9.index t a * S2048x128.size a ≤ (i a).val ∧ (i a).val < win3_9.index t a * S2048x128.size a + S2048x128.size a := by
  show i ∈ ((View.whole main_v29_1).slice (win3_9.rect t)).set ↔ _
  rw [View.set_slice_whole, Rect.mem_set_unit]
  exact Iff.rfl
theorem mem_blk3_10 (t : Fin cfg3.N) (i : S32768x5.Idx) :
    i ∈ ((cfg3.win 10).blk t).view.set ↔ ∀ a : Fin 2, win3_10.index t a * S2048x5.size a ≤ (i a).val ∧ (i a).val < win3_10.index t a * S2048x5.size a + S2048x5.size a := by
  show i ∈ ((View.whole main_v29_2).slice (win3_10.rect t)).set ↔ _
  rw [View.set_slice_whole, Rect.mem_set_unit]
  exact Iff.rfl

/-- Every row is in the block of the point row / 2048. -/
theorem cover3_8 (i : S32768x128.Idx) : ∃ t : Fin cfg3.N, (cfg3.win 8).flush t = true ∧ i ∈ ((cfg3.win 8).blk t).view.set := by
  have hi0 : (i 0).val < 32768 := (i 0).isLt
  have hi1 : (i 1).val < 128 := (i 1).isLt
  let t : Fin cfg3.N := ⟨(i 0).val / 2048, by rw [show cfg3.N = 16 from N_3]; omega⟩
  obtain ⟨-, -, -, -, -, -, -, -, -, -, -, -, -, -, -, -, e0, e1, -⟩ := idx_facts3 t
  refine ⟨t, flush3_8 t, ?_⟩
  rw [mem_blk3_8]
  intro a
  match a with
  | ⟨0, _⟩ => show win3_8.index t (0 : Fin 2) * 2048 ≤ (i 0).val ∧ (i 0).val < win3_8.index t (0 : Fin 2) * 2048 + 2048; rw [e0]; show (i 0).val / 2048 * 2048 ≤ _ ∧ _ < (i 0).val / 2048 * 2048 + 2048; omega
  | ⟨1, _⟩ => show win3_8.index t (1 : Fin 2) * 128 ≤ (i 1).val ∧ (i 1).val < win3_8.index t (1 : Fin 2) * 128 + 128; rw [e1]; omega
theorem cover3_9 (i : S32768x128.Idx) : ∃ t : Fin cfg3.N, (cfg3.win 9).flush t = true ∧ i ∈ ((cfg3.win 9).blk t).view.set := by
  have hi0 : (i 0).val < 32768 := (i 0).isLt
  have hi1 : (i 1).val < 128 := (i 1).isLt
  let t : Fin cfg3.N := ⟨(i 0).val / 2048, by rw [show cfg3.N = 16 from N_3]; omega⟩
  obtain ⟨-, -, -, -, -, -, -, -, -, -, -, -, -, -, -, -, -, -, e0, e1, -⟩ := idx_facts3 t
  refine ⟨t, flush3_9 t, ?_⟩
  rw [mem_blk3_9]
  intro a
  match a with
  | ⟨0, _⟩ => show win3_9.index t (0 : Fin 2) * 2048 ≤ (i 0).val ∧ (i 0).val < win3_9.index t (0 : Fin 2) * 2048 + 2048; rw [e0]; show (i 0).val / 2048 * 2048 ≤ _ ∧ _ < (i 0).val / 2048 * 2048 + 2048; omega
  | ⟨1, _⟩ => show win3_9.index t (1 : Fin 2) * 128 ≤ (i 1).val ∧ (i 1).val < win3_9.index t (1 : Fin 2) * 128 + 128; rw [e1]; omega
theorem cover3_10 (i : S32768x5.Idx) : ∃ t : Fin cfg3.N, (cfg3.win 10).flush t = true ∧ i ∈ ((cfg3.win 10).blk t).view.set := by
  have hi0 : (i 0).val < 32768 := (i 0).isLt
  have hi1 : (i 1).val < 5 := (i 1).isLt
  let t : Fin cfg3.N := ⟨(i 0).val / 2048, by rw [show cfg3.N = 16 from N_3]; omega⟩
  obtain ⟨-, -, -, -, -, -, -, -, -, -, -, -, -, -, -, -, -, -, -, -, e0, e1⟩ := idx_facts3 t
  refine ⟨t, flush3_10 t, ?_⟩
  rw [mem_blk3_10]
  intro a
  match a with
  | ⟨0, _⟩ => show win3_10.index t (0 : Fin 2) * 2048 ≤ (i 0).val ∧ (i 0).val < win3_10.index t (0 : Fin 2) * 2048 + 2048; rw [e0]; show (i 0).val / 2048 * 2048 ≤ _ ∧ _ < (i 0).val / 2048 * 2048 + 2048; omega
  | ⟨1, _⟩ => show win3_10.index t (1 : Fin 2) * 5 ≤ (i 1).val ∧ (i 1).val < win3_10.index t (1 : Fin 2) * 5 + 5; rw [e1]; omega

include hH hC hF hFb hW hB in
/-- After this region its first output array holds the level's hidden rows … -/
theorem final3_8 : (dat3 V c).arrAt 8 cfg3.N = GH3 P H C :=
  (dat3 V c).arrAt_eq_of_cover 8 (GH3 P H C) (fun t _ => flushed3_8_eq V c P H C hH hC hF hFb hW hB t) cover3_8
include hH hC hF hFb hW hB in
/-- … its second the level's cells … -/
theorem final3_9 : (dat3 V c).arrAt 9 cfg3.N = GC3 P H C :=
  (dat3 V c).arrAt_eq_of_cover 9 (GC3 P H C) (fun t _ => flushed3_9_eq V c P H C hH hC hF hFb hW hB t) cover3_9
include hH hC hF hFb hW hB hL hLb in
/-- … and its third the level's scores. -/
theorem final3_10 : (dat3 V c).arrAt 10 cfg3.N = GL3 P H C :=
  (dat3 V c).arrAt_eq_of_cover 10 (GL3 P H C) (fun t _ => flushed3_10_eq V c P H C hH hC hF hFb hW hB hL hLb t) cover3_10

end Inner3

end Cert.KernelIdeal.HandValue

end
-- ==== Proof.KIValue4.lean ====
/- Inner level 4 of the tree: its region's three output arrays as whole-array functions. Grid point t handles nodes
  2048 t … 2048 t + 2047: its two row-blocked inputs are those rows of the children's hidden rows and cells, paired side
  by side; its weight blocks are the whole weight matrices; what it writes back to each output is those rows of the
  level's hidden rows, cells and scores. The 8 blocks tile the 16384 rows.
-/
import proofs.«136691_j33638183863177_2_alg».proof.Proof.KIData
import proofs.«136691_j33638183863177_2_alg».proof.Proof.InnerBlock
import proofs.«136691_j33638183863177_2_alg».proof.Proof.KIValue0
import Idealize.ShloMosaic.Lib.Pipeline.Value

noncomputable section

open scoped BigOperators

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

/-- The printed index maps of this region, decided over its 8 points: the row-blocked windows sit at block row t,
    the weight windows at the origin. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0
    ∧ win4_9.index t (0 : Fin 2) = t.val ∧ win4_9.index t (1 : Fin 2) = 0
    ∧ win4_10.index t (0 : Fin 2) = t.val ∧ win4_10.index t (1 : Fin 2) = 0 :=
  (by decide +kernel : ∀ t : Fin grid4.N, _)

section Inner4

variable (V : (c : Dev nD) → (b : Ref sig .tc) → Buf (Elt Ideal) ((c : Thread nD τ).loc b)) (c : Dev nD)
variable (P : Params) (H C : M)
variable (hH : ∀ (r : Fin 16384) (k : Fin 256), V c main_v30 (ix2 r k) = cat H r.val k.val)
variable (hC : ∀ (r : Fin 16384) (k : Fin 256), V c main_v31 (ix2 r k) = cat C r.val k.val)
variable (hF : ∀ (k : Fin 256) (j : Fin 256), V c main_v15 (ix2 k j) = P.Uf j.val k.val)
variable (hFb : ∀ j : Fin 256, V c main_v16 (ix2 0 j) = P.uf j.val)
variable (hW : ∀ (k : Fin 256) (j : Fin 384), V c main_v12 (ix2 k j) = P.Ui j.val k.val)
variable (hB : ∀ j : Fin 384, V c main_v13 (ix2 0 j) = P.ui j.val)
variable (hL : ∀ (k : Fin 128) (j : Fin 5), V c main_v18 (ix2 k j) = P.L j.val k.val)
variable (hLb : ∀ j : Fin 5, V c main_v19 (ix2 0 j) = P.lb j.val)

include hH in
theorem blk4_0 (t : Fin cfg4.N) (p : Fin 2048) (k : Fin 256) : iblk4 V c 0 t (ix2 p k) = cat H (2048 * t.val + p.val) k.val := by
  have ht : t.val < 8 := lt_of_lt_of_eq t.isLt N_4
  obtain ⟨e0, e1, -⟩ := idx_facts4 t
  show V c main_v30 (((cfg4.win 0).blk t).view.emb (ix2 p k)) = _
  have e : ((cfg4.win 0).blk t).view.emb (ix2 p k) = ix2 ⟨2048 * t.val + p.val, by have := p.isLt; omega⟩ k := by
    funext a; apply Fin.ext
    match a with
    | ⟨0, _⟩ => show win4_0.index t (0 : Fin 2) * 2048 + 1 * p.val = 2048 * t.val + p.val; omega
    | ⟨1, _⟩ => show win4_0.index t (1 : Fin 2) * 256 + 1 * k.val = k.val; omega
  rw [e, hH]

include hC in
theorem blk4_1 (t : Fin cfg4.N) (p : Fin 2048) (k : Fin 256) : iblk4 V c 1 t (ix2 p k) = cat C (2048 * t.val + p.val) k.val := by
  have ht : t.val < 8 := lt_of_lt_of_eq t.isLt N_4
  obtain ⟨-, -, e0, e1, -⟩ := idx_facts4 t
  show V c main_v31 (((cfg4.win 1).blk t).view.emb (ix2 p k)) = _
  have e : ((cfg4.win 1).blk t).view.emb (ix2 p k) = ix2 ⟨2048 * t.val + p.val, by have := p.isLt; omega⟩ k := by
    funext a; apply Fin.ext
    match a with
    | ⟨0, _⟩ => show win4_1.index t (0 : Fin 2) * 2048 + 1 * p.val = 2048 * t.val + p.val; omega
    | ⟨1, _⟩ => show win4_1.index t (1 : Fin 2) * 256 + 1 * k.val = k.val; omega
  rw [e, hC]

include hF in
theorem blk4_2 (t : Fin cfg4.N) (k : Fin 256) (j : Fin 256) : iblk4 V c 2 t (ix2 k j) = P.Uf j.val k.val := by
  obtain ⟨-, -, -, -, e0, e1, -⟩ := idx_facts4 t
  show V c main_v15 (((cfg4.win 2).blk t).view.emb (ix2 k j)) = _
  have e : ((cfg4.win 2).blk t).view.emb (ix2 k j) = ix2 k j := by
    funext a; apply Fin.ext
    match a with
    | ⟨0, _⟩ => show win4_2.index t (0 : Fin 2) * 256 + 1 * k.val = k.val; omega
    | ⟨1, _⟩ => show win4_2.index t (1 : Fin 2) * 256 + 1 * j.val = j.val; omega
  rw [e, hF]

include hFb in
theorem blk4_3 (t : Fin cfg4.N) (j : Fin 256) : iblk4 V c 3 t (ix2 0 j) = P.uf j.val := by
  obtain ⟨-, -, -, -, -, -, e0, e1, -⟩ := idx_facts4 t
  show V c main_v16 (((cfg4.win 3).blk t).view.emb (ix2 0 j)) = _
  have e : ((cfg4.win 3).blk t).view.emb (ix2 (0 : Fin 1) j) = ix2 0 j := by
    funext a; apply Fin.ext
    match a with
    | ⟨0, _⟩ => show win4_3.index t (0 : Fin 2) * 1 + 1 * 0 = 0; omega
    | ⟨1, _⟩ => show win4_3.index t (1 : Fin 2) * 256 + 1 * j.val = j.val; omega
  rw [e, hFb]

include hW in
theorem blk4_4 (t : Fin cfg4.N) (k : Fin 256) (j : Fin 384) : iblk4 V c 4 t (ix2 k j) = P.Ui j.val k.val := by
  obtain ⟨-, -, -, -, -, -, -, -, e0, e1, -⟩ := idx_facts4 t
  show V c main_v12 (((cfg4.win 4).blk t).view.emb (ix2 k j)) = _
  have e : ((cfg4.win 4).blk t).view.emb (ix2 k j) = ix2 k j := by
    funext a; apply Fin.ext
    match a with
    | ⟨0, _⟩ => show win4_4.index t (0 : Fin 2) * 256 + 1 * k.val = k.val; omega
    | ⟨1, _⟩ => show win4_4.index t (1 : Fin 2) * 384 + 1 * j.val = j.val; omega
  rw [e, hW]

include hB in
theorem blk4_5 (t : Fin cfg4.N) (j : Fin 384) : iblk4 V c 5 t (ix2 0 j) = P.ui j.val := by
  obtain ⟨-, -, -, -, -, -, -, -, -, -, e0, e1, -⟩ := idx_facts4 t
  show V c main_v13 (((cfg4.win 5).blk t).view.emb (ix2 0 j)) = _
  have e : ((cfg4.win 5).blk t).view.emb (ix2 (0 : Fin 1) j) = ix2 0 j := by
    funext a; apply Fin.ext
    match a with
    | ⟨0, _⟩ => show win4_5.index t (0 : Fin 2) * 1 + 1 * 0 = 0; omega
    | ⟨1, _⟩ => show win4_5.index t (1 : Fin 2) * 384 + 1 * j.val = j.val; omega
  rw [e, hB]

include hL in
theorem blk4_6 (t : Fin cfg4.N) (k : Fin 128) (j : Fin 5) : iblk4 V c 6 t (ix2 k j) = P.L j.val k.val := by
  obtain ⟨-, -, -, -, -, -, -, -, -, -, -, -, e0, e1, -⟩ := idx_facts4 t
  show V c main_v18 (((cfg4.win 6).blk t).view.emb (ix2 k j)) = _
  have e : ((cfg4.win 6).blk t).view.emb (ix2 k j) = ix2 k j := by
    funext a; apply Fin.ext
    match a with
    | ⟨0, _⟩ => show win4_6.index t (0 : Fin 2) * 128 + 1 * k.val = k.val; omega
    | ⟨1, _⟩ => show win4_6.index t (1 : Fin 2) * 5 + 1 * j.val = j.val; omega
  rw [e, hL]

include hLb in
theorem blk4_7 (t : Fin cfg4.N) (j : Fin 5) : iblk4 V c 7 t (ix2 0 j) = P.lb j.val := by
  obtain ⟨-, -, -, -, -, -, -, -, -, -, -, -, -, -, e0, e1, -⟩ := idx_facts4 t
  show V c main_v19 (((cfg4.win 7).blk t).view.emb (ix2 0 j)) = _
  have e : ((cfg4.win 7).blk t).view.emb (ix2 (0 : Fin 1) j) = ix2 0 j := by
    funext a; apply Fin.ext
    match a with
    | ⟨0, _⟩ => show win4_7.index t (0 : Fin 2) * 1 + 1 * 0 = 0; omega
    | ⟨1, _⟩ => show win4_7.index t (1 : Fin 2) * 5 + 1 * j.val = j.val; omega
  rw [e, hLb]

/-- This level's hidden rows, cells and scores as arrays, from the level below (H, C). -/
abbrev GH4 : S16384x128.Idx → EReal := fun i => hN P H C (i 0).val (i 1).val
abbrev GC4 : S16384x128.Idx → EReal := fun i => cN P H C (i 0).val (i 1).val
abbrev GL4 : S16384x5.Idx → EReal := fun i => logit P (hN P H C) (i 0).val (i 1).val

include hH hC hF hFb hW hB in
/-- What point t writes back to the hidden rows is block t of them. -/
theorem flushed4_8_eq (t : Fin cfg4.N) :
    (dat4 V c).flushed 8 t = ((cfg4.win 8).blk t).view.read (Elt Ideal) (GH4 P H C) := by
  show (cfg4.win 8).cut (grid4.coords t) ((dat4 V c).after 8 t) = _
  rw [after4_8]
  unfold out4_8
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, e0, e1, -⟩ := idx_facts4 t
  funext j
  obtain ⟨p, q, rfl⟩ : ∃ (p : Fin 2048) (q : Fin 128), j = ix2 p q := ⟨j 0, j 1, eq_ix2 j⟩
  refine (InnerBlock.hidden_apply P H C (2048 * t.val) (iblk4 V c 0 t) (iblk4 V c 1 t) (iblk4 V c 2 t) (iblk4 V c 3 t) (iblk4 V c 4 t) (iblk4 V c 5 t)
    (blk4_0 V c H hH t) (blk4_1 V c C hC t) (blk4_2 V c P hF t) (blk4_3 V c P hFb t) (blk4_4 V c P hW t) (blk4_5 V c P hB t) p q).trans ?_
  show hN P H C (2048 * t.val + p.val) q.val = hN P H C (win4_8.index t (0 : Fin 2) * 2048 + 1 * p.val) (win4_8.index t (1 : Fin 2) * 128 + 1 * q.val)
  rw [e0, e1]
  congr 1 <;> omega

include hH hC hF hFb hW hB in
/-- What point t writes back to the cells is block t of them. -/
theorem flushed4_9_eq (t : Fin cfg4.N) :
    (dat4 V c).flushed 9 t = ((cfg4.win 9).blk t).view.read (Elt Ideal) (GC4 P H C) := by
  show (cfg4.win 9).cut (grid4.coords t) ((dat4 V c).after 9 t) = _
  rw [after4_9]
  unfold out4_9
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, -, -, e0, e1, -⟩ := idx_facts4 t
  funext j
  obtain ⟨p, q, rfl⟩ : ∃ (p : Fin 2048) (q : Fin 128), j = ix2 p q := ⟨j 0, j 1, eq_ix2 j⟩
  refine (InnerBlock.cell_apply P H C (2048 * t.val) (iblk4 V c 0 t) (iblk4 V c 1 t) (iblk4 V c 2 t) (iblk4 V c 3 t) (iblk4 V c 4 t) (iblk4 V c 5 t)
    (blk4_0 V c H hH t) (blk4_1 V c C hC t) (blk4_2 V c P hF t) (blk4_3 V c P hFb t) (blk4_4 V c P hW t) (blk4_5 V c P hB t) p q).trans ?_
  show cN P H C (2048 * t.val + p.val) q.val = cN P H C (win4_9.index t (0 : Fin 2) * 2048 + 1 * p.val) (win4_9.index t (1 : Fin 2) * 128 + 1 * q.val)
  rw [e0, e1]
  congr 1 <;> omega

include hH hC hF hFb hW hB hL hLb in
/-- What point t writes back to the scores is block t of them. -/
theorem flushed4_10_eq (t : Fin cfg4.N) :
    (dat4 V c).flushed 10 t = ((cfg4.win 10).blk t).view.read (Elt Ideal) (GL4 P H C) := by
  show (cfg4.win 10).cut (grid4.coords t) ((dat4 V c).after 10 t) = _
  rw [after4_10]
  unfold out4_10
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2, View.ld_unit_zero (S := S128x5) hz2, View.ld_unit_zero (S := S1x5) hz2]
  obtain ⟨-, -, -, -, -, -, -, -, -, -, -, -, -, -, -, -, -, -, -, -, e0, e1⟩ := idx_facts4 t
  funext j
  obtain ⟨p, q, rfl⟩ : ∃ (p : Fin 2048) (q : Fin 5), j = ix2 p q := ⟨j 0, j 1, eq_ix2 j⟩
  refine (InnerBlock.scores_apply P (2048 * t.val) (iblk4 V c 6 t) (iblk4 V c 7 t)
    (k1_pay5 (F := Ideal) (iblk4 V c 0 t) (iblk4 V c 1 t) (iblk4 V c 2 t) (iblk4 V c 3 t) (iblk4 V c 4 t) (iblk4 V c 5 t)) (hN P H C)
    (InnerBlock.hidden_apply P H C (2048 * t.val) (iblk4 V c 0 t) (iblk4 V c 1 t) (iblk4 V c 2 t) (iblk4 V c 3 t) (iblk4 V c 4 t) (iblk4 V c 5 t)
      (blk4_0 V c H hH t) (blk4_1 V c C hC t) (blk4_2 V c P hF t) (blk4_3 V c P hFb t) (blk4_4 V c P hW t) (blk4_5 V c P hB t))
    (blk4_6 V c P hL t) (blk4_7 V c P hLb t) p q).trans ?_
  show logit P (hN P H C) (2048 * t.val + p.val) q.val = logit P (hN P H C) (win4_10.index t (0 : Fin 2) * 2048 + 1 * p.val) (win4_10.index t (1 : Fin 2) * 5 + 1 * q.val)
  rw [e0, e1]
  congr 1 <;> omega

/-- An index of an output array is in point t's block iff each coordinate is in the block's range on its axis. -/
theorem mem_blk4_8 (t : Fin cfg4.N) (i : S16384x128.Idx) :
    i ∈ ((cfg4.win 8).blk t).view.set ↔ ∀ a : Fin 2, win4_8.index t a * S2048x128.size a ≤ (i a).val ∧ (i a).val < win4_8.index t a * S2048x128.size a + S2048x128.size a := by
  show i ∈ ((View.whole main_v32_0).slice (win4_8.rect t)).set ↔ _
  rw [View.set_slice_whole, Rect.mem_set_unit]
  exact Iff.rfl
theorem mem_blk4_9 (t : Fin cfg4.N) (i : S16384x128.Idx) :
    i ∈ ((cfg4.win 9).blk t).view.set ↔ ∀ a : Fin 2, win4_9.index t a * S2048x128.size a ≤ (i a).val ∧ (i a).val < win4_9.index t a * S2048x128.size a + S2048x128.size a := by
  show i ∈ ((View.whole main_v32_1).slice (win4_9.rect t)).set ↔ _
  rw [View.set_slice_whole, Rect.mem_set_unit]
  exact Iff.rfl
theorem mem_blk4_10 (t : Fin cfg4.N) (i : S16384x5.Idx) :
    i ∈ ((cfg4.win 10).blk t).view.set ↔ ∀ a : Fin 2, win4_10.index t a * S2048x5.size a ≤ (i a).val ∧ (i a).val < win4_10.index t a * S2048x5.size a + S2048x5.size a := by
  show i ∈ ((View.whole main_v32_2).slice (win4_10.rect t)).set ↔ _
  rw [View.set_slice_whole, Rect.mem_set_unit]
  exact Iff.rfl

/-- Every row is in the block of the point row / 2048. -/
theorem cover4_8 (i : S16384x128.Idx) : ∃ t : Fin cfg4.N, (cfg4.win 8).flush t = true ∧ i ∈ ((cfg4.win 8).blk t).view.set := by
  have hi0 : (i 0).val < 16384 := (i 0).isLt
  have hi1 : (i 1).val < 128 := (i 1).isLt
  let t : Fin cfg4.N := ⟨(i 0).val / 2048, by rw [show cfg4.N = 8 from N_4]; omega⟩
  obtain ⟨-, -, -, -, -, -, -, -, -, -, -, -, -, -, -, -, e0, e1, -⟩ := idx_facts4 t
  refine ⟨t, flush4_8 t, ?_⟩
  rw [mem_blk4_8]
  intro a
  match a with
  | ⟨0, _⟩ => show win4_8.index t (0 : Fin 2) * 2048 ≤ (i 0).val ∧ (i 0).val < win4_8.index t (0 : Fin 2) * 2048 + 2048; rw [e0]; show (i 0).val / 2048 * 2048 ≤ _ ∧ _ < (i 0).val / 2048 * 2048 + 2048; omega
  | ⟨1, _⟩ => show win4_8.index t (1 : Fin 2) * 128 ≤ (i 1).val ∧ (i 1).val < win4_8.index t (1 : Fin 2) * 128 + 128; rw [e1]; omega
theorem cover4_9 (i : S16384x128.Idx) : ∃ t : Fin cfg4.N, (cfg4.win 9).flush t = true ∧ i ∈ ((cfg4.win 9).blk t).view.set := by
  have hi0 : (i 0).val < 16384 := (i 0).isLt
  have hi1 : (i 1).val < 128 := (i 1).isLt
  let t : Fin cfg4.N := ⟨(i 0).val / 2048, by rw [show cfg4.N = 8 from N_4]; omega⟩
  obtain ⟨-, -, -, -, -, -, -, -, -, -, -, -, -, -, -, -, -, -, e0, e1, -⟩ := idx_facts4 t
  refine ⟨t, flush4_9 t, ?_⟩
  rw [mem_blk4_9]
  intro a
  match a with
  | ⟨0, _⟩ => show win4_9.index t (0 : Fin 2) * 2048 ≤ (i 0).val ∧ (i 0).val < win4_9.index t (0 : Fin 2) * 2048 + 2048; rw [e0]; show (i 0).val / 2048 * 2048 ≤ _ ∧ _ < (i 0).val / 2048 * 2048 + 2048; omega
  | ⟨1, _⟩ => show win4_9.index t (1 : Fin 2) * 128 ≤ (i 1).val ∧ (i 1).val < win4_9.index t (1 : Fin 2) * 128 + 128; rw [e1]; omega
theorem cover4_10 (i : S16384x5.Idx) : ∃ t : Fin cfg4.N, (cfg4.win 10).flush t = true ∧ i ∈ ((cfg4.win 10).blk t).view.set := by
  have hi0 : (i 0).val < 16384 := (i 0).isLt
  have hi1 : (i 1).val < 5 := (i 1).isLt
  let t : Fin cfg4.N := ⟨(i 0).val / 2048, by rw [show cfg4.N = 8 from N_4]; omega⟩
  obtain ⟨-, -, -, -, -, -, -, -, -, -, -, -, -, -, -, -, -, -, -, -, e0, e1⟩ := idx_facts4 t
  refine ⟨t, flush4_10 t, ?_⟩
  rw [mem_blk4_10]
  intro a
  match a with
  | ⟨0, _⟩ => show win4_10.index t (0 : Fin 2) * 2048 ≤ (i 0).val ∧ (i 0).val < win4_10.index t (0 : Fin 2) * 2048 + 2048; rw [e0]; show (i 0).val / 2048 * 2048 ≤ _ ∧ _ < (i 0).val / 2048 * 2048 + 2048; omega
  | ⟨1, _⟩ => show win4_10.index t (1 : Fin 2) * 5 ≤ (i 1).val ∧ (i 1).val < win4_10.index t (1 : Fin 2) * 5 + 5; rw [e1]; omega

include hH hC hF hFb hW hB in
/-- After this region its first output array holds the level's hidden rows … -/
theorem final4_8 : (dat4 V c).arrAt 8 cfg4.N = GH4 P H C :=
  (dat4 V c).arrAt_eq_of_cover 8 (GH4 P H C) (fun t _ => flushed4_8_eq V c P H C hH hC hF hFb hW hB t) cover4_8
include hH hC hF hFb hW hB in
/-- … its second the level's cells … -/
theorem final4_9 : (dat4 V c).arrAt 9 cfg4.N = GC4 P H C :=
  (dat4 V c).arrAt_eq_of_cover 9 (GC4 P H C) (fun t _ => flushed4_9_eq V c P H C hH hC hF hFb hW hB t) cover4_9
include hH hC hF hFb hW hB hL hLb in
/-- … and its third the level's scores. -/
theorem final4_10 : (dat4 V c).arrAt 10 cfg4.N = GL4 P H C :=
  (dat4 V c).arrAt_eq_of_cover 10 (GL4 P H C) (fun t _ => flushed4_10_eq V c P H C hH hC hF hFb hW hB hL hLb t) cover4_10

end Inner4

end Cert.KernelIdeal.HandValue

end
-- ==== Proof.KIValue5.lean ====
/- Inner level 5 of the tree: its region's three output arrays as whole-array functions. Grid point t handles nodes
  2048 t … 2048 t + 2047: its two row-blocked inputs are those rows of the children's hidden rows and cells, paired side
  by side; its weight blocks are the whole weight matrices; what it writes back to each output is those rows of the
  level's hidden rows, cells and scores. The 4 blocks tile the 8192 rows.
-/
import proofs.«136691_j33638183863177_2_alg».proof.Proof.KIData
import proofs.«136691_j33638183863177_2_alg».proof.Proof.InnerBlock
import proofs.«136691_j33638183863177_2_alg».proof.Proof.KIValue0
import Idealize.ShloMosaic.Lib.Pipeline.Value

noncomputable section

open scoped BigOperators

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

/-- The printed index maps of this region, decided over its 4 points: the row-blocked windows sit at block row t,
    the weight windows at the origin. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0
    ∧ win5_9.index t (0 : Fin 2) = t.val ∧ win5_9.index t (1 : Fin 2) = 0
    ∧ win5_10.index t (0 : Fin 2) = t.val ∧ win5_10.index t (1 : Fin 2) = 0 :=
  (by decide +kernel : ∀ t : Fin grid5.N, _)

section Inner5

variable (V : (c : Dev nD) → (b : Ref sig .tc) → Buf (Elt Ideal) ((c : Thread nD τ).loc b)) (c : Dev nD)
variable (P : Params) (H C : M)
variable (hH : ∀ (r : Fin 8192) (k : Fin 256), V c main_v33 (ix2 r k) = cat H r.val k.val)
variable (hC : ∀ (r : Fin 8192) (k : Fin 256), V c main_v34 (ix2 r k) = cat C r.val k.val)
variable (hF : ∀ (k : Fin 256) (j : Fin 256), V c main_v15 (ix2 k j) = P.Uf j.val k.val)
variable (hFb : ∀ j : Fin 256, V c main_v16 (ix2 0 j) = P.uf j.val)
variable (hW : ∀ (k : Fin 256) (j : Fin 384), V c main_v12 (ix2 k j) = P.Ui j.val k.val)
variable (hB : ∀ j : Fin 384, V c main_v13 (ix2 0 j) = P.ui j.val)
variable (hL : ∀ (k : Fin 128) (j : Fin 5), V c main_v18 (ix2 k j) = P.L j.val k.val)
variable (hLb : ∀ j : Fin 5, V c main_v19 (ix2 0 j) = P.lb j.val)

include hH in
theorem blk5_0 (t : Fin cfg5.N) (p : Fin 2048) (k : Fin 256) : iblk5 V c 0 t (ix2 p k) = cat H (2048 * t.val + p.val) k.val := by
  have ht : t.val < 4 := lt_of_lt_of_eq t.isLt N_5
  obtain ⟨e0, e1, -⟩ := idx_facts5 t
  show V c main_v33 (((cfg5.win 0).blk t).view.emb (ix2 p k)) = _
  have e : ((cfg5.win 0).blk t).view.emb (ix2 p k) = ix2 ⟨2048 * t.val + p.val, by have := p.isLt; omega⟩ k := by
    funext a; apply Fin.ext
    match a with
    | ⟨0, _⟩ => show win5_0.index t (0 : Fin 2) * 2048 + 1 * p.val = 2048 * t.val + p.val; omega
    | ⟨1, _⟩ => show win5_0.index t (1 : Fin 2) * 256 + 1 * k.val = k.val; omega
  rw [e, hH]

include hC in
theorem blk5_1 (t : Fin cfg5.N) (p : Fin 2048) (k : Fin 256) : iblk5 V c 1 t (ix2 p k) = cat C (2048 * t.val + p.val) k.val := by
  have ht : t.val < 4 := lt_of_lt_of_eq t.isLt N_5
  obtain ⟨-, -, e0, e1, -⟩ := idx_facts5 t
  show V c main_v34 (((cfg5.win 1).blk t).view.emb (ix2 p k)) = _
  have e : ((cfg5.win 1).blk t).view.emb (ix2 p k) = ix2 ⟨2048 * t.val + p.val, by have := p.isLt; omega⟩ k := by
    funext a; apply Fin.ext
    match a with
    | ⟨0, _⟩ => show win5_1.index t (0 : Fin 2) * 2048 + 1 * p.val = 2048 * t.val + p.val; omega
    | ⟨1, _⟩ => show win5_1.index t (1 : Fin 2) * 256 + 1 * k.val = k.val; omega
  rw [e, hC]

include hF in
theorem blk5_2 (t : Fin cfg5.N) (k : Fin 256) (j : Fin 256) : iblk5 V c 2 t (ix2 k j) = P.Uf j.val k.val := by
  obtain ⟨-, -, -, -, e0, e1, -⟩ := idx_facts5 t
  show V c main_v15 (((cfg5.win 2).blk t).view.emb (ix2 k j)) = _
  have e : ((cfg5.win 2).blk t).view.emb (ix2 k j) = ix2 k j := by
    funext a; apply Fin.ext
    match a with
    | ⟨0, _⟩ => show win5_2.index t (0 : Fin 2) * 256 + 1 * k.val = k.val; omega
    | ⟨1, _⟩ => show win5_2.index t (1 : Fin 2) * 256 + 1 * j.val = j.val; omega
  rw [e, hF]

include hFb in
theorem blk5_3 (t : Fin cfg5.N) (j : Fin 256) : iblk5 V c 3 t (ix2 0 j) = P.uf j.val := by
  obtain ⟨-, -, -, -, -, -, e0, e1, -⟩ := idx_facts5 t
  show V c main_v16 (((cfg5.win 3).blk t).view.emb (ix2 0 j)) = _
  have e : ((cfg5.win 3).blk t).view.emb (ix2 (0 : Fin 1) j) = ix2 0 j := by
    funext a; apply Fin.ext
    match a with
    | ⟨0, _⟩ => show win5_3.index t (0 : Fin 2) * 1 + 1 * 0 = 0; omega
    | ⟨1, _⟩ => show win5_3.index t (1 : Fin 2) * 256 + 1 * j.val = j.val; omega
  rw [e, hFb]

include hW in
theorem blk5_4 (t : Fin cfg5.N) (k : Fin 256) (j : Fin 384) : iblk5 V c 4 t (ix2 k j) = P.Ui j.val k.val := by
  obtain ⟨-, -, -, -, -, -, -, -, e0, e1, -⟩ := idx_facts5 t
  show V c main_v12 (((cfg5.win 4).blk t).view.emb (ix2 k j)) = _
  have e : ((cfg5.win 4).blk t).view.emb (ix2 k j) = ix2 k j := by
    funext a; apply Fin.ext
    match a with
    | ⟨0, _⟩ => show win5_4.index t (0 : Fin 2) * 256 + 1 * k.val = k.val; omega
    | ⟨1, _⟩ => show win5_4.index t (1 : Fin 2) * 384 + 1 * j.val = j.val; omega
  rw [e, hW]

include hB in
theorem blk5_5 (t : Fin cfg5.N) (j : Fin 384) : iblk5 V c 5 t (ix2 0 j) = P.ui j.val := by
  obtain ⟨-, -, -, -, -, -, -, -, -, -, e0, e1, -⟩ := idx_facts5 t
  show V c main_v13 (((cfg5.win 5).blk t).view.emb (ix2 0 j)) = _
  have e : ((cfg5.win 5).blk t).view.emb (ix2 (0 : Fin 1) j) = ix2 0 j := by
    funext a; apply Fin.ext
    match a with
    | ⟨0, _⟩ => show win5_5.index t (0 : Fin 2) * 1 + 1 * 0 = 0; omega
    | ⟨1, _⟩ => show win5_5.index t (1 : Fin 2) * 384 + 1 * j.val = j.val; omega
  rw [e, hB]

include hL in
theorem blk5_6 (t : Fin cfg5.N) (k : Fin 128) (j : Fin 5) : iblk5 V c 6 t (ix2 k j) = P.L j.val k.val := by
  obtain ⟨-, -, -, -, -, -, -, -, -, -, -, -, e0, e1, -⟩ := idx_facts5 t
  show V c main_v18 (((cfg5.win 6).blk t).view.emb (ix2 k j)) = _
  have e : ((cfg5.win 6).blk t).view.emb (ix2 k j) = ix2 k j := by
    funext a; apply Fin.ext
    match a with
    | ⟨0, _⟩ => show win5_6.index t (0 : Fin 2) * 128 + 1 * k.val = k.val; omega
    | ⟨1, _⟩ => show win5_6.index t (1 : Fin 2) * 5 + 1 * j.val = j.val; omega
  rw [e, hL]

include hLb in
theorem blk5_7 (t : Fin cfg5.N) (j : Fin 5) : iblk5 V c 7 t (ix2 0 j) = P.lb j.val := by
  obtain ⟨-, -, -, -, -, -, -, -, -, -, -, -, -, -, e0, e1, -⟩ := idx_facts5 t
  show V c main_v19 (((cfg5.win 7).blk t).view.emb (ix2 0 j)) = _
  have e : ((cfg5.win 7).blk t).view.emb (ix2 (0 : Fin 1) j) = ix2 0 j := by
    funext a; apply Fin.ext
    match a with
    | ⟨0, _⟩ => show win5_7.index t (0 : Fin 2) * 1 + 1 * 0 = 0; omega
    | ⟨1, _⟩ => show win5_7.index t (1 : Fin 2) * 5 + 1 * j.val = j.val; omega
  rw [e, hLb]

/-- This level's hidden rows, cells and scores as arrays, from the level below (H, C). -/
abbrev GH5 : S8192x128.Idx → EReal := fun i => hN P H C (i 0).val (i 1).val
abbrev GC5 : S8192x128.Idx → EReal := fun i => cN P H C (i 0).val (i 1).val
abbrev GL5 : S8192x5.Idx → EReal := fun i => logit P (hN P H C) (i 0).val (i 1).val

include hH hC hF hFb hW hB in
/-- What point t writes back to the hidden rows is block t of them. -/
theorem flushed5_8_eq (t : Fin cfg5.N) :
    (dat5 V c).flushed 8 t = ((cfg5.win 8).blk t).view.read (Elt Ideal) (GH5 P H C) := by
  show (cfg5.win 8).cut (grid5.coords t) ((dat5 V c).after 8 t) = _
  rw [after5_8]
  unfold out5_8
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, e0, e1, -⟩ := idx_facts5 t
  funext j
  obtain ⟨p, q, rfl⟩ : ∃ (p : Fin 2048) (q : Fin 128), j = ix2 p q := ⟨j 0, j 1, eq_ix2 j⟩
  refine (InnerBlock.hidden_apply P H C (2048 * t.val) (iblk5 V c 0 t) (iblk5 V c 1 t) (iblk5 V c 2 t) (iblk5 V c 3 t) (iblk5 V c 4 t) (iblk5 V c 5 t)
    (blk5_0 V c H hH t) (blk5_1 V c C hC t) (blk5_2 V c P hF t) (blk5_3 V c P hFb t) (blk5_4 V c P hW t) (blk5_5 V c P hB t) p q).trans ?_
  show hN P H C (2048 * t.val + p.val) q.val = hN P H C (win5_8.index t (0 : Fin 2) * 2048 + 1 * p.val) (win5_8.index t (1 : Fin 2) * 128 + 1 * q.val)
  rw [e0, e1]
  congr 1 <;> omega

include hH hC hF hFb hW hB in
/-- What point t writes back to the cells is block t of them. -/
theorem flushed5_9_eq (t : Fin cfg5.N) :
    (dat5 V c).flushed 9 t = ((cfg5.win 9).blk t).view.read (Elt Ideal) (GC5 P H C) := by
  show (cfg5.win 9).cut (grid5.coords t) ((dat5 V c).after 9 t) = _
  rw [after5_9]
  unfold out5_9
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, -, -, e0, e1, -⟩ := idx_facts5 t
  funext j
  obtain ⟨p, q, rfl⟩ : ∃ (p : Fin 2048) (q : Fin 128), j = ix2 p q := ⟨j 0, j 1, eq_ix2 j⟩
  refine (InnerBlock.cell_apply P H C (2048 * t.val) (iblk5 V c 0 t) (iblk5 V c 1 t) (iblk5 V c 2 t) (iblk5 V c 3 t) (iblk5 V c 4 t) (iblk5 V c 5 t)
    (blk5_0 V c H hH t) (blk5_1 V c C hC t) (blk5_2 V c P hF t) (blk5_3 V c P hFb t) (blk5_4 V c P hW t) (blk5_5 V c P hB t) p q).trans ?_
  show cN P H C (2048 * t.val + p.val) q.val = cN P H C (win5_9.index t (0 : Fin 2) * 2048 + 1 * p.val) (win5_9.index t (1 : Fin 2) * 128 + 1 * q.val)
  rw [e0, e1]
  congr 1 <;> omega

include hH hC hF hFb hW hB hL hLb in
/-- What point t writes back to the scores is block t of them. -/
theorem flushed5_10_eq (t : Fin cfg5.N) :
    (dat5 V c).flushed 10 t = ((cfg5.win 10).blk t).view.read (Elt Ideal) (GL5 P H C) := by
  show (cfg5.win 10).cut (grid5.coords t) ((dat5 V c).after 10 t) = _
  rw [after5_10]
  unfold out5_10
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2, View.ld_unit_zero (S := S128x5) hz2, View.ld_unit_zero (S := S1x5) hz2]
  obtain ⟨-, -, -, -, -, -, -, -, -, -, -, -, -, -, -, -, -, -, -, -, e0, e1⟩ := idx_facts5 t
  funext j
  obtain ⟨p, q, rfl⟩ : ∃ (p : Fin 2048) (q : Fin 5), j = ix2 p q := ⟨j 0, j 1, eq_ix2 j⟩
  refine (InnerBlock.scores_apply P (2048 * t.val) (iblk5 V c 6 t) (iblk5 V c 7 t)
    (k1_pay5 (F := Ideal) (iblk5 V c 0 t) (iblk5 V c 1 t) (iblk5 V c 2 t) (iblk5 V c 3 t) (iblk5 V c 4 t) (iblk5 V c 5 t)) (hN P H C)
    (InnerBlock.hidden_apply P H C (2048 * t.val) (iblk5 V c 0 t) (iblk5 V c 1 t) (iblk5 V c 2 t) (iblk5 V c 3 t) (iblk5 V c 4 t) (iblk5 V c 5 t)
      (blk5_0 V c H hH t) (blk5_1 V c C hC t) (blk5_2 V c P hF t) (blk5_3 V c P hFb t) (blk5_4 V c P hW t) (blk5_5 V c P hB t))
    (blk5_6 V c P hL t) (blk5_7 V c P hLb t) p q).trans ?_
  show logit P (hN P H C) (2048 * t.val + p.val) q.val = logit P (hN P H C) (win5_10.index t (0 : Fin 2) * 2048 + 1 * p.val) (win5_10.index t (1 : Fin 2) * 5 + 1 * q.val)
  rw [e0, e1]
  congr 1 <;> omega

/-- An index of an output array is in point t's block iff each coordinate is in the block's range on its axis. -/
theorem mem_blk5_8 (t : Fin cfg5.N) (i : S8192x128.Idx) :
    i ∈ ((cfg5.win 8).blk t).view.set ↔ ∀ a : Fin 2, win5_8.index t a * S2048x128.size a ≤ (i a).val ∧ (i a).val < win5_8.index t a * S2048x128.size a + S2048x128.size a := by
  show i ∈ ((View.whole main_v35_0).slice (win5_8.rect t)).set ↔ _
  rw [View.set_slice_whole, Rect.mem_set_unit]
  exact Iff.rfl
theorem mem_blk5_9 (t : Fin cfg5.N) (i : S8192x128.Idx) :
    i ∈ ((cfg5.win 9).blk t).view.set ↔ ∀ a : Fin 2, win5_9.index t a * S2048x128.size a ≤ (i a).val ∧ (i a).val < win5_9.index t a * S2048x128.size a + S2048x128.size a := by
  show i ∈ ((View.whole main_v35_1).slice (win5_9.rect t)).set ↔ _
  rw [View.set_slice_whole, Rect.mem_set_unit]
  exact Iff.rfl
theorem mem_blk5_10 (t : Fin cfg5.N) (i : S8192x5.Idx) :
    i ∈ ((cfg5.win 10).blk t).view.set ↔ ∀ a : Fin 2, win5_10.index t a * S2048x5.size a ≤ (i a).val ∧ (i a).val < win5_10.index t a * S2048x5.size a + S2048x5.size a := by
  show i ∈ ((View.whole main_v35_2).slice (win5_10.rect t)).set ↔ _
  rw [View.set_slice_whole, Rect.mem_set_unit]
  exact Iff.rfl

/-- Every row is in the block of the point row / 2048. -/
theorem cover5_8 (i : S8192x128.Idx) : ∃ t : Fin cfg5.N, (cfg5.win 8).flush t = true ∧ i ∈ ((cfg5.win 8).blk t).view.set := by
  have hi0 : (i 0).val < 8192 := (i 0).isLt
  have hi1 : (i 1).val < 128 := (i 1).isLt
  let t : Fin cfg5.N := ⟨(i 0).val / 2048, by rw [show cfg5.N = 4 from N_5]; omega⟩
  obtain ⟨-, -, -, -, -, -, -, -, -, -, -, -, -, -, -, -, e0, e1, -⟩ := idx_facts5 t
  refine ⟨t, flush5_8 t, ?_⟩
  rw [mem_blk5_8]
  intro a
  match a with
  | ⟨0, _⟩ => show win5_8.index t (0 : Fin 2) * 2048 ≤ (i 0).val ∧ (i 0).val < win5_8.index t (0 : Fin 2) * 2048 + 2048; rw [e0]; show (i 0).val / 2048 * 2048 ≤ _ ∧ _ < (i 0).val / 2048 * 2048 + 2048; omega
  | ⟨1, _⟩ => show win5_8.index t (1 : Fin 2) * 128 ≤ (i 1).val ∧ (i 1).val < win5_8.index t (1 : Fin 2) * 128 + 128; rw [e1]; omega
theorem cover5_9 (i : S8192x128.Idx) : ∃ t : Fin cfg5.N, (cfg5.win 9).flush t = true ∧ i ∈ ((cfg5.win 9).blk t).view.set := by
  have hi0 : (i 0).val < 8192 := (i 0).isLt
  have hi1 : (i 1).val < 128 := (i 1).isLt
  let t : Fin cfg5.N := ⟨(i 0).val / 2048, by rw [show cfg5.N = 4 from N_5]; omega⟩
  obtain ⟨-, -, -, -, -, -, -, -, -, -, -, -, -, -, -, -, -, -, e0, e1, -⟩ := idx_facts5 t
  refine ⟨t, flush5_9 t, ?_⟩
  rw [mem_blk5_9]
  intro a
  match a with
  | ⟨0, _⟩ => show win5_9.index t (0 : Fin 2) * 2048 ≤ (i 0).val ∧ (i 0).val < win5_9.index t (0 : Fin 2) * 2048 + 2048; rw [e0]; show (i 0).val / 2048 * 2048 ≤ _ ∧ _ < (i 0).val / 2048 * 2048 + 2048; omega
  | ⟨1, _⟩ => show win5_9.index t (1 : Fin 2) * 128 ≤ (i 1).val ∧ (i 1).val < win5_9.index t (1 : Fin 2) * 128 + 128; rw [e1]; omega
theorem cover5_10 (i : S8192x5.Idx) : ∃ t : Fin cfg5.N, (cfg5.win 10).flush t = true ∧ i ∈ ((cfg5.win 10).blk t).view.set := by
  have hi0 : (i 0).val < 8192 := (i 0).isLt
  have hi1 : (i 1).val < 5 := (i 1).isLt
  let t : Fin cfg5.N := ⟨(i 0).val / 2048, by rw [show cfg5.N = 4 from N_5]; omega⟩
  obtain ⟨-, -, -, -, -, -, -, -, -, -, -, -, -, -, -, -, -, -, -, -, e0, e1⟩ := idx_facts5 t
  refine ⟨t, flush5_10 t, ?_⟩
  rw [mem_blk5_10]
  intro a
  match a with
  | ⟨0, _⟩ => show win5_10.index t (0 : Fin 2) * 2048 ≤ (i 0).val ∧ (i 0).val < win5_10.index t (0 : Fin 2) * 2048 + 2048; rw [e0]; show (i 0).val / 2048 * 2048 ≤ _ ∧ _ < (i 0).val / 2048 * 2048 + 2048; omega
  | ⟨1, _⟩ => show win5_10.index t (1 : Fin 2) * 5 ≤ (i 1).val ∧ (i 1).val < win5_10.index t (1 : Fin 2) * 5 + 5; rw [e1]; omega

include hH hC hF hFb hW hB in
/-- After this region its first output array holds the level's hidden rows … -/
theorem final5_8 : (dat5 V c).arrAt 8 cfg5.N = GH5 P H C :=
  (dat5 V c).arrAt_eq_of_cover 8 (GH5 P H C) (fun t _ => flushed5_8_eq V c P H C hH hC hF hFb hW hB t) cover5_8
include hH hC hF hFb hW hB in
/-- … its second the level's cells … -/
theorem final5_9 : (dat5 V c).arrAt 9 cfg5.N = GC5 P H C :=
  (dat5 V c).arrAt_eq_of_cover 9 (GC5 P H C) (fun t _ => flushed5_9_eq V c P H C hH hC hF hFb hW hB t) cover5_9
include hH hC hF hFb hW hB hL hLb in
/-- … and its third the level's scores. -/
theorem final5_10 : (dat5 V c).arrAt 10 cfg5.N = GL5 P H C :=
  (dat5 V c).arrAt_eq_of_cover 10 (GL5 P H C) (fun t _ => flushed5_10_eq V c P H C hH hC hF hFb hW hB hL hLb t) cover5_10

end Inner5

end Cert.KernelIdeal.HandValue

end
-- ==== Proof.KIValue6.lean ====
/- Inner level 6 of the tree: its region's three output arrays as whole-array functions. Grid point t handles nodes
  2048 t … 2048 t + 2047: its two row-blocked inputs are those rows of the children's hidden rows and cells, paired side
  by side; its weight blocks are the whole weight matrices; what it writes back to each output is those rows of the
  level's hidden rows, cells and scores. The 2 blocks tile the 4096 rows.
-/
import proofs.«136691_j33638183863177_2_alg».proof.Proof.KIData
import proofs.«136691_j33638183863177_2_alg».proof.Proof.InnerBlock
import proofs.«136691_j33638183863177_2_alg».proof.Proof.KIValue0
import Idealize.ShloMosaic.Lib.Pipeline.Value

noncomputable section

open scoped BigOperators

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

/-- The printed index maps of this region, decided over its 2 points: the row-blocked windows sit at block row t,
    the weight windows at the origin. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = t.val ∧ win6_8.index t (1 : Fin 2) = 0
    ∧ win6_9.index t (0 : Fin 2) = t.val ∧ win6_9.index t (1 : Fin 2) = 0
    ∧ win6_10.index t (0 : Fin 2) = t.val ∧ win6_10.index t (1 : Fin 2) = 0 :=
  (by decide +kernel : ∀ t : Fin grid6.N, _)

section Inner6

variable (V : (c : Dev nD) → (b : Ref sig .tc) → Buf (Elt Ideal) ((c : Thread nD τ).loc b)) (c : Dev nD)
variable (P : Params) (H C : M)
variable (hH : ∀ (r : Fin 4096) (k : Fin 256), V c main_v36 (ix2 r k) = cat H r.val k.val)
variable (hC : ∀ (r : Fin 4096) (k : Fin 256), V c main_v37 (ix2 r k) = cat C r.val k.val)
variable (hF : ∀ (k : Fin 256) (j : Fin 256), V c main_v15 (ix2 k j) = P.Uf j.val k.val)
variable (hFb : ∀ j : Fin 256, V c main_v16 (ix2 0 j) = P.uf j.val)
variable (hW : ∀ (k : Fin 256) (j : Fin 384), V c main_v12 (ix2 k j) = P.Ui j.val k.val)
variable (hB : ∀ j : Fin 384, V c main_v13 (ix2 0 j) = P.ui j.val)
variable (hL : ∀ (k : Fin 128) (j : Fin 5), V c main_v18 (ix2 k j) = P.L j.val k.val)
variable (hLb : ∀ j : Fin 5, V c main_v19 (ix2 0 j) = P.lb j.val)

include hH in
theorem blk6_0 (t : Fin cfg6.N) (p : Fin 2048) (k : Fin 256) : iblk6 V c 0 t (ix2 p k) = cat H (2048 * t.val + p.val) k.val := by
  have ht : t.val < 2 := lt_of_lt_of_eq t.isLt N_6
  obtain ⟨e0, e1, -⟩ := idx_facts6 t
  show V c main_v36 (((cfg6.win 0).blk t).view.emb (ix2 p k)) = _
  have e : ((cfg6.win 0).blk t).view.emb (ix2 p k) = ix2 ⟨2048 * t.val + p.val, by have := p.isLt; omega⟩ k := by
    funext a; apply Fin.ext
    match a with
    | ⟨0, _⟩ => show win6_0.index t (0 : Fin 2) * 2048 + 1 * p.val = 2048 * t.val + p.val; omega
    | ⟨1, _⟩ => show win6_0.index t (1 : Fin 2) * 256 + 1 * k.val = k.val; omega
  rw [e, hH]

include hC in
theorem blk6_1 (t : Fin cfg6.N) (p : Fin 2048) (k : Fin 256) : iblk6 V c 1 t (ix2 p k) = cat C (2048 * t.val + p.val) k.val := by
  have ht : t.val < 2 := lt_of_lt_of_eq t.isLt N_6
  obtain ⟨-, -, e0, e1, -⟩ := idx_facts6 t
  show V c main_v37 (((cfg6.win 1).blk t).view.emb (ix2 p k)) = _
  have e : ((cfg6.win 1).blk t).view.emb (ix2 p k) = ix2 ⟨2048 * t.val + p.val, by have := p.isLt; omega⟩ k := by
    funext a; apply Fin.ext
    match a with
    | ⟨0, _⟩ => show win6_1.index t (0 : Fin 2) * 2048 + 1 * p.val = 2048 * t.val + p.val; omega
    | ⟨1, _⟩ => show win6_1.index t (1 : Fin 2) * 256 + 1 * k.val = k.val; omega
  rw [e, hC]

include hF in
theorem blk6_2 (t : Fin cfg6.N) (k : Fin 256) (j : Fin 256) : iblk6 V c 2 t (ix2 k j) = P.Uf j.val k.val := by
  obtain ⟨-, -, -, -, e0, e1, -⟩ := idx_facts6 t
  show V c main_v15 (((cfg6.win 2).blk t).view.emb (ix2 k j)) = _
  have e : ((cfg6.win 2).blk t).view.emb (ix2 k j) = ix2 k j := by
    funext a; apply Fin.ext
    match a with
    | ⟨0, _⟩ => show win6_2.index t (0 : Fin 2) * 256 + 1 * k.val = k.val; omega
    | ⟨1, _⟩ => show win6_2.index t (1 : Fin 2) * 256 + 1 * j.val = j.val; omega
  rw [e, hF]

include hFb in
theorem blk6_3 (t : Fin cfg6.N) (j : Fin 256) : iblk6 V c 3 t (ix2 0 j) = P.uf j.val := by
  obtain ⟨-, -, -, -, -, -, e0, e1, -⟩ := idx_facts6 t
  show V c main_v16 (((cfg6.win 3).blk t).view.emb (ix2 0 j)) = _
  have e : ((cfg6.win 3).blk t).view.emb (ix2 (0 : Fin 1) j) = ix2 0 j := by
    funext a; apply Fin.ext
    match a with
    | ⟨0, _⟩ => show win6_3.index t (0 : Fin 2) * 1 + 1 * 0 = 0; omega
    | ⟨1, _⟩ => show win6_3.index t (1 : Fin 2) * 256 + 1 * j.val = j.val; omega
  rw [e, hFb]

include hW in
theorem blk6_4 (t : Fin cfg6.N) (k : Fin 256) (j : Fin 384) : iblk6 V c 4 t (ix2 k j) = P.Ui j.val k.val := by
  obtain ⟨-, -, -, -, -, -, -, -, e0, e1, -⟩ := idx_facts6 t
  show V c main_v12 (((cfg6.win 4).blk t).view.emb (ix2 k j)) = _
  have e : ((cfg6.win 4).blk t).view.emb (ix2 k j) = ix2 k j := by
    funext a; apply Fin.ext
    match a with
    | ⟨0, _⟩ => show win6_4.index t (0 : Fin 2) * 256 + 1 * k.val = k.val; omega
    | ⟨1, _⟩ => show win6_4.index t (1 : Fin 2) * 384 + 1 * j.val = j.val; omega
  rw [e, hW]

include hB in
theorem blk6_5 (t : Fin cfg6.N) (j : Fin 384) : iblk6 V c 5 t (ix2 0 j) = P.ui j.val := by
  obtain ⟨-, -, -, -, -, -, -, -, -, -, e0, e1, -⟩ := idx_facts6 t
  show V c main_v13 (((cfg6.win 5).blk t).view.emb (ix2 0 j)) = _
  have e : ((cfg6.win 5).blk t).view.emb (ix2 (0 : Fin 1) j) = ix2 0 j := by
    funext a; apply Fin.ext
    match a with
    | ⟨0, _⟩ => show win6_5.index t (0 : Fin 2) * 1 + 1 * 0 = 0; omega
    | ⟨1, _⟩ => show win6_5.index t (1 : Fin 2) * 384 + 1 * j.val = j.val; omega
  rw [e, hB]

include hL in
theorem blk6_6 (t : Fin cfg6.N) (k : Fin 128) (j : Fin 5) : iblk6 V c 6 t (ix2 k j) = P.L j.val k.val := by
  obtain ⟨-, -, -, -, -, -, -, -, -, -, -, -, e0, e1, -⟩ := idx_facts6 t
  show V c main_v18 (((cfg6.win 6).blk t).view.emb (ix2 k j)) = _
  have e : ((cfg6.win 6).blk t).view.emb (ix2 k j) = ix2 k j := by
    funext a; apply Fin.ext
    match a with
    | ⟨0, _⟩ => show win6_6.index t (0 : Fin 2) * 128 + 1 * k.val = k.val; omega
    | ⟨1, _⟩ => show win6_6.index t (1 : Fin 2) * 5 + 1 * j.val = j.val; omega
  rw [e, hL]

include hLb in
theorem blk6_7 (t : Fin cfg6.N) (j : Fin 5) : iblk6 V c 7 t (ix2 0 j) = P.lb j.val := by
  obtain ⟨-, -, -, -, -, -, -, -, -, -, -, -, -, -, e0, e1, -⟩ := idx_facts6 t
  show V c main_v19 (((cfg6.win 7).blk t).view.emb (ix2 0 j)) = _
  have e : ((cfg6.win 7).blk t).view.emb (ix2 (0 : Fin 1) j) = ix2 0 j := by
    funext a; apply Fin.ext
    match a with
    | ⟨0, _⟩ => show win6_7.index t (0 : Fin 2) * 1 + 1 * 0 = 0; omega
    | ⟨1, _⟩ => show win6_7.index t (1 : Fin 2) * 5 + 1 * j.val = j.val; omega
  rw [e, hLb]

/-- This level's hidden rows, cells and scores as arrays, from the level below (H, C). -/
abbrev GH6 : S4096x128.Idx → EReal := fun i => hN P H C (i 0).val (i 1).val
abbrev GC6 : S4096x128.Idx → EReal := fun i => cN P H C (i 0).val (i 1).val
abbrev GL6 : S4096x5.Idx → EReal := fun i => logit P (hN P H C) (i 0).val (i 1).val

include hH hC hF hFb hW hB in
/-- What point t writes back to the hidden rows is block t of them. -/
theorem flushed6_8_eq (t : Fin cfg6.N) :
    (dat6 V c).flushed 8 t = ((cfg6.win 8).blk t).view.read (Elt Ideal) (GH6 P H C) := by
  show (cfg6.win 8).cut (grid6.coords t) ((dat6 V c).after 8 t) = _
  rw [after6_8]
  unfold out6_8
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, e0, e1, -⟩ := idx_facts6 t
  funext j
  obtain ⟨p, q, rfl⟩ : ∃ (p : Fin 2048) (q : Fin 128), j = ix2 p q := ⟨j 0, j 1, eq_ix2 j⟩
  refine (InnerBlock.hidden_apply P H C (2048 * t.val) (iblk6 V c 0 t) (iblk6 V c 1 t) (iblk6 V c 2 t) (iblk6 V c 3 t) (iblk6 V c 4 t) (iblk6 V c 5 t)
    (blk6_0 V c H hH t) (blk6_1 V c C hC t) (blk6_2 V c P hF t) (blk6_3 V c P hFb t) (blk6_4 V c P hW t) (blk6_5 V c P hB t) p q).trans ?_
  show hN P H C (2048 * t.val + p.val) q.val = hN P H C (win6_8.index t (0 : Fin 2) * 2048 + 1 * p.val) (win6_8.index t (1 : Fin 2) * 128 + 1 * q.val)
  rw [e0, e1]
  congr 1 <;> omega

include hH hC hF hFb hW hB in
/-- What point t writes back to the cells is block t of them. -/
theorem flushed6_9_eq (t : Fin cfg6.N) :
    (dat6 V c).flushed 9 t = ((cfg6.win 9).blk t).view.read (Elt Ideal) (GC6 P H C) := by
  show (cfg6.win 9).cut (grid6.coords t) ((dat6 V c).after 9 t) = _
  rw [after6_9]
  unfold out6_9
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, -, -, e0, e1, -⟩ := idx_facts6 t
  funext j
  obtain ⟨p, q, rfl⟩ : ∃ (p : Fin 2048) (q : Fin 128), j = ix2 p q := ⟨j 0, j 1, eq_ix2 j⟩
  refine (InnerBlock.cell_apply P H C (2048 * t.val) (iblk6 V c 0 t) (iblk6 V c 1 t) (iblk6 V c 2 t) (iblk6 V c 3 t) (iblk6 V c 4 t) (iblk6 V c 5 t)
    (blk6_0 V c H hH t) (blk6_1 V c C hC t) (blk6_2 V c P hF t) (blk6_3 V c P hFb t) (blk6_4 V c P hW t) (blk6_5 V c P hB t) p q).trans ?_
  show cN P H C (2048 * t.val + p.val) q.val = cN P H C (win6_9.index t (0 : Fin 2) * 2048 + 1 * p.val) (win6_9.index t (1 : Fin 2) * 128 + 1 * q.val)
  rw [e0, e1]
  congr 1 <;> omega

include hH hC hF hFb hW hB hL hLb in
/-- What point t writes back to the scores is block t of them. -/
theorem flushed6_10_eq (t : Fin cfg6.N) :
    (dat6 V c).flushed 10 t = ((cfg6.win 10).blk t).view.read (Elt Ideal) (GL6 P H C) := by
  show (cfg6.win 10).cut (grid6.coords t) ((dat6 V c).after 10 t) = _
  rw [after6_10]
  unfold out6_10
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2, View.ld_unit_zero (S := S128x5) hz2, View.ld_unit_zero (S := S1x5) hz2]
  obtain ⟨-, -, -, -, -, -, -, -, -, -, -, -, -, -, -, -, -, -, -, -, e0, e1⟩ := idx_facts6 t
  funext j
  obtain ⟨p, q, rfl⟩ : ∃ (p : Fin 2048) (q : Fin 5), j = ix2 p q := ⟨j 0, j 1, eq_ix2 j⟩
  refine (InnerBlock.scores_apply P (2048 * t.val) (iblk6 V c 6 t) (iblk6 V c 7 t)
    (k1_pay5 (F := Ideal) (iblk6 V c 0 t) (iblk6 V c 1 t) (iblk6 V c 2 t) (iblk6 V c 3 t) (iblk6 V c 4 t) (iblk6 V c 5 t)) (hN P H C)
    (InnerBlock.hidden_apply P H C (2048 * t.val) (iblk6 V c 0 t) (iblk6 V c 1 t) (iblk6 V c 2 t) (iblk6 V c 3 t) (iblk6 V c 4 t) (iblk6 V c 5 t)
      (blk6_0 V c H hH t) (blk6_1 V c C hC t) (blk6_2 V c P hF t) (blk6_3 V c P hFb t) (blk6_4 V c P hW t) (blk6_5 V c P hB t))
    (blk6_6 V c P hL t) (blk6_7 V c P hLb t) p q).trans ?_
  show logit P (hN P H C) (2048 * t.val + p.val) q.val = logit P (hN P H C) (win6_10.index t (0 : Fin 2) * 2048 + 1 * p.val) (win6_10.index t (1 : Fin 2) * 5 + 1 * q.val)
  rw [e0, e1]
  congr 1 <;> omega

/-- An index of an output array is in point t's block iff each coordinate is in the block's range on its axis. -/
theorem mem_blk6_8 (t : Fin cfg6.N) (i : S4096x128.Idx) :
    i ∈ ((cfg6.win 8).blk t).view.set ↔ ∀ a : Fin 2, win6_8.index t a * S2048x128.size a ≤ (i a).val ∧ (i a).val < win6_8.index t a * S2048x128.size a + S2048x128.size a := by
  show i ∈ ((View.whole main_v38_0).slice (win6_8.rect t)).set ↔ _
  rw [View.set_slice_whole, Rect.mem_set_unit]
  exact Iff.rfl
theorem mem_blk6_9 (t : Fin cfg6.N) (i : S4096x128.Idx) :
    i ∈ ((cfg6.win 9).blk t).view.set ↔ ∀ a : Fin 2, win6_9.index t a * S2048x128.size a ≤ (i a).val ∧ (i a).val < win6_9.index t a * S2048x128.size a + S2048x128.size a := by
  show i ∈ ((View.whole main_v38_1).slice (win6_9.rect t)).set ↔ _
  rw [View.set_slice_whole, Rect.mem_set_unit]
  exact Iff.rfl
theorem mem_blk6_10 (t : Fin cfg6.N) (i : S4096x5.Idx) :
    i ∈ ((cfg6.win 10).blk t).view.set ↔ ∀ a : Fin 2, win6_10.index t a * S2048x5.size a ≤ (i a).val ∧ (i a).val < win6_10.index t a * S2048x5.size a + S2048x5.size a := by
  show i ∈ ((View.whole main_v38_2).slice (win6_10.rect t)).set ↔ _
  rw [View.set_slice_whole, Rect.mem_set_unit]
  exact Iff.rfl

/-- Every row is in the block of the point row / 2048. -/
theorem cover6_8 (i : S4096x128.Idx) : ∃ t : Fin cfg6.N, (cfg6.win 8).flush t = true ∧ i ∈ ((cfg6.win 8).blk t).view.set := by
  have hi0 : (i 0).val < 4096 := (i 0).isLt
  have hi1 : (i 1).val < 128 := (i 1).isLt
  let t : Fin cfg6.N := ⟨(i 0).val / 2048, by rw [show cfg6.N = 2 from N_6]; omega⟩
  obtain ⟨-, -, -, -, -, -, -, -, -, -, -, -, -, -, -, -, e0, e1, -⟩ := idx_facts6 t
  refine ⟨t, flush6_8 t, ?_⟩
  rw [mem_blk6_8]
  intro a
  match a with
  | ⟨0, _⟩ => show win6_8.index t (0 : Fin 2) * 2048 ≤ (i 0).val ∧ (i 0).val < win6_8.index t (0 : Fin 2) * 2048 + 2048; rw [e0]; show (i 0).val / 2048 * 2048 ≤ _ ∧ _ < (i 0).val / 2048 * 2048 + 2048; omega
  | ⟨1, _⟩ => show win6_8.index t (1 : Fin 2) * 128 ≤ (i 1).val ∧ (i 1).val < win6_8.index t (1 : Fin 2) * 128 + 128; rw [e1]; omega
theorem cover6_9 (i : S4096x128.Idx) : ∃ t : Fin cfg6.N, (cfg6.win 9).flush t = true ∧ i ∈ ((cfg6.win 9).blk t).view.set := by
  have hi0 : (i 0).val < 4096 := (i 0).isLt
  have hi1 : (i 1).val < 128 := (i 1).isLt
  let t : Fin cfg6.N := ⟨(i 0).val / 2048, by rw [show cfg6.N = 2 from N_6]; omega⟩
  obtain ⟨-, -, -, -, -, -, -, -, -, -, -, -, -, -, -, -, -, -, e0, e1, -⟩ := idx_facts6 t
  refine ⟨t, flush6_9 t, ?_⟩
  rw [mem_blk6_9]
  intro a
  match a with
  | ⟨0, _⟩ => show win6_9.index t (0 : Fin 2) * 2048 ≤ (i 0).val ∧ (i 0).val < win6_9.index t (0 : Fin 2) * 2048 + 2048; rw [e0]; show (i 0).val / 2048 * 2048 ≤ _ ∧ _ < (i 0).val / 2048 * 2048 + 2048; omega
  | ⟨1, _⟩ => show win6_9.index t (1 : Fin 2) * 128 ≤ (i 1).val ∧ (i 1).val < win6_9.index t (1 : Fin 2) * 128 + 128; rw [e1]; omega
theorem cover6_10 (i : S4096x5.Idx) : ∃ t : Fin cfg6.N, (cfg6.win 10).flush t = true ∧ i ∈ ((cfg6.win 10).blk t).view.set := by
  have hi0 : (i 0).val < 4096 := (i 0).isLt
  have hi1 : (i 1).val < 5 := (i 1).isLt
  let t : Fin cfg6.N := ⟨(i 0).val / 2048, by rw [show cfg6.N = 2 from N_6]; omega⟩
  obtain ⟨-, -, -, -, -, -, -, -, -, -, -, -, -, -, -, -, -, -, -, -, e0, e1⟩ := idx_facts6 t
  refine ⟨t, flush6_10 t, ?_⟩
  rw [mem_blk6_10]
  intro a
  match a with
  | ⟨0, _⟩ => show win6_10.index t (0 : Fin 2) * 2048 ≤ (i 0).val ∧ (i 0).val < win6_10.index t (0 : Fin 2) * 2048 + 2048; rw [e0]; show (i 0).val / 2048 * 2048 ≤ _ ∧ _ < (i 0).val / 2048 * 2048 + 2048; omega
  | ⟨1, _⟩ => show win6_10.index t (1 : Fin 2) * 5 ≤ (i 1).val ∧ (i 1).val < win6_10.index t (1 : Fin 2) * 5 + 5; rw [e1]; omega

include hH hC hF hFb hW hB in
/-- After this region its first output array holds the level's hidden rows … -/
theorem final6_8 : (dat6 V c).arrAt 8 cfg6.N = GH6 P H C :=
  (dat6 V c).arrAt_eq_of_cover 8 (GH6 P H C) (fun t _ => flushed6_8_eq V c P H C hH hC hF hFb hW hB t) cover6_8
include hH hC hF hFb hW hB in
/-- … its second the level's cells … -/
theorem final6_9 : (dat6 V c).arrAt 9 cfg6.N = GC6 P H C :=
  (dat6 V c).arrAt_eq_of_cover 9 (GC6 P H C) (fun t _ => flushed6_9_eq V c P H C hH hC hF hFb hW hB t) cover6_9
include hH hC hF hFb hW hB hL hLb in
/-- … and its third the level's scores. -/
theorem final6_10 : (dat6 V c).arrAt 10 cfg6.N = GL6 P H C :=
  (dat6 V c).arrAt_eq_of_cover 10 (GL6 P H C) (fun t _ => flushed6_10_eq V c P H C hH hC hF hFb hW hB hL hLb t) cover6_10

end Inner6

end Cert.KernelIdeal.HandValue

end
-- ==== Proof.KIValue7.lean ====
/- Inner level 7 of the tree: its region's three output arrays as whole-array functions. Grid point t handles nodes
  2048 t … 2048 t + 2047: its two row-blocked inputs are those rows of the children's hidden rows and cells, paired side
  by side; its weight blocks are the whole weight matrices; what it writes back to each output is those rows of the
  level's hidden rows, cells and scores. The 1 blocks tile the 2048 rows.
-/
import proofs.«136691_j33638183863177_2_alg».proof.Proof.KIData
import proofs.«136691_j33638183863177_2_alg».proof.Proof.InnerBlock
import proofs.«136691_j33638183863177_2_alg».proof.Proof.KIValue0
import Idealize.ShloMosaic.Lib.Pipeline.Value

noncomputable section

open scoped BigOperators

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

/-- The printed index maps of this region, decided over its 1 points: the row-blocked windows sit at block row t,
    the weight windows at the origin. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = t.val ∧ win7_8.index t (1 : Fin 2) = 0
    ∧ win7_9.index t (0 : Fin 2) = t.val ∧ win7_9.index t (1 : Fin 2) = 0
    ∧ win7_10.index t (0 : Fin 2) = t.val ∧ win7_10.index t (1 : Fin 2) = 0 :=
  (by decide +kernel : ∀ t : Fin grid7.N, _)

section Inner7

variable (V : (c : Dev nD) → (b : Ref sig .tc) → Buf (Elt Ideal) ((c : Thread nD τ).loc b)) (c : Dev nD)
variable (P : Params) (H C : M)
variable (hH : ∀ (r : Fin 2048) (k : Fin 256), V c main_v39 (ix2 r k) = cat H r.val k.val)
variable (hC : ∀ (r : Fin 2048) (k : Fin 256), V c main_v40 (ix2 r k) = cat C r.val k.val)
variable (hF : ∀ (k : Fin 256) (j : Fin 256), V c main_v15 (ix2 k j) = P.Uf j.val k.val)
variable (hFb : ∀ j : Fin 256, V c main_v16 (ix2 0 j) = P.uf j.val)
variable (hW : ∀ (k : Fin 256) (j : Fin 384), V c main_v12 (ix2 k j) = P.Ui j.val k.val)
variable (hB : ∀ j : Fin 384, V c main_v13 (ix2 0 j) = P.ui j.val)
variable (hL : ∀ (k : Fin 128) (j : Fin 5), V c main_v18 (ix2 k j) = P.L j.val k.val)
variable (hLb : ∀ j : Fin 5, V c main_v19 (ix2 0 j) = P.lb j.val)

include hH in
theorem blk7_0 (t : Fin cfg7.N) (p : Fin 2048) (k : Fin 256) : iblk7 V c 0 t (ix2 p k) = cat H (2048 * t.val + p.val) k.val := by
  have ht : t.val < 1 := lt_of_lt_of_eq t.isLt N_7
  obtain ⟨e0, e1, -⟩ := idx_facts7 t
  show V c main_v39 (((cfg7.win 0).blk t).view.emb (ix2 p k)) = _
  have e : ((cfg7.win 0).blk t).view.emb (ix2 p k) = ix2 ⟨2048 * t.val + p.val, by have := p.isLt; omega⟩ k := by
    funext a; apply Fin.ext
    match a with
    | ⟨0, _⟩ => show win7_0.index t (0 : Fin 2) * 2048 + 1 * p.val = 2048 * t.val + p.val; omega
    | ⟨1, _⟩ => show win7_0.index t (1 : Fin 2) * 256 + 1 * k.val = k.val; omega
  rw [e, hH]

include hC in
theorem blk7_1 (t : Fin cfg7.N) (p : Fin 2048) (k : Fin 256) : iblk7 V c 1 t (ix2 p k) = cat C (2048 * t.val + p.val) k.val := by
  have ht : t.val < 1 := lt_of_lt_of_eq t.isLt N_7
  obtain ⟨-, -, e0, e1, -⟩ := idx_facts7 t
  show V c main_v40 (((cfg7.win 1).blk t).view.emb (ix2 p k)) = _
  have e : ((cfg7.win 1).blk t).view.emb (ix2 p k) = ix2 ⟨2048 * t.val + p.val, by have := p.isLt; omega⟩ k := by
    funext a; apply Fin.ext
    match a with
    | ⟨0, _⟩ => show win7_1.index t (0 : Fin 2) * 2048 + 1 * p.val = 2048 * t.val + p.val; omega
    | ⟨1, _⟩ => show win7_1.index t (1 : Fin 2) * 256 + 1 * k.val = k.val; omega
  rw [e, hC]

include hF in
theorem blk7_2 (t : Fin cfg7.N) (k : Fin 256) (j : Fin 256) : iblk7 V c 2 t (ix2 k j) = P.Uf j.val k.val := by
  obtain ⟨-, -, -, -, e0, e1, -⟩ := idx_facts7 t
  show V c main_v15 (((cfg7.win 2).blk t).view.emb (ix2 k j)) = _
  have e : ((cfg7.win 2).blk t).view.emb (ix2 k j) = ix2 k j := by
    funext a; apply Fin.ext
    match a with
    | ⟨0, _⟩ => show win7_2.index t (0 : Fin 2) * 256 + 1 * k.val = k.val; omega
    | ⟨1, _⟩ => show win7_2.index t (1 : Fin 2) * 256 + 1 * j.val = j.val; omega
  rw [e, hF]

include hFb in
theorem blk7_3 (t : Fin cfg7.N) (j : Fin 256) : iblk7 V c 3 t (ix2 0 j) = P.uf j.val := by
  obtain ⟨-, -, -, -, -, -, e0, e1, -⟩ := idx_facts7 t
  show V c main_v16 (((cfg7.win 3).blk t).view.emb (ix2 0 j)) = _
  have e : ((cfg7.win 3).blk t).view.emb (ix2 (0 : Fin 1) j) = ix2 0 j := by
    funext a; apply Fin.ext
    match a with
    | ⟨0, _⟩ => show win7_3.index t (0 : Fin 2) * 1 + 1 * 0 = 0; omega
    | ⟨1, _⟩ => show win7_3.index t (1 : Fin 2) * 256 + 1 * j.val = j.val; omega
  rw [e, hFb]

include hW in
theorem blk7_4 (t : Fin cfg7.N) (k : Fin 256) (j : Fin 384) : iblk7 V c 4 t (ix2 k j) = P.Ui j.val k.val := by
  obtain ⟨-, -, -, -, -, -, -, -, e0, e1, -⟩ := idx_facts7 t
  show V c main_v12 (((cfg7.win 4).blk t).view.emb (ix2 k j)) = _
  have e : ((cfg7.win 4).blk t).view.emb (ix2 k j) = ix2 k j := by
    funext a; apply Fin.ext
    match a with
    | ⟨0, _⟩ => show win7_4.index t (0 : Fin 2) * 256 + 1 * k.val = k.val; omega
    | ⟨1, _⟩ => show win7_4.index t (1 : Fin 2) * 384 + 1 * j.val = j.val; omega
  rw [e, hW]

include hB in
theorem blk7_5 (t : Fin cfg7.N) (j : Fin 384) : iblk7 V c 5 t (ix2 0 j) = P.ui j.val := by
  obtain ⟨-, -, -, -, -, -, -, -, -, -, e0, e1, -⟩ := idx_facts7 t
  show V c main_v13 (((cfg7.win 5).blk t).view.emb (ix2 0 j)) = _
  have e : ((cfg7.win 5).blk t).view.emb (ix2 (0 : Fin 1) j) = ix2 0 j := by
    funext a; apply Fin.ext
    match a with
    | ⟨0, _⟩ => show win7_5.index t (0 : Fin 2) * 1 + 1 * 0 = 0; omega
    | ⟨1, _⟩ => show win7_5.index t (1 : Fin 2) * 384 + 1 * j.val = j.val; omega
  rw [e, hB]

include hL in
theorem blk7_6 (t : Fin cfg7.N) (k : Fin 128) (j : Fin 5) : iblk7 V c 6 t (ix2 k j) = P.L j.val k.val := by
  obtain ⟨-, -, -, -, -, -, -, -, -, -, -, -, e0, e1, -⟩ := idx_facts7 t
  show V c main_v18 (((cfg7.win 6).blk t).view.emb (ix2 k j)) = _
  have e : ((cfg7.win 6).blk t).view.emb (ix2 k j) = ix2 k j := by
    funext a; apply Fin.ext
    match a with
    | ⟨0, _⟩ => show win7_6.index t (0 : Fin 2) * 128 + 1 * k.val = k.val; omega
    | ⟨1, _⟩ => show win7_6.index t (1 : Fin 2) * 5 + 1 * j.val = j.val; omega
  rw [e, hL]

include hLb in
theorem blk7_7 (t : Fin cfg7.N) (j : Fin 5) : iblk7 V c 7 t (ix2 0 j) = P.lb j.val := by
  obtain ⟨-, -, -, -, -, -, -, -, -, -, -, -, -, -, e0, e1, -⟩ := idx_facts7 t
  show V c main_v19 (((cfg7.win 7).blk t).view.emb (ix2 0 j)) = _
  have e : ((cfg7.win 7).blk t).view.emb (ix2 (0 : Fin 1) j) = ix2 0 j := by
    funext a; apply Fin.ext
    match a with
    | ⟨0, _⟩ => show win7_7.index t (0 : Fin 2) * 1 + 1 * 0 = 0; omega
    | ⟨1, _⟩ => show win7_7.index t (1 : Fin 2) * 5 + 1 * j.val = j.val; omega
  rw [e, hLb]

/-- This level's hidden rows, cells and scores as arrays, from the level below (H, C). -/
abbrev GH7 : S2048x128.Idx → EReal := fun i => hN P H C (i 0).val (i 1).val
abbrev GC7 : S2048x128.Idx → EReal := fun i => cN P H C (i 0).val (i 1).val
abbrev GL7 : S2048x5.Idx → EReal := fun i => logit P (hN P H C) (i 0).val (i 1).val

include hH hC hF hFb hW hB in
/-- What point t writes back to the hidden rows is block t of them. -/
theorem flushed7_8_eq (t : Fin cfg7.N) :
    (dat7 V c).flushed 8 t = ((cfg7.win 8).blk t).view.read (Elt Ideal) (GH7 P H C) := by
  show (cfg7.win 8).cut (grid7.coords t) ((dat7 V c).after 8 t) = _
  rw [after7_8]
  unfold out7_8
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, e0, e1, -⟩ := idx_facts7 t
  funext j
  obtain ⟨p, q, rfl⟩ : ∃ (p : Fin 2048) (q : Fin 128), j = ix2 p q := ⟨j 0, j 1, eq_ix2 j⟩
  refine (InnerBlock.hidden_apply P H C (2048 * t.val) (iblk7 V c 0 t) (iblk7 V c 1 t) (iblk7 V c 2 t) (iblk7 V c 3 t) (iblk7 V c 4 t) (iblk7 V c 5 t)
    (blk7_0 V c H hH t) (blk7_1 V c C hC t) (blk7_2 V c P hF t) (blk7_3 V c P hFb t) (blk7_4 V c P hW t) (blk7_5 V c P hB t) p q).trans ?_
  show hN P H C (2048 * t.val + p.val) q.val = hN P H C (win7_8.index t (0 : Fin 2) * 2048 + 1 * p.val) (win7_8.index t (1 : Fin 2) * 128 + 1 * q.val)
  rw [e0, e1]
  congr 1 <;> omega

include hH hC hF hFb hW hB in
/-- What point t writes back to the cells is block t of them. -/
theorem flushed7_9_eq (t : Fin cfg7.N) :
    (dat7 V c).flushed 9 t = ((cfg7.win 9).blk t).view.read (Elt Ideal) (GC7 P H C) := by
  show (cfg7.win 9).cut (grid7.coords t) ((dat7 V c).after 9 t) = _
  rw [after7_9]
  unfold out7_9
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2]
  obtain ⟨-, -, -, -, -, -, -, -, -, -, -, -, -, -, -, -, -, -, e0, e1, -⟩ := idx_facts7 t
  funext j
  obtain ⟨p, q, rfl⟩ : ∃ (p : Fin 2048) (q : Fin 128), j = ix2 p q := ⟨j 0, j 1, eq_ix2 j⟩
  refine (InnerBlock.cell_apply P H C (2048 * t.val) (iblk7 V c 0 t) (iblk7 V c 1 t) (iblk7 V c 2 t) (iblk7 V c 3 t) (iblk7 V c 4 t) (iblk7 V c 5 t)
    (blk7_0 V c H hH t) (blk7_1 V c C hC t) (blk7_2 V c P hF t) (blk7_3 V c P hFb t) (blk7_4 V c P hW t) (blk7_5 V c P hB t) p q).trans ?_
  show cN P H C (2048 * t.val + p.val) q.val = cN P H C (win7_9.index t (0 : Fin 2) * 2048 + 1 * p.val) (win7_9.index t (1 : Fin 2) * 128 + 1 * q.val)
  rw [e0, e1]
  congr 1 <;> omega

include hH hC hF hFb hW hB hL hLb in
/-- What point t writes back to the scores is block t of them. -/
theorem flushed7_10_eq (t : Fin cfg7.N) :
    (dat7 V c).flushed 10 t = ((cfg7.win 10).blk t).view.read (Elt Ideal) (GL7 P H C) := by
  show (cfg7.win 10).cut (grid7.coords t) ((dat7 V c).after 10 t) = _
  rw [after7_10]
  unfold out7_10
  rw [View.canon_unit_zero hz2]
  simp only [View.ld_unit_zero (S := S2048x256) hz2, View.ld_unit_zero (S := S256x256) hz2, View.ld_unit_zero (S := S1x256) hz2,
    View.ld_unit_zero (S := S256x384) hz2, View.ld_unit_zero (S := S1x384) hz2, View.ld_unit_zero (S := S128x5) hz2, View.ld_unit_zero (S := S1x5) hz2]
  obtain ⟨-, -, -, -, -, -, -, -, -, -, -, -, -, -, -, -, -, -, -, -, e0, e1⟩ := idx_facts7 t
  funext j
  obtain ⟨p, q, rfl⟩ : ∃ (p : Fin 2048) (q : Fin 5), j = ix2 p q := ⟨j 0, j 1, eq_ix2 j⟩
  refine (InnerBlock.scores_apply P (2048 * t.val) (iblk7 V c 6 t) (iblk7 V c 7 t)
    (k1_pay5 (F := Ideal) (iblk7 V c 0 t) (iblk7 V c 1 t) (iblk7 V c 2 t) (iblk7 V c 3 t) (iblk7 V c 4 t) (iblk7 V c 5 t)) (hN P H C)
    (InnerBlock.hidden_apply P H C (2048 * t.val) (iblk7 V c 0 t) (iblk7 V c 1 t) (iblk7 V c 2 t) (iblk7 V c 3 t) (iblk7 V c 4 t) (iblk7 V c 5 t)
      (blk7_0 V c H hH t) (blk7_1 V c C hC t) (blk7_2 V c P hF t) (blk7_3 V c P hFb t) (blk7_4 V c P hW t) (blk7_5 V c P hB t))
    (blk7_6 V c P hL t) (blk7_7 V c P hLb t) p q).trans ?_
  show logit P (hN P H C) (2048 * t.val + p.val) q.val = logit P (hN P H C) (win7_10.index t (0 : Fin 2) * 2048 + 1 * p.val) (win7_10.index t (1 : Fin 2) * 5 + 1 * q.val)
  rw [e0, e1]
  congr 1 <;> omega

/-- An index of an output array is in point t's block iff each coordinate is in the block's range on its axis. -/
theorem mem_blk7_8 (t : Fin cfg7.N) (i : S2048x128.Idx) :
    i ∈ ((cfg7.win 8).blk t).view.set ↔ ∀ a : Fin 2, win7_8.index t a * S2048x128.size a ≤ (i a).val ∧ (i a).val < win7_8.index t a * S2048x128.size a + S2048x128.size a := by
  show i ∈ ((View.whole main_v41_0).slice (win7_8.rect t)).set ↔ _
  rw [View.set_slice_whole, Rect.mem_set_unit]
  exact Iff.rfl
theorem mem_blk7_9 (t : Fin cfg7.N) (i : S2048x128.Idx) :
    i ∈ ((cfg7.win 9).blk t).view.set ↔ ∀ a : Fin 2, win7_9.index t a * S2048x128.size a ≤ (i a).val ∧ (i a).val < win7_9.index t a * S2048x128.size a + S2048x128.size a := by
  show i ∈ ((View.whole main_v41_1).slice (win7_9.rect t)).set ↔ _
  rw [View.set_slice_whole, Rect.mem_set_unit]
  exact Iff.rfl
theorem mem_blk7_10 (t : Fin cfg7.N) (i : S2048x5.Idx) :
    i ∈ ((cfg7.win 10).blk t).view.set ↔ ∀ a : Fin 2, win7_10.index t a * S2048x5.size a ≤ (i a).val ∧ (i a).val < win7_10.index t a * S2048x5.size a + S2048x5.size a := by
  show i ∈ ((View.whole main_v41_2).slice (win7_10.rect t)).set ↔ _
  rw [View.set_slice_whole, Rect.mem_set_unit]
  exact Iff.rfl

/-- Every row is in the block of the point row / 2048. -/
theorem cover7_8 (i : S2048x128.Idx) : ∃ t : Fin cfg7.N, (cfg7.win 8).flush t = true ∧ i ∈ ((cfg7.win 8).blk t).view.set := by
  have hi0 : (i 0).val < 2048 := (i 0).isLt
  have hi1 : (i 1).val < 128 := (i 1).isLt
  let t : Fin cfg7.N := ⟨(i 0).val / 2048, by rw [show cfg7.N = 1 from N_7]; omega⟩
  obtain ⟨-, -, -, -, -, -, -, -, -, -, -, -, -, -, -, -, e0, e1, -⟩ := idx_facts7 t
  refine ⟨t, flush7_8 t, ?_⟩
  rw [mem_blk7_8]
  intro a
  match a with
  | ⟨0, _⟩ => show win7_8.index t (0 : Fin 2) * 2048 ≤ (i 0).val ∧ (i 0).val < win7_8.index t (0 : Fin 2) * 2048 + 2048; rw [e0]; show (i 0).val / 2048 * 2048 ≤ _ ∧ _ < (i 0).val / 2048 * 2048 + 2048; omega
  | ⟨1, _⟩ => show win7_8.index t (1 : Fin 2) * 128 ≤ (i 1).val ∧ (i 1).val < win7_8.index t (1 : Fin 2) * 128 + 128; rw [e1]; omega
theorem cover7_9 (i : S2048x128.Idx) : ∃ t : Fin cfg7.N, (cfg7.win 9).flush t = true ∧ i ∈ ((cfg7.win 9).blk t).view.set := by
  have hi0 : (i 0).val < 2048 := (i 0).isLt
  have hi1 : (i 1).val < 128 := (i 1).isLt
  let t : Fin cfg7.N := ⟨(i 0).val / 2048, by rw [show cfg7.N = 1 from N_7]; omega⟩
  obtain ⟨-, -, -, -, -, -, -, -, -, -, -, -, -, -, -, -, -, -, e0, e1, -⟩ := idx_facts7 t
  refine ⟨t, flush7_9 t, ?_⟩
  rw [mem_blk7_9]
  intro a
  match a with
  | ⟨0, _⟩ => show win7_9.index t (0 : Fin 2) * 2048 ≤ (i 0).val ∧ (i 0).val < win7_9.index t (0 : Fin 2) * 2048 + 2048; rw [e0]; show (i 0).val / 2048 * 2048 ≤ _ ∧ _ < (i 0).val / 2048 * 2048 + 2048; omega
  | ⟨1, _⟩ => show win7_9.index t (1 : Fin 2) * 128 ≤ (i 1).val ∧ (i 1).val < win7_9.index t (1 : Fin 2) * 128 + 128; rw [e1]; omega
theorem cover7_10 (i : S2048x5.Idx) : ∃ t : Fin cfg7.N, (cfg7.win 10).flush t = true ∧ i ∈ ((cfg7.win 10).blk t).view.set := by
  have hi0 : (i 0).val < 2048 := (i 0).isLt
  have hi1 : (i 1).val < 5 := (i 1).isLt
  let t : Fin cfg7.N := ⟨(i 0).val / 2048, by rw [show cfg7.N = 1 from N_7]; omega⟩
  obtain ⟨-, -, -, -, -, -, -, -, -, -, -, -, -, -, -, -, -, -, -, -, e0, e1⟩ := idx_facts7 t
  refine ⟨t, flush7_10 t, ?_⟩
  rw [mem_blk7_10]
  intro a
  match a with
  | ⟨0, _⟩ => show win7_10.index t (0 : Fin 2) * 2048 ≤ (i 0).val ∧ (i 0).val < win7_10.index t (0 : Fin 2) * 2048 + 2048; rw [e0]; show (i 0).val / 2048 * 2048 ≤ _ ∧ _ < (i 0).val / 2048 * 2048 + 2048; omega
  | ⟨1, _⟩ => show win7_10.index t (1 : Fin 2) * 5 ≤ (i 1).val ∧ (i 1).val < win7_10.index t (1 : Fin 2) * 5 + 5; rw [e1]; omega

include hH hC hF hFb hW hB in
/-- After this region its first output array holds the level's hidden rows … -/
theorem final7_8 : (dat7 V c).arrAt 8 cfg7.N = GH7 P H C :=
  (dat7 V c).arrAt_eq_of_cover 8 (GH7 P H C) (fun t _ => flushed7_8_eq V c P H C hH hC hF hFb hW hB t) cover7_8
include hH hC hF hFb hW hB in
/-- … its second the level's cells … -/
theorem final7_9 : (dat7 V c).arrAt 9 cfg7.N = GC7 P H C :=
  (dat7 V c).arrAt_eq_of_cover 9 (GC7 P H C) (fun t _ => flushed7_9_eq V c P H C hH hC hF hFb hW hB t) cover7_9
include hH hC hF hFb hW hB hL hLb in
/-- … and its third the level's scores. -/
theorem final7_10 : (dat7 V c).arrAt 10 cfg7.N = GL7 P H C :=
  (dat7 V c).arrAt_eq_of_cover 10 (GL7 P H C) (fun t _ => flushed7_10_eq V c P H C hH hC hF hFb hW hB hL hLb t) cover7_10

end Inner7

end Cert.KernelIdeal.HandValue

end
-- ==== Proof.KIChain.lean ====
/- The kernel program's buffers followed through @main, level by level. The host operations before the first region gather
  the embedding rows of the words (a negative word index wrapped by the vocabulary size first), transpose each weight matrix
  and lay each bias vector out as a one-row matrix; rounding to the narrow float format is the identity on exact values. The
  leaf region then leaves level 0's hidden rows, cells and scores. Before each inner region the host pairs consecutive rows of
  the level below (its two children side by side); the region leaves that level's hidden rows, cells and scores; the weight
  buffers and the earlier levels' scores are written by nothing in between. The last operation stacks the eight levels'
  scores, which is the specification's result: the classifier applied to the stacked hidden rows.
-/
import proofs.«136691_j33638183863177_2_alg».proof.Proof.KIData
import proofs.«136691_j33638183863177_2_alg».proof.Proof.KIHost
import proofs.«136691_j33638183863177_2_alg».proof.Proof.Spec
import proofs.«136691_j33638183863177_2_alg».proof.Proof.SpecStack
import proofs.«136691_j33638183863177_2_alg».proof.Proof.LibSweep
import proofs.«136691_j33638183863177_2_alg».proof.Proof.KIValue0
import proofs.«136691_j33638183863177_2_alg».proof.Proof.KIValue1
import proofs.«136691_j33638183863177_2_alg».proof.Proof.KIValue2
import proofs.«136691_j33638183863177_2_alg».proof.Proof.KIValue3
import proofs.«136691_j33638183863177_2_alg».proof.Proof.KIValue4
import proofs.«136691_j33638183863177_2_alg».proof.Proof.KIValue5
import proofs.«136691_j33638183863177_2_alg».proof.Proof.KIValue6
import proofs.«136691_j33638183863177_2_alg».proof.Proof.KIValue7
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

open scoped BigOperators

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg) (c : Dev nD)

/-- The gathered embedding rows: the term the program's first operations compute from the word indices and the table. -/
def Xg (a0 : (⟨S262144, .i32⟩ : BufTy).Contents (Elt Ideal)) (a1 : (⟨S32000x128, .f32⟩ : BufTy).Contents (Elt Ideal)) :
    (⟨S262144x128, .f32⟩ : BufTy).Contents (Elt Ideal) :=
  Host.gather gather_S32000x128_S262144x1_S262144x128_1_0_n_n_0_1_1128 a1
    (broadcastInDim S262144x1 ![0] bcast_S262144_S262144x1_0
      (select (cmpi .slt a0 (broadcastInDim S262144 ![] bcast_S_S262144 (constantI S_ 32 0#32)))
        (addi a0 (broadcastInDim S262144 ![] bcast_S_S262144 (constantI S_ 32 32000#32))) a0))

/-- The weights as the specification reads them, from the argument arrays. -/
def Pm (a2 : FVec Ideal S384x128 .f32) (a3 : FVec Ideal S384 .f32) (a4 : FVec Ideal S384x256 .f32) (a5 : FVec Ideal S384 .f32)
    (a6 : FVec Ideal S256x256 .f32) (a7 : FVec Ideal S256 .f32) (a8 : FVec Ideal S5x128 .f32) (a9 : FVec Ideal S5 .f32) : Params :=
  ⟨rd a2, rd1 a3, rd a4, rd1 a5, rd a6, rd1 a7, rd a8, rd1 a9⟩

/-- The weights and the gathered rows of this launch. -/
abbrev PP : Params := Pm (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev XX : M := rd (Xg (m ((c : Thread nD τ).loc main_arg0)) (m ((c : Thread nD τ).loc main_arg1)))
/-- The levels' hidden rows and cells. -/
abbrev H0 : M := h0 (PP m c) (XX m c)
abbrev C0 : M := c0 (PP m c) (XX m c)
abbrev H1 : M := hN (PP m c) (H0 m c) (C0 m c)
abbrev C1 : M := cN (PP m c) (H0 m c) (C0 m c)
abbrev H2 : M := hN (PP m c) (H1 m c) (C1 m c)
abbrev C2 : M := cN (PP m c) (H1 m c) (C1 m c)
abbrev H3 : M := hN (PP m c) (H2 m c) (C2 m c)
abbrev C3 : M := cN (PP m c) (H2 m c) (C2 m c)
abbrev H4 : M := hN (PP m c) (H3 m c) (C3 m c)
abbrev C4 : M := cN (PP m c) (H3 m c) (C3 m c)
abbrev H5 : M := hN (PP m c) (H4 m c) (C4 m c)
abbrev C5 : M := cN (PP m c) (H4 m c) (C4 m c)
abbrev H6 : M := hN (PP m c) (H5 m c) (C5 m c)
abbrev C6 : M := cN (PP m c) (H5 m c) (C5 m c)
abbrev H7 : M := hN (PP m c) (H6 m c) (C6 m c)
abbrev C7 : M := cN (PP m c) (H6 m c) (C6 m c)

/-! ## What the first host stretch leaves -/

theorem lf_X (r : Fin 262144) (k : Fin 128) : V1 m ρ c main_v7 (ix2 r k) = XX m c r.val k.val := by
  have e : (V1 m ρ c main_v7 : S262144x128.Idx → EReal) = Xg (m ((c : Thread nD τ).loc main_arg0)) (m ((c : Thread nD τ).loc main_arg1)) := by
    dsimp only [V1, W1, hostOps0]; after_results; rfl
  rw [e]
  exact (rd_ix2 _ r k).symm

theorem lf_W (k : Fin 128) (j : Fin 384) : V1 m ρ c main_v9 (ix2 k j) = (PP m c).Wi j.val k.val := by
  have e : (V1 m ρ c main_v9 : S128x384.Idx → EReal) = transpose S128x384 [1, 0] (m ((c : Thread nD τ).loc main_arg2)) transposes_S384x128_S128x384_1_0 := by
    dsimp only [V1, W1, hostOps0]; after_results; rfl
  rw [e, transpose_ix2_apply]
  exact (rd_ix2 _ j k).symm

theorem lf_B (j : Fin 384) : V1 m ρ c main_v10 (ix2 (0 : Fin 1) j) = (PP m c).bi j.val := by
  have e : (V1 m ρ c main_v10 : S1x384.Idx → EReal) = shapeCast S1x384 (m ((c : Thread nD τ).loc main_arg3)) shapeCasts_S384_S1x384 := by
    dsimp only [V1, W1, hostOps0]; after_results; rfl
  rw [e, shapeCast_a_1a_apply]
  exact (rd1_ix1 _ j).symm

theorem w_W (k : Fin 256) (j : Fin 384) : V1 m ρ c main_v12 (ix2 k j) = (PP m c).Ui j.val k.val := by
  have e : (V1 m ρ c main_v12 : S256x384.Idx → EReal) = transpose S256x384 [1, 0] (m ((c : Thread nD τ).loc main_arg4)) transposes_S384x256_S256x384_1_0 := by
    dsimp only [V1, W1, hostOps0]; after_results; rfl
  rw [e, transpose_ix2_apply]
  exact (rd_ix2 _ j k).symm

theorem w_B (j : Fin 384) : V1 m ρ c main_v13 (ix2 (0 : Fin 1) j) = (PP m c).ui j.val := by
  have e : (V1 m ρ c main_v13 : S1x384.Idx → EReal) = shapeCast S1x384 (m ((c : Thread nD τ).loc main_arg5)) shapeCasts_S384_S1x384 := by
    dsimp only [V1, W1, hostOps0]; after_results; rfl
  rw [e, shapeCast_a_1a_apply]
  exact (rd1_ix1 _ j).symm

theorem w_F (k : Fin 256) (j : Fin 256) : V1 m ρ c main_v15 (ix2 k j) = (PP m c).Uf j.val k.val := by
  have e : (V1 m ρ c main_v15 : S256x256.Idx → EReal) = transpose S256x256 [1, 0] (m ((c : Thread nD τ).loc main_arg6)) transposes_S256x256_S256x256_1_0 := by
    dsimp only [V1, W1, hostOps0]; after_results; rfl
  rw [e, transpose_ix2_apply]
  exact (rd_ix2 _ j k).symm

theorem w_Fb (j : Fin 256) : V1 m ρ c main_v16 (ix2 (0 : Fin 1) j) = (PP m c).uf j.val := by
  have e : (V1 m ρ c main_v16 : S1x256.Idx → EReal) = shapeCast S1x256 (m ((c : Thread nD τ).loc main_arg7)) shapeCasts_S256_S1x256 := by
    dsimp only [V1, W1, hostOps0]; after_results; rfl
  rw [e, shapeCast_a_1a_apply]
  exact (rd1_ix1 _ j).symm

theorem w_L (k : Fin 128) (j : Fin 5) : V1 m ρ c main_v18 (ix2 k j) = (PP m c).L j.val k.val := by
  have e : (V1 m ρ c main_v18 : S128x5.Idx → EReal) = transpose S128x5 [1, 0] (m ((c : Thread nD τ).loc main_arg8)) transposes_S5x128_S128x5_1_0 := by
    dsimp only [V1, W1, hostOps0]; after_results; rfl
  rw [e, transpose_ix2_apply]
  exact (rd_ix2 _ j k).symm

theorem w_Lb (j : Fin 5) : V1 m ρ c main_v19 (ix2 (0 : Fin 1) j) = (PP m c).lb j.val := by
  have e : (V1 m ρ c main_v19 : S1x5.Idx → EReal) = shapeCast S1x5 (m ((c : Thread nD τ).loc main_arg9)) shapeCasts_S5_S1x5 := by
    dsimp only [V1, W1, hostOps0]; after_results; rfl
  rw [e, shapeCast_a_1a_apply]
  exact (rd1_ix1 _ j).symm

/-! ## The weight buffers reach every inner region as the first host stretch left them -/
theorem kp3_v12 : V3 m ρ c main_v12 = V1 m ρ c main_v12 :=
  (W3_of m ρ c main_v12 (by decide)).trans (W2_of_ne m ρ c main_v12 (by decide))
theorem kp3_v13 : V3 m ρ c main_v13 = V1 m ρ c main_v13 :=
  (W3_of m ρ c main_v13 (by decide)).trans (W2_of_ne m ρ c main_v13 (by decide))
theorem kp3_v15 : V3 m ρ c main_v15 = V1 m ρ c main_v15 :=
  (W3_of m ρ c main_v15 (by decide)).trans (W2_of_ne m ρ c main_v15 (by decide))
theorem kp3_v16 : V3 m ρ c main_v16 = V1 m ρ c main_v16 :=
  (W3_of m ρ c main_v16 (by decide)).trans (W2_of_ne m ρ c main_v16 (by decide))
theorem kp3_v18 : V3 m ρ c main_v18 = V1 m ρ c main_v18 :=
  (W3_of m ρ c main_v18 (by decide)).trans ((W2_arr m ρ c 3).trans (((dat0 (V1 m ρ) c).arrAt_in 3 rfl _).trans (A_eq0 (V1 m ρ) c 3)))
theorem kp3_v19 : V3 m ρ c main_v19 = V1 m ρ c main_v19 :=
  (W3_of m ρ c main_v19 (by decide)).trans ((W2_arr m ρ c 4).trans (((dat0 (V1 m ρ) c).arrAt_in 4 rfl _).trans (A_eq0 (V1 m ρ) c 4)))
theorem kp5_v12 : V5 m ρ c main_v12 = V1 m ρ c main_v12 :=
  (W5_of m ρ c main_v12 (by decide)).trans (((W4_arr m ρ c 4).trans (((dat1 (V3 m ρ) c).arrAt_in 4 rfl _).trans (A_eq1 (V3 m ρ) c 4))).trans (kp3_v12 m ρ c))
theorem kp5_v13 : V5 m ρ c main_v13 = V1 m ρ c main_v13 :=
  (W5_of m ρ c main_v13 (by decide)).trans (((W4_arr m ρ c 5).trans (((dat1 (V3 m ρ) c).arrAt_in 5 rfl _).trans (A_eq1 (V3 m ρ) c 5))).trans (kp3_v13 m ρ c))
theorem kp5_v15 : V5 m ρ c main_v15 = V1 m ρ c main_v15 :=
  (W5_of m ρ c main_v15 (by decide)).trans (((W4_arr m ρ c 2).trans (((dat1 (V3 m ρ) c).arrAt_in 2 rfl _).trans (A_eq1 (V3 m ρ) c 2))).trans (kp3_v15 m ρ c))
theorem kp5_v16 : V5 m ρ c main_v16 = V1 m ρ c main_v16 :=
  (W5_of m ρ c main_v16 (by decide)).trans (((W4_arr m ρ c 3).trans (((dat1 (V3 m ρ) c).arrAt_in 3 rfl _).trans (A_eq1 (V3 m ρ) c 3))).trans (kp3_v16 m ρ c))
theorem kp5_v18 : V5 m ρ c main_v18 = V1 m ρ c main_v18 :=
  (W5_of m ρ c main_v18 (by decide)).trans (((W4_arr m ρ c 6).trans (((dat1 (V3 m ρ) c).arrAt_in 6 rfl _).trans (A_eq1 (V3 m ρ) c 6))).trans (kp3_v18 m ρ c))
theorem kp5_v19 : V5 m ρ c main_v19 = V1 m ρ c main_v19 :=
  (W5_of m ρ c main_v19 (by decide)).trans (((W4_arr m ρ c 7).trans (((dat1 (V3 m ρ) c).arrAt_in 7 rfl _).trans (A_eq1 (V3 m ρ) c 7))).trans (kp3_v19 m ρ c))
theorem kp7_v12 : V7 m ρ c main_v12 = V1 m ρ c main_v12 :=
  (W7_of m ρ c main_v12 (by decide)).trans (((W6_arr m ρ c 4).trans (((dat2 (V5 m ρ) c).arrAt_in 4 rfl _).trans (A_eq2 (V5 m ρ) c 4))).trans (kp5_v12 m ρ c))
theorem kp7_v13 : V7 m ρ c main_v13 = V1 m ρ c main_v13 :=
  (W7_of m ρ c main_v13 (by decide)).trans (((W6_arr m ρ c 5).trans (((dat2 (V5 m ρ) c).arrAt_in 5 rfl _).trans (A_eq2 (V5 m ρ) c 5))).trans (kp5_v13 m ρ c))
theorem kp7_v15 : V7 m ρ c main_v15 = V1 m ρ c main_v15 :=
  (W7_of m ρ c main_v15 (by decide)).trans (((W6_arr m ρ c 2).trans (((dat2 (V5 m ρ) c).arrAt_in 2 rfl _).trans (A_eq2 (V5 m ρ) c 2))).trans (kp5_v15 m ρ c))
theorem kp7_v16 : V7 m ρ c main_v16 = V1 m ρ c main_v16 :=
  (W7_of m ρ c main_v16 (by decide)).trans (((W6_arr m ρ c 3).trans (((dat2 (V5 m ρ) c).arrAt_in 3 rfl _).trans (A_eq2 (V5 m ρ) c 3))).trans (kp5_v16 m ρ c))
theorem kp7_v18 : V7 m ρ c main_v18 = V1 m ρ c main_v18 :=
  (W7_of m ρ c main_v18 (by decide)).trans (((W6_arr m ρ c 6).trans (((dat2 (V5 m ρ) c).arrAt_in 6 rfl _).trans (A_eq2 (V5 m ρ) c 6))).trans (kp5_v18 m ρ c))
theorem kp7_v19 : V7 m ρ c main_v19 = V1 m ρ c main_v19 :=
  (W7_of m ρ c main_v19 (by decide)).trans (((W6_arr m ρ c 7).trans (((dat2 (V5 m ρ) c).arrAt_in 7 rfl _).trans (A_eq2 (V5 m ρ) c 7))).trans (kp5_v19 m ρ c))
theorem kp9_v12 : V9 m ρ c main_v12 = V1 m ρ c main_v12 :=
  (W9_of m ρ c main_v12 (by decide)).trans (((W8_arr m ρ c 4).trans (((dat3 (V7 m ρ) c).arrAt_in 4 rfl _).trans (A_eq3 (V7 m ρ) c 4))).trans (kp7_v12 m ρ c))
theorem kp9_v13 : V9 m ρ c main_v13 = V1 m ρ c main_v13 :=
  (W9_of m ρ c main_v13 (by decide)).trans (((W8_arr m ρ c 5).trans (((dat3 (V7 m ρ) c).arrAt_in 5 rfl _).trans (A_eq3 (V7 m ρ) c 5))).trans (kp7_v13 m ρ c))
theorem kp9_v15 : V9 m ρ c main_v15 = V1 m ρ c main_v15 :=
  (W9_of m ρ c main_v15 (by decide)).trans (((W8_arr m ρ c 2).trans (((dat3 (V7 m ρ) c).arrAt_in 2 rfl _).trans (A_eq3 (V7 m ρ) c 2))).trans (kp7_v15 m ρ c))
theorem kp9_v16 : V9 m ρ c main_v16 = V1 m ρ c main_v16 :=
  (W9_of m ρ c main_v16 (by decide)).trans (((W8_arr m ρ c 3).trans (((dat3 (V7 m ρ) c).arrAt_in 3 rfl _).trans (A_eq3 (V7 m ρ) c 3))).trans (kp7_v16 m ρ c))
theorem kp9_v18 : V9 m ρ c main_v18 = V1 m ρ c main_v18 :=
  (W9_of m ρ c main_v18 (by decide)).trans (((W8_arr m ρ c 6).trans (((dat3 (V7 m ρ) c).arrAt_in 6 rfl _).trans (A_eq3 (V7 m ρ) c 6))).trans (kp7_v18 m ρ c))
theorem kp9_v19 : V9 m ρ c main_v19 = V1 m ρ c main_v19 :=
  (W9_of m ρ c main_v19 (by decide)).trans (((W8_arr m ρ c 7).trans (((dat3 (V7 m ρ) c).arrAt_in 7 rfl _).trans (A_eq3 (V7 m ρ) c 7))).trans (kp7_v19 m ρ c))
theorem kp11_v12 : V11 m ρ c main_v12 = V1 m ρ c main_v12 :=
  (W11_of m ρ c main_v12 (by decide)).trans (((W10_arr m ρ c 4).trans (((dat4 (V9 m ρ) c).arrAt_in 4 rfl _).trans (A_eq4 (V9 m ρ) c 4))).trans (kp9_v12 m ρ c))
theorem kp11_v13 : V11 m ρ c main_v13 = V1 m ρ c main_v13 :=
  (W11_of m ρ c main_v13 (by decide)).trans (((W10_arr m ρ c 5).trans (((dat4 (V9 m ρ) c).arrAt_in 5 rfl _).trans (A_eq4 (V9 m ρ) c 5))).trans (kp9_v13 m ρ c))
theorem kp11_v15 : V11 m ρ c main_v15 = V1 m ρ c main_v15 :=
  (W11_of m ρ c main_v15 (by decide)).trans (((W10_arr m ρ c 2).trans (((dat4 (V9 m ρ) c).arrAt_in 2 rfl _).trans (A_eq4 (V9 m ρ) c 2))).trans (kp9_v15 m ρ c))
theorem kp11_v16 : V11 m ρ c main_v16 = V1 m ρ c main_v16 :=
  (W11_of m ρ c main_v16 (by decide)).trans (((W10_arr m ρ c 3).trans (((dat4 (V9 m ρ) c).arrAt_in 3 rfl _).trans (A_eq4 (V9 m ρ) c 3))).trans (kp9_v16 m ρ c))
theorem kp11_v18 : V11 m ρ c main_v18 = V1 m ρ c main_v18 :=
  (W11_of m ρ c main_v18 (by decide)).trans (((W10_arr m ρ c 6).trans (((dat4 (V9 m ρ) c).arrAt_in 6 rfl _).trans (A_eq4 (V9 m ρ) c 6))).trans (kp9_v18 m ρ c))
theorem kp11_v19 : V11 m ρ c main_v19 = V1 m ρ c main_v19 :=
  (W11_of m ρ c main_v19 (by decide)).trans (((W10_arr m ρ c 7).trans (((dat4 (V9 m ρ) c).arrAt_in 7 rfl _).trans (A_eq4 (V9 m ρ) c 7))).trans (kp9_v19 m ρ c))
theorem kp13_v12 : V13 m ρ c main_v12 = V1 m ρ c main_v12 :=
  (W13_of m ρ c main_v12 (by decide)).trans (((W12_arr m ρ c 4).trans (((dat5 (V11 m ρ) c).arrAt_in 4 rfl _).trans (A_eq5 (V11 m ρ) c 4))).trans (kp11_v12 m ρ c))
theorem kp13_v13 : V13 m ρ c main_v13 = V1 m ρ c main_v13 :=
  (W13_of m ρ c main_v13 (by decide)).trans (((W12_arr m ρ c 5).trans (((dat5 (V11 m ρ) c).arrAt_in 5 rfl _).trans (A_eq5 (V11 m ρ) c 5))).trans (kp11_v13 m ρ c))
theorem kp13_v15 : V13 m ρ c main_v15 = V1 m ρ c main_v15 :=
  (W13_of m ρ c main_v15 (by decide)).trans (((W12_arr m ρ c 2).trans (((dat5 (V11 m ρ) c).arrAt_in 2 rfl _).trans (A_eq5 (V11 m ρ) c 2))).trans (kp11_v15 m ρ c))
theorem kp13_v16 : V13 m ρ c main_v16 = V1 m ρ c main_v16 :=
  (W13_of m ρ c main_v16 (by decide)).trans (((W12_arr m ρ c 3).trans (((dat5 (V11 m ρ) c).arrAt_in 3 rfl _).trans (A_eq5 (V11 m ρ) c 3))).trans (kp11_v16 m ρ c))
theorem kp13_v18 : V13 m ρ c main_v18 = V1 m ρ c main_v18 :=
  (W13_of m ρ c main_v18 (by decide)).trans (((W12_arr m ρ c 6).trans (((dat5 (V11 m ρ) c).arrAt_in 6 rfl _).trans (A_eq5 (V11 m ρ) c 6))).trans (kp11_v18 m ρ c))
theorem kp13_v19 : V13 m ρ c main_v19 = V1 m ρ c main_v19 :=
  (W13_of m ρ c main_v19 (by decide)).trans (((W12_arr m ρ c 7).trans (((dat5 (V11 m ρ) c).arrAt_in 7 rfl _).trans (A_eq5 (V11 m ρ) c 7))).trans (kp11_v19 m ρ c))
theorem kp15_v12 : V15 m ρ c main_v12 = V1 m ρ c main_v12 :=
  (W15_of m ρ c main_v12 (by decide)).trans (((W14_arr m ρ c 4).trans (((dat6 (V13 m ρ) c).arrAt_in 4 rfl _).trans (A_eq6 (V13 m ρ) c 4))).trans (kp13_v12 m ρ c))
theorem kp15_v13 : V15 m ρ c main_v13 = V1 m ρ c main_v13 :=
  (W15_of m ρ c main_v13 (by decide)).trans (((W14_arr m ρ c 5).trans (((dat6 (V13 m ρ) c).arrAt_in 5 rfl _).trans (A_eq6 (V13 m ρ) c 5))).trans (kp13_v13 m ρ c))
theorem kp15_v15 : V15 m ρ c main_v15 = V1 m ρ c main_v15 :=
  (W15_of m ρ c main_v15 (by decide)).trans (((W14_arr m ρ c 2).trans (((dat6 (V13 m ρ) c).arrAt_in 2 rfl _).trans (A_eq6 (V13 m ρ) c 2))).trans (kp13_v15 m ρ c))
theorem kp15_v16 : V15 m ρ c main_v16 = V1 m ρ c main_v16 :=
  (W15_of m ρ c main_v16 (by decide)).trans (((W14_arr m ρ c 3).trans (((dat6 (V13 m ρ) c).arrAt_in 3 rfl _).trans (A_eq6 (V13 m ρ) c 3))).trans (kp13_v16 m ρ c))
theorem kp15_v18 : V15 m ρ c main_v18 = V1 m ρ c main_v18 :=
  (W15_of m ρ c main_v18 (by decide)).trans (((W14_arr m ρ c 6).trans (((dat6 (V13 m ρ) c).arrAt_in 6 rfl _).trans (A_eq6 (V13 m ρ) c 6))).trans (kp13_v18 m ρ c))
theorem kp15_v19 : V15 m ρ c main_v19 = V1 m ρ c main_v19 :=
  (W15_of m ρ c main_v19 (by decide)).trans (((W14_arr m ρ c 7).trans (((dat6 (V13 m ρ) c).arrAt_in 7 rfl _).trans (A_eq6 (V13 m ρ) c 7))).trans (kp13_v19 m ρ c))

/-! ## Level 0 -/

theorem out0_h : W2 m ρ c (Proc.devRef .tc main_v20_0) = GH0 (PP m c) (XX m c) :=
  (W2_arr m ρ c 5).trans (final0_5 (V1 m ρ) c (PP m c) (XX m c) (lf_X m ρ c) (lf_W m ρ c) (lf_B m ρ c))
theorem out0_c : W2 m ρ c (Proc.devRef .tc main_v20_1) = GC0 (PP m c) (XX m c) :=
  (W2_arr m ρ c 6).trans (final0_6 (V1 m ρ) c (PP m c) (XX m c) (lf_X m ρ c) (lf_W m ρ c) (lf_B m ρ c))
theorem out0_l : W2 m ρ c (Proc.devRef .tc main_v20_2) = GL0 (PP m c) (XX m c) :=
  (W2_arr m ρ c 7).trans (final0_7 (V1 m ρ) c (PP m c) (XX m c) (lf_X m ρ c) (lf_W m ρ c) (lf_B m ρ c) (w_L m ρ c) (w_Lb m ρ c))

/-! ## Level 1 -/

theorem in1_h (r : Fin 131072) (k : Fin 256) : V3 m ρ c main_v21 (ix2 r k) = cat (H0 m c) r.val k.val := by
  have e : (V3 m ρ c main_v21 : S131072x256.Idx → EReal)
      = shapeCast S131072x256 (W2 m ρ c (Proc.devRef .tc main_v20_0) : S262144x128.Idx → EReal) shapeCasts_S262144x128_S131072x256 := by
    dsimp only [V3, W3, hostOps1]; after_results; rfl
  rw [e, out0_h]
  exact (Cert.Lib.Sweep.pairRows_apply 262144 131072 rfl _ _ r k).trans rfl
theorem in1_c (r : Fin 131072) (k : Fin 256) : V3 m ρ c main_v22 (ix2 r k) = cat (C0 m c) r.val k.val := by
  have e : (V3 m ρ c main_v22 : S131072x256.Idx → EReal)
      = shapeCast S131072x256 (W2 m ρ c (Proc.devRef .tc main_v20_1) : S262144x128.Idx → EReal) shapeCasts_S262144x128_S131072x256 := by
    dsimp only [V3, W3, hostOps1]; after_results; rfl
  rw [e, out0_c]
  exact (Cert.Lib.Sweep.pairRows_apply 262144 131072 rfl _ _ r k).trans rfl
theorem wF1 (k : Fin 256) (j : Fin 256) : V3 m ρ c main_v15 (ix2 k j) = (PP m c).Uf j.val k.val := by rw [kp3_v15]; exact w_F m ρ c k j
theorem wFb1 (j : Fin 256) : V3 m ρ c main_v16 (ix2 (0 : Fin 1) j) = (PP m c).uf j.val := by rw [kp3_v16]; exact w_Fb m ρ c j
theorem wW1 (k : Fin 256) (j : Fin 384) : V3 m ρ c main_v12 (ix2 k j) = (PP m c).Ui j.val k.val := by rw [kp3_v12]; exact w_W m ρ c k j
theorem wB1 (j : Fin 384) : V3 m ρ c main_v13 (ix2 (0 : Fin 1) j) = (PP m c).ui j.val := by rw [kp3_v13]; exact w_B m ρ c j
theorem wL1 (k : Fin 128) (j : Fin 5) : V3 m ρ c main_v18 (ix2 k j) = (PP m c).L j.val k.val := by rw [kp3_v18]; exact w_L m ρ c k j
theorem wLb1 (j : Fin 5) : V3 m ρ c main_v19 (ix2 (0 : Fin 1) j) = (PP m c).lb j.val := by rw [kp3_v19]; exact w_Lb m ρ c j
theorem out1_h : W4 m ρ c (Proc.devRef .tc main_v23_0) = GH1 (PP m c) (H0 m c) (C0 m c) :=
  (W4_arr m ρ c 8).trans (final1_8 (V3 m ρ) c (PP m c) (H0 m c) (C0 m c) (in1_h m ρ c) (in1_c m ρ c) (wF1 m ρ c) (wFb1 m ρ c) (wW1 m ρ c) (wB1 m ρ c))
theorem out1_c : W4 m ρ c (Proc.devRef .tc main_v23_1) = GC1 (PP m c) (H0 m c) (C0 m c) :=
  (W4_arr m ρ c 9).trans (final1_9 (V3 m ρ) c (PP m c) (H0 m c) (C0 m c) (in1_h m ρ c) (in1_c m ρ c) (wF1 m ρ c) (wFb1 m ρ c) (wW1 m ρ c) (wB1 m ρ c))
theorem out1_l : W4 m ρ c (Proc.devRef .tc main_v23_2) = GL1 (PP m c) (H0 m c) (C0 m c) :=
  (W4_arr m ρ c 10).trans (final1_10 (V3 m ρ) c (PP m c) (H0 m c) (C0 m c) (in1_h m ρ c) (in1_c m ρ c) (wF1 m ρ c) (wFb1 m ρ c) (wW1 m ρ c) (wB1 m ρ c) (wL1 m ρ c) (wLb1 m ρ c))

/-! ## Level 2 -/

theorem in2_h (r : Fin 65536) (k : Fin 256) : V5 m ρ c main_v24 (ix2 r k) = cat (H1 m c) r.val k.val := by
  have e : (V5 m ρ c main_v24 : S65536x256.Idx → EReal)
      = shapeCast S65536x256 (W4 m ρ c (Proc.devRef .tc main_v23_0) : S131072x128.Idx → EReal) shapeCasts_S131072x128_S65536x256 := by
    dsimp only [V5, W5, hostOps2]; after_results; rfl
  rw [e, out1_h]
  exact (Cert.Lib.Sweep.pairRows_apply 131072 65536 rfl _ _ r k).trans rfl
theorem in2_c (r : Fin 65536) (k : Fin 256) : V5 m ρ c main_v25 (ix2 r k) = cat (C1 m c) r.val k.val := by
  have e : (V5 m ρ c main_v25 : S65536x256.Idx → EReal)
      = shapeCast S65536x256 (W4 m ρ c (Proc.devRef .tc main_v23_1) : S131072x128.Idx → EReal) shapeCasts_S131072x128_S65536x256 := by
    dsimp only [V5, W5, hostOps2]; after_results; rfl
  rw [e, out1_c]
  exact (Cert.Lib.Sweep.pairRows_apply 131072 65536 rfl _ _ r k).trans rfl
theorem wF2 (k : Fin 256) (j : Fin 256) : V5 m ρ c main_v15 (ix2 k j) = (PP m c).Uf j.val k.val := by rw [kp5_v15]; exact w_F m ρ c k j
theorem wFb2 (j : Fin 256) : V5 m ρ c main_v16 (ix2 (0 : Fin 1) j) = (PP m c).uf j.val := by rw [kp5_v16]; exact w_Fb m ρ c j
theorem wW2 (k : Fin 256) (j : Fin 384) : V5 m ρ c main_v12 (ix2 k j) = (PP m c).Ui j.val k.val := by rw [kp5_v12]; exact w_W m ρ c k j
theorem wB2 (j : Fin 384) : V5 m ρ c main_v13 (ix2 (0 : Fin 1) j) = (PP m c).ui j.val := by rw [kp5_v13]; exact w_B m ρ c j
theorem wL2 (k : Fin 128) (j : Fin 5) : V5 m ρ c main_v18 (ix2 k j) = (PP m c).L j.val k.val := by rw [kp5_v18]; exact w_L m ρ c k j
theorem wLb2 (j : Fin 5) : V5 m ρ c main_v19 (ix2 (0 : Fin 1) j) = (PP m c).lb j.val := by rw [kp5_v19]; exact w_Lb m ρ c j
theorem out2_h : W6 m ρ c (Proc.devRef .tc main_v26_0) = GH2 (PP m c) (H1 m c) (C1 m c) :=
  (W6_arr m ρ c 8).trans (final2_8 (V5 m ρ) c (PP m c) (H1 m c) (C1 m c) (in2_h m ρ c) (in2_c m ρ c) (wF2 m ρ c) (wFb2 m ρ c) (wW2 m ρ c) (wB2 m ρ c))
theorem out2_c : W6 m ρ c (Proc.devRef .tc main_v26_1) = GC2 (PP m c) (H1 m c) (C1 m c) :=
  (W6_arr m ρ c 9).trans (final2_9 (V5 m ρ) c (PP m c) (H1 m c) (C1 m c) (in2_h m ρ c) (in2_c m ρ c) (wF2 m ρ c) (wFb2 m ρ c) (wW2 m ρ c) (wB2 m ρ c))
theorem out2_l : W6 m ρ c (Proc.devRef .tc main_v26_2) = GL2 (PP m c) (H1 m c) (C1 m c) :=
  (W6_arr m ρ c 10).trans (final2_10 (V5 m ρ) c (PP m c) (H1 m c) (C1 m c) (in2_h m ρ c) (in2_c m ρ c) (wF2 m ρ c) (wFb2 m ρ c) (wW2 m ρ c) (wB2 m ρ c) (wL2 m ρ c) (wLb2 m ρ c))

/-! ## Level 3 -/

theorem in3_h (r : Fin 32768) (k : Fin 256) : V7 m ρ c main_v27 (ix2 r k) = cat (H2 m c) r.val k.val := by
  have e : (V7 m ρ c main_v27 : S32768x256.Idx → EReal)
      = shapeCast S32768x256 (W6 m ρ c (Proc.devRef .tc main_v26_0) : S65536x128.Idx → EReal) shapeCasts_S65536x128_S32768x256 := by
    dsimp only [V7, W7, hostOps3]; after_results; rfl
  rw [e, out2_h]
  exact (Cert.Lib.Sweep.pairRows_apply 65536 32768 rfl _ _ r k).trans rfl
theorem in3_c (r : Fin 32768) (k : Fin 256) : V7 m ρ c main_v28 (ix2 r k) = cat (C2 m c) r.val k.val := by
  have e : (V7 m ρ c main_v28 : S32768x256.Idx → EReal)
      = shapeCast S32768x256 (W6 m ρ c (Proc.devRef .tc main_v26_1) : S65536x128.Idx → EReal) shapeCasts_S65536x128_S32768x256 := by
    dsimp only [V7, W7, hostOps3]; after_results; rfl
  rw [e, out2_c]
  exact (Cert.Lib.Sweep.pairRows_apply 65536 32768 rfl _ _ r k).trans rfl
theorem wF3 (k : Fin 256) (j : Fin 256) : V7 m ρ c main_v15 (ix2 k j) = (PP m c).Uf j.val k.val := by rw [kp7_v15]; exact w_F m ρ c k j
theorem wFb3 (j : Fin 256) : V7 m ρ c main_v16 (ix2 (0 : Fin 1) j) = (PP m c).uf j.val := by rw [kp7_v16]; exact w_Fb m ρ c j
theorem wW3 (k : Fin 256) (j : Fin 384) : V7 m ρ c main_v12 (ix2 k j) = (PP m c).Ui j.val k.val := by rw [kp7_v12]; exact w_W m ρ c k j
theorem wB3 (j : Fin 384) : V7 m ρ c main_v13 (ix2 (0 : Fin 1) j) = (PP m c).ui j.val := by rw [kp7_v13]; exact w_B m ρ c j
theorem wL3 (k : Fin 128) (j : Fin 5) : V7 m ρ c main_v18 (ix2 k j) = (PP m c).L j.val k.val := by rw [kp7_v18]; exact w_L m ρ c k j
theorem wLb3 (j : Fin 5) : V7 m ρ c main_v19 (ix2 (0 : Fin 1) j) = (PP m c).lb j.val := by rw [kp7_v19]; exact w_Lb m ρ c j
theorem out3_h : W8 m ρ c (Proc.devRef .tc main_v29_0) = GH3 (PP m c) (H2 m c) (C2 m c) :=
  (W8_arr m ρ c 8).trans (final3_8 (V7 m ρ) c (PP m c) (H2 m c) (C2 m c) (in3_h m ρ c) (in3_c m ρ c) (wF3 m ρ c) (wFb3 m ρ c) (wW3 m ρ c) (wB3 m ρ c))
theorem out3_c : W8 m ρ c (Proc.devRef .tc main_v29_1) = GC3 (PP m c) (H2 m c) (C2 m c) :=
  (W8_arr m ρ c 9).trans (final3_9 (V7 m ρ) c (PP m c) (H2 m c) (C2 m c) (in3_h m ρ c) (in3_c m ρ c) (wF3 m ρ c) (wFb3 m ρ c) (wW3 m ρ c) (wB3 m ρ c))
theorem out3_l : W8 m ρ c (Proc.devRef .tc main_v29_2) = GL3 (PP m c) (H2 m c) (C2 m c) :=
  (W8_arr m ρ c 10).trans (final3_10 (V7 m ρ) c (PP m c) (H2 m c) (C2 m c) (in3_h m ρ c) (in3_c m ρ c) (wF3 m ρ c) (wFb3 m ρ c) (wW3 m ρ c) (wB3 m ρ c) (wL3 m ρ c) (wLb3 m ρ c))

/-! ## Level 4 -/

theorem in4_h (r : Fin 16384) (k : Fin 256) : V9 m ρ c main_v30 (ix2 r k) = cat (H3 m c) r.val k.val := by
  have e : (V9 m ρ c main_v30 : S16384x256.Idx → EReal)
      = shapeCast S16384x256 (W8 m ρ c (Proc.devRef .tc main_v29_0) : S32768x128.Idx → EReal) shapeCasts_S32768x128_S16384x256 := by
    dsimp only [V9, W9, hostOps4]; after_results; rfl
  rw [e, out3_h]
  exact (Cert.Lib.Sweep.pairRows_apply 32768 16384 rfl _ _ r k).trans rfl
theorem in4_c (r : Fin 16384) (k : Fin 256) : V9 m ρ c main_v31 (ix2 r k) = cat (C3 m c) r.val k.val := by
  have e : (V9 m ρ c main_v31 : S16384x256.Idx → EReal)
      = shapeCast S16384x256 (W8 m ρ c (Proc.devRef .tc main_v29_1) : S32768x128.Idx → EReal) shapeCasts_S32768x128_S16384x256 := by
    dsimp only [V9, W9, hostOps4]; after_results; rfl
  rw [e, out3_c]
  exact (Cert.Lib.Sweep.pairRows_apply 32768 16384 rfl _ _ r k).trans rfl
theorem wF4 (k : Fin 256) (j : Fin 256) : V9 m ρ c main_v15 (ix2 k j) = (PP m c).Uf j.val k.val := by rw [kp9_v15]; exact w_F m ρ c k j
theorem wFb4 (j : Fin 256) : V9 m ρ c main_v16 (ix2 (0 : Fin 1) j) = (PP m c).uf j.val := by rw [kp9_v16]; exact w_Fb m ρ c j
theorem wW4 (k : Fin 256) (j : Fin 384) : V9 m ρ c main_v12 (ix2 k j) = (PP m c).Ui j.val k.val := by rw [kp9_v12]; exact w_W m ρ c k j
theorem wB4 (j : Fin 384) : V9 m ρ c main_v13 (ix2 (0 : Fin 1) j) = (PP m c).ui j.val := by rw [kp9_v13]; exact w_B m ρ c j
theorem wL4 (k : Fin 128) (j : Fin 5) : V9 m ρ c main_v18 (ix2 k j) = (PP m c).L j.val k.val := by rw [kp9_v18]; exact w_L m ρ c k j
theorem wLb4 (j : Fin 5) : V9 m ρ c main_v19 (ix2 (0 : Fin 1) j) = (PP m c).lb j.val := by rw [kp9_v19]; exact w_Lb m ρ c j
theorem out4_h : W10 m ρ c (Proc.devRef .tc main_v32_0) = GH4 (PP m c) (H3 m c) (C3 m c) :=
  (W10_arr m ρ c 8).trans (final4_8 (V9 m ρ) c (PP m c) (H3 m c) (C3 m c) (in4_h m ρ c) (in4_c m ρ c) (wF4 m ρ c) (wFb4 m ρ c) (wW4 m ρ c) (wB4 m ρ c))
theorem out4_c : W10 m ρ c (Proc.devRef .tc main_v32_1) = GC4 (PP m c) (H3 m c) (C3 m c) :=
  (W10_arr m ρ c 9).trans (final4_9 (V9 m ρ) c (PP m c) (H3 m c) (C3 m c) (in4_h m ρ c) (in4_c m ρ c) (wF4 m ρ c) (wFb4 m ρ c) (wW4 m ρ c) (wB4 m ρ c))
theorem out4_l : W10 m ρ c (Proc.devRef .tc main_v32_2) = GL4 (PP m c) (H3 m c) (C3 m c) :=
  (W10_arr m ρ c 10).trans (final4_10 (V9 m ρ) c (PP m c) (H3 m c) (C3 m c) (in4_h m ρ c) (in4_c m ρ c) (wF4 m ρ c) (wFb4 m ρ c) (wW4 m ρ c) (wB4 m ρ c) (wL4 m ρ c) (wLb4 m ρ c))

/-! ## Level 5 -/

theorem in5_h (r : Fin 8192) (k : Fin 256) : V11 m ρ c main_v33 (ix2 r k) = cat (H4 m c) r.val k.val := by
  have e : (V11 m ρ c main_v33 : S8192x256.Idx → EReal)
      = shapeCast S8192x256 (W10 m ρ c (Proc.devRef .tc main_v32_0) : S16384x128.Idx → EReal) shapeCasts_S16384x128_S8192x256 := by
    dsimp only [V11, W11, hostOps5]; after_results; rfl
  rw [e, out4_h]
  exact (Cert.Lib.Sweep.pairRows_apply 16384 8192 rfl _ _ r k).trans rfl
theorem in5_c (r : Fin 8192) (k : Fin 256) : V11 m ρ c main_v34 (ix2 r k) = cat (C4 m c) r.val k.val := by
  have e : (V11 m ρ c main_v34 : S8192x256.Idx → EReal)
      = shapeCast S8192x256 (W10 m ρ c (Proc.devRef .tc main_v32_1) : S16384x128.Idx → EReal) shapeCasts_S16384x128_S8192x256 := by
    dsimp only [V11, W11, hostOps5]; after_results; rfl
  rw [e, out4_c]
  exact (Cert.Lib.Sweep.pairRows_apply 16384 8192 rfl _ _ r k).trans rfl
theorem wF5 (k : Fin 256) (j : Fin 256) : V11 m ρ c main_v15 (ix2 k j) = (PP m c).Uf j.val k.val := by rw [kp11_v15]; exact w_F m ρ c k j
theorem wFb5 (j : Fin 256) : V11 m ρ c main_v16 (ix2 (0 : Fin 1) j) = (PP m c).uf j.val := by rw [kp11_v16]; exact w_Fb m ρ c j
theorem wW5 (k : Fin 256) (j : Fin 384) : V11 m ρ c main_v12 (ix2 k j) = (PP m c).Ui j.val k.val := by rw [kp11_v12]; exact w_W m ρ c k j
theorem wB5 (j : Fin 384) : V11 m ρ c main_v13 (ix2 (0 : Fin 1) j) = (PP m c).ui j.val := by rw [kp11_v13]; exact w_B m ρ c j
theorem wL5 (k : Fin 128) (j : Fin 5) : V11 m ρ c main_v18 (ix2 k j) = (PP m c).L j.val k.val := by rw [kp11_v18]; exact w_L m ρ c k j
theorem wLb5 (j : Fin 5) : V11 m ρ c main_v19 (ix2 (0 : Fin 1) j) = (PP m c).lb j.val := by rw [kp11_v19]; exact w_Lb m ρ c j
theorem out5_h : W12 m ρ c (Proc.devRef .tc main_v35_0) = GH5 (PP m c) (H4 m c) (C4 m c) :=
  (W12_arr m ρ c 8).trans (final5_8 (V11 m ρ) c (PP m c) (H4 m c) (C4 m c) (in5_h m ρ c) (in5_c m ρ c) (wF5 m ρ c) (wFb5 m ρ c) (wW5 m ρ c) (wB5 m ρ c))
theorem out5_c : W12 m ρ c (Proc.devRef .tc main_v35_1) = GC5 (PP m c) (H4 m c) (C4 m c) :=
  (W12_arr m ρ c 9).trans (final5_9 (V11 m ρ) c (PP m c) (H4 m c) (C4 m c) (in5_h m ρ c) (in5_c m ρ c) (wF5 m ρ c) (wFb5 m ρ c) (wW5 m ρ c) (wB5 m ρ c))
theorem out5_l : W12 m ρ c (Proc.devRef .tc main_v35_2) = GL5 (PP m c) (H4 m c) (C4 m c) :=
  (W12_arr m ρ c 10).trans (final5_10 (V11 m ρ) c (PP m c) (H4 m c) (C4 m c) (in5_h m ρ c) (in5_c m ρ c) (wF5 m ρ c) (wFb5 m ρ c) (wW5 m ρ c) (wB5 m ρ c) (wL5 m ρ c) (wLb5 m ρ c))

/-! ## Level 6 -/

theorem in6_h (r : Fin 4096) (k : Fin 256) : V13 m ρ c main_v36 (ix2 r k) = cat (H5 m c) r.val k.val := by
  have e : (V13 m ρ c main_v36 : S4096x256.Idx → EReal)
      = shapeCast S4096x256 (W12 m ρ c (Proc.devRef .tc main_v35_0) : S8192x128.Idx → EReal) shapeCasts_S8192x128_S4096x256 := by
    dsimp only [V13, W13, hostOps6]; after_results; rfl
  rw [e, out5_h]
  exact (Cert.Lib.Sweep.pairRows_apply 8192 4096 rfl _ _ r k).trans rfl
theorem in6_c (r : Fin 4096) (k : Fin 256) : V13 m ρ c main_v37 (ix2 r k) = cat (C5 m c) r.val k.val := by
  have e : (V13 m ρ c main_v37 : S4096x256.Idx → EReal)
      = shapeCast S4096x256 (W12 m ρ c (Proc.devRef .tc main_v35_1) : S8192x128.Idx → EReal) shapeCasts_S8192x128_S4096x256 := by
    dsimp only [V13, W13, hostOps6]; after_results; rfl
  rw [e, out5_c]
  exact (Cert.Lib.Sweep.pairRows_apply 8192 4096 rfl _ _ r k).trans rfl
theorem wF6 (k : Fin 256) (j : Fin 256) : V13 m ρ c main_v15 (ix2 k j) = (PP m c).Uf j.val k.val := by rw [kp13_v15]; exact w_F m ρ c k j
theorem wFb6 (j : Fin 256) : V13 m ρ c main_v16 (ix2 (0 : Fin 1) j) = (PP m c).uf j.val := by rw [kp13_v16]; exact w_Fb m ρ c j
theorem wW6 (k : Fin 256) (j : Fin 384) : V13 m ρ c main_v12 (ix2 k j) = (PP m c).Ui j.val k.val := by rw [kp13_v12]; exact w_W m ρ c k j
theorem wB6 (j : Fin 384) : V13 m ρ c main_v13 (ix2 (0 : Fin 1) j) = (PP m c).ui j.val := by rw [kp13_v13]; exact w_B m ρ c j
theorem wL6 (k : Fin 128) (j : Fin 5) : V13 m ρ c main_v18 (ix2 k j) = (PP m c).L j.val k.val := by rw [kp13_v18]; exact w_L m ρ c k j
theorem wLb6 (j : Fin 5) : V13 m ρ c main_v19 (ix2 (0 : Fin 1) j) = (PP m c).lb j.val := by rw [kp13_v19]; exact w_Lb m ρ c j
theorem out6_h : W14 m ρ c (Proc.devRef .tc main_v38_0) = GH6 (PP m c) (H5 m c) (C5 m c) :=
  (W14_arr m ρ c 8).trans (final6_8 (V13 m ρ) c (PP m c) (H5 m c) (C5 m c) (in6_h m ρ c) (in6_c m ρ c) (wF6 m ρ c) (wFb6 m ρ c) (wW6 m ρ c) (wB6 m ρ c))
theorem out6_c : W14 m ρ c (Proc.devRef .tc main_v38_1) = GC6 (PP m c) (H5 m c) (C5 m c) :=
  (W14_arr m ρ c 9).trans (final6_9 (V13 m ρ) c (PP m c) (H5 m c) (C5 m c) (in6_h m ρ c) (in6_c m ρ c) (wF6 m ρ c) (wFb6 m ρ c) (wW6 m ρ c) (wB6 m ρ c))
theorem out6_l : W14 m ρ c (Proc.devRef .tc main_v38_2) = GL6 (PP m c) (H5 m c) (C5 m c) :=
  (W14_arr m ρ c 10).trans (final6_10 (V13 m ρ) c (PP m c) (H5 m c) (C5 m c) (in6_h m ρ c) (in6_c m ρ c) (wF6 m ρ c) (wFb6 m ρ c) (wW6 m ρ c) (wB6 m ρ c) (wL6 m ρ c) (wLb6 m ρ c))

/-! ## Level 7 -/

theorem in7_h (r : Fin 2048) (k : Fin 256) : V15 m ρ c main_v39 (ix2 r k) = cat (H6 m c) r.val k.val := by
  have e : (V15 m ρ c main_v39 : S2048x256.Idx → EReal)
      = shapeCast S2048x256 (W14 m ρ c (Proc.devRef .tc main_v38_0) : S4096x128.Idx → EReal) shapeCasts_S4096x128_S2048x256 := by
    dsimp only [V15, W15, hostOps7]; after_results; rfl
  rw [e, out6_h]
  exact (Cert.Lib.Sweep.pairRows_apply 4096 2048 rfl _ _ r k).trans rfl
theorem in7_c (r : Fin 2048) (k : Fin 256) : V15 m ρ c main_v40 (ix2 r k) = cat (C6 m c) r.val k.val := by
  have e : (V15 m ρ c main_v40 : S2048x256.Idx → EReal)
      = shapeCast S2048x256 (W14 m ρ c (Proc.devRef .tc main_v38_1) : S4096x128.Idx → EReal) shapeCasts_S4096x128_S2048x256 := by
    dsimp only [V15, W15, hostOps7]; after_results; rfl
  rw [e, out6_c]
  exact (Cert.Lib.Sweep.pairRows_apply 4096 2048 rfl _ _ r k).trans rfl
theorem wF7 (k : Fin 256) (j : Fin 256) : V15 m ρ c main_v15 (ix2 k j) = (PP m c).Uf j.val k.val := by rw [kp15_v15]; exact w_F m ρ c k j
theorem wFb7 (j : Fin 256) : V15 m ρ c main_v16 (ix2 (0 : Fin 1) j) = (PP m c).uf j.val := by rw [kp15_v16]; exact w_Fb m ρ c j
theorem wW7 (k : Fin 256) (j : Fin 384) : V15 m ρ c main_v12 (ix2 k j) = (PP m c).Ui j.val k.val := by rw [kp15_v12]; exact w_W m ρ c k j
theorem wB7 (j : Fin 384) : V15 m ρ c main_v13 (ix2 (0 : Fin 1) j) = (PP m c).ui j.val := by rw [kp15_v13]; exact w_B m ρ c j
theorem wL7 (k : Fin 128) (j : Fin 5) : V15 m ρ c main_v18 (ix2 k j) = (PP m c).L j.val k.val := by rw [kp15_v18]; exact w_L m ρ c k j
theorem wLb7 (j : Fin 5) : V15 m ρ c main_v19 (ix2 (0 : Fin 1) j) = (PP m c).lb j.val := by rw [kp15_v19]; exact w_Lb m ρ c j
theorem out7_h : W16 m ρ c (Proc.devRef .tc main_v41_0) = GH7 (PP m c) (H6 m c) (C6 m c) :=
  (W16_arr m ρ c 8).trans (final7_8 (V15 m ρ) c (PP m c) (H6 m c) (C6 m c) (in7_h m ρ c) (in7_c m ρ c) (wF7 m ρ c) (wFb7 m ρ c) (wW7 m ρ c) (wB7 m ρ c))
theorem out7_c : W16 m ρ c (Proc.devRef .tc main_v41_1) = GC7 (PP m c) (H6 m c) (C6 m c) :=
  (W16_arr m ρ c 9).trans (final7_9 (V15 m ρ) c (PP m c) (H6 m c) (C6 m c) (in7_h m ρ c) (in7_c m ρ c) (wF7 m ρ c) (wFb7 m ρ c) (wW7 m ρ c) (wB7 m ρ c))
theorem out7_l : W16 m ρ c (Proc.devRef .tc main_v41_2) = GL7 (PP m c) (H6 m c) (C6 m c) :=
  (W16_arr m ρ c 10).trans (final7_10 (V15 m ρ) c (PP m c) (H6 m c) (C6 m c) (in7_h m ρ c) (in7_c m ρ c) (wF7 m ρ c) (wFb7 m ρ c) (wW7 m ρ c) (wB7 m ρ c) (wL7 m ρ c) (wLb7 m ρ c))

/-! ## Each level's scores reach the end as its region left them -/
theorem ks0 : W16 m ρ c (Proc.devRef .tc main_v20_2) = W2 m ρ c (Proc.devRef .tc main_v20_2) :=
  ((W16_of_ne m ρ c main_v20_2 (by decide)).trans ((W15_of m ρ c main_v20_2 (by decide)).trans ((W14_of_ne m ρ c main_v20_2 (by decide)).trans ((W13_of m ρ c main_v20_2 (by decide)).trans ((W12_of_ne m ρ c main_v20_2 (by decide)).trans ((W11_of m ρ c main_v20_2 (by decide)).trans ((W10_of_ne m ρ c main_v20_2 (by decide)).trans ((W9_of m ρ c main_v20_2 (by decide)).trans ((W8_of_ne m ρ c main_v20_2 (by decide)).trans ((W7_of m ρ c main_v20_2 (by decide)).trans ((W6_of_ne m ρ c main_v20_2 (by decide)).trans ((W5_of m ρ c main_v20_2 (by decide)).trans ((W4_of_ne m ρ c main_v20_2 (by decide)).trans (W3_of m ρ c main_v20_2 (by decide)))))))))))))))
theorem ks1 : W16 m ρ c (Proc.devRef .tc main_v23_2) = W4 m ρ c (Proc.devRef .tc main_v23_2) :=
  ((W16_of_ne m ρ c main_v23_2 (by decide)).trans ((W15_of m ρ c main_v23_2 (by decide)).trans ((W14_of_ne m ρ c main_v23_2 (by decide)).trans ((W13_of m ρ c main_v23_2 (by decide)).trans ((W12_of_ne m ρ c main_v23_2 (by decide)).trans ((W11_of m ρ c main_v23_2 (by decide)).trans ((W10_of_ne m ρ c main_v23_2 (by decide)).trans ((W9_of m ρ c main_v23_2 (by decide)).trans ((W8_of_ne m ρ c main_v23_2 (by decide)).trans ((W7_of m ρ c main_v23_2 (by decide)).trans ((W6_of_ne m ρ c main_v23_2 (by decide)).trans (W5_of m ρ c main_v23_2 (by decide)))))))))))))
theorem ks2 : W16 m ρ c (Proc.devRef .tc main_v26_2) = W6 m ρ c (Proc.devRef .tc main_v26_2) :=
  ((W16_of_ne m ρ c main_v26_2 (by decide)).trans ((W15_of m ρ c main_v26_2 (by decide)).trans ((W14_of_ne m ρ c main_v26_2 (by decide)).trans ((W13_of m ρ c main_v26_2 (by decide)).trans ((W12_of_ne m ρ c main_v26_2 (by decide)).trans ((W11_of m ρ c main_v26_2 (by decide)).trans ((W10_of_ne m ρ c main_v26_2 (by decide)).trans ((W9_of m ρ c main_v26_2 (by decide)).trans ((W8_of_ne m ρ c main_v26_2 (by decide)).trans (W7_of m ρ c main_v26_2 (by decide)))))))))))
theorem ks3 : W16 m ρ c (Proc.devRef .tc main_v29_2) = W8 m ρ c (Proc.devRef .tc main_v29_2) :=
  ((W16_of_ne m ρ c main_v29_2 (by decide)).trans ((W15_of m ρ c main_v29_2 (by decide)).trans ((W14_of_ne m ρ c main_v29_2 (by decide)).trans ((W13_of m ρ c main_v29_2 (by decide)).trans ((W12_of_ne m ρ c main_v29_2 (by decide)).trans ((W11_of m ρ c main_v29_2 (by decide)).trans ((W10_of_ne m ρ c main_v29_2 (by decide)).trans (W9_of m ρ c main_v29_2 (by decide)))))))))
theorem ks4 : W16 m ρ c (Proc.devRef .tc main_v32_2) = W10 m ρ c (Proc.devRef .tc main_v32_2) :=
  ((W16_of_ne m ρ c main_v32_2 (by decide)).trans ((W15_of m ρ c main_v32_2 (by decide)).trans ((W14_of_ne m ρ c main_v32_2 (by decide)).trans ((W13_of m ρ c main_v32_2 (by decide)).trans ((W12_of_ne m ρ c main_v32_2 (by decide)).trans (W11_of m ρ c main_v32_2 (by decide)))))))
theorem ks5 : W16 m ρ c (Proc.devRef .tc main_v35_2) = W12 m ρ c (Proc.devRef .tc main_v35_2) :=
  ((W16_of_ne m ρ c main_v35_2 (by decide)).trans ((W15_of m ρ c main_v35_2 (by decide)).trans ((W14_of_ne m ρ c main_v35_2 (by decide)).trans (W13_of m ρ c main_v35_2 (by decide)))))
theorem ks6 : W16 m ρ c (Proc.devRef .tc main_v38_2) = W14 m ρ c (Proc.devRef .tc main_v38_2) :=
  ((W16_of_ne m ρ c main_v38_2 (by decide)).trans (W15_of m ρ c main_v38_2 (by decide)))
theorem ks7 : W16 m ρ c (Proc.devRef .tc main_v41_2) = W16 m ρ c (Proc.devRef .tc main_v41_2) := rfl

/-! ## The result -/

/-- The shapes of the eight levels' scores. -/
abbrev scoreShapes : List Shape := [S262144x5, S131072x5, S65536x5, S32768x5, S16384x5, S8192x5, S4096x5, S2048x5]

/-- The eight levels' scores, in order. -/
abbrev pieces : List ((s : Shape) × (s.Idx → EReal)) := [⟨S262144x5, GL0 (PP m c) (XX m c)⟩, ⟨S131072x5, GL1 (PP m c) (H0 m c) (C0 m c)⟩, ⟨S65536x5, GL2 (PP m c) (H1 m c) (C1 m c)⟩, ⟨S32768x5, GL3 (PP m c) (H2 m c) (C2 m c)⟩, ⟨S16384x5, GL4 (PP m c) (H3 m c) (C3 m c)⟩, ⟨S8192x5, GL5 (PP m c) (H4 m c) (C4 m c)⟩, ⟨S4096x5, GL6 (PP m c) (H5 m c) (C5 m c)⟩, ⟨S2048x5, GL7 (PP m c) (H6 m c) (C6 m c)⟩]

/-- The returned array is the eight levels' scores stacked. -/
theorem res_eq : (W17 m ρ c (Proc.devRef .tc main_v42) : S522240x5.Idx → EReal)
    = concatenate S522240x5 0 (pieces m c) concatenates_S262144x5_S131072x5_S65536x5_S32768x5_S16384x5_S8192x5_S4096x5_S2048x5_S522240x5_d0 := by
  have e : (W17 m ρ c (Proc.devRef .tc main_v42) : S522240x5.Idx → EReal)
      = concatenate S522240x5 0 [⟨S262144x5, W16 m ρ c (Proc.devRef .tc main_v20_2)⟩, ⟨S131072x5, W16 m ρ c (Proc.devRef .tc main_v23_2)⟩, ⟨S65536x5, W16 m ρ c (Proc.devRef .tc main_v26_2)⟩, ⟨S32768x5, W16 m ρ c (Proc.devRef .tc main_v29_2)⟩, ⟨S16384x5, W16 m ρ c (Proc.devRef .tc main_v32_2)⟩, ⟨S8192x5, W16 m ρ c (Proc.devRef .tc main_v35_2)⟩, ⟨S4096x5, W16 m ρ c (Proc.devRef .tc main_v38_2)⟩, ⟨S2048x5, W16 m ρ c (Proc.devRef .tc main_v41_2)⟩] concatenates_S262144x5_S131072x5_S65536x5_S32768x5_S16384x5_S8192x5_S4096x5_S2048x5_S522240x5_d0 := by
    dsimp only [W17, hostOps8]; after_results; rfl
  rw [e, ks0, out0_l, ks1, out1_l, ks2, out2_l, ks3, out3_l, ks4, out4_l, ks5, out5_l, ks6, out6_l, ks7, out7_l]

set_option maxRecDepth 8192 in
set_option maxHeartbeats 2000000 in
/-- The returned array, entry by entry, is the specification's result. -/
theorem result_apply (R : Fin 522240) (j : Fin 5) :
    W17 m ρ c (Proc.devRef .tc main_v42) (ix2 R j) = Spec.out (PP m c) (XX m c) R.val j.val := by
  rw [res_eq]
  have hR := R.isLt
  by_cases h0 : R.val < 262144
  · have hseg := hall_seg0 (PP m c) (XX m c) R.val (by omega) (by omega)
    refine (Cert.Lib.Sweep.stackRows_apply (pieces m c) concatenates_S262144x5_S131072x5_S65536x5_S32768x5_S16384x5_S8192x5_S4096x5_S2048x5_S522240x5_d0 scoreShapes rfl 0 (Nat.lt_of_sub_eq_succ rfl) 262144 (GL0 (PP m c) (XX m c)) rfl 0 (by decide) R j (by omega) (by omega)).trans ?_
    · show logit (PP m c) (H0 m c) (R.val - 0) j.val = logit (PP m c) (hall (PP m c) (XX m c)) R.val j.val
      unfold logit
      rw [hseg]
      rfl
  by_cases h1 : R.val < 393216
  · have hseg := hall_seg1 (PP m c) (XX m c) R.val (by omega) (by omega)
    refine (Cert.Lib.Sweep.stackRows_apply (pieces m c) concatenates_S262144x5_S131072x5_S65536x5_S32768x5_S16384x5_S8192x5_S4096x5_S2048x5_S522240x5_d0 scoreShapes rfl 1 (Nat.lt_of_sub_eq_succ rfl) 131072 (GL1 (PP m c) (H0 m c) (C0 m c)) rfl 262144 (by decide) R j (by omega) (by omega)).trans ?_
    · show logit (PP m c) (H1 m c) (R.val - 262144) j.val = logit (PP m c) (hall (PP m c) (XX m c)) R.val j.val
      unfold logit
      rw [hseg]
      rfl
  by_cases h2 : R.val < 458752
  · have hseg := hall_seg2 (PP m c) (XX m c) R.val (by omega) (by omega)
    refine (Cert.Lib.Sweep.stackRows_apply (pieces m c) concatenates_S262144x5_S131072x5_S65536x5_S32768x5_S16384x5_S8192x5_S4096x5_S2048x5_S522240x5_d0 scoreShapes rfl 2 (Nat.lt_of_sub_eq_succ rfl) 65536 (GL2 (PP m c) (H1 m c) (C1 m c)) rfl 393216 (by decide) R j (by omega) (by omega)).trans ?_
    · show logit (PP m c) (H2 m c) (R.val - 393216) j.val = logit (PP m c) (hall (PP m c) (XX m c)) R.val j.val
      unfold logit
      rw [hseg]
      rfl
  by_cases h3 : R.val < 491520
  · have hseg := hall_seg3 (PP m c) (XX m c) R.val (by omega) (by omega)
    refine (Cert.Lib.Sweep.stackRows_apply (pieces m c) concatenates_S262144x5_S131072x5_S65536x5_S32768x5_S16384x5_S8192x5_S4096x5_S2048x5_S522240x5_d0 scoreShapes rfl 3 (Nat.lt_of_sub_eq_succ rfl) 32768 (GL3 (PP m c) (H2 m c) (C2 m c)) rfl 458752 (by decide) R j (by omega) (by omega)).trans ?_
    · show logit (PP m c) (H3 m c) (R.val - 458752) j.val = logit (PP m c) (hall (PP m c) (XX m c)) R.val j.val
      unfold logit
      rw [hseg]
      rfl
  by_cases h4 : R.val < 507904
  · have hseg := hall_seg4 (PP m c) (XX m c) R.val (by omega) (by omega)
    refine (Cert.Lib.Sweep.stackRows_apply (pieces m c) concatenates_S262144x5_S131072x5_S65536x5_S32768x5_S16384x5_S8192x5_S4096x5_S2048x5_S522240x5_d0 scoreShapes rfl 4 (Nat.lt_of_sub_eq_succ rfl) 16384 (GL4 (PP m c) (H3 m c) (C3 m c)) rfl 491520 (by decide) R j (by omega) (by omega)).trans ?_
    · show logit (PP m c) (H4 m c) (R.val - 491520) j.val = logit (PP m c) (hall (PP m c) (XX m c)) R.val j.val
      unfold logit
      rw [hseg]
      rfl
  by_cases h5 : R.val < 516096
  · have hseg := hall_seg5 (PP m c) (XX m c) R.val (by omega) (by omega)
    refine (Cert.Lib.Sweep.stackRows_apply (pieces m c) concatenates_S262144x5_S131072x5_S65536x5_S32768x5_S16384x5_S8192x5_S4096x5_S2048x5_S522240x5_d0 scoreShapes rfl 5 (Nat.lt_of_sub_eq_succ rfl) 8192 (GL5 (PP m c) (H4 m c) (C4 m c)) rfl 507904 (by decide) R j (by omega) (by omega)).trans ?_
    · show logit (PP m c) (H5 m c) (R.val - 507904) j.val = logit (PP m c) (hall (PP m c) (XX m c)) R.val j.val
      unfold logit
      rw [hseg]
      rfl
  by_cases h6 : R.val < 520192
  · have hseg := hall_seg6 (PP m c) (XX m c) R.val (by omega) (by omega)
    refine (Cert.Lib.Sweep.stackRows_apply (pieces m c) concatenates_S262144x5_S131072x5_S65536x5_S32768x5_S16384x5_S8192x5_S4096x5_S2048x5_S522240x5_d0 scoreShapes rfl 6 (Nat.lt_of_sub_eq_succ rfl) 4096 (GL6 (PP m c) (H5 m c) (C5 m c)) rfl 516096 (by decide) R j (by omega) (by omega)).trans ?_
    · show logit (PP m c) (H6 m c) (R.val - 516096) j.val = logit (PP m c) (hall (PP m c) (XX m c)) R.val j.val
      unfold logit
      rw [hseg]
      rfl
  · have hseg := hall_seg7 (PP m c) (XX m c) R.val (by omega) (by omega)
    refine (Cert.Lib.Sweep.stackRows_apply (pieces m c) concatenates_S262144x5_S131072x5_S65536x5_S32768x5_S16384x5_S8192x5_S4096x5_S2048x5_S522240x5_d0 scoreShapes rfl 7 (Nat.lt_of_sub_eq_succ rfl) 2048 (GL7 (PP m c) (H6 m c) (C6 m c)) rfl 520192 (by decide) R j (by omega) (by omega)).trans ?_
    · show logit (PP m c) (H7 m c) (R.val - 520192) j.val = logit (PP m c) (hall (PP m c) (XX m c)) R.val j.val
      unfold logit
      rw [hseg]
      rfl

end Cert.KernelIdeal.HandValue

end
-- ==== Proof.KIResult.lean ====
/-
  The idealized kernel program's run, read: every weakly fair execution terminates, nothing faulting, with the returned array
  holding, entry by entry, the specification's result of the argument arrays — the classifier applied to all levels' hidden
  rows stacked — and the argument arrays as launched. The frame run gives every unscoped buffer at the end of @main; the
  level-by-level chain says what the returned buffer holds there.
-/
import proofs.«136691_j33638183863177_2_alg».proof.Proof.KIRun
import proofs.«136691_j33638183863177_2_alg».proof.Proof.KIChain

set_option maxRecDepth 16384

noncomputable section

namespace Cert.KernelIdeal.HandValue

open Cert.KernelIdeal Cert.KernelIdeal.Gen Cert.KernelIdeal.Hand Cert.Spec Idealize.ShloMosaic Idealize.ShloMosaic.ValueIdx Idealize.ShloMosaic.TcCoe Idealize.SL.Sem

variable (m : (ℓ : Loc nD τ sig) → Buf (Elt Ideal) ℓ) (ρ : Dev nD → PrngReg)

theorem run_value : θ_run (defs (F := Ideal)) (onTc (τ := τ) (main (F := Ideal))) ⟨m, fun _ => 0, ρ⟩ (fun r => ∀ c : Dev nD,
      (∀ (R : Fin 522240) (j : Fin 5), r.2.mem ((c.tc : Thread nD τ).loc main_v42) (ix2 R j) = Spec.out (PP m c) (XX m c) R.val j.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c => ⟨fun R j => (congrFun (h c _ (mem_uc main_v42 (by decide))) (ix2 R j)).trans (result_apply m ρ c R j),
    (h c _ (mem_uc main_arg0 (by decide))).trans (W17_main_arg0 m ρ c),
    (h c _ (mem_uc main_arg1 (by decide))).trans (W17_main_arg1 m ρ c),
    (h c _ (mem_uc main_arg2 (by decide))).trans (W17_main_arg2 m ρ c),
    (h c _ (mem_uc main_arg3 (by decide))).trans (W17_main_arg3 m ρ c),
    (h c _ (mem_uc main_arg4 (by decide))).trans (W17_main_arg4 m ρ c),
    (h c _ (mem_uc main_arg5 (by decide))).trans (W17_main_arg5 m ρ c),
    (h c _ (mem_uc main_arg6 (by decide))).trans (W17_main_arg6 m ρ c),
    (h c _ (mem_uc main_arg7 (by decide))).trans (W17_main_arg7 m ρ c),
    (h c _ (mem_uc main_arg8 (by decide))).trans (W17_main_arg8 m ρ c),
    (h c _ (mem_uc main_arg9 (by decide))).trans (W17_main_arg9 m ρ c)⟩) (run_all (F := Ideal) m ρ)

end Cert.KernelIdeal.HandValue

end
-- ==== Proof.RefOps.lean ====
/-
  The host operations of the tree recurrence's reference program, each read at one index over explicit coordinates, at
  the extended reals: the logistic function as the program spells it, a linear layer (a product with a transposed weight
  matrix plus a bias row copied down the rows), the three column thirds of the gates, the reshapes that put two
  consecutive rows side by side or split them into a pair, and the sum over a pair.
-/
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value
import proofs.«136691_j33638183863177_2_alg».proof.Proof.Spec

noncomputable section

open scoped BigOperators

namespace Cert.ReferenceIdeal.RefValue

open Cert.Spec Idealize.ShloMosaic Idealize.ShloMosaic.ValueIdx

/-- `1 / (1 + e⁻ˣ)` with both ones written as splats of the scalar one is the logistic function. -/
theorem sigmoid_apply {s : Shape} (hb : (⟨0, ![]⟩ : Shape).BroadcastsInDim s ![]) (x : FVec Ideal s .f32) (i : s.Idx) :
    Host.divf (broadcastInDim s ![] hb (constant ⟨0, ![]⟩ .f32 0x3F800000#32))
      (addf (broadcastInDim s ![] hb (constant ⟨0, ![]⟩ .f32 0x3F800000#32)) (Host.exp (Host.negf x))) i = sg (x i) := by
  rw [hostDivf_apply, addf_apply, broadcastInDim_scalar_apply, constant_apply, Ideal.ofBits_one_f32]
  rfl

/-- The host's hyperbolic tangent at an index. -/
theorem tanh_apply {s : Shape} (x : FVec Ideal s .f32) (i : s.Idx) : Host.tanh x i = th (x i) := rfl

/-- A linear layer at row `r`, column `j`: the inner product of row `r` of the input with row `j` of the weights (the
    program transposes the weights first), plus entry `j` of the bias (copied down the rows). -/
theorem linear_apply {m k n : ℕ} (D : DotDims ⟨2, ![m, k]⟩ ⟨2, ![k, n]⟩ ⟨2, ![m, n]⟩) (hD : D = DotDims.plain m k n)
    (A : FVec Ideal ⟨2, ![m, k]⟩ .f32) (W : FVec Ideal ⟨2, ![n, k]⟩ .f32) (b : FVec Ideal ⟨1, ![n]⟩ .f32)
    (hT : (⟨2, ![n, k]⟩ : Shape).Transposes [1, 0] ⟨2, ![k, n]⟩)
    (hB1 : (⟨1, ![n]⟩ : Shape).BroadcastsInDim ⟨2, ![1, n]⟩ ![1])
    (hB2 : (⟨2, ![1, n]⟩ : Shape).BroadcastsInDim ⟨2, ![m, n]⟩ ![0, 1])
    (H : M) (hA : ∀ (r : Fin m) (c : Fin k), A (ix2 r c) = H r.val c.val) (r : Fin m) (j : Fin n) :
    addf (Host.dotGeneral D none A (transpose ⟨2, ![k, n]⟩ [1, 0] W hT))
      (broadcastInDim ⟨2, ![m, n]⟩ ![0, 1] hB2 (broadcastInDim ⟨2, ![1, n]⟩ ![1] hB1 b)) (ix2 r j)
      = dot k (H r.val) (rd W j.val) + rd1 b j.val := by
  subst hD
  rw [addf_apply, StackMember.dotGeneral_plain_apply]
  congr 1
  · unfold dot
    refine Finset.sum_congr rfl fun c _ => ?_
    rw [hA, transpose_apply [1, 0] W hT (ix2 c j) (ix2 j c) (fun b => by
      match b with
      | ⟨0, _⟩ => rfl
      | ⟨1, _⟩ => rfl), rd_ix2]
  · rw [broadcastInDim_apply ![0, 1] hB2 _ (ix2 r j) (ix2 (0 : Fin 1) j) (fun a => by
      match a with
      | ⟨0, _⟩ => rfl
      | ⟨1, _⟩ =>
        show j.val = if n = 1 then 0 else j.val
        split
        · have := j.isLt; omega
        · rfl),
      broadcastInDim_apply ![1] hB1 b (ix2 (0 : Fin 1) j) (ix1 j) (fun a => by
      match a with
      | ⟨0, _⟩ =>
        show j.val = if n = 1 then 0 else j.val
        split
        · have := j.isLt; omega
        · rfl), rd1_ix1]

/-- A 128-column third of a 384-column matrix, starting at column `o`. -/
theorem third_apply {m : ℕ} (o : ℕ) (ho : o + 128 ≤ 384) (x : (⟨2, ![m, 384]⟩ : Shape).Idx → EReal)
    (h : (⟨2, ![m, 384]⟩ : Shape).Slices ![0, o] ⟨2, ![m, 128]⟩) (r : Fin m) (j : Fin 128) :
    extractStridedSlice ⟨2, ![m, 128]⟩ ![0, o] x h (ix2 r j) = x (ix2 r ⟨o + j.val, by omega⟩) :=
  extractStridedSlice_apply ![0, o] x h (ix2 r j) (ix2 r ⟨o + j.val, by omega⟩) (fun a => by
    match a with
    | ⟨0, _⟩ => show r.val = 0 + r.val; omega
    | ⟨1, _⟩ => rfl)

/-- Rows `2r` and `2r + 1` of a 128-column matrix side by side as row `r` of a 256-column one. -/
theorem pairRows_apply {n2 n : ℕ} (h2 : n2 = 2 * n) (x : (⟨2, ![n2, 128]⟩ : Shape).Idx → EReal)
    (h : (⟨2, ![n2, 128]⟩ : Shape).ShapeCasts ⟨2, ![n, 256]⟩) (r : Fin n) (j : Fin 256) :
    shapeCast ⟨2, ![n, 256]⟩ x h (ix2 r j)
      = x (ix2 ⟨2 * r.val + j.val / 128, by omega⟩ ⟨j.val % 128, Nat.mod_lt _ (by decide)⟩) :=
  shapeCast_apply x h (ix2 r j) _ (by
    rw [Shape.rowMajor_val_two, Shape.rowMajor_val_two]
    show (2 * r.val + j.val / 128) * 128 + j.val % 128 = r.val * 256 + j.val
    omega)

/-- Rows `2r` and `2r + 1` of a 128-column matrix as the pair `(r, 0)`, `(r, 1)`. -/
theorem pairSplit_apply {n2 n : ℕ} (h2 : n2 = 2 * n) (x : (⟨2, ![n2, 128]⟩ : Shape).Idx → EReal)
    (h : (⟨2, ![n2, 128]⟩ : Shape).ShapeCasts ⟨3, ![n, 2, 128]⟩) (r : Fin n) (t : Fin 2) (j : Fin 128) :
    shapeCast ⟨3, ![n, 2, 128]⟩ x h (ix3 r t j) = x (ix2 ⟨2 * r.val + t.val, by omega⟩ j) :=
  shapeCast_apply x h (ix3 r t j) _ (by
    rw [Shape.rowMajor_val_two, Shape.rowMajor_val_three]
    show (2 * r.val + t.val) * 128 + j.val = (r.val * 2 + t.val) * 128 + j.val
    omega)

/-- The two 128-column halves of row `r` of a 256-column matrix as the pair `(r, 0)`, `(r, 1)`. -/
theorem halves_apply {n : ℕ} (x : (⟨2, ![n, 256]⟩ : Shape).Idx → EReal)
    (h : (⟨2, ![n, 256]⟩ : Shape).ShapeCasts ⟨3, ![n, 2, 128]⟩) (r : Fin n) (t : Fin 2) (j : Fin 128) :
    shapeCast ⟨3, ![n, 2, 128]⟩ x h (ix3 r t j) = x (ix2 r ⟨128 * t.val + j.val, by omega⟩) :=
  shapeCast_apply x h (ix3 r t j) _ (by
    rw [Shape.rowMajor_val_two, Shape.rowMajor_val_three]
    show r.val * 256 + (128 * t.val + j.val) = (r.val * 2 + t.val) * 128 + j.val
    omega)

/-- The sum over a pair, from the initial value zero: the two members added. -/
theorem pairSum_apply {n : ℕ} (x : FVec Ideal ⟨3, ![n, 2, 128]⟩ .f32)
    (h' : (⟨3, ![n, 2, 128]⟩ : Shape).ReducesTo [1] ⟨2, ![n, 128]⟩) (hu : 0 < (⟨0, ![]⟩ : Shape).numel)
    (r : Fin n) (j : Fin 128) :
    Host.reduceAdd x (constant ⟨0, ![]⟩ .f32 0x00000000#32) h' hu (ix2 r j)
      = x (ix3 r (0 : Fin 2) j) + x (ix3 r (1 : Fin 2) j) := by
  have h : (⟨3, ![n, 2, 128]⟩ : Shape).Reduces [1] ⟨2, ![n, 128]⟩ := ⟨h'.1, Nat.two_pos, h'.2⟩
  have hl : ∀ k : Fin 2, h.lift (ix2 r j) k = ix3 r k j := fun k => by
    funext c
    apply Fin.ext
    show h.liftVal (ix2 r j) k.val c = (ix3 r k j c).val
    match c with
    | ⟨0, _⟩ => simp [Shape.Reduces.liftVal]
    | ⟨1, _⟩ => simp [Shape.Reduces.liftVal]
    | ⟨2, _⟩ => simp [Shape.Reduces.liftVal]
  rw [hostReduceAdd_apply, Ideal.hostReduceAdd_single h' h, constant_apply, Ideal.ofBits_zero_f32, zero_add]
  show ∑ k : Fin 2, x (h.lift (ix2 r j) k) = _
  rw [Fin.sum_univ_two, hl, hl]

end Cert.ReferenceIdeal.RefValue

end
-- ==== Proof.RefLevel.lean ====
/-
  One level of the tree recurrence read at an index: the gates' nonlinearities on the three column thirds (cells
  `σ(i) · tanh(u)`, hidden rows `σ(o) · tanh(c)`), an inner level's gates from the level below (two consecutive hidden
  rows side by side through a linear layer), and the forget-gated sum of the two children's cells. Stated for any number
  of rows, over arrays known entry by entry, so that the levels chain by application.
-/
import proofs.«136691_j33638183863177_2_alg».proof.Proof.RefOps

noncomputable section

open scoped BigOperators

namespace Cert.ReferenceIdeal.RefValue

open Cert.Spec Idealize.ShloMosaic Idealize.ShloMosaic.ValueIdx

/-- `σ(i) · tanh(u)` on the first and third column thirds of the gates. -/
theorem gate_apply {m : ℕ} (y : FVec Ideal ⟨2, ![m, 384]⟩ .f32) (IOU : M)
    (hy : ∀ (r : Fin m) (c : Fin 384), y (ix2 r c) = IOU r.val c.val)
    (hb : (⟨0, ![]⟩ : Shape).BroadcastsInDim ⟨2, ![m, 128]⟩ ![])
    (s0 : (⟨2, ![m, 384]⟩ : Shape).Slices ![0, 0] ⟨2, ![m, 128]⟩)
    (s256 : (⟨2, ![m, 384]⟩ : Shape).Slices ![0, 256] ⟨2, ![m, 128]⟩) (r : Fin m) (j : Fin 128) :
    mulf (Host.divf (broadcastInDim ⟨2, ![m, 128]⟩ ![] hb (constant ⟨0, ![]⟩ .f32 0x3F800000#32))
        (addf (broadcastInDim ⟨2, ![m, 128]⟩ ![] hb (constant ⟨0, ![]⟩ .f32 0x3F800000#32))
          (Host.exp (Host.negf (extractStridedSlice ⟨2, ![m, 128]⟩ ![0, 0] y s0)))))
      (Host.tanh (extractStridedSlice ⟨2, ![m, 128]⟩ ![0, 256] y s256)) (ix2 r j) = gate IOU r.val j.val := by
  rw [mulf_apply, sigmoid_apply, tanh_apply, third_apply 0 (by omega), third_apply 256 (by omega), hy, hy]
  show sg (IOU r.val (0 + j.val)) * th (IOU r.val (256 + j.val)) = _
  rw [Nat.zero_add]
  rfl

/-- `σ(o) · tanh(c)` on the middle column third of the gates and the cells. -/
theorem hid_apply {m : ℕ} (y : FVec Ideal ⟨2, ![m, 384]⟩ .f32) (cc : FVec Ideal ⟨2, ![m, 128]⟩ .f32) (IOU C : M)
    (hy : ∀ (r : Fin m) (c : Fin 384), y (ix2 r c) = IOU r.val c.val)
    (hc : ∀ (r : Fin m) (j : Fin 128), cc (ix2 r j) = C r.val j.val)
    (hb : (⟨0, ![]⟩ : Shape).BroadcastsInDim ⟨2, ![m, 128]⟩ ![])
    (s128 : (⟨2, ![m, 384]⟩ : Shape).Slices ![0, 128] ⟨2, ![m, 128]⟩) (r : Fin m) (j : Fin 128) :
    mulf (Host.divf (broadcastInDim ⟨2, ![m, 128]⟩ ![] hb (constant ⟨0, ![]⟩ .f32 0x3F800000#32))
        (addf (broadcastInDim ⟨2, ![m, 128]⟩ ![] hb (constant ⟨0, ![]⟩ .f32 0x3F800000#32))
          (Host.exp (Host.negf (extractStridedSlice ⟨2, ![m, 128]⟩ ![0, 128] y s128)))))
      (Host.tanh cc) (ix2 r j) = hid IOU C r.val j.val := by
  rw [mulf_apply, sigmoid_apply, tanh_apply, third_apply 128 (by omega), hy, hc]
  rfl

/-- Two consecutive rows side by side, entry by entry. -/
theorem cat_apply {n2 n : ℕ} (h2 : n2 = 2 * n) (hp : (⟨2, ![n2, 128]⟩ : Shape).Idx → EReal) (H : M)
    (hH : ∀ (r : Fin n2) (j : Fin 128), hp (ix2 r j) = H r.val j.val)
    (w : (⟨2, ![n2, 128]⟩ : Shape).ShapeCasts ⟨2, ![n, 256]⟩) (r : Fin n) (c : Fin 256) :
    shapeCast ⟨2, ![n, 256]⟩ hp w (ix2 r c) = cat H r.val c.val := by
  rw [pairRows_apply h2, hH]
  rfl

/-- An inner level's gates before the nonlinearities, from the paired hidden rows of the level below. -/
theorem iouN_apply {n : ℕ} (D : DotDims ⟨2, ![n, 256]⟩ ⟨2, ![256, 384]⟩ ⟨2, ![n, 384]⟩) (hD : D = DotDims.plain n 256 384)
    (y31 : FVec Ideal ⟨2, ![n, 256]⟩ .f32) (Ui : FVec Ideal ⟨2, ![384, 256]⟩ .f32) (ui : FVec Ideal ⟨1, ![384]⟩ .f32)
    (P : Params) (hUi : P.Ui = rd Ui) (hui : P.ui = rd1 ui) (H : M)
    (h31 : ∀ (r : Fin n) (c : Fin 256), y31 (ix2 r c) = cat H r.val c.val)
    (hT : (⟨2, ![384, 256]⟩ : Shape).Transposes [1, 0] ⟨2, ![256, 384]⟩)
    (hB1 : (⟨1, ![384]⟩ : Shape).BroadcastsInDim ⟨2, ![1, 384]⟩ ![1])
    (hB2 : (⟨2, ![1, 384]⟩ : Shape).BroadcastsInDim ⟨2, ![n, 384]⟩ ![0, 1]) (r : Fin n) (j : Fin 384) :
    addf (Host.dotGeneral D none y31 (transpose ⟨2, ![256, 384]⟩ [1, 0] Ui hT))
      (broadcastInDim ⟨2, ![n, 384]⟩ ![0, 1] hB2 (broadcastInDim ⟨2, ![1, 384]⟩ ![1] hB1 ui)) (ix2 r j)
      = iouN P H r.val j.val := by
  rw [linear_apply D hD y31 Ui ui hT hB1 hB2 (cat H) h31]
  unfold iouN
  rw [hUi, hui]

/-- The forget-gated sum of the two children's cells. -/
theorem cf_apply {n2 n : ℕ} (h2 : n2 = 2 * n)
    (D : DotDims ⟨2, ![n, 256]⟩ ⟨2, ![256, 256]⟩ ⟨2, ![n, 256]⟩) (hD : D = DotDims.plain n 256 256)
    (y31 : FVec Ideal ⟨2, ![n, 256]⟩ .f32) (cp : FVec Ideal ⟨2, ![n2, 128]⟩ .f32)
    (Uf : FVec Ideal ⟨2, ![256, 256]⟩ .f32) (uf : FVec Ideal ⟨1, ![256]⟩ .f32)
    (P : Params) (hUf : P.Uf = rd Uf) (huf : P.uf = rd1 uf) (H C : M)
    (h31 : ∀ (r : Fin n) (c : Fin 256), y31 (ix2 r c) = cat H r.val c.val)
    (hcp : ∀ (r : Fin n2) (j : Fin 128), cp (ix2 r j) = C r.val j.val)
    (hT : (⟨2, ![256, 256]⟩ : Shape).Transposes [1, 0] ⟨2, ![256, 256]⟩)
    (hB1 : (⟨1, ![256]⟩ : Shape).BroadcastsInDim ⟨2, ![1, 256]⟩ ![1])
    (hB2 : (⟨2, ![1, 256]⟩ : Shape).BroadcastsInDim ⟨2, ![n, 256]⟩ ![0, 1])
    (hb : (⟨0, ![]⟩ : Shape).BroadcastsInDim ⟨2, ![n, 256]⟩ ![])
    (wh : (⟨2, ![n, 256]⟩ : Shape).ShapeCasts ⟨3, ![n, 2, 128]⟩)
    (wc : (⟨2, ![n2, 128]⟩ : Shape).ShapeCasts ⟨3, ![n, 2, 128]⟩)
    (red : (⟨3, ![n, 2, 128]⟩ : Shape).ReducesTo [1] ⟨2, ![n, 128]⟩) (hu : 0 < (⟨0, ![]⟩ : Shape).numel)
    (r : Fin n) (j : Fin 128) :
    Host.reduceAdd
      (mulf
        (shapeCast ⟨3, ![n, 2, 128]⟩
          (Host.divf (broadcastInDim ⟨2, ![n, 256]⟩ ![] hb (constant ⟨0, ![]⟩ .f32 0x3F800000#32))
            (addf (broadcastInDim ⟨2, ![n, 256]⟩ ![] hb (constant ⟨0, ![]⟩ .f32 0x3F800000#32))
              (Host.exp (Host.negf
                (addf (Host.dotGeneral D none y31 (transpose ⟨2, ![256, 256]⟩ [1, 0] Uf hT))
                  (broadcastInDim ⟨2, ![n, 256]⟩ ![0, 1] hB2 (broadcastInDim ⟨2, ![1, 256]⟩ ![1] hB1 uf)))))))
          wh)
        (shapeCast ⟨3, ![n, 2, 128]⟩ cp wc))
      (constant ⟨0, ![]⟩ .f32 0x00000000#32) red hu (ix2 r j) = cf P H C r.val j.val := by
  rw [pairSum_apply, mulf_apply, mulf_apply, halves_apply, halves_apply, sigmoid_apply, sigmoid_apply,
    linear_apply D hD y31 Uf uf hT hB1 hB2 (cat H) h31, linear_apply D hD y31 Uf uf hT hB1 hB2 (cat H) h31,
    pairSplit_apply h2, pairSplit_apply h2, hcp, hcp]
  unfold cf fg
  rw [cat_lo C r.val j.val j.isLt, cat_hi C r.val j.val j.isLt, hUf, huf]
  show sg (dot 256 (cat H r.val) (rd Uf (128 * 0 + j.val)) + rd1 uf (128 * 0 + j.val)) * C (2 * r.val + 0) j.val
      + sg (dot 256 (cat H r.val) (rd Uf (128 * 1 + j.val)) + rd1 uf (128 * 1 + j.val)) * C (2 * r.val + 1) j.val = _
  rw [Nat.mul_zero, Nat.zero_add, Nat.mul_one, Nat.add_zero]

/-- An inner level's cells: `σ(i) · tanh(u)` plus the forget-gated sum of the children's cells. -/
theorem cN_apply {n2 n : ℕ} (h2 : n2 = 2 * n)
    (D : DotDims ⟨2, ![n, 256]⟩ ⟨2, ![256, 256]⟩ ⟨2, ![n, 256]⟩) (hD : D = DotDims.plain n 256 256)
    (y51 : FVec Ideal ⟨2, ![n, 384]⟩ .f32) (y31 : FVec Ideal ⟨2, ![n, 256]⟩ .f32) (cp : FVec Ideal ⟨2, ![n2, 128]⟩ .f32)
    (Uf : FVec Ideal ⟨2, ![256, 256]⟩ .f32) (uf : FVec Ideal ⟨1, ![256]⟩ .f32)
    (P : Params) (hUf : P.Uf = rd Uf) (huf : P.uf = rd1 uf) (H C : M)
    (h51 : ∀ (r : Fin n) (c : Fin 384), y51 (ix2 r c) = iouN P H r.val c.val)
    (h31 : ∀ (r : Fin n) (c : Fin 256), y31 (ix2 r c) = cat H r.val c.val)
    (hcp : ∀ (r : Fin n2) (j : Fin 128), cp (ix2 r j) = C r.val j.val)
    (hb128 : (⟨0, ![]⟩ : Shape).BroadcastsInDim ⟨2, ![n, 128]⟩ ![])
    (s0 : (⟨2, ![n, 384]⟩ : Shape).Slices ![0, 0] ⟨2, ![n, 128]⟩)
    (s256 : (⟨2, ![n, 384]⟩ : Shape).Slices ![0, 256] ⟨2, ![n, 128]⟩)
    (hT : (⟨2, ![256, 256]⟩ : Shape).Transposes [1, 0] ⟨2, ![256, 256]⟩)
    (hB1 : (⟨1, ![256]⟩ : Shape).BroadcastsInDim ⟨2, ![1, 256]⟩ ![1])
    (hB2 : (⟨2, ![1, 256]⟩ : Shape).BroadcastsInDim ⟨2, ![n, 256]⟩ ![0, 1])
    (hb : (⟨0, ![]⟩ : Shape).BroadcastsInDim ⟨2, ![n, 256]⟩ ![])
    (wh : (⟨2, ![n, 256]⟩ : Shape).ShapeCasts ⟨3, ![n, 2, 128]⟩)
    (wc : (⟨2, ![n2, 128]⟩ : Shape).ShapeCasts ⟨3, ![n, 2, 128]⟩)
    (red : (⟨3, ![n, 2, 128]⟩ : Shape).ReducesTo [1] ⟨2, ![n, 128]⟩) (hu : 0 < (⟨0, ![]⟩ : Shape).numel)
    (r : Fin n) (j : Fin 128) :
    addf
      (mulf (Host.divf (broadcastInDim ⟨2, ![n, 128]⟩ ![] hb128 (constant ⟨0, ![]⟩ .f32 0x3F800000#32))
          (addf (broadcastInDim ⟨2, ![n, 128]⟩ ![] hb128 (constant ⟨0, ![]⟩ .f32 0x3F800000#32))
            (Host.exp (Host.negf (extractStridedSlice ⟨2, ![n, 128]⟩ ![0, 0] y51 s0)))))
        (Host.tanh (extractStridedSlice ⟨2, ![n, 128]⟩ ![0, 256] y51 s256)))
      (Host.reduceAdd
        (mulf
          (shapeCast ⟨3, ![n, 2, 128]⟩
            (Host.divf (broadcastInDim ⟨2, ![n, 256]⟩ ![] hb (constant ⟨0, ![]⟩ .f32 0x3F800000#32))
              (addf (broadcastInDim ⟨2, ![n, 256]⟩ ![] hb (constant ⟨0, ![]⟩ .f32 0x3F800000#32))
                (Host.exp (Host.negf
                  (addf (Host.dotGeneral D none y31 (transpose ⟨2, ![256, 256]⟩ [1, 0] Uf hT))
                    (broadcastInDim ⟨2, ![n, 256]⟩ ![0, 1] hB2 (broadcastInDim ⟨2, ![1, 256]⟩ ![1] hB1 uf)))))))
            wh)
          (shapeCast ⟨3, ![n, 2, 128]⟩ cp wc))
        (constant ⟨0, ![]⟩ .f32 0x00000000#32) red hu) (ix2 r j) = cN P H C r.val j.val := by
  rw [addf_apply, gate_apply y51 (iouN P H) h51, cf_apply h2 D hD y31 cp Uf uf P hUf huf H C h31 hcp]
  rfl

/-- An inner level's hidden rows: `σ(o) · tanh(c)` on the level's own cells. -/
theorem hN_apply {n : ℕ} (y51 : FVec Ideal ⟨2, ![n, 384]⟩ .f32) (y63 : FVec Ideal ⟨2, ![n, 128]⟩ .f32)
    (P : Params) (H C : M)
    (h51 : ∀ (r : Fin n) (c : Fin 384), y51 (ix2 r c) = iouN P H r.val c.val)
    (h63 : ∀ (r : Fin n) (j : Fin 128), y63 (ix2 r j) = cN P H C r.val j.val)
    (hb : (⟨0, ![]⟩ : Shape).BroadcastsInDim ⟨2, ![n, 128]⟩ ![])
    (s128 : (⟨2, ![n, 384]⟩ : Shape).Slices ![0, 128] ⟨2, ![n, 128]⟩) (r : Fin n) (j : Fin 128) :
    mulf (Host.divf (broadcastInDim ⟨2, ![n, 128]⟩ ![] hb (constant ⟨0, ![]⟩ .f32 0x3F800000#32))
        (addf (broadcastInDim ⟨2, ![n, 128]⟩ ![] hb (constant ⟨0, ![]⟩ .f32 0x3F800000#32))
          (Host.exp (Host.negf (extractStridedSlice ⟨2, ![n, 128]⟩ ![0, 128] y51 s128)))))
      (Host.tanh y63) (ix2 r j) = hN P H C r.val j.val :=
  hid_apply y51 y63 (iouN P H) (cN P H C) h51 h63 hb s128 r j

end Cert.ReferenceIdeal.RefValue

end
-- ==== Proof.RefLeaf.lean ====
/-
  The reference program's inputs as the specification reads them (the gathered embedding rows, the weights by natural
  row and column) and its leaf level: the gates `x · Wiᵀ + bi`, the cells `σ(i) · tanh(u)` and the hidden rows
  `σ(o) · tanh(c)`, entry by entry.
-/
import proofs.«136691_j33638183863177_2_alg».proof.Proof.Gen.ReferenceIdeal.Run
import proofs.«136691_j33638183863177_2_alg».proof.Proof.Spec
import proofs.«136691_j33638183863177_2_alg».proof.Proof.RefLevel

noncomputable section

open scoped BigOperators

namespace Cert.ReferenceIdeal.RefValue

open Cert.ReferenceIdeal Cert.ReferenceIdeal.Gen Cert.ReferenceIdeal.Value Cert.Spec Idealize.ShloMosaic
  Idealize.ShloMosaic.ValueIdx Idealize.ShloMosaic.TcCoe Idealize.SL.Sem Idealize.ShloMosaic.StableHlo

/-- The gathered embedding rows, exactly the term the program's first nine operations compute. -/
def X (a0 : (⟨S262144, .i32⟩ : BufTy).Contents (Elt Ideal)) (a1 : (⟨S32000x128, .f32⟩ : BufTy).Contents (Elt Ideal)) :
    (⟨S262144x128, .f32⟩ : BufTy).Contents (Elt Ideal) :=
  Host.gather gather_S32000x128_S262144x1_S262144x128_1_0_n_n_0_1_1128 a1
    (broadcastInDim S262144x1 ![0] bcast_S262144_S262144x1_0
      (select (cmpi .slt a0 (broadcastInDim S262144 ![] bcast_S_S262144 (constantI S_ 32 0#32)))
        (addi a0 (broadcastInDim S262144 ![] bcast_S_S262144 (constantI S_ 32 32000#32))) a0))

/-- The weights as the specification reads them. -/
def params (a2 : FVec Ideal S384x128 .f32) (a3 : FVec Ideal S384 .f32) (a4 : FVec Ideal S384x256 .f32)
    (a5 : FVec Ideal S384 .f32) (a6 : FVec Ideal S256x256 .f32) (a7 : FVec Ideal S256 .f32)
    (a8 : FVec Ideal S5x128 .f32) (a9 : FVec Ideal S5 .f32) : Spec.Params :=
  ⟨rd a2, rd1 a3, rd a4, rd1 a5, rd a6, rd1 a7, rd a8, rd1 a9⟩

/-- The weights of a valuation of the program's buffers. -/
def pOf (V0 : Valuation τ sig (Elt Ideal)) : Spec.Params :=
  params (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7))
    (V0 (Proc.devRef .tc main_arg8)) (V0 (Proc.devRef .tc main_arg9))

/-- The gathered embedding rows of a valuation, by natural row and column. -/
def xOf (V0 : Valuation τ sig (Elt Ideal)) : M :=
  rd (X (V0 (Proc.devRef .tc main_arg0)) (V0 (Proc.devRef .tc main_arg1)))

variable (V0 : Valuation τ sig (Elt Ideal))

/-- The leaves' gates. -/
theorem leaf_iou (r : Fin 262144) (c : Fin 384) :
    res_main_v11 V0 (ix2 r c) = iou0 (pOf V0) (xOf V0) r.val c.val := by
  unfold res_main_v11
  exact linear_apply (m := 262144) (k := 128) (n := 384) dot_S262144x128_S128x384_S262144x384_1_0_0_1_n_n rfl
    (X (V0 (Proc.devRef .tc main_arg0)) (V0 (Proc.devRef .tc main_arg1))) (V0 (Proc.devRef .tc main_arg2))
    (V0 (Proc.devRef .tc main_arg3)) _ _ _ (xOf V0) (fun r c => (rd_ix2 _ r c).symm) r c

/-- The leaves' cells. -/
theorem leaf_c (r : Fin 262144) (j : Fin 128) :
    res_main_v22 V0 (ix2 r j) = (lvl (pOf V0) (xOf V0) 0).2 r.val j.val := by
  unfold res_main_v22
  exact gate_apply (m := 262144) (res_main_v11 V0) (iou0 (pOf V0) (xOf V0)) (leaf_iou V0) _ _ _ r j

/-- The leaves' hidden rows. -/
theorem leaf_h (r : Fin 262144) (j : Fin 128) :
    res_main_v30 V0 (ix2 r j) = (lvl (pOf V0) (xOf V0) 0).1 r.val j.val := by
  unfold res_main_v30
  exact hid_apply (m := 262144) (res_main_v11 V0) (res_main_v22 V0) (iou0 (pOf V0) (xOf V0))
    (c0 (pOf V0) (xOf V0)) (leaf_iou V0) (leaf_c V0) _ _ r j

end Cert.ReferenceIdeal.RefValue

end
-- ==== Proof.RefLevels.lean ====
/- written by: python3 scratch/gen_levels.py ; the seven inner levels of the tree recurrence, entry by entry: at level k the hidden rows
   of level k - 1 in pairs, the level's gates, its cells and its hidden rows are the specification's `cat`, `iouN`,
   `cN` and `hN` over level k - 1 (one block per level, the same text over the level's row count and buffer numbers;
   the top level's cells and hidden rows are not named by the program and are read where they stand, in the next module). -/
import proofs.«136691_j33638183863177_2_alg».proof.Proof.RefLeaf

noncomputable section

open scoped BigOperators

namespace Cert.ReferenceIdeal.RefValue

open Cert.ReferenceIdeal Cert.ReferenceIdeal.Gen Cert.ReferenceIdeal.Value Cert.Spec Idealize.ShloMosaic
  Idealize.ShloMosaic.ValueIdx Idealize.ShloMosaic.TcCoe Idealize.SL.Sem Idealize.ShloMosaic.StableHlo

variable (V0 : Valuation τ sig (Elt Ideal))

/-! ## Level 1: 131072 nodes over 262144 -/

/-- The hidden rows of level 0 side by side in pairs. -/
theorem l1_cat (r : Fin 131072) (c : Fin 256) :
    res_main_v31 V0 (ix2 r c) = cat (lvl (pOf V0) (xOf V0) 0).1 r.val c.val := by
  unfold res_main_v31
  exact cat_apply (n2 := 262144) (n := 131072) rfl (res_main_v30 V0) _ (leaf_h V0) _ r c

/-- Level 1's gates. -/
theorem l1_iou (r : Fin 131072) (c : Fin 384) :
    res_main_v51 V0 (ix2 r c) = iouN (pOf V0) (lvl (pOf V0) (xOf V0) 0).1 r.val c.val := by
  unfold res_main_v51
  exact iouN_apply (n := 131072) dot_S131072x256_S256x384_S131072x384_1_0_0_1_n_n rfl (res_main_v31 V0)
    (V0 (Proc.devRef .tc main_arg4)) (V0 (Proc.devRef .tc main_arg5)) (pOf V0) rfl rfl _ (l1_cat V0) _ _ _ r c

/-- Level 1's cells. -/
theorem l1_c (r : Fin 131072) (j : Fin 128) :
    res_main_v63 V0 (ix2 r j) = (lvl (pOf V0) (xOf V0) 1).2 r.val j.val := by
  unfold res_main_v63
  exact cN_apply (n2 := 262144) (n := 131072) rfl dot_S131072x256_S256x256_S131072x256_1_0_0_1_n_n rfl (res_main_v51 V0)
    (res_main_v31 V0) (res_main_v22 V0) (V0 (Proc.devRef .tc main_arg6)) (V0 (Proc.devRef .tc main_arg7)) (pOf V0) rfl rfl
    (lvl (pOf V0) (xOf V0) 0).1 (lvl (pOf V0) (xOf V0) 0).2 (l1_iou V0) (l1_cat V0) (leaf_c V0) _ _ _ _ _ _ _ _ _ _ _ r j

/-- Level 1's hidden rows. -/
theorem l1_h (r : Fin 131072) (j : Fin 128) :
    res_main_v71 V0 (ix2 r j) = (lvl (pOf V0) (xOf V0) 1).1 r.val j.val := by
  unfold res_main_v71
  exact hN_apply (n := 131072) (res_main_v51 V0) (res_main_v63 V0) (pOf V0) (lvl (pOf V0) (xOf V0) 0).1 (lvl (pOf V0) (xOf V0) 0).2 (l1_iou V0) (l1_c V0) _ _ r j

/-! ## Level 2: 65536 nodes over 131072 -/

/-- The hidden rows of level 1 side by side in pairs. -/
theorem l2_cat (r : Fin 65536) (c : Fin 256) :
    res_main_v72 V0 (ix2 r c) = cat (lvl (pOf V0) (xOf V0) 1).1 r.val c.val := by
  unfold res_main_v72
  exact cat_apply (n2 := 131072) (n := 65536) rfl (res_main_v71 V0) _ (l1_h V0) _ r c

/-- Level 2's gates. -/
theorem l2_iou (r : Fin 65536) (c : Fin 384) :
    res_main_v92 V0 (ix2 r c) = iouN (pOf V0) (lvl (pOf V0) (xOf V0) 1).1 r.val c.val := by
  unfold res_main_v92
  exact iouN_apply (n := 65536) dot_S65536x256_S256x384_S65536x384_1_0_0_1_n_n rfl (res_main_v72 V0)
    (V0 (Proc.devRef .tc main_arg4)) (V0 (Proc.devRef .tc main_arg5)) (pOf V0) rfl rfl _ (l2_cat V0) _ _ _ r c

/-- Level 2's cells. -/
theorem l2_c (r : Fin 65536) (j : Fin 128) :
    res_main_v104 V0 (ix2 r j) = (lvl (pOf V0) (xOf V0) 2).2 r.val j.val := by
  unfold res_main_v104
  exact cN_apply (n2 := 131072) (n := 65536) rfl dot_S65536x256_S256x256_S65536x256_1_0_0_1_n_n rfl (res_main_v92 V0)
    (res_main_v72 V0) (res_main_v63 V0) (V0 (Proc.devRef .tc main_arg6)) (V0 (Proc.devRef .tc main_arg7)) (pOf V0) rfl rfl
    (lvl (pOf V0) (xOf V0) 1).1 (lvl (pOf V0) (xOf V0) 1).2 (l2_iou V0) (l2_cat V0) (l1_c V0) _ _ _ _ _ _ _ _ _ _ _ r j

/-- Level 2's hidden rows. -/
theorem l2_h (r : Fin 65536) (j : Fin 128) :
    res_main_v112 V0 (ix2 r j) = (lvl (pOf V0) (xOf V0) 2).1 r.val j.val := by
  unfold res_main_v112
  exact hN_apply (n := 65536) (res_main_v92 V0) (res_main_v104 V0) (pOf V0) (lvl (pOf V0) (xOf V0) 1).1 (lvl (pOf V0) (xOf V0) 1).2 (l2_iou V0) (l2_c V0) _ _ r j

/-! ## Level 3: 32768 nodes over 65536 -/

/-- The hidden rows of level 2 side by side in pairs. -/
theorem l3_cat (r : Fin 32768) (c : Fin 256) :
    res_main_v113 V0 (ix2 r c) = cat (lvl (pOf V0) (xOf V0) 2).1 r.val c.val := by
  unfold res_main_v113
  exact cat_apply (n2 := 65536) (n := 32768) rfl (res_main_v112 V0) _ (l2_h V0) _ r c

/-- Level 3's gates. -/
theorem l3_iou (r : Fin 32768) (c : Fin 384) :
    res_main_v133 V0 (ix2 r c) = iouN (pOf V0) (lvl (pOf V0) (xOf V0) 2).1 r.val c.val := by
  unfold res_main_v133
  exact iouN_apply (n := 32768) dot_S32768x256_S256x384_S32768x384_1_0_0_1_n_n rfl (res_main_v113 V0)
    (V0 (Proc.devRef .tc main_arg4)) (V0 (Proc.devRef .tc main_arg5)) (pOf V0) rfl rfl _ (l3_cat V0) _ _ _ r c

/-- Level 3's cells. -/
theorem l3_c (r : Fin 32768) (j : Fin 128) :
    res_main_v145 V0 (ix2 r j) = (lvl (pOf V0) (xOf V0) 3).2 r.val j.val := by
  unfold res_main_v145
  exact cN_apply (n2 := 65536) (n := 32768) rfl dot_S32768x256_S256x256_S32768x256_1_0_0_1_n_n rfl (res_main_v133 V0)
    (res_main_v113 V0) (res_main_v104 V0) (V0 (Proc.devRef .tc main_arg6)) (V0 (Proc.devRef .tc main_arg7)) (pOf V0) rfl rfl
    (lvl (pOf V0) (xOf V0) 2).1 (lvl (pOf V0) (xOf V0) 2).2 (l3_iou V0) (l3_cat V0) (l2_c V0) _ _ _ _ _ _ _ _ _ _ _ r j

/-- Level 3's hidden rows. -/
theorem l3_h (r : Fin 32768) (j : Fin 128) :
    res_main_v153 V0 (ix2 r j) = (lvl (pOf V0) (xOf V0) 3).1 r.val j.val := by
  unfold res_main_v153
  exact hN_apply (n := 32768) (res_main_v133 V0) (res_main_v145 V0) (pOf V0) (lvl (pOf V0) (xOf V0) 2).1 (lvl (pOf V0) (xOf V0) 2).2 (l3_iou V0) (l3_c V0) _ _ r j

/-! ## Level 4: 16384 nodes over 32768 -/

/-- The hidden rows of level 3 side by side in pairs. -/
theorem l4_cat (r : Fin 16384) (c : Fin 256) :
    res_main_v154 V0 (ix2 r c) = cat (lvl (pOf V0) (xOf V0) 3).1 r.val c.val := by
  unfold res_main_v154
  exact cat_apply (n2 := 32768) (n := 16384) rfl (res_main_v153 V0) _ (l3_h V0) _ r c

/-- Level 4's gates. -/
theorem l4_iou (r : Fin 16384) (c : Fin 384) :
    res_main_v174 V0 (ix2 r c) = iouN (pOf V0) (lvl (pOf V0) (xOf V0) 3).1 r.val c.val := by
  unfold res_main_v174
  exact iouN_apply (n := 16384) dot_S16384x256_S256x384_S16384x384_1_0_0_1_n_n rfl (res_main_v154 V0)
    (V0 (Proc.devRef .tc main_arg4)) (V0 (Proc.devRef .tc main_arg5)) (pOf V0) rfl rfl _ (l4_cat V0) _ _ _ r c

/-- Level 4's cells. -/
theorem l4_c (r : Fin 16384) (j : Fin 128) :
    res_main_v186 V0 (ix2 r j) = (lvl (pOf V0) (xOf V0) 4).2 r.val j.val := by
  unfold res_main_v186
  exact cN_apply (n2 := 32768) (n := 16384) rfl dot_S16384x256_S256x256_S16384x256_1_0_0_1_n_n rfl (res_main_v174 V0)
    (res_main_v154 V0) (res_main_v145 V0) (V0 (Proc.devRef .tc main_arg6)) (V0 (Proc.devRef .tc main_arg7)) (pOf V0) rfl rfl
    (lvl (pOf V0) (xOf V0) 3).1 (lvl (pOf V0) (xOf V0) 3).2 (l4_iou V0) (l4_cat V0) (l3_c V0) _ _ _ _ _ _ _ _ _ _ _ r j

/-- Level 4's hidden rows. -/
theorem l4_h (r : Fin 16384) (j : Fin 128) :
    res_main_v194 V0 (ix2 r j) = (lvl (pOf V0) (xOf V0) 4).1 r.val j.val := by
  unfold res_main_v194
  exact hN_apply (n := 16384) (res_main_v174 V0) (res_main_v186 V0) (pOf V0) (lvl (pOf V0) (xOf V0) 3).1 (lvl (pOf V0) (xOf V0) 3).2 (l4_iou V0) (l4_c V0) _ _ r j

/-! ## Level 5: 8192 nodes over 16384 -/

/-- The hidden rows of level 4 side by side in pairs. -/
theorem l5_cat (r : Fin 8192) (c : Fin 256) :
    res_main_v195 V0 (ix2 r c) = cat (lvl (pOf V0) (xOf V0) 4).1 r.val c.val := by
  unfold res_main_v195
  exact cat_apply (n2 := 16384) (n := 8192) rfl (res_main_v194 V0) _ (l4_h V0) _ r c

/-- Level 5's gates. -/
theorem l5_iou (r : Fin 8192) (c : Fin 384) :
    res_main_v215 V0 (ix2 r c) = iouN (pOf V0) (lvl (pOf V0) (xOf V0) 4).1 r.val c.val := by
  unfold res_main_v215
  exact iouN_apply (n := 8192) dot_S8192x256_S256x384_S8192x384_1_0_0_1_n_n rfl (res_main_v195 V0)
    (V0 (Proc.devRef .tc main_arg4)) (V0 (Proc.devRef .tc main_arg5)) (pOf V0) rfl rfl _ (l5_cat V0) _ _ _ r c

/-- Level 5's cells. -/
theorem l5_c (r : Fin 8192) (j : Fin 128) :
    res_main_v227 V0 (ix2 r j) = (lvl (pOf V0) (xOf V0) 5).2 r.val j.val := by
  unfold res_main_v227
  exact cN_apply (n2 := 16384) (n := 8192) rfl dot_S8192x256_S256x256_S8192x256_1_0_0_1_n_n rfl (res_main_v215 V0)
    (res_main_v195 V0) (res_main_v186 V0) (V0 (Proc.devRef .tc main_arg6)) (V0 (Proc.devRef .tc main_arg7)) (pOf V0) rfl rfl
    (lvl (pOf V0) (xOf V0) 4).1 (lvl (pOf V0) (xOf V0) 4).2 (l5_iou V0) (l5_cat V0) (l4_c V0) _ _ _ _ _ _ _ _ _ _ _ r j

/-- Level 5's hidden rows. -/
theorem l5_h (r : Fin 8192) (j : Fin 128) :
    res_main_v235 V0 (ix2 r j) = (lvl (pOf V0) (xOf V0) 5).1 r.val j.val := by
  unfold res_main_v235
  exact hN_apply (n := 8192) (res_main_v215 V0) (res_main_v227 V0) (pOf V0) (lvl (pOf V0) (xOf V0) 4).1 (lvl (pOf V0) (xOf V0) 4).2 (l5_iou V0) (l5_c V0) _ _ r j

/-! ## Level 6: 4096 nodes over 8192 -/

/-- The hidden rows of level 5 side by side in pairs. -/
theorem l6_cat (r : Fin 4096) (c : Fin 256) :
    res_main_v236 V0 (ix2 r c) = cat (lvl (pOf V0) (xOf V0) 5).1 r.val c.val := by
  unfold res_main_v236
  exact cat_apply (n2 := 8192) (n := 4096) rfl (res_main_v235 V0) _ (l5_h V0) _ r c

/-- Level 6's gates. -/
theorem l6_iou (r : Fin 4096) (c : Fin 384) :
    res_main_v256 V0 (ix2 r c) = iouN (pOf V0) (lvl (pOf V0) (xOf V0) 5).1 r.val c.val := by
  unfold res_main_v256
  exact iouN_apply (n := 4096) dot_S4096x256_S256x384_S4096x384_1_0_0_1_n_n rfl (res_main_v236 V0)
    (V0 (Proc.devRef .tc main_arg4)) (V0 (Proc.devRef .tc main_arg5)) (pOf V0) rfl rfl _ (l6_cat V0) _ _ _ r c

/-- Level 6's cells. -/
theorem l6_c (r : Fin 4096) (j : Fin 128) :
    res_main_v268 V0 (ix2 r j) = (lvl (pOf V0) (xOf V0) 6).2 r.val j.val := by
  unfold res_main_v268
  exact cN_apply (n2 := 8192) (n := 4096) rfl dot_S4096x256_S256x256_S4096x256_1_0_0_1_n_n rfl (res_main_v256 V0)
    (res_main_v236 V0) (res_main_v227 V0) (V0 (Proc.devRef .tc main_arg6)) (V0 (Proc.devRef .tc main_arg7)) (pOf V0) rfl rfl
    (lvl (pOf V0) (xOf V0) 5).1 (lvl (pOf V0) (xOf V0) 5).2 (l6_iou V0) (l6_cat V0) (l5_c V0) _ _ _ _ _ _ _ _ _ _ _ r j

/-- Level 6's hidden rows. -/
theorem l6_h (r : Fin 4096) (j : Fin 128) :
    res_main_v276 V0 (ix2 r j) = (lvl (pOf V0) (xOf V0) 6).1 r.val j.val := by
  unfold res_main_v276
  exact hN_apply (n := 4096) (res_main_v256 V0) (res_main_v268 V0) (pOf V0) (lvl (pOf V0) (xOf V0) 5).1 (lvl (pOf V0) (xOf V0) 5).2 (l6_iou V0) (l6_c V0) _ _ r j

/-! ## Level 7: 2048 nodes over 4096 -/

/-- The hidden rows of level 6 side by side in pairs. -/
theorem l7_cat (r : Fin 2048) (c : Fin 256) :
    res_main_v277 V0 (ix2 r c) = cat (lvl (pOf V0) (xOf V0) 6).1 r.val c.val := by
  unfold res_main_v277
  exact cat_apply (n2 := 4096) (n := 2048) rfl (res_main_v276 V0) _ (l6_h V0) _ r c

/-- Level 7's gates. -/
theorem l7_iou (r : Fin 2048) (c : Fin 384) :
    res_main_v297 V0 (ix2 r c) = iouN (pOf V0) (lvl (pOf V0) (xOf V0) 6).1 r.val c.val := by
  unfold res_main_v297
  exact iouN_apply (n := 2048) dot_S2048x256_S256x384_S2048x384_1_0_0_1_n_n rfl (res_main_v277 V0)
    (V0 (Proc.devRef .tc main_arg4)) (V0 (Proc.devRef .tc main_arg5)) (pOf V0) rfl rfl _ (l7_cat V0) _ _ _ r c

end Cert.ReferenceIdeal.RefValue

end
-- ==== Proof.RefOut.lean ====
/-
  The reference's result: the hidden rows of all eight levels stacked (262144 leaves, then 131072, 65536, 32768, 16384,
  8192, 4096 and 2048 inner nodes), through the classifier `h · Lᵀ + lb`, is the specification's `out` entry by entry;
  and so every weakly fair execution of the reference program ends with that function of its arguments in its result,
  the arguments unchanged.
-/
import proofs.«136691_j33638183863177_2_alg».proof.Proof.RefLevels

noncomputable section

open scoped BigOperators

namespace Cert.ReferenceIdeal.RefValue

open Cert.ReferenceIdeal Cert.ReferenceIdeal.Gen Cert.ReferenceIdeal.Value Cert.Spec Idealize.ShloMosaic
  Idealize.ShloMosaic.ValueIdx Idealize.ShloMosaic.TcCoe Idealize.SL.Sem Idealize.ShloMosaic.StableHlo

/-! ## The stack of all levels, span by span -/

section Hall
variable (P : Params) (x : M) (R k : ℕ)

theorem hall_0 (h1 : R < 262144) : hall P x R k = (lvl P x 0).1 (R - 0) k := by
  unfold hall; rw [if_pos h1, Nat.sub_zero]
theorem hall_1 (h0 : 262144 ≤ R) (h1 : R < 393216) : hall P x R k = (lvl P x 1).1 (R - 262144) k := by
  unfold hall; rw [if_neg (by omega), if_pos h1]
theorem hall_2 (h0 : 393216 ≤ R) (h1 : R < 458752) : hall P x R k = (lvl P x 2).1 (R - 393216) k := by
  unfold hall; rw [if_neg (by omega), if_neg (by omega), if_pos h1]
theorem hall_3 (h0 : 458752 ≤ R) (h1 : R < 491520) : hall P x R k = (lvl P x 3).1 (R - 458752) k := by
  unfold hall; rw [if_neg (by omega), if_neg (by omega), if_neg (by omega), if_pos h1]
theorem hall_4 (h0 : 491520 ≤ R) (h1 : R < 507904) : hall P x R k = (lvl P x 4).1 (R - 491520) k := by
  unfold hall; rw [if_neg (by omega), if_neg (by omega), if_neg (by omega), if_neg (by omega), if_pos h1]
theorem hall_5 (h0 : 507904 ≤ R) (h1 : R < 516096) : hall P x R k = (lvl P x 5).1 (R - 507904) k := by
  unfold hall
  rw [if_neg (by omega), if_neg (by omega), if_neg (by omega), if_neg (by omega), if_neg (by omega), if_pos h1]
theorem hall_6 (h0 : 516096 ≤ R) (h1 : R < 520192) : hall P x R k = (lvl P x 6).1 (R - 516096) k := by
  unfold hall
  rw [if_neg (by omega), if_neg (by omega), if_neg (by omega), if_neg (by omega), if_neg (by omega), if_neg (by omega),
    if_pos h1]
theorem hall_7 (h0 : 520192 ≤ R) : hall P x R k = (lvl P x 7).1 (R - 520192) k := by
  unfold hall
  rw [if_neg (by omega), if_neg (by omega), if_neg (by omega), if_neg (by omega), if_neg (by omega), if_neg (by omega),
    if_neg (by omega)]

end Hall

/-- A stack of 128-column pieces along the rows, read at row `R` inside piece `k`'s span `[pre, pre + n)`: the piece at
    row `R - pre` (`ss` the pieces' shapes, `pre` the rows of the pieces before piece `k`). -/
theorem span_apply {α : Type} (xs : List ((s : Shape) × (s.Idx → α)))
    (h : Shape.Concatenates (xs.map (·.1)) ⟨2, ![522240, 128]⟩ (0 : Fin 2))
    (ss : List Shape) (hss : xs.map (·.1) = ss)
    (k : ℕ) (hk : k < xs.length) (n : ℕ) (x₁ : (⟨2, ![n, 128]⟩ : Shape).Idx → α) (hxk : xs[k] = ⟨⟨2, ![n, 128]⟩, x₁⟩)
    (pre : ℕ)
    (hpre : ((ss.take k).map fun s : Shape =>
      if h : s.rank = (⟨2, ![522240, 128]⟩ : Shape).rank then s.size ((0 : Fin 2).cast h.symm) else 0).sum = pre)
    (R : Fin 522240) (c : Fin 128) (h0 : pre ≤ R.val) (h1 : R.val < pre + n) :
    concatenate ⟨2, ![522240, 128]⟩ (0 : Fin 2) xs h (ix2 R c) = x₁ (ix2 ⟨R.val - pre, by omega⟩ c) :=
  concatenate_apply_piece (0 : Fin 2) xs h (ix2 R c) k hk _ x₁ hxk rfl pre
    (by rw [List.map_take, hss]; exact hpre) (ix2 ⟨R.val - pre, by omega⟩ c)
    (fun b hb => by
      match b with
      | ⟨0, _⟩ => exact absurd rfl hb
      | ⟨1, _⟩ => rfl)
    (by show pre + (R.val - pre) = R.val; omega)

/-- The shapes of the eight levels' hidden rows. -/
abbrev levelShapes : List Shape :=
  [S262144x128, S131072x128, S65536x128, S32768x128, S16384x128, S8192x128, S4096x128, S2048x128]

variable (V0 : Valuation τ sig (Elt Ideal))

set_option maxRecDepth 8192 in
set_option maxHeartbeats 2000000 in
/-- The program's result, entry by entry. -/
theorem out_apply (R : Fin 522240) (j : Fin 5) :
    val7 V0 (Proc.devRef .tc main_v323) (ix2 R j) = out (pOf V0) (xOf V0) R.val j.val := by
  refine (congrFun (val7_main_v323 V0) (ix2 R j)).trans ?_
  refine linear_apply (m := 522240) (k := 128) (n := 5) dot_S522240x128_S128x5_S522240x5_1_0_0_1_n_n rfl _
    (V0 (Proc.devRef .tc main_arg8)) (V0 (Proc.devRef .tc main_arg9)) _ _ _ (hall (pOf V0) (xOf V0)) ?_ R j
  intro R c
  by_cases h0 : R.val < 262144
  · rw [hall_0 _ _ _ _ h0]
    refine (span_apply _ _ levelShapes rfl 0 (Nat.lt_of_sub_eq_succ rfl) 262144 _ rfl 0 (by decide) R c (by omega) (by omega)).trans ?_
    exact leaf_h V0 _ c
  by_cases h1 : R.val < 393216
  · rw [hall_1 _ _ _ _ (by omega) h1]
    refine (span_apply _ _ levelShapes rfl 1 (Nat.lt_of_sub_eq_succ rfl) 131072 _ rfl 262144 (by decide) R c (by omega) (by omega)).trans ?_
    exact l1_h V0 _ c
  by_cases h2 : R.val < 458752
  · rw [hall_2 _ _ _ _ (by omega) h2]
    refine (span_apply _ _ levelShapes rfl 2 (Nat.lt_of_sub_eq_succ rfl) 65536 _ rfl 393216 (by decide) R c (by omega) (by omega)).trans ?_
    exact l2_h V0 _ c
  by_cases h3 : R.val < 491520
  · rw [hall_3 _ _ _ _ (by omega) h3]
    refine (span_apply _ _ levelShapes rfl 3 (Nat.lt_of_sub_eq_succ rfl) 32768 _ rfl 458752 (by decide) R c (by omega) (by omega)).trans ?_
    exact l3_h V0 _ c
  by_cases h4 : R.val < 507904
  · rw [hall_4 _ _ _ _ (by omega) h4]
    refine (span_apply _ _ levelShapes rfl 4 (Nat.lt_of_sub_eq_succ rfl) 16384 _ rfl 491520 (by decide) R c (by omega) (by omega)).trans ?_
    exact l4_h V0 _ c
  by_cases h5 : R.val < 516096
  · rw [hall_5 _ _ _ _ (by omega) h5]
    refine (span_apply _ _ levelShapes rfl 5 (Nat.lt_of_sub_eq_succ rfl) 8192 _ rfl 507904 (by decide) R c (by omega) (by omega)).trans ?_
    exact l5_h V0 _ c
  by_cases h6 : R.val < 520192
  · rw [hall_6 _ _ _ _ (by omega) h6]
    refine (span_apply _ _ levelShapes rfl 6 (Nat.lt_of_sub_eq_succ rfl) 4096 _ rfl 516096 (by decide) R c (by omega) (by omega)).trans ?_
    exact l6_h V0 _ c
  rw [hall_7 _ _ _ _ (by omega)]
  refine (span_apply _ _ levelShapes rfl 7 (Nat.lt_of_sub_eq_succ rfl) 2048 _ rfl 520192 (by decide) R c (by omega) (by have := R.isLt; omega)).trans ?_
  refine hN_apply (n := 2048) (res_main_v297 V0) _ (pOf V0) (lvl (pOf V0) (xOf V0) 6).1 (lvl (pOf V0) (xOf V0) 6).2
    (l7_iou V0) ?_ _ _ _ c
  intro r j
  exact cN_apply (n2 := 4096) (n := 2048) rfl dot_S2048x256_S256x256_S2048x256_1_0_0_1_n_n rfl (res_main_v297 V0)
    (res_main_v277 V0) (res_main_v268 V0) (V0 (Proc.devRef .tc main_arg6)) (V0 (Proc.devRef .tc main_arg7)) (pOf V0) rfl rfl
    (lvl (pOf V0) (xOf V0) 6).1 (lvl (pOf V0) (xOf V0) 6).2 (l7_iou V0) (l7_cat V0) (l6_c V0) _ _ _ _ _ _ _ _ _ _ _ r j

/-- On every device, from any memory with zero counters: every weakly fair execution of the reference program terminates
    with the specification's `out` of its arguments in its result, entry by entry, and its arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (R : Fin 522240) (j : Fin 5), r.2.mem ((c.tc : Thread nD τ).loc main_v323) (ix2 R j)
          = Spec.out (params (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9)))
              (rd (X (m ((c.tc : Thread nD τ).loc main_arg0)) (m ((c.tc : Thread nD τ).loc main_arg1)))) R.val j.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c =>
    ⟨fun R j => (congrFun ((h c).1.trans (val7_main_v323 (launchContents m c)).symm) (ix2 R j)).trans
        (out_apply (launchContents m c) R j), (h c).2⟩)
    (Value.run m ρ)

end Cert.ReferenceIdeal.RefValue

end
-- ==== Proof.lean ====
/-
  The certificate of the tree-structured gated recurrence: a per-level sweep of Pallas kernels against its jnp reference.

  Both programs compute, at the ideal instance (floats are extended reals, every operation exact, a change of float format the
  identity), ONE function of the argument arrays (Proof/Spec.lean): the leaves' gates from the gathered embedding rows, then
  seven inner levels, each node combining its two children (consecutive rows of the level below), and the classifier applied
  to every level's hidden rows, stacked level after level. The kernel program does the leaves and each inner level in one
  grid of row blocks and classifies inside each kernel; the reference classifies the stacked hidden rows once. The two agree
  entry by entry: the same sums, products, logistic and tanh, in the same arrangement; the reference's sum over the two
  children starts from zero, which the extended reals absorb. No finiteness of the inputs is used.

  The three frames: the reference's is its generated run with the result dropped; the two kernel programs' frames are the
  run of @main through its eight regions and nine host stretches (Proof/KIRun.lean at the ideal instance, Proof/KRun.lean
  at the word level). The idealization rewrote nothing, so its claim is trivial.
-/
import proofs.«136691_j33638183863177_2_alg».proof.Defs
import proofs.«136691_j33638183863177_2_alg».proof.Proof.Gen.Kernel
import proofs.«136691_j33638183863177_2_alg».proof.Proof.Gen.KernelIdeal
import proofs.«136691_j33638183863177_2_alg».proof.Proof.Gen.ReferenceIdeal
import proofs.«136691_j33638183863177_2_alg».proof.Proof.Gen.Pre_finite_inputs
import proofs.«136691_j33638183863177_2_alg».proof.Proof.Gen.ReferenceIdeal.Run
import proofs.«136691_j33638183863177_2_alg».proof.Proof.KRun
import proofs.«136691_j33638183863177_2_alg».proof.Proof.KIRun
import proofs.«136691_j33638183863177_2_alg».proof.Proof.KIResult
import proofs.«136691_j33638183863177_2_alg».proof.Proof.RefOut
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the specification's result of the same arguments: the kernel program's by the level-by-level chain,
    the reference's by its operations read one at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun i => Cert.Spec.out (Cert.KernelIdeal.HandValue.PP m c) (Cert.KernelIdeal.HandValue.XX m c) (i 0).val (i 1).val, ?_, ?_⟩
  · refine (θ_run Cert.KernelIdeal.defs _ _).mono (fun r h c => ⟨funext fun i => ?_, (h c).2⟩) (Cert.KernelIdeal.HandValue.run_value m ρ)
    obtain ⟨R, j, rfl⟩ : ∃ (R : Fin 522240) (j : Fin 5), i = ix2 R j := ⟨i 0, i 1, eq_ix2 i⟩
    exact (h c).1 R j
  · refine (θ_run Cert.ReferenceIdeal.defs _ _).mono (fun r h c => ⟨funext fun i => ?_, (h c).2⟩) (Cert.ReferenceIdeal.RefValue.run_spec m' ρ')
    obtain ⟨R, j, rfl⟩ : ∃ (R : Fin 522240) (j : Fin 5), i = ix2 R j := ⟨i 0, i 1, eq_ix2 i⟩
    refine ((h c).1 R j).trans ?_
    obtain ⟨e0, e1, e2, e3, e4, e5, e6, e7, e8, e9⟩ := hagree c
    rw [e0, e1, e2, e3, e4, e5, e6, e7, e8, e9]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
